-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096 : Shape := ⟨2, ![1024, 4096]⟩
abbrev S4096x4096 : Shape := ⟨2, ![4096, 4096]⟩
abbrev S1x4096 : Shape := ⟨2, ![1, 4096]⟩
abbrev S4096 : Shape := ⟨1, ![4096]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S1x4096 : S_.BroadcastsInDim S1x4096 (![] : Fin 0 → Fin S1x4096.rank)
  reducesTo_S1x4096_S_d0_1 : S1x4096.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg7 : FVec F S4096 .f32) (main_arg8 : FVec F S4096x4096 .f32) (main_arg9 : FVec F S4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096x4096 .f32 := Host.absf main_arg8
  let main_cst_14 : FVec F S_ .f32 := constant S_ .f32 0x7F800000#32
  let main_v40 : FVec F S4096x4096 .f32 := broadcastInDim S4096x4096 ![] bcast_S_S4096x4096 main_cst_14
  let main_v41 : IVec S4096x4096 1 := cmpf .olt main_v39 main_v40
  let main_c_15 : IVec S_ 1 := constantI S_ 1 1#1
  let main_v42 : IVec S_ 1 := (fun x v => Host.reduce IntOp.andi x v reducesTo_S4096x4096_S_d0_1 h_S_) main_v41 main_c_15
  let main_v43 : IVec S_ 1 := andi main_v38 main_v42
  let main_v44 : FVec F S4096 .f32 := Host.absf main_arg9
  let main_cst_16 : FVec F S_ .f32 := constant S_ .f32 0x7F800000#32
  let main_v45 : FVec F S4096 .f32 := broadcastInDim S4096 ![] bcast_S_S4096 main_cst_16
  let main_v46 : IVec S4096 1 := cmpf .olt main_v44 main_v45
  let main_c_17 : IVec S_ 1 := constantI S_ 1 1#1
  let main_v47 : IVec S_ 1 := (fun x v => Host.reduce IntOp.andi x v reducesTo_S4096_S_d0 h_S_) main_v46 main_c_17
  let main_v48 : IVec S_ 1 := andi main_v43 main_v47
  main_v48

def fn_part1 {F : FTy → Type} [FloatOps F] (main_arg4 : FVec F S1x4096 .f32) (main_arg5 : FVec F S1x4096 .f32) (main_arg6 : FVec F S4096x4096 .f32) (main_arg7 : FVec F S4096 .f32) (main_arg8 : FVec F S4096x4096 .f32) (main_arg9 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S1x4096 .f32 := Host.absf main_arg4
  let main_cst_6 : FVec F S_ .f32 := constant S_ .f32 0x7F800000#32
  let main_v20 : FVec F S1x4096 .f32 := broadcastInDim S1x4096 ![] bcast_S_S1x4096 main_cst_6
  let main_v21 : IVec S1x4096 1 := cmpf .olt main_v19 main_v20
  let main_c_7 : IVec S_ 1 := constantI S_ 1 1#1
  let main_v22 : IVec S_ 1 := (fun x v => Host.reduce IntOp.andi x v reducesTo_S1x4096_S_d0_1 h_S_) main_v21 main_c_7
  let main_v23 : IVec S_ 1 := andi main_v18 main_v22
  let main_v24 : FVec F S1x4096 .f32 := Host.absf main_arg5
  let main_cst_8 : FVec F S_ .f32 := constant S_ .f32 0x7F800000#32
  let main_v25 : FVec F S1x4096 .f32 := broadcastInDim S1x4096 ![] bcast_S_S1x4096 main_cst_8
  let main_v26 : IVec S1x4096 1 := cmpf .olt main_v24 main_v25
  let main_c_9 : IVec S_ 1 := constantI S_ 1 1#1
  let main_v27 : IVec S_ 1 := (fun x v => Host.reduce IntOp.andi x v reducesTo_S1x4096_S_d0_1 h_S_) main_v26 main_c_9
  let main_v28 : IVec S_ 1 := andi main_v23 main_v27
  let main_v29 : FVec F S4096x4096 .f32 := Host.absf main_arg6
  let main_cst_10 : FVec F S_ .f32 := constant S_ .f32 0x7F800000#32
  let main_v30 : FVec F S4096x4096 .f32 := broadcastInDim S4096x4096 ![] bcast_S_S4096x4096 main_cst_10
  let main_v31 : IVec S4096x4096 1 := cmpf .olt main_v29 main_v30
  let main_c_11 : IVec S_ 1 := constantI S_ 1 1#1
  let main_v32 : IVec S_ 1 := (fun x v => Host.reduce IntOp.andi x v reducesTo_S4096x4096_S_d0_1 h_S_) main_v31 main_c_11
  let main_v33 : IVec S_ 1 := andi main_v28 main_v32
  fn_part2 (F := F) main_arg7 main_arg8 main_arg9 main_v33

def fn {F : FTy → Type} [FloatOps F] (main_arg0 : FVec F S1024x4096 .f32) (main_arg1 : FVec F S1024x4096 .f32) (main_arg2 : FVec F S4096x4096 .f32) (main_arg3 : FVec F S4096x4096 .f32) (main_arg4 : FVec F S1x4096 .f32) (main_arg5 : FVec F S1x4096 .f32) (main_arg6 : FVec F S4096x4096 .f32) (main_arg7 : FVec F S4096 .f32) (main_arg8 : FVec F S4096x4096 .f32) (main_arg9 : FVec F S4096 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_arg9 main_v13 main_v16
-- ==== Kernel.lean ====
abbrev S1024x4096 : Shape := ⟨2, ![1024, 4096]⟩
abbrev S4096x4096 : Shape := ⟨2, ![4096, 4096]⟩
abbrev S1x4096 : Shape := ⟨2, ![1, 4096]⟩
abbrev S4096 : Shape := ⟨1, ![4096]⟩
abbrev S1024x1024 : Shape := ⟨2, ![1024, 1024]⟩
abbrev S512x1024 : Shape := ⟨2, ![512, 1024]⟩
abbrev S1024x512 : Shape := ⟨2, ![1024, 512]⟩
abbrev S1x512 : Shape := ⟨2, ![1, 512]⟩

abbrev nBuf : Space → Nat
  | .hbm => 22
  | .vmem => 42
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S4096x4096, .f32⟩
  | .hbm, ⟨3, _⟩ => ⟨S4096x4096, .f32⟩
  | .hbm, ⟨4, _⟩ => ⟨S1x4096, .f32⟩
  | .hbm, ⟨5, _⟩ => ⟨S1x4096, .f32⟩
  | .hbm, ⟨6, _⟩ => ⟨S4096x4096, .f32⟩
  | .hbm, ⟨7, _⟩ => ⟨S4096, .f32⟩
  | .hbm, ⟨8, _⟩ => ⟨S4096x4096, .f32⟩
  | .hbm, ⟨9, _⟩ => ⟨S4096, .f32⟩
  | .hbm, ⟨10, _⟩ => ⟨S1024x4096, .bf16⟩
  | .hbm, ⟨11, _⟩ => ⟨S1024x4096, .bf16⟩
  | .hbm, ⟨12, _⟩ => ⟨S4096x4096, .bf16⟩
  | .hbm, ⟨13, _⟩ => ⟨S4096x4096, .bf16⟩
  | .hbm, ⟨14, _⟩ => ⟨S4096x4096, .bf16⟩
  | .hbm, ⟨15, _⟩ => ⟨S4096x4096, .bf16⟩
  | .hbm, ⟨16, _⟩ => ⟨S1x4096, .f32⟩
  | .hbm, ⟨17, _⟩ => ⟨S1x4096, .f32⟩
  | .hbm, ⟨18, _⟩ => ⟨S1024x4096, .bf16⟩
  | .hbm, ⟨19, _⟩ => ⟨S1024x4096, .bf16⟩
  | .hbm, ⟨20, _⟩ => ⟨S1024x4096, .f32⟩
  | .hbm, ⟨21, _⟩ => ⟨S1024x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .f32⟩
  | .local _ .vmem, ⟨21, _⟩ => ⟨S1024x512, .f32⟩
  | .local _ .vmem, ⟨22, _⟩ => ⟨S1024x512, .f32⟩
  | .local _ .vmem, ⟨23, _⟩ => ⟨S1024x512, .f32⟩
  | .local _ .vmem, ⟨24, _⟩ => ⟨S1024x1024, .bf16⟩
  | .local _ .vmem, ⟨25, _⟩ => ⟨S1024x1024, .bf16⟩
  | .local _ .vmem, ⟨26, _⟩ => ⟨S1024x1024, .bf16⟩
  | .local _ .vmem, ⟨27, _⟩ => ⟨S1024x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S1x512, .f32⟩
  | .local _ .vmem, ⟨33, _⟩ => ⟨S1x512, .f32⟩
  | .local _ .vmem, ⟨34, _⟩ => ⟨S1x512, .f32⟩
  | .local _ .vmem, ⟨35, _⟩ => ⟨S1x512, .f32⟩
  | .local _ .vmem, ⟨36, _⟩ => ⟨S1024x512, .f32⟩
  | .local _ .vmem, ⟨37, _⟩ => ⟨S1024x512, .f32⟩
  | .local _ .vmem, ⟨38, _⟩ => ⟨S1024x512, .f32⟩
  | .local _ .vmem, ⟨39, _⟩ => ⟨S1024x512, .f32⟩
  | .local _ .vmem, ⟨40, _⟩ => ⟨S1024x512, .f32⟩
  | .local _ .vmem, ⟨41, _⟩ => ⟨S1024x512, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v9_0 : Ref sig .tc := ⟨.hbm, 20, rfl⟩
abbrev main_v9_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc1_stg0_0 : Ref sig .tc := ⟨.vmem, 24, rfl⟩
abbrev cc1_stg0_1 : Ref sig .tc := ⟨.vmem, 25, rfl⟩
abbrev cc1_stg1_0 : Ref sig .tc := ⟨.vmem, 26, rfl⟩
abbrev cc1_stg1_1 : Ref sig .tc := ⟨.vmem, 27, rfl⟩
abbrev cc1_stg2_0 : Ref sig .tc := ⟨.vmem, 28, rfl⟩
abbrev cc1_stg2_1 : Ref sig .tc := ⟨.vmem, 29, rfl⟩
abbrev cc1_stg3_0 : Ref sig .tc := ⟨.vmem, 30, rfl⟩
abbrev cc1_stg3_1 : Ref sig .tc := ⟨.vmem, 31, rfl⟩
abbrev cc1_stg4_0 : Ref sig .tc := ⟨.vmem, 32, rfl⟩
abbrev cc1_stg4_1 : Ref sig .tc := ⟨.vmem, 33, rfl⟩
abbrev cc1_stg5_0 : Ref sig .tc := ⟨.vmem, 34, rfl⟩
abbrev cc1_stg5_1 : Ref sig .tc := ⟨.vmem, 35, rfl⟩
abbrev cc1_stg6_0 : Ref sig .tc := ⟨.vmem, 36, rfl⟩
abbrev cc1_stg6_1 : Ref sig .tc := ⟨.vmem, 37, rfl⟩
abbrev cc1_stg7_0 : Ref sig .tc := ⟨.vmem, 38, rfl⟩
abbrev cc1_stg7_1 : Ref sig .tc := ⟨.vmem, 39, rfl⟩
abbrev cc1_scratch0 : Ref sig .tc := ⟨.vmem, 40, rfl⟩
abbrev cc1_scratch1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc1_sem4_0 : DmaSem sig := 28
abbrev cc1_sem4_1 : DmaSem sig := 29
abbrev cc1_sem5_0 : DmaSem sig := 30
abbrev cc1_sem5_1 : DmaSem sig := 31
abbrev cc1_sem6_0 : DmaSem sig := 32
abbrev cc1_sem6_1 : DmaSem sig := 33
abbrev cc1_sem7_0 : DmaSem sig := 34
abbrev cc1_sem7_1 : DmaSem sig := 35

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v35 : BitVec 1 := Scalar.cmpi .eq arg1 c3_i32
  let v36 : BitVec 32 := Scalar.extui v35
  let c0_i32_27 : BitVec 32 := 0#32
  let v37 : BitVec 1 := Scalar.cmpi .ne v36 c0_i32_27
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v23 : BitVec 1 := Scalar.cmpi .eq arg1 c3_i32
  let v24 : BitVec 32 := Scalar.extui v23
  let c0_i32_17 : BitVec 32 := 0#32
  let v25 : BitVec 1 := Scalar.cmpi .ne v24 c0_i32_17
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1024x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1024x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  bitsLt_bf16_f32 : FTy.bits .bf16 < FTy.bits .f32
  shapeCasts_S4096_S1x4096 : S4096.ShapeCasts S1x4096
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512_S1x512_0_0 : ∀ a, (![0, 0] : Fin 2 → Nat) a + S1x512.size a ≤ S1x512.size a
  h_S1x512 : 0 < S1x512.numel
  broadcasts_S1x512_S1024x512 : S1x512.Broadcasts S1024x512
  packedbf16_S1024x512_S1024x512_0_0 : (Rect.unit (s := S1024x512) ![0, 0] S1024x512.size inb_S1024x512_S1024x512_0_0).PackedRows (EltTy.packing .bf16)
  shapeCasts_S1x512_S1x512 : S1x512.ShapeCasts S1x512
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x4096.size a
  hwx0_0 : ∀ i : grid0.Coords, EltTy.bits .bf16 = 32 ∨ (Rect.block (s := S1024x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x4096.size a
  hwx0_1 : ∀ i : grid0.Coords, EltTy.bits .bf16 = 32 ∨ (Rect.block (s := S1024x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x4096.size a
  hwx0_2 : ∀ i : grid0.Coords, EltTy.bits .bf16 = 32 ∨ (Rect.block (s := S4096x4096) S512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x4096.size a
  hwx0_3 : ∀ i : grid0.Coords, EltTy.bits .bf16 = 32 ∨ (Rect.block (s := S4096x4096) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S1024x4096.size a
  hwx0_4 : ∀ i : grid0.Coords, EltTy.bits .f32 = 32 ∨ (Rect.block (s := S1024x4096) S1024x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S1024x4096.size a
  hwx0_5 : ∀ i : grid0.Coords, EltTy.bits .f32 = 32 ∨ (Rect.block (s := S1024x4096) S1024x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x4096.size a
  hwx0_6 : ∀ i : grid0.Coords, EltTy.bits .f32 = 32 ∨ (Rect.block (s := S1x4096) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x4096.size a
  hwx0_7 : ∀ i : grid0.Coords, EltTy.bits .f32 = 32 ∨ (Rect.block (s := S1x4096) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x512.size a ≤ S1024x4096.size a
  hwx0_8 : ∀ i : grid0.Coords, EltTy.bits .bf16 = 32 ∨ (Rect.block (s := S1024x4096) S1024x512.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x512.size a ≤ S1024x4096.size a
  hwx0_9 : ∀ i : grid0.Coords, EltTy.bits .bf16 = 32 ∨ (Rect.block (s := S1024x4096) S1024x512.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S1024x4096.size a
  hwx1_0 : ∀ i : grid1.Coords, EltTy.bits .bf16 = 32 ∨ (Rect.block (s := S1024x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x4096.size a
  hwx1_1 : ∀ i : grid1.Coords, EltTy.bits .bf16 = 32 ∨ (Rect.block (s := S1024x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S4096x4096.size a
  hwx1_2 : ∀ i : grid1.Coords, EltTy.bits .bf16 = 32 ∨ (Rect.block (s := S4096x4096) S512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S4096x4096.size a
  hwx1_3 : ∀ i : grid1.Coords, EltTy.bits .bf16 = 32 ∨ (Rect.block (s := S4096x4096) S512x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x4096.size a
  hwx1_4 : ∀ i : grid1.Coords, EltTy.bits .f32 = 32 ∨ (Rect.block (s := S1x4096) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x4096.size a
  hwx1_5 : ∀ i : grid1.Coords, EltTy.bits .f32 = 32 ∨ (Rect.block (s := S1x4096) S1x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x512.size a ≤ S1024x4096.size a
  hwx1_6 : ∀ i : grid1.Coords, EltTy.bits .f32 = 32 ∨ (Rect.block (s := S1024x4096) S1024x512.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x512.size a ≤ S1024x4096.size a
  hwx1_7 : ∀ i : grid1.Coords, EltTy.bits .f32 = 32 ∨ (Rect.block (s := S1024x4096) S1024x512.size (cc1_transform_7 i) (hinb1_7 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S1024x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S1024x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S1x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8_0) S1024x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v8_1) S1024x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | 9 => fun i => !(k0_cond2 i == 1#1) | ⟨_ + 10, h⟩ => absurd h (Nat.not_lt.2 (Nat.le_add_left _ _))

abbrev win1_0 : Pipeline.Window sig grid1 :=
  Pipeline.Window.ofSpec (Memref.whole main_v8_0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8_1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S512x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1x512.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v9_0) S1024x512.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v9_1) S1024x512.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun i => !(k1_cond2 i == 1#1) | 7 => fun i => !(k1_cond2 i == 1#1) | ⟨_ + 8, h⟩ => absurd h (Nat.not_lt.2 (Nat.le_add_left _ _))

class Facts : Prop extends Facts₀ where

variable [Facts]
-- ==== ReferenceIdeal.lean ====
abbrev S1024x4096 : Shape := ⟨2, ![1024, 4096]⟩
abbrev S4096x4096 : Shape := ⟨2, ![4096, 4096]⟩
abbrev S1x4096 : Shape := ⟨2, ![1, 4096]⟩
abbrev S4096 : Shape := ⟨1, ![4096]⟩

abbrev nBuf : Space → Nat
  | .hbm => 46
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S4096x4096, .f32⟩
  | .hbm, ⟨3, _⟩ => ⟨S4096x4096, .f32⟩
  | .hbm, ⟨4, _⟩ => ⟨S1x4096, .f32⟩
  | .hbm, ⟨5, _⟩ => ⟨S1x4096, .f32⟩
  | .hbm, ⟨6, _⟩ => ⟨S4096x4096, .f32⟩
  | .hbm, ⟨7, _⟩ => ⟨S4096, .f32⟩
  | .hbm, ⟨8, _⟩ => ⟨S4096x4096, .f32⟩
  | .hbm, ⟨9, _⟩ => ⟨S4096, .f32⟩
  | .hbm, ⟨10, _⟩ => ⟨S4096x4096, .f32⟩
  | .hbm, ⟨11, _⟩ => ⟨S1024x4096, .f32⟩
  | .hbm, ⟨12, _⟩ => ⟨S4096x4096, .f32⟩
  | .hbm, ⟨13, _⟩ => ⟨S1024x4096, .f32⟩
  | .hbm, ⟨14, _⟩ => ⟨S4096x4096, .f32⟩
  | .hbm, ⟨15, _⟩ => ⟨S1024x4096, .f32⟩
  | .hbm, ⟨16, _⟩ => ⟨S4096x4096, .f32⟩
  | .hbm, ⟨17, _⟩ => ⟨S1024x4096, .f32⟩
  | .hbm, ⟨18, _⟩ => ⟨S1024x4096, .f32⟩
  | .hbm, ⟨19, _⟩ => ⟨S1024x4096, .f32⟩
  | .hbm, ⟨20, _⟩ => ⟨S1024x4096, .f32⟩
  | .hbm, ⟨21, _⟩ => ⟨S1024x4096, .f32⟩
  | .hbm, ⟨22, _⟩ => ⟨S1024x4096, .f32⟩
  | .hbm, ⟨23, _⟩ => ⟨S1024x4096, .f32⟩
  | .hbm, ⟨24, _⟩ => ⟨S1024x4096, .f32⟩
  | .hbm, ⟨25, _⟩ => ⟨S1024x4096, .f32⟩
  | .hbm, ⟨26, _⟩ => ⟨S1024x4096, .f32⟩
  | .hbm, ⟨27, _⟩ => ⟨S1024x4096, .f32⟩
  | .hbm, ⟨28, _⟩ => ⟨S1024x4096, .f32⟩
  | .hbm, ⟨29, _⟩ => ⟨S1024x4096, .f32⟩
  | .hbm, ⟨30, _⟩ => ⟨S1024x4096, .f32⟩
  | .hbm, ⟨31, _⟩ => ⟨S1024x4096, .f32⟩
  | .hbm, ⟨32, _⟩ => ⟨S1024x4096, .f32⟩
  | .hbm, ⟨33, _⟩ => ⟨S1024x4096, .f32⟩
  | .hbm, ⟨34, _⟩ => ⟨S1024x4096, .f32⟩
  | .hbm, ⟨35, _⟩ => ⟨S1024x4096, .f32⟩
  | .hbm, ⟨36, _⟩ => ⟨S4096x4096, .f32⟩
  | .hbm, ⟨37, _⟩ => ⟨S1024x4096, .f32⟩
  | .hbm, ⟨38, _⟩ => ⟨S1x4096, .f32⟩
  | .hbm, ⟨39, _⟩ => ⟨S1024x4096, .f32⟩
  | .hbm, ⟨40, _⟩ => ⟨S1024x4096, .f32⟩
  | .hbm, ⟨41, _⟩ => ⟨S4096x4096, .f32⟩
  | .hbm, ⟨42, _⟩ => ⟨S1024x4096, .f32⟩
  | .hbm, ⟨43, _⟩ => ⟨S1x4096, .f32⟩
  | .hbm, ⟨44, _⟩ => ⟨S1024x4096, .f32⟩
  | .hbm, ⟨45, _⟩ => ⟨S1024x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S1x4096_S1024x4096_0_1 : S1x4096.BroadcastsInDim S1024x4096 (![0, 1] : Fin 2 → Fin S1024x4096.rank)
  bcast_S4096_S1x4096_1 : S4096.BroadcastsInDim S1x4096 (![1] : Fin 1 → Fin S1x4096.rank)
  dot_S1024x4096_S4096x4096_S1024x4096_1_0_0_1_n_n_wf : DotDims.WF S1024x4096 S4096x4096 S1024x4096 [1] [0] [0] [1] [] []

variable [Facts₀]

def dot_S1024x4096_S4096x4096_S1024x4096_1_0_0_1_n_n : DotDims S1024x4096 S4096x4096 S1024x4096 where
  lhsContracting := [1]
  rhsContracting := [0]
  lhsNonContracting := [0]
  rhsNonContracting := [1]
  lhsBatch := []
  rhsBatch := []
  wf := dot_S1024x4096_S4096x4096_S1024x4096_1_0_0_1_n_n_wf

class Facts : Prop extends Facts₀ where

variable [Facts]
-- ==== Proof.K.Stage1Shared.lean ====
/-
  The first pallas_call (the two bilinear combinations), grid 8 x 4: point t = 4 n + k works on output columns
  512 n .. 512 n + 511 and on the k-th block of 1024 contracted columns. What every case of its body shares: the two
  conditions of the body decided over the grid (k = 0: the four accumulators are zeroed first; k = 3: the combinations
  are formed and both outputs written), where the pipeline leaves the two output windows alone (every point with k < 3),
  the staging memrefs the body is called on, the four accumulators, each window's block read off its array, and the
  region's invariant before the first point with the four accumulators named.
-/
import proofs.«127443_j14396730376920_2_alg».proof.Proof.Gen.Kernel.Launch
import proofs.«127443_j14396730376920_2_alg».proof.Proof.Gen.Kernel.Skeleton
import proofs.«127443_j14396730376920_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Stage1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions -/

/-- The reduction coordinate k is 0: the body zeroes the four accumulators before it adds to them. -/
abbrev atK0 (i : grid0.Coords) : Prop :=
  (Scalar.cmpi .ne (Scalar.extui (Scalar.cmpi .eq (BitVec.ofNat 32 (i 1).val) 0#32)) 0#32) = 1#1
theorem atK0_iff : ∀ t : Fin cfg0.N, atK0 (grid0.coords t) ↔ t.val % 4 = 0 :=
  (by decide +kernel : ∀ t : Fin grid0.N, atK0 (grid0.coords t) ↔ t.val % 4 = 0)
/-- The reduction coordinate k is 3, the last: the body forms both combinations and stores both outputs. -/
abbrev atK3 (i : grid0.Coords) : Prop := k0_cond2 i = 1#1
theorem atK3_iff : ∀ t : Fin cfg0.N, atK3 (grid0.coords t) ↔ t.val % 4 = 3 :=
  (by decide +kernel : ∀ t : Fin grid0.N, atK3 (grid0.coords t) ↔ t.val % 4 = 3)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
/-- Before the last reduction step the body stores nothing into output window 8: it is idle there and its block is not written back; at the last step it is live. -/
theorem idle8 : ∀ t : Fin cfg0.N, ¬atK3 (grid0.coords t) → cfg0.idle 8 (grid0.coords t) = true := by decide +kernel
theorem noFlush8 : ∀ t : Fin cfg0.N, ¬atK3 (grid0.coords t) → (cfg0.win 8).flush t = false := by decide +kernel
theorem live8 : ∀ t : Fin cfg0.N, atK3 (grid0.coords t) → cfg0.idle 8 (grid0.coords t) = false := by decide +kernel
/-- Before the last reduction step the body stores nothing into output window 9: it is idle there and its block is not written back; at the last step it is live. -/
theorem idle9 : ∀ t : Fin cfg0.N, ¬atK3 (grid0.coords t) → cfg0.idle 9 (grid0.coords t) = true := by decide +kernel
theorem noFlush9 : ∀ t : Fin cfg0.N, ¬atK3 (grid0.coords t) → (cfg0.win 9).flush t = false := by decide +kernel
theorem live9 : ∀ t : Fin cfg0.N, atK3 (grid0.coords t) → cfg0.idle 9 (grid0.coords t) = false := by decide +kernel

/-! ## The memrefs the body is called on -/

abbrev ms0 (t : Fin cfg0.N) : Memref sig .tc .vmem S1024x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x512 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1024x512 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S1024x512 .bf16 := win0_9.stage (cfg0.slots t 9)
abbrev hs9 (t : Fin cfg0.N) : (ms9 t).IsWhole := hstage0_9 ((cfg0.slots t 9).cast nbuf0_9)

/-- The four accumulators (of u against G, w against G, u against B, w against B): whole scoped buffers of the kernel's own. -/
abbrev acc0 : Memref sig .tc .vmem S1024x512 .f32 := Memref.whole cc0_scratch0
abbrev vacc0 : View sig .tc .vmem S1024x512 .f32 := acc0.view
abbrev acc1 : Memref sig .tc .vmem S1024x512 .f32 := Memref.whole cc0_scratch1
abbrev vacc1 : View sig .tc .vmem S1024x512 .f32 := acc1.view
abbrev acc2 : Memref sig .tc .vmem S1024x512 .f32 := Memref.whole cc0_scratch2
abbrev vacc2 : View sig .tc .vmem S1024x512 .f32 := acc2.view
abbrev acc3 : Memref sig .tc .vmem S1024x512 .f32 := Memref.whole cc0_scratch3
abbrev vacc3 : View sig .tc .vmem S1024x512 .f32 := acc3.view
/-- The views through which what the two outputs hold is stated. -/
abbrev viewO8 : View sig .tc .vmem S1024x512 .bf16 := (Memref.whole cc0_stg8_0 : Memref sig .tc .vmem S1024x512 .bf16).view
abbrev viewO9 : View sig .tc .vmem S1024x512 .bf16 := (Memref.whole cc0_stg9_0 : Memref sig .tc .vmem S1024x512 .bf16).view

/-! ## The region's invariant before the first point, with the accumulators named -/

/-- The scoped buffers that are no staging buffer of this call, split at its four accumulators. -/
theorem scopedRest_split (c : Dev nD) :
    (Pipeline.scopedRest (Ix := Unit) (Name := ℕ) (U := UR sig nD τ) (Lvl := ℕ) (Val := Elt F) spec0 c : sProp 𝕄)
      = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f))
          ∗ Pipeline.scopedRestBut (Ix := Unit) (Name := ℕ) (U := UR sig nD τ) (Lvl := ℕ) (Val := Elt F) spec0 c [cc0_scratch0, cc0_scratch1, cc0_scratch2, cc0_scratch3]) :=
  Pipeline.scopedRest_split_of_list spec0 c [cc0_scratch0, cc0_scratch1, cc0_scratch2, cc0_scratch3] (by decide) (by decide)

theorem PhiA_eq (c : Dev nD) :
    (Pipeline.ΦA spec0 c : sProp 𝕄)
      = iprop(iprop(iprop((∃ d, owns (c : Thread nD τ) acc0 fullShare d) ∗ (∃ d, owns (c : Thread nD τ) acc1 fullShare d) ∗ (∃ d, owns (c : Thread nD τ) acc2 fullShare d) ∗ (∃ d, owns (c : Thread nD τ) acc3 fullShare d))
          ∗ Pipeline.scopedRestBut (Ix := Unit) (Name := ℕ) (U := UR sig nD τ) (Lvl := ℕ) (Val := Elt F) spec0 c [cc0_scratch0, cc0_scratch1, cc0_scratch2, cc0_scratch3])
          ∗ (∃ r, prngReg c r)) := by
  unfold Pipeline.ΦA; rw [scopedRest_split]; simp only [acc0, acc1, acc2, acc3, owns_whole]; try rfl

/-! ## The windows' blocks, at the contents the region is entered with -/

variable (V : (c : Dev nD) → (b : Ref sig .tc) → Buf (Elt F) ((c : Thread nD τ).loc b))

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0 {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's current staging buffer holds its block at every point, fetched there or not. -/
theorem before1 {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's current staging buffer holds its block at every point, fetched there or not. -/
theorem before2 {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3's current staging buffer holds its block at every point, fetched there or not. -/
theorem before3 {c : Dev nD} (dat : Dat τ (Elt F) Unit ℕ (UR sig nD τ) ℕ cfg0 c) (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- Input window 4's current staging buffer holds its block at every point, fetched there or not. -/
theorem before4 {c : Dev nD} (dat : Dat τ (Elt F) Unit ℕ (UR sig nD τ) ℕ cfg0 c) (hA : dat.A 4 = V c (Pipeline.arrRef spec0 4))
    (hafter : ∀ t, dat.after 4 t = blk V c 4 t) (t : Fin cfg0.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- Input window 5's current staging buffer holds its block at every point, fetched there or not. -/
theorem before5 {c : Dev nD} (dat : Dat τ (Elt F) Unit ℕ (UR sig nD τ) ℕ cfg0 c) (hA : dat.A 5 = V c (Pipeline.arrRef spec0 5))
    (hafter : ∀ t, dat.after 5 t = blk V c 5 t) (t : Fin cfg0.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-- Input window 6's current staging buffer holds its block at every point, fetched there or not. -/
theorem before6 {c : Dev nD} (dat : Dat τ (Elt F) Unit ℕ (UR sig nD τ) ℕ cfg0 c) (hA : dat.A 6 = V c (Pipeline.arrRef spec0 6))
    (hafter : ∀ t, dat.after 6 t = blk V c 6 t) (t : Fin cfg0.N) (d) : dat.before 6 t d = blk V c 6 t :=
  (dat.before_in_eq_fetched 6 rfl (fun _ => rfl) (fun _ _ _ => rfl) (fun t => by rw [hafter]; unfold Dat.blockOf blk; rw [hA]; try rfl) t d).trans
    (by unfold Dat.fetched Dat.blockOf blk; rw [hA]; try rfl)

/-- Input window 7's current staging buffer holds its block at every point, fetched there or not. -/
theorem before7 {c : Dev nD} (dat : Dat τ (Elt F) Unit ℕ (UR sig nD τ) ℕ cfg0 c) (hA : dat.A 7 = V c (Pipeline.arrRef spec0 7))
    (hafter : ∀ t, dat.after 7 t = blk V c 7 t) (t : Fin cfg0.N) (d) : dat.before 7 t d = blk V c 7 t :=
  (dat.before_in_eq_fetched 7 rfl (fun _ => rfl) (fun _ _ _ => rfl) (fun t => by rw [hafter]; unfold Dat.blockOf blk; rw [hA]; try rfl) t d).trans
    (by unfold Dat.fetched Dat.blockOf blk; rw [hA]; try rfl)

end Cert.Kernel.Stage1

end
-- ==== Proof.K.Stage1RunMid.lean ====
/-
  The body of the first pallas_call run whole at a point with k = 1, 2 (one more block added to each accumulator): on whole staging memrefs —
  the four inputs the case reads at their contents, the accumulators at what the point before left — it runs to the continuation holding those inputs
  as they were and each accumulator with the pieces its stores wrote (last first). The body touches neither the other four inputs nor the
  two outputs at such a point, so they are no part of the statement: whoever applies it keeps them as they are;
  each piece list records, latest store first, which rectangle of the buffer a store wrote and what it wrote there.
-/
import proofs.«127443_j14396730376920_2_alg».proof.Proof.K.Stage1Shared

set_option maxRecDepth 16384

noncomputable section

namespace Cert.Kernel.Stage1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def runMid (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x512 .f32) (harg14 : arg14.IsWhole) (arg15 : Memref sig .tc .vmem S1024x512 .f32) (harg15 : arg15.IsWhole) (hk0 : ¬atK0 i) (hk3 : ¬atK3 i)
    (x0 : Vec F S1024x1024 .bf16) (x1 : Vec F S1024x1024 .bf16) (x2 : Vec F S512x1024 .bf16) (x3 : Vec F S512x1024 .bf16) (sA0 sA1 sA2 sA3 : Vec F S1024x512 .f32) :
    Σ' (LA0 : List (View.Piece (Elt F) S1024x512 .f32)) (LA1 : List (View.Piece (Elt F) S1024x512 .f32)) (LA2 : List (View.Piece (Elt F) S1024x512 .f32)), { LA3 : List (View.Piece (Elt F) S1024x512 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg12 fullShare sA0
            ∗ owns (c : Thread nD τ) arg13 fullShare sA1
            ∗ owns (c : Thread nD τ) arg14 fullShare sA2
            ∗ owns (c : Thread nD τ) arg15 fullShare sA3
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ (∃ f, arg12.view.loc (c : Thread nD τ) ↦[arg12.view.set]{fullShare} arg12.view.writes (Elt F) f LA0)
                ∗ (∃ f, arg13.view.loc (c : Thread nD τ) ↦[arg13.view.set]{fullShare} arg13.view.writes (Elt F) f LA1)
                ∗ (∃ f, arg14.view.loc (c : Thread nD τ) ↦[arg14.view.set]{fullShare} arg14.view.writes (Elt F) f LA2)
                ∗ (∃ f, arg15.view.loc (c : Thread nD τ) ↦[arg15.view.set]{fullShare} arg15.view.writes (Elt F) f LA3)) -∗ K ⟨⟩))
          ⊢ wp frame (wpE (defs₀ (F := F)) Variants.none c none) E (cc0__stage1_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc0__stage1_kernel_eq_skeleton]; unfold cc0__stage1_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg12.eq_unread hfs0; obtain rfl := harg13.eq_unread hfs1; obtain rfl := harg14.eq_unread hfs2; obtain rfl := harg15.eq_unread hfs3
    sl_exec (disch := first | exact hk0 | exact hk3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    isplitl [HS2]; · iexists _; iexact HS2
    iexists _; iexact HS3

end Cert.Kernel.Stage1

end
-- ==== Proof.K.Stage1RunFirst.lean ====
/-
  The body of the first pallas_call run whole at a point with k = 0 (the four accumulators zeroed, then the first block added to each): on whole staging memrefs —
  the four inputs the case reads at their contents, the accumulators at anything — it runs to the continuation holding those inputs
  as they were and each accumulator with the pieces its stores wrote (last first). The body touches neither the other four inputs nor the
  two outputs at such a point, so they are no part of the statement: whoever applies it keeps them as they are;
  each piece list records, latest store first, which rectangle of the buffer a store wrote and what it wrote there.
-/
import proofs.«127443_j14396730376920_2_alg».proof.Proof.K.Stage1RunMid

set_option maxRecDepth 16384

noncomputable section

namespace Cert.Kernel.Stage1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def runFirst (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x512 .f32) (harg14 : arg14.IsWhole) (arg15 : Memref sig .tc .vmem S1024x512 .f32) (harg15 : arg15.IsWhole) (hk0 : atK0 i) (hk3 : ¬atK3 i)
    (x0 : Vec F S1024x1024 .bf16) (x1 : Vec F S1024x1024 .bf16) (x2 : Vec F S512x1024 .bf16) (x3 : Vec F S512x1024 .bf16) :
    Σ' (LA0 : List (View.Piece (Elt F) S1024x512 .f32)) (LA1 : List (View.Piece (Elt F) S1024x512 .f32)) (LA2 : List (View.Piece (Elt F) S1024x512 .f32)), { LA3 : List (View.Piece (Elt F) S1024x512 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ (∃ d, owns (c : Thread nD τ) arg12 fullShare d)
            ∗ (∃ d, owns (c : Thread nD τ) arg13 fullShare d)
            ∗ (∃ d, owns (c : Thread nD τ) arg14 fullShare d)
            ∗ (∃ d, owns (c : Thread nD τ) arg15 fullShare d)
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ (∃ f, arg12.view.loc (c : Thread nD τ) ↦[arg12.view.set]{fullShare} arg12.view.writes (Elt F) f LA0)
                ∗ (∃ f, arg13.view.loc (c : Thread nD τ) ↦[arg13.view.set]{fullShare} arg13.view.writes (Elt F) f LA1)
                ∗ (∃ f, arg14.view.loc (c : Thread nD τ) ↦[arg14.view.set]{fullShare} arg14.view.writes (Elt F) f LA2)
                ∗ (∃ f, arg15.view.loc (c : Thread nD τ) ↦[arg15.view.set]{fullShare} arg15.view.writes (Elt F) f LA3)) -∗ K ⟨⟩))
          ⊢ wp frame (wpE (defs₀ (F := F)) Variants.none c none) E (cc0__stage1_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc0__stage1_kernel_eq_skeleton]; unfold cc0__stage1_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3
    sl_exec (disch := first | exact hk0 | exact hk3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    isplitl [HS2]; · iexists _; iexact HS2
    iexists _; iexact HS3

end Cert.Kernel.Stage1

end
-- ==== Proof.K.Stage1RunLast.lean ====
/-
  The body of the first pallas_call run whole at a point with k = 3 (the last block added to each accumulator, then both combinations formed and stored): on whole staging memrefs —
  the eight inputs at their contents, the two outputs at anything, the accumulators at what the point before left — it runs to the
  continuation holding the inputs as they were and each output and accumulator with the pieces its stores wrote (last first);
  each piece list records, latest store first, which rectangle of the buffer a store wrote and what it wrote there.
-/
import proofs.«127443_j14396730376920_2_alg».proof.Proof.K.Stage1RunFirst

set_option maxRecDepth 16384

noncomputable section

namespace Cert.Kernel.Stage1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def runLast (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x512 .f32) (harg14 : arg14.IsWhole) (arg15 : Memref sig .tc .vmem S1024x512 .f32) (harg15 : arg15.IsWhole) (hk0 : ¬atK0 i) (hk3 : atK3 i)
    (x0 : Vec F S1024x1024 .bf16) (x1 : Vec F S1024x1024 .bf16) (x2 : Vec F S512x1024 .bf16) (x3 : Vec F S512x1024 .bf16) (x4 : Vec F S1024x512 .f32) (x5 : Vec F S1024x512 .f32) (x6 : Vec F S1x512 .f32) (x7 : Vec F S1x512 .f32) (sA0 sA1 sA2 sA3 : Vec F S1024x512 .f32) :
    Σ' (L8 : List (View.Piece (Elt F) S1024x512 .bf16)) (L9 : List (View.Piece (Elt F) S1024x512 .bf16)) (LA0 : List (View.Piece (Elt F) S1024x512 .f32)) (LA1 : List (View.Piece (Elt F) S1024x512 .f32)) (LA2 : List (View.Piece (Elt F) S1024x512 .f32)), { LA3 : List (View.Piece (Elt F) S1024x512 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ (∃ d, owns (c : Thread nD τ) arg10 fullShare d)
            ∗ (∃ d, owns (c : Thread nD τ) arg11 fullShare d)
            ∗ owns (c : Thread nD τ) arg12 fullShare sA0
            ∗ owns (c : Thread nD τ) arg13 fullShare sA1
            ∗ owns (c : Thread nD τ) arg14 fullShare sA2
            ∗ owns (c : Thread nD τ) arg15 fullShare sA3
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ owns (c : Thread nD τ) arg9 fullShare x7
                ∗ (∃ f, arg10.view.loc (c : Thread nD τ) ↦[arg10.view.set]{fullShare} arg10.view.writes (Elt F) f L8)
                ∗ (∃ f, arg11.view.loc (c : Thread nD τ) ↦[arg11.view.set]{fullShare} arg11.view.writes (Elt F) f L9)
                ∗ (∃ f, arg12.view.loc (c : Thread nD τ) ↦[arg12.view.set]{fullShare} arg12.view.writes (Elt F) f LA0)
                ∗ (∃ f, arg13.view.loc (c : Thread nD τ) ↦[arg13.view.set]{fullShare} arg13.view.writes (Elt F) f LA1)
                ∗ (∃ f, arg14.view.loc (c : Thread nD τ) ↦[arg14.view.set]{fullShare} arg14.view.writes (Elt F) f LA2)
                ∗ (∃ f, arg15.view.loc (c : Thread nD τ) ↦[arg15.view.set]{fullShare} arg15.view.writes (Elt F) f LA3)) -∗ K ⟨⟩))
          ⊢ wp frame (wpE (defs₀ (F := F)) Variants.none c none) E (cc0__stage1_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, fun E K => ?run⟩
  case run =>
    simp only [cc0__stage1_kernel_eq_skeleton]; unfold cc0__stage1_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hfs0; obtain rfl := harg13.eq_unread hfs1; obtain rfl := harg14.eq_unread hfs2; obtain rfl := harg15.eq_unread hfs3
    sl_exec (disch := first | exact hk0 | exact hk3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [HS0]; · iexists _; iexact HS0
    isplitl [HS1]; · iexists _; iexact HS1
    isplitl [HS2]; · iexists _; iexact HS2
    iexists _; iexact HS3

end Cert.Kernel.Stage1

end
-- ==== Proof.K.Stage1State.lean ====
/-
  The first pallas_call point by point. After point t = 4 n + k each of the four accumulators holds, for output columns
  512 n .. 512 n + 511, the first k + 1 blocks of its contraction added in order (zero, then block 0, then block 1, ...);
  after a point with k = 3 the two output buffers hold the two combinations of the inputs' entries with the four
  accumulated products, plus the bias rows. These contents are read off the three whole-body runs; the invariant between
  points carries the four accumulators at them.
-/
import proofs.«127443_j14396730376920_2_alg».proof.Proof.K.Stage1RunLast

set_option maxRecDepth 16384

noncomputable section

namespace Cert.Kernel.Stage1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three runs at a point's own memrefs and blocks -/

abbrev rFirst (c : Dev nD) (t : Fin cfg0.N) (h0 : atK0 (grid0.coords t)) (h3 : ¬atK3 (grid0.coords t)) :=
  runFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) acc0 (Memref.isWhole_whole _) acc1 (Memref.isWhole_whole _) acc2 (Memref.isWhole_whole _) acc3 (Memref.isWhole_whole _) h0 h3 (blk V c 0 t) (blk V c 1 t) (blk V c 2 t) (blk V c 3 t)
abbrev rMid (c : Dev nD) (t : Fin cfg0.N) (h0 : ¬atK0 (grid0.coords t)) (h3 : ¬atK3 (grid0.coords t)) (s0 s1 s2 s3 : Vec F S1024x512 .f32) :=
  runMid (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) acc0 (Memref.isWhole_whole _) acc1 (Memref.isWhole_whole _) acc2 (Memref.isWhole_whole _) acc3 (Memref.isWhole_whole _) h0 h3 (blk V c 0 t) (blk V c 1 t) (blk V c 2 t) (blk V c 3 t) s0 s1 s2 s3
abbrev rLast (c : Dev nD) (t : Fin cfg0.N) (h0 : ¬atK0 (grid0.coords t)) (h3 : atK3 (grid0.coords t)) (s0 s1 s2 s3 : Vec F S1024x512 .f32) :=
  runLast (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) acc0 (Memref.isWhole_whole _) acc1 (Memref.isWhole_whole _) acc2 (Memref.isWhole_whole _) acc3 (Memref.isWhole_whole _) h0 h3 (blk V c 0 t) (blk V c 1 t) (blk V c 2 t) (blk V c 3 t) (blk V c 4 t) (blk V c 5 t) (blk V c 6 t) (blk V c 7 t) s0 s1 s2 s3

/-- What a list of pieces leaves in a buffer of this shape, read back (over contents that do not matter once the
    pieces cover the buffer). -/
abbrev readA0 (L : List (View.Piece (Elt F) S1024x512 .f32)) : Vec F S1024x512 .f32 := vacc0.read (Elt F) (vacc0.writes (Elt F) vacc0.junk L)
abbrev readA1 (L : List (View.Piece (Elt F) S1024x512 .f32)) : Vec F S1024x512 .f32 := vacc1.read (Elt F) (vacc1.writes (Elt F) vacc1.junk L)
abbrev readA2 (L : List (View.Piece (Elt F) S1024x512 .f32)) : Vec F S1024x512 .f32 := vacc2.read (Elt F) (vacc2.writes (Elt F) vacc2.junk L)
abbrev readA3 (L : List (View.Piece (Elt F) S1024x512 .f32)) : Vec F S1024x512 .f32 := vacc3.read (Elt F) (vacc3.writes (Elt F) vacc3.junk L)
abbrev readO8 (L : List (View.Piece (Elt F) S1024x512 .bf16)) : Vec F S1024x512 .bf16 := viewO8.read (Elt F) (viewO8.writes (Elt F) viewO8.junk L)
abbrev readO9 (L : List (View.Piece (Elt F) S1024x512 .bf16)) : Vec F S1024x512 .bf16 := viewO9.read (Elt F) (viewO9.writes (Elt F) viewO9.junk L)
/-- A placeholder for an output buffer at a point that does not store it: nothing reads it, since the block is neither
    written back there nor kept for the next point. -/
abbrev noOut : Vec F S1024x512 .bf16 × Vec F S1024x512 .bf16 := (viewO8.read (Elt F) viewO8.junk, viewO9.read (Elt F) viewO9.junk)

/-! ## The pieces cover their buffers -/

theorem coverFirst0 (c : Dev nD) (t : Fin cfg0.N) (h0) (h3) (y : S1024x512.Idx) : ∃ pc ∈ (rFirst V c t h0 h3).1, y ∈ pc.1.set :=
  View.cover_of_tiledL (rFirst V c t h0 h3).1 S1024x512.size (by sl_kernel_rfl) y
theorem coverFirst1 (c : Dev nD) (t : Fin cfg0.N) (h0) (h3) (y : S1024x512.Idx) : ∃ pc ∈ (rFirst V c t h0 h3).2.1, y ∈ pc.1.set :=
  View.cover_of_tiledL (rFirst V c t h0 h3).2.1 S1024x512.size (by sl_kernel_rfl) y
theorem coverFirst2 (c : Dev nD) (t : Fin cfg0.N) (h0) (h3) (y : S1024x512.Idx) : ∃ pc ∈ (rFirst V c t h0 h3).2.2.1, y ∈ pc.1.set :=
  View.cover_of_tiledL (rFirst V c t h0 h3).2.2.1 S1024x512.size (by sl_kernel_rfl) y
theorem coverFirst3 (c : Dev nD) (t : Fin cfg0.N) (h0) (h3) (y : S1024x512.Idx) : ∃ pc ∈ (rFirst V c t h0 h3).2.2.2.1, y ∈ pc.1.set :=
  View.cover_of_tiledL (rFirst V c t h0 h3).2.2.2.1 S1024x512.size (by sl_kernel_rfl) y
theorem coverMid0 (c : Dev nD) (t : Fin cfg0.N) (h0) (h3) (s0 s1 s2 s3) (y : S1024x512.Idx) : ∃ pc ∈ (rMid V c t h0 h3 s0 s1 s2 s3).1, y ∈ pc.1.set :=
  View.cover_of_tiledL (rMid V c t h0 h3 s0 s1 s2 s3).1 S1024x512.size (by sl_kernel_rfl) y
theorem coverMid1 (c : Dev nD) (t : Fin cfg0.N) (h0) (h3) (s0 s1 s2 s3) (y : S1024x512.Idx) : ∃ pc ∈ (rMid V c t h0 h3 s0 s1 s2 s3).2.1, y ∈ pc.1.set :=
  View.cover_of_tiledL (rMid V c t h0 h3 s0 s1 s2 s3).2.1 S1024x512.size (by sl_kernel_rfl) y
theorem coverMid2 (c : Dev nD) (t : Fin cfg0.N) (h0) (h3) (s0 s1 s2 s3) (y : S1024x512.Idx) : ∃ pc ∈ (rMid V c t h0 h3 s0 s1 s2 s3).2.2.1, y ∈ pc.1.set :=
  View.cover_of_tiledL (rMid V c t h0 h3 s0 s1 s2 s3).2.2.1 S1024x512.size (by sl_kernel_rfl) y
theorem coverMid3 (c : Dev nD) (t : Fin cfg0.N) (h0) (h3) (s0 s1 s2 s3) (y : S1024x512.Idx) : ∃ pc ∈ (rMid V c t h0 h3 s0 s1 s2 s3).2.2.2.1, y ∈ pc.1.set :=
  View.cover_of_tiledL (rMid V c t h0 h3 s0 s1 s2 s3).2.2.2.1 S1024x512.size (by sl_kernel_rfl) y
theorem coverLastO8 (c : Dev nD) (t : Fin cfg0.N) (h0) (h3) (s0 s1 s2 s3) (y : S1024x512.Idx) : ∃ pc ∈ (rLast V c t h0 h3 s0 s1 s2 s3).1, y ∈ pc.1.set :=
  View.cover_of_tiledL (rLast V c t h0 h3 s0 s1 s2 s3).1 S1024x512.size (by sl_kernel_rfl) y
theorem coverLastO9 (c : Dev nD) (t : Fin cfg0.N) (h0) (h3) (s0 s1 s2 s3) (y : S1024x512.Idx) : ∃ pc ∈ (rLast V c t h0 h3 s0 s1 s2 s3).2.1, y ∈ pc.1.set :=
  View.cover_of_tiledL (rLast V c t h0 h3 s0 s1 s2 s3).2.1 S1024x512.size (by sl_kernel_rfl) y
theorem coverLast0 (c : Dev nD) (t : Fin cfg0.N) (h0) (h3) (s0 s1 s2 s3) (y : S1024x512.Idx) : ∃ pc ∈ (rLast V c t h0 h3 s0 s1 s2 s3).2.2.1, y ∈ pc.1.set :=
  View.cover_of_tiledL (rLast V c t h0 h3 s0 s1 s2 s3).2.2.1 S1024x512.size (by sl_kernel_rfl) y
theorem coverLast1 (c : Dev nD) (t : Fin cfg0.N) (h0) (h3) (s0 s1 s2 s3) (y : S1024x512.Idx) : ∃ pc ∈ (rLast V c t h0 h3 s0 s1 s2 s3).2.2.2.1, y ∈ pc.1.set :=
  View.cover_of_tiledL (rLast V c t h0 h3 s0 s1 s2 s3).2.2.2.1 S1024x512.size (by sl_kernel_rfl) y
theorem coverLast2 (c : Dev nD) (t : Fin cfg0.N) (h0) (h3) (s0 s1 s2 s3) (y : S1024x512.Idx) : ∃ pc ∈ (rLast V c t h0 h3 s0 s1 s2 s3).2.2.2.2.1, y ∈ pc.1.set :=
  View.cover_of_tiledL (rLast V c t h0 h3 s0 s1 s2 s3).2.2.2.2.1 S1024x512.size (by sl_kernel_rfl) y
theorem coverLast3 (c : Dev nD) (t : Fin cfg0.N) (h0) (h3) (s0 s1 s2 s3) (y : S1024x512.Idx) : ∃ pc ∈ (rLast V c t h0 h3 s0 s1 s2 s3).2.2.2.2.2.1, y ∈ pc.1.set :=
  View.cover_of_tiledL (rLast V c t h0 h3 s0 s1 s2 s3).2.2.2.2.2.1 S1024x512.size (by sl_kernel_rfl) y

/-! ## What the outputs and the accumulators hold after each point -/

set_option maxHeartbeats 4000000 in
/-- After position `n`: (the two output buffers, the four accumulators). The case is the one k = n mod 4 selects; a point
    with k > 0 starts from the accumulators the point before left. -/
def stateAt (c : Dev nD) : (n : ℕ) → n < cfg0.N → (Vec F S1024x512 .bf16 × Vec F S1024x512 .bf16) × (Vec F S1024x512 .f32 × Vec F S1024x512 .f32 × Vec F S1024x512 .f32 × Vec F S1024x512 .f32)
  | 0, hn =>
    (noOut, (readA0 (rFirst V c ⟨0, hn⟩ ((atK0_iff ⟨0, hn⟩).mpr (Nat.zero_mod _)) (fun h => absurd ((atK3_iff ⟨0, hn⟩).mp h) (by show ¬ (0 % 4 = 3); decide))).1,
         readA1 (rFirst V c ⟨0, hn⟩ ((atK0_iff ⟨0, hn⟩).mpr (Nat.zero_mod _)) (fun h => absurd ((atK3_iff ⟨0, hn⟩).mp h) (by show ¬ (0 % 4 = 3); decide))).2.1,
         readA2 (rFirst V c ⟨0, hn⟩ ((atK0_iff ⟨0, hn⟩).mpr (Nat.zero_mod _)) (fun h => absurd ((atK3_iff ⟨0, hn⟩).mp h) (by show ¬ (0 % 4 = 3); decide))).2.2.1,
         readA3 (rFirst V c ⟨0, hn⟩ ((atK0_iff ⟨0, hn⟩).mpr (Nat.zero_mod _)) (fun h => absurd ((atK3_iff ⟨0, hn⟩).mp h) (by show ¬ (0 % 4 = 3); decide))).2.2.2.1))
  | n + 1, hn =>
    if h0 : (n + 1) % 4 = 0 then
      (noOut, (readA0 (rFirst V c ⟨n + 1, hn⟩ ((atK0_iff ⟨n + 1, hn⟩).mpr h0) (fun h => by have h' := (atK3_iff ⟨n + 1, hn⟩).mp h; (try dsimp only at h'); omega)).1,
         readA1 (rFirst V c ⟨n + 1, hn⟩ ((atK0_iff ⟨n + 1, hn⟩).mpr h0) (fun h => by have h' := (atK3_iff ⟨n + 1, hn⟩).mp h; (try dsimp only at h'); omega)).2.1,
         readA2 (rFirst V c ⟨n + 1, hn⟩ ((atK0_iff ⟨n + 1, hn⟩).mpr h0) (fun h => by have h' := (atK3_iff ⟨n + 1, hn⟩).mp h; (try dsimp only at h'); omega)).2.2.1,
         readA3 (rFirst V c ⟨n + 1, hn⟩ ((atK0_iff ⟨n + 1, hn⟩).mpr h0) (fun h => by have h' := (atK3_iff ⟨n + 1, hn⟩).mp h; (try dsimp only at h'); omega)).2.2.2.1))
    else if h3 : (n + 1) % 4 = 3 then
      ((readO8 (rLast V c ⟨n + 1, hn⟩ (fun h => h0 ((atK0_iff ⟨n + 1, hn⟩).mp h)) ((atK3_iff ⟨n + 1, hn⟩).mpr h3) (stateAt c n (Nat.lt_of_succ_lt hn)).2.1 (stateAt c n (Nat.lt_of_succ_lt hn)).2.2.1 (stateAt c n (Nat.lt_of_succ_lt hn)).2.2.2.1 (stateAt c n (Nat.lt_of_succ_lt hn)).2.2.2.2).1,
        readO9 (rLast V c ⟨n + 1, hn⟩ (fun h => h0 ((atK0_iff ⟨n + 1, hn⟩).mp h)) ((atK3_iff ⟨n + 1, hn⟩).mpr h3) (stateAt c n (Nat.lt_of_succ_lt hn)).2.1 (stateAt c n (Nat.lt_of_succ_lt hn)).2.2.1 (stateAt c n (Nat.lt_of_succ_lt hn)).2.2.2.1 (stateAt c n (Nat.lt_of_succ_lt hn)).2.2.2.2).2.1),
       (readA0 (rLast V c ⟨n + 1, hn⟩ (fun h => h0 ((atK0_iff ⟨n + 1, hn⟩).mp h)) ((atK3_iff ⟨n + 1, hn⟩).mpr h3) (stateAt c n (Nat.lt_of_succ_lt hn)).2.1 (stateAt c n (Nat.lt_of_succ_lt hn)).2.2.1 (stateAt c n (Nat.lt_of_succ_lt hn)).2.2.2.1 (stateAt c n (Nat.lt_of_succ_lt hn)).2.2.2.2).2.2.1,
         readA1 (rLast V c ⟨n + 1, hn⟩ (fun h => h0 ((atK0_iff ⟨n + 1, hn⟩).mp h)) ((atK3_iff ⟨n + 1, hn⟩).mpr h3) (stateAt c n (Nat.lt_of_succ_lt hn)).2.1 (stateAt c n (Nat.lt_of_succ_lt hn)).2.2.1 (stateAt c n (Nat.lt_of_succ_lt hn)).2.2.2.1 (stateAt c n (Nat.lt_of_succ_lt hn)).2.2.2.2).2.2.2.1,
         readA2 (rLast V c ⟨n + 1, hn⟩ (fun h => h0 ((atK0_iff ⟨n + 1, hn⟩).mp h)) ((atK3_iff ⟨n + 1, hn⟩).mpr h3) (stateAt c n (Nat.lt_of_succ_lt hn)).2.1 (stateAt c n (Nat.lt_of_succ_lt hn)).2.2.1 (stateAt c n (Nat.lt_of_succ_lt hn)).2.2.2.1 (stateAt c n (Nat.lt_of_succ_lt hn)).2.2.2.2).2.2.2.2.1,
         readA3 (rLast V c ⟨n + 1, hn⟩ (fun h => h0 ((atK0_iff ⟨n + 1, hn⟩).mp h)) ((atK3_iff ⟨n + 1, hn⟩).mpr h3) (stateAt c n (Nat.lt_of_succ_lt hn)).2.1 (stateAt c n (Nat.lt_of_succ_lt hn)).2.2.1 (stateAt c n (Nat.lt_of_succ_lt hn)).2.2.2.1 (stateAt c n (Nat.lt_of_succ_lt hn)).2.2.2.2).2.2.2.2.2.1))
    else
      (noOut, (readA0 (rMid V c ⟨n + 1, hn⟩ (fun h => h0 ((atK0_iff ⟨n + 1, hn⟩).mp h)) (fun h => h3 ((atK3_iff ⟨n + 1, hn⟩).mp h)) (stateAt c n (Nat.lt_of_succ_lt hn)).2.1 (stateAt c n (Nat.lt_of_succ_lt hn)).2.2.1 (stateAt c n (Nat.lt_of_succ_lt hn)).2.2.2.1 (stateAt c n (Nat.lt_of_succ_lt hn)).2.2.2.2).1,
         readA1 (rMid V c ⟨n + 1, hn⟩ (fun h => h0 ((atK0_iff ⟨n + 1, hn⟩).mp h)) (fun h => h3 ((atK3_iff ⟨n + 1, hn⟩).mp h)) (stateAt c n (Nat.lt_of_succ_lt hn)).2.1 (stateAt c n (Nat.lt_of_succ_lt hn)).2.2.1 (stateAt c n (Nat.lt_of_succ_lt hn)).2.2.2.1 (stateAt c n (Nat.lt_of_succ_lt hn)).2.2.2.2).2.1,
         readA2 (rMid V c ⟨n + 1, hn⟩ (fun h => h0 ((atK0_iff ⟨n + 1, hn⟩).mp h)) (fun h => h3 ((atK3_iff ⟨n + 1, hn⟩).mp h)) (stateAt c n (Nat.lt_of_succ_lt hn)).2.1 (stateAt c n (Nat.lt_of_succ_lt hn)).2.2.1 (stateAt c n (Nat.lt_of_succ_lt hn)).2.2.2.1 (stateAt c n (Nat.lt_of_succ_lt hn)).2.2.2.2).2.2.1,
         readA3 (rMid V c ⟨n + 1, hn⟩ (fun h => h0 ((atK0_iff ⟨n + 1, hn⟩).mp h)) (fun h => h3 ((atK3_iff ⟨n + 1, hn⟩).mp h)) (stateAt c n (Nat.lt_of_succ_lt hn)).2.1 (stateAt c n (Nat.lt_of_succ_lt hn)).2.2.1 (stateAt c n (Nat.lt_of_succ_lt hn)).2.2.2.1 (stateAt c n (Nat.lt_of_succ_lt hn)).2.2.2.2).2.2.2.1))

/-- The accumulators the point before `t` left. -/
abbrev prev0 (c : Dev nD) (t : Fin cfg0.N) : Vec F S1024x512 .f32 := (stateAt V c (t.val - 1) (Nat.lt_of_le_of_lt (Nat.sub_le _ _) t.isLt)).2.1
abbrev prev1 (c : Dev nD) (t : Fin cfg0.N) : Vec F S1024x512 .f32 := (stateAt V c (t.val - 1) (Nat.lt_of_le_of_lt (Nat.sub_le _ _) t.isLt)).2.2.1
abbrev prev2 (c : Dev nD) (t : Fin cfg0.N) : Vec F S1024x512 .f32 := (stateAt V c (t.val - 1) (Nat.lt_of_le_of_lt (Nat.sub_le _ _) t.isLt)).2.2.2.1
abbrev prev3 (c : Dev nD) (t : Fin cfg0.N) : Vec F S1024x512 .f32 := (stateAt V c (t.val - 1) (Nat.lt_of_le_of_lt (Nat.sub_le _ _) t.isLt)).2.2.2.2

set_option maxHeartbeats 4000000 in
theorem stateAt_first (c : Dev nD) (t : Fin cfg0.N) (h0 : t.val % 4 = 0) (h0' : atK0 (grid0.coords t)) (h3' : ¬atK3 (grid0.coords t)) :
    stateAt V c t.val t.isLt = (noOut, (readA0 (rFirst V c t h0' h3').1,
         readA1 (rFirst V c t h0' h3').2.1,
         readA2 (rFirst V c t h0' h3').2.2.1,
         readA3 (rFirst V c t h0' h3').2.2.2.1)) := by
  obtain ⟨n, hn⟩ := t
  cases n with
  | zero => rfl
  | succ n => exact (dif_pos h0).trans rfl

set_option maxHeartbeats 4000000 in
theorem stateAt_mid (c : Dev nD) (t : Fin cfg0.N) (h0 : ¬t.val % 4 = 0) (h3 : ¬t.val % 4 = 3) (h0' : ¬atK0 (grid0.coords t)) (h3' : ¬atK3 (grid0.coords t)) :
    stateAt V c t.val t.isLt = (noOut, (readA0 (rMid V c t h0' h3' (prev0 V c t) (prev1 V c t) (prev2 V c t) (prev3 V c t)).1,
         readA1 (rMid V c t h0' h3' (prev0 V c t) (prev1 V c t) (prev2 V c t) (prev3 V c t)).2.1,
         readA2 (rMid V c t h0' h3' (prev0 V c t) (prev1 V c t) (prev2 V c t) (prev3 V c t)).2.2.1,
         readA3 (rMid V c t h0' h3' (prev0 V c t) (prev1 V c t) (prev2 V c t) (prev3 V c t)).2.2.2.1)) := by
  obtain ⟨n, hn⟩ := t
  cases n with
  | zero => exact absurd (Nat.zero_mod _) h0
  | succ n => exact (dif_neg h0).trans ((dif_neg h3).trans rfl)

set_option maxHeartbeats 4000000 in
theorem stateAt_last (c : Dev nD) (t : Fin cfg0.N) (h0 : ¬t.val % 4 = 0) (h3 : t.val % 4 = 3) (h0' : ¬atK0 (grid0.coords t)) (h3' : atK3 (grid0.coords t)) :
    stateAt V c t.val t.isLt = ((readO8 (rLast V c t h0' h3' (prev0 V c t) (prev1 V c t) (prev2 V c t) (prev3 V c t)).1, readO9 (rLast V c t h0' h3' (prev0 V c t) (prev1 V c t) (prev2 V c t) (prev3 V c t)).2.1),
      (readA0 (rLast V c t h0' h3' (prev0 V c t) (prev1 V c t) (prev2 V c t) (prev3 V c t)).2.2.1,
         readA1 (rLast V c t h0' h3' (prev0 V c t) (prev1 V c t) (prev2 V c t) (prev3 V c t)).2.2.2.1,
         readA2 (rLast V c t h0' h3' (prev0 V c t) (prev1 V c t) (prev2 V c t) (prev3 V c t)).2.2.2.2.1,
         readA3 (rLast V c t h0' h3' (prev0 V c t) (prev1 V c t) (prev2 V c t) (prev3 V c t)).2.2.2.2.2.1)) := by
  obtain ⟨n, hn⟩ := t
  cases n with
  | zero => exact absurd (Nat.zero_mod _) h0
  | succ n => exact (dif_neg h0).trans ((dif_pos h3).trans rfl)

/-! ## The invariant between points -/

/-- Before position `n`: at the region's entry the scoped buffers at anything and the generator register at some state;
    afterwards the same with the four accumulators at what the point before left. -/
def Phi (c : Dev nD) : (n : ℕ) → n ≤ cfg0.N → sProp 𝕄
  | 0, _ => Pipeline.ΦA spec0 c
  | n + 1, hn => iprop(iprop(iprop(owns (c : Thread nD τ) acc0 fullShare (stateAt V c n hn).2.1 ∗ owns (c : Thread nD τ) acc1 fullShare (stateAt V c n hn).2.2.1 ∗ owns (c : Thread nD τ) acc2 fullShare (stateAt V c n hn).2.2.2.1 ∗ owns (c : Thread nD τ) acc3 fullShare (stateAt V c n hn).2.2.2.2)
        ∗ Pipeline.scopedRestBut (Ix := Unit) (Name := ℕ) (U := UR sig nD τ) (Lvl := ℕ) (Val := Elt F) spec0 c [cc0_scratch0, cc0_scratch1, cc0_scratch2, cc0_scratch3])
        ∗ (∃ r, prngReg c r))

theorem Phi_zero (c : Dev nD) (n : ℕ) (h : n ≤ cfg0.N) (hz : n = 0) : Phi V c n h = Pipeline.ΦA spec0 c := by
  subst hz; rfl
theorem Phi_succ (c : Dev nD) (n : ℕ) (hn : n < cfg0.N) :
    Phi V c (n + 1) hn = iprop(iprop(iprop(owns (c : Thread nD τ) acc0 fullShare (stateAt V c n hn).2.1 ∗ owns (c : Thread nD τ) acc1 fullShare (stateAt V c n hn).2.2.1 ∗ owns (c : Thread nD τ) acc2 fullShare (stateAt V c n hn).2.2.2.1 ∗ owns (c : Thread nD τ) acc3 fullShare (stateAt V c n hn).2.2.2.2)
        ∗ Pipeline.scopedRestBut (Ix := Unit) (Name := ℕ) (U := UR sig nD τ) (Lvl := ℕ) (Val := Elt F) spec0 c [cc0_scratch0, cc0_scratch1, cc0_scratch2, cc0_scratch3])
        ∗ (∃ r, prngReg c r)) := rfl
theorem Phi_pos (c : Dev nD) (n : ℕ) (h : n ≤ cfg0.N) (hz : n ≠ 0) :
    Phi V c n h = iprop(iprop(iprop(owns (c : Thread nD τ) acc0 fullShare (stateAt V c (n - 1) (by omega)).2.1 ∗ owns (c : Thread nD τ) acc1 fullShare (stateAt V c (n - 1) (by omega)).2.2.1 ∗ owns (c : Thread nD τ) acc2 fullShare (stateAt V c (n - 1) (by omega)).2.2.2.1 ∗ owns (c : Thread nD τ) acc3 fullShare (stateAt V c (n - 1) (by omega)).2.2.2.2)
        ∗ Pipeline.scopedRestBut (Ix := Unit) (Name := ℕ) (U := UR sig nD τ) (Lvl := ℕ) (Val := Elt F) spec0 c [cc0_scratch0, cc0_scratch1, cc0_scratch2, cc0_scratch3])
        ∗ (∃ r, prngReg c r)) := by
  cases n with
  | zero => exact absurd rfl hz
  | succ n => rfl

/-! ## The pipeline's proof data -/

def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => (stateAt V c t.val t.isLt).1.1
    | ⟨9, _⟩ => (stateAt V c t.val t.isLt).1.2
  Φ t := Phi V c t.val (Nat.le_of_lt_succ t.isLt)
  q _ := fullShare
  owed _ := 0

theorem A_eq (c : Dev nD) (w : Fin cfg0.W) : (dat V c).A w = V c (Pipeline.arrRef spec0 w) := by
  dsimp only [dat]
theorem Phi_castSucc (c : Dev nD) (t : Fin cfg0.N) : (dat V c).Φ t.castSucc = Phi V c t.val (Nat.le_of_lt t.isLt) := by
  dsimp only [dat]; simp only [Fin.coe_castSucc]
theorem after0 (c : Dev nD) (t : Fin cfg0.N) : (dat V c).after 0 t = blk V c 0 t := by dsimp only [dat]
theorem after1 (c : Dev nD) (t : Fin cfg0.N) : (dat V c).after 1 t = blk V c 1 t := by dsimp only [dat]
theorem after2 (c : Dev nD) (t : Fin cfg0.N) : (dat V c).after 2 t = blk V c 2 t := by dsimp only [dat]
theorem after3 (c : Dev nD) (t : Fin cfg0.N) : (dat V c).after 3 t = blk V c 3 t := by dsimp only [dat]
theorem after4 (c : Dev nD) (t : Fin cfg0.N) : (dat V c).after 4 t = blk V c 4 t := by dsimp only [dat]
theorem after5 (c : Dev nD) (t : Fin cfg0.N) : (dat V c).after 5 t = blk V c 5 t := by dsimp only [dat]
theorem after6 (c : Dev nD) (t : Fin cfg0.N) : (dat V c).after 6 t = blk V c 6 t := by dsimp only [dat]
theorem after7 (c : Dev nD) (t : Fin cfg0.N) : (dat V c).after 7 t = blk V c 7 t := by dsimp only [dat]
theorem after8 (c : Dev nD) (t : Fin cfg0.N) : (dat V c).after 8 t = (stateAt V c t.val t.isLt).1.1 := by dsimp only [dat]
theorem after9 (c : Dev nD) (t : Fin cfg0.N) : (dat V c).after 9 t = (stateAt V c t.val t.isLt).1.2 := by dsimp only [dat]
theorem found0 (c : Dev nD) (t : Fin cfg0.N) (d) : (dat V c).before 0 t d = blk V c 0 t :=
  before0 V (dat V c) (A_eq V c 0) (after0 V c) t d
theorem found1 (c : Dev nD) (t : Fin cfg0.N) (d) : (dat V c).before 1 t d = blk V c 1 t :=
  before1 V (dat V c) (A_eq V c 1) (after1 V c) t d
theorem found2 (c : Dev nD) (t : Fin cfg0.N) (d) : (dat V c).before 2 t d = blk V c 2 t :=
  before2 V (dat V c) (A_eq V c 2) (after2 V c) t d
theorem found3 (c : Dev nD) (t : Fin cfg0.N) (d) : (dat V c).before 3 t d = blk V c 3 t :=
  before3 V (dat V c) (A_eq V c 3) (after3 V c) t d
theorem found4 (c : Dev nD) (t : Fin cfg0.N) (d) : (dat V c).before 4 t d = blk V c 4 t :=
  before4 V (dat V c) (A_eq V c 4) (after4 V c) t d
theorem found5 (c : Dev nD) (t : Fin cfg0.N) (d) : (dat V c).before 5 t d = blk V c 5 t :=
  before5 V (dat V c) (A_eq V c 5) (after5 V c) t d
theorem found6 (c : Dev nD) (t : Fin cfg0.N) (d) : (dat V c).before 6 t d = blk V c 6 t :=
  before6 V (dat V c) (A_eq V c 6) (after6 V c) t d
theorem found7 (c : Dev nD) (t : Fin cfg0.N) (d) : (dat V c).before 7 t d = blk V c 7 t :=
  before7 V (dat V c) (A_eq V c 7) (after7 V c) t d
theorem leaves0 (c : Dev nD) (t : Fin cfg0.N) :
    (dat V c).leavesExact 0 t = owns (c : Thread nD τ) (ms0 t) fullShare (blk V c 0 t) := by
  unfold Dat.leavesExact; rw [live0 t, after0]
theorem leaves1 (c : Dev nD) (t : Fin cfg0.N) :
    (dat V c).leavesExact 1 t = owns (c : Thread nD τ) (ms1 t) fullShare (blk V c 1 t) := by
  unfold Dat.leavesExact; rw [live1 t, after1]
theorem leaves2 (c : Dev nD) (t : Fin cfg0.N) :
    (dat V c).leavesExact 2 t = owns (c : Thread nD τ) (ms2 t) fullShare (blk V c 2 t) := by
  unfold Dat.leavesExact; rw [live2 t, after2]
theorem leaves3 (c : Dev nD) (t : Fin cfg0.N) :
    (dat V c).leavesExact 3 t = owns (c : Thread nD τ) (ms3 t) fullShare (blk V c 3 t) := by
  unfold Dat.leavesExact; rw [live3 t, after3]
theorem leaves4 (c : Dev nD) (t : Fin cfg0.N) :
    (dat V c).leavesExact 4 t = owns (c : Thread nD τ) (ms4 t) fullShare (blk V c 4 t) := by
  unfold Dat.leavesExact; rw [live4 t, after4]
theorem leaves5 (c : Dev nD) (t : Fin cfg0.N) :
    (dat V c).leavesExact 5 t = owns (c : Thread nD τ) (ms5 t) fullShare (blk V c 5 t) := by
  unfold Dat.leavesExact; rw [live5 t, after5]
theorem leaves6 (c : Dev nD) (t : Fin cfg0.N) :
    (dat V c).leavesExact 6 t = owns (c : Thread nD τ) (ms6 t) fullShare (blk V c 6 t) := by
  unfold Dat.leavesExact; rw [live6 t, after6]
theorem leaves7 (c : Dev nD) (t : Fin cfg0.N) :
    (dat V c).leavesExact 7 t = owns (c : Thread nD τ) (ms7 t) fullShare (blk V c 7 t) := by
  unfold Dat.leavesExact; rw [live7 t, after7]

end Cert.Kernel.Stage1

end
-- ==== Proof.K.Stage1Body.lean ====
/-
  The first pallas_call's body at a generic point: from the invariant before the point and the windows' buffers as the
  pipeline hands them — each input at its block, each output at whatever it holds — to the invariant after the point and
  the buffers as the pipeline takes them back. The point's k = t mod 4 selects the case; the accumulators go into the
  case's run at what the point before left and come back at this point's contents; a buffer the case does not touch
  stays as it was found.
-/
import proofs.«127443_j14396730376920_2_alg».proof.Proof.K.Stage1State

set_option maxRecDepth 16384

noncomputable section

namespace Cert.Kernel.Stage1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t)

set_option maxHeartbeats 8000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [found0, found1, found2, found3, found4, found5, found6, found7]
  rw [show (dat V c).owesAt () t.succ = (dat V c).owesAt () t.castSucc from rfl]
  rw [show (dat V c).Φ t.succ = Phi V c (t.val + 1) t.isLt from rfl, Phi_succ]
  rw [leaves0, leaves1, leaves2, leaves3, leaves4, leaves5, leaves6, leaves7]
  have hN : t.val < 32 := lt_of_lt_of_eq t.isLt (show cfg0.N = 32 from N_0)
  by_cases h0 : t.val % 4 = 0
  · -- k = 0
    have h3 : ¬t.val % 4 = 3 := by omega
    have h0' := (atK0_iff t).mpr h0
    have h3' : ¬atK3 (grid0.coords t) := fun h => h3 ((atK3_iff t).mp h)
    rw [Dat.leavesExact_idle (dat V c) 8 t (idle8 t h3') (noFlush8 t h3'), Dat.leavesExact_idle (dat V c) 9 t (idle9 t h3') (noFlush9 t h3')]
    rw [stateAt_first V c t h0 h0' h3']
    dsimp only
    have hA : (dat V c).Φ t.castSucc ⊢ (iprop(iprop(iprop((∃ d, owns (c : Thread nD τ) acc0 fullShare d) ∗ (∃ d, owns (c : Thread nD τ) acc1 fullShare d) ∗ (∃ d, owns (c : Thread nD τ) acc2 fullShare d) ∗ (∃ d, owns (c : Thread nD τ) acc3 fullShare d))
          ∗ Pipeline.scopedRestBut (Ix := Unit) (Name := ℕ) (U := UR sig nD τ) (Lvl := ℕ) (Val := Elt F) spec0 c [cc0_scratch0, cc0_scratch1, cc0_scratch2, cc0_scratch3])
          ∗ (∃ r, prngReg c r)) : sProp 𝕄) := by
      rw [Phi_castSucc V c t]
      by_cases hz : t.val = 0
      · rw [Phi_zero V c _ _ hz, PhiA_eq]; try exact .rfl
      · rw [Phi_pos V c _ _ hz]
        iintro ⟨⟨⟨HS0, HS1, HS2, HS3⟩, HR⟩, Hg⟩
        isplitl [HS0 HS1 HS2 HS3 HR]
        · isplitl [HS0 HS1 HS2 HS3]
          · isplitl [HS0]; · iexists _; iexact HS0
            isplitl [HS1]; · iexists _; iexact HS1
            isplitl [HS2]; · iexists _; iexact HS2
            iexists _; iexact HS3
          iexact HR
        iexact Hg
    iintro ⟨HΦ, Hrest⟩
    ihave HΦ' := hA $$ HΦ
    icases HΦ' with ⟨⟨⟨HS0, HS1, HS2, HS3⟩, HR⟩, Hg⟩
    icases Hrest with ⟨Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((rFirst V c t h0' h3').2.2.2.2 Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    isplitl [HS3]; · iexact HS3
    iintro ⟨H0, H1, H2, H3, ⟨%e0, HS0⟩, ⟨%e1, HS1⟩, ⟨%e2, HS2⟩, ⟨%e3, HS3⟩⟩
    isplitl [HS0 HS1 HS2 HS3 HR Hg]
    · isplitl [HS0 HS1 HS2 HS3 HR]
      · isplitl [HS0 HS1 HS2 HS3]
        · isplitl [HS0]
          · unfold owns; iexists _; isplitr
            swap; · iexact HS0
            ipureintro; exact View.read_writes_of_cover _ _ _ _ _ (coverFirst0 V c t h0' h3')
          isplitl [HS1]
          · unfold owns; iexists _; isplitr
            swap; · iexact HS1
            ipureintro; exact View.read_writes_of_cover _ _ _ _ _ (coverFirst1 V c t h0' h3')
          isplitl [HS2]
          · unfold owns; iexists _; isplitr
            swap; · iexact HS2
            ipureintro; exact View.read_writes_of_cover _ _ _ _ _ (coverFirst2 V c t h0' h3')
          unfold owns; iexists _; isplitr
          swap; · iexact HS3
          ipureintro; exact View.read_writes_of_cover _ _ _ _ _ (coverFirst3 V c t h0' h3')
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists d8; iexact H8
    iexists d9; iexact H9
  · have hz : t.val ≠ 0 := fun e => h0 (by rw [e])
    have h0' : ¬atK0 (grid0.coords t) := fun h => h0 ((atK0_iff t).mp h)
    by_cases h3 : t.val % 4 = 3
    · -- k = 3
      have h3' := (atK3_iff t).mpr h3
      rw [show (dat V c).leavesExact 8 t = owns (c : Thread nD τ) (ms8 t) fullShare ((dat V c).after 8 t) from by
        unfold Dat.leavesExact; rw [live8 t h3'], after8]
      rw [show (dat V c).leavesExact 9 t = owns (c : Thread nD τ) (ms9 t) fullShare ((dat V c).after 9 t) from by
        unfold Dat.leavesExact; rw [live9 t h3'], after9]
      rw [stateAt_last V c t h0 h3 h0' h3']
      dsimp only
      rw [Phi_castSucc V c t, Phi_pos V c _ _ hz]
      iintro ⟨⟨⟨⟨HS0, HS1, HS2, HS3⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((rLast V c t h0' h3' (prev0 V c t) (prev1 V c t) (prev2 V c t) (prev3 V c t)).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      isplitl [HS1]; · iexact HS1
      isplitl [HS2]; · iexact HS2
      isplitl [HS3]; · iexact HS3
      iintro ⟨H0, H1, H2, H3, H4, H5, H6, H7, ⟨%e8, H8⟩, ⟨%e9, H9⟩, ⟨%e0, HS0⟩, ⟨%e1, HS1⟩, ⟨%e2, HS2⟩, ⟨%e3, HS3⟩⟩
      isplitl [HS0 HS1 HS2 HS3 HR Hg]
      · isplitl [HS0 HS1 HS2 HS3 HR]
        · isplitl [HS0 HS1 HS2 HS3]
          · isplitl [HS0]
            · unfold owns; iexists _; isplitr
              swap; · iexact HS0
              ipureintro; exact View.read_writes_of_cover _ _ _ _ _ (coverLast0 V c t h0' h3' _ _ _ _)
            isplitl [HS1]
            · unfold owns; iexists _; isplitr
              swap; · iexact HS1
              ipureintro; exact View.read_writes_of_cover _ _ _ _ _ (coverLast1 V c t h0' h3' _ _ _ _)
            isplitl [HS2]
            · unfold owns; iexists _; isplitr
              swap; · iexact HS2
              ipureintro; exact View.read_writes_of_cover _ _ _ _ _ (coverLast2 V c t h0' h3' _ _ _ _)
            unfold owns; iexists _; isplitr
            swap; · iexact HS3
            ipureintro; exact View.read_writes_of_cover _ _ _ _ _ (coverLast3 V c t h0' h3' _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (coverLastO8 V c t h0' h3' _ _ _ _)
      unfold owns; iexists _; isplitr
      swap; · iexact H9
      ipureintro; exact View.read_writes_of_cover _ _ _ _ _ (coverLastO9 V c t h0' h3' _ _ _ _)
    · -- k = 1, 2
      have h3' : ¬atK3 (grid0.coords t) := fun h => h3 ((atK3_iff t).mp h)
      rw [Dat.leavesExact_idle (dat V c) 8 t (idle8 t h3') (noFlush8 t h3'), Dat.leavesExact_idle (dat V c) 9 t (idle9 t h3') (noFlush9 t h3')]
      rw [stateAt_mid V c t h0 h3 h0' h3']
      dsimp only
      rw [Phi_castSucc V c t, Phi_pos V c _ _ hz]
      iintro ⟨⟨⟨⟨HS0, HS1, HS2, HS3⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((rMid V c t h0' h3' (prev0 V c t) (prev1 V c t) (prev2 V c t) (prev3 V c t)).2.2.2.2 Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HS3]; · iexact HS3
      iintro ⟨H0, H1, H2, H3, ⟨%e0, HS0⟩, ⟨%e1, HS1⟩, ⟨%e2, HS2⟩, ⟨%e3, HS3⟩⟩
      isplitl [HS0 HS1 HS2 HS3 HR Hg]
      · isplitl [HS0 HS1 HS2 HS3 HR]
        · isplitl [HS0 HS1 HS2 HS3]
          · isplitl [HS0]
            · unfold owns; iexists _; isplitr
              swap; · iexact HS0
              ipureintro; exact View.read_writes_of_cover _ _ _ _ _ (coverMid0 V c t h0' h3' _ _ _ _)
            isplitl [HS1]
            · unfold owns; iexists _; isplitr
              swap; · iexact HS1
              ipureintro; exact View.read_writes_of_cover _ _ _ _ _ (coverMid1 V c t h0' h3' _ _ _ _)
            isplitl [HS2]
            · unfold owns; iexists _; isplitr
              swap; · iexact HS2
              ipureintro; exact View.read_writes_of_cover _ _ _ _ _ (coverMid2 V c t h0' h3' _ _ _ _)
            unfold owns; iexists _; isplitr
            swap; · iexact HS3
            ipureintro; exact View.read_writes_of_cover _ _ _ _ _ (coverMid3 V c t h0' h3' _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists d8; iexact H8
      iexists d9; iexact H9

/-- The library's body obligation, at every point. -/
theorem body_obligation (c : Dev nD) : BodyObligation (dat (F := F) V c) (defs₀ (F := F)) Variants.none () Set.univ := fun t => by
  rw [bigSep_W0, bigSep_W0]
  exact sound_body V c t

theorem hin (c : Dev nD) : Pipeline.ΦA spec0 c ⊢ (dat V c).Φ 0 := by
  rw [show (dat V c).Φ 0 = Phi V c 0 (Nat.zero_le _) from rfl, Phi_zero V c 0 _ rfl]
  try exact Idealize.SL.BI.Entails.refl _

/-- After any point but the first the invariant gives the entry's form back: what the accumulators hold is forgotten. -/
theorem Phi_out (c : Dev nD) (t : Fin (cfg0.N + 1)) (ht : t.val ≠ 0) : (dat V c).Φ t ⊢ Pipeline.ΦA spec0 c := by
  rw [show (dat V c).Φ t = Phi V c t.val (Nat.le_of_lt_succ t.isLt) from rfl, Phi_pos V c _ _ ht, PhiA_eq]
  iintro ⟨⟨⟨HS0, HS1, HS2, HS3⟩, HR⟩, Hg⟩
  isplitl [HS0 HS1 HS2 HS3 HR]
  · isplitl [HS0 HS1 HS2 HS3]
    · isplitl [HS0]; · iexists _; iexact HS0
      isplitl [HS1]; · iexists _; iexact HS1
      isplitl [HS2]; · iexists _; iexact HS2
      iexists _; iexact HS3
    iexact HR
  iexact Hg

theorem hout (c : Dev nD) : (dat V c).Φ (Fin.last cfg0.N) ⊢ Pipeline.ΦA spec0 c :=
  Phi_out V c _ (by rw [Fin.val_last]; have : cfg0.N = 32 := N_0; omega)

end Cert.Kernel.Stage1

end
-- ==== Proof.K.Stage2Shared.lean ====
/-
  The second pallas_call (the two linear heads), grid 8 x 4: point t = 4 n + k works on output columns
  512 n .. 512 n + 511 and on the k-th block of 1024 contracted columns. What every case of its body shares:
  the two conditions of the body decided over the grid (k = 0: the accumulators are zeroed first; k = 3: the
  outputs are written), where the pipeline leaves the two output windows alone (every point with k < 3), the
  staging memrefs the body is called on, the two accumulators, each window's block read off its array, and
  the region's invariant before the first point with the two accumulators named.
-/
import proofs.«127443_j14396730376920_2_alg».proof.Proof.Gen.Kernel.Launch
import proofs.«127443_j14396730376920_2_alg».proof.Proof.Gen.Kernel.Skeleton
import proofs.«127443_j14396730376920_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Stage2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions -/

/-- The reduction coordinate k is 0: the body zeroes both accumulators before it adds to them. -/
abbrev atK0 (i : grid1.Coords) : Prop :=
  (Scalar.cmpi .ne (Scalar.extui (Scalar.cmpi .eq (BitVec.ofNat 32 (i 1).val) 0#32)) 0#32) = 1#1
/-- It holds at the points 4 n. -/
theorem atK0_iff : ∀ t : Fin cfg1.N, atK0 (grid1.coords t) ↔ t.val % 4 = 0 :=
  (by decide +kernel : ∀ t : Fin grid1.N, atK0 (grid1.coords t) ↔ t.val % 4 = 0)

/-- The reduction coordinate k is 3, the last: the body adds the bias rows and stores both outputs. -/
abbrev atK3 (i : grid1.Coords) : Prop := k1_cond2 i = 1#1
/-- It holds at the points 4 n + 3. -/
theorem atK3_iff : ∀ t : Fin cfg1.N, atK3 (grid1.coords t) ↔ t.val % 4 = 3 :=
  (by decide +kernel : ∀ t : Fin grid1.N, atK3 (grid1.coords t) ↔ t.val % 4 = 3)

/-! ## Where the windows are idle -/

theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
theorem live3 : ∀ t : Fin cfg1.N, cfg1.idle 3 (grid1.coords t) = false := by decide +kernel
theorem live4 : ∀ t : Fin cfg1.N, cfg1.idle 4 (grid1.coords t) = false := by decide +kernel
theorem live5 : ∀ t : Fin cfg1.N, cfg1.idle 5 (grid1.coords t) = false := by decide +kernel
/-- Before the last reduction step the body stores nothing into the first output: its window is idle there, -/
theorem idle6 : ∀ t : Fin cfg1.N, ¬atK3 (grid1.coords t) → cfg1.idle 6 (grid1.coords t) = true := by decide +kernel
/-- and its block is not written back. -/
theorem noFlush6 : ∀ t : Fin cfg1.N, ¬atK3 (grid1.coords t) → (cfg1.win 6).flush t = false := by decide +kernel
/-- At the last reduction step it is live. -/
theorem live6 : ∀ t : Fin cfg1.N, atK3 (grid1.coords t) → cfg1.idle 6 (grid1.coords t) = false := by decide +kernel
/-- The same for the second output. -/
theorem idle7 : ∀ t : Fin cfg1.N, ¬atK3 (grid1.coords t) → cfg1.idle 7 (grid1.coords t) = true := by decide +kernel
theorem noFlush7 : ∀ t : Fin cfg1.N, ¬atK3 (grid1.coords t) → (cfg1.win 7).flush t = false := by decide +kernel
theorem live7 : ∀ t : Fin cfg1.N, atK3 (grid1.coords t) → cfg1.idle 7 (grid1.coords t) = false := by decide +kernel

/-! ## The memrefs the body is called on -/

abbrev ms0 (t : Fin cfg1.N) : Memref sig .tc .vmem S1024x1024 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x1024 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S512x1024 .bf16 := win1_2.stage (cfg1.slots t 2)
abbrev hs2 (t : Fin cfg1.N) : (ms2 t).IsWhole := hstage1_2 ((cfg1.slots t 2).cast nbuf1_2)
abbrev ms3 (t : Fin cfg1.N) : Memref sig .tc .vmem S512x1024 .bf16 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x512 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S1x512 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S1024x512 .f32 := win1_6.stage (cfg1.slots t 6)
abbrev hs6 (t : Fin cfg1.N) : (ms6 t).IsWhole := hstage1_6 ((cfg1.slots t 6).cast nbuf1_6)
abbrev ms7 (t : Fin cfg1.N) : Memref sig .tc .vmem S1024x512 .f32 := win1_7.stage (cfg1.slots t 7)
abbrev hs7 (t : Fin cfg1.N) : (ms7 t).IsWhole := hstage1_7 ((cfg1.slots t 7).cast nbuf1_7)

/-- The accumulator of the first head, a whole scoped buffer of the kernel's own. -/
abbrev accP : Memref sig .tc .vmem S1024x512 .f32 := Memref.whole cc1_scratch0
/-- The accumulator of the second head. -/
abbrev accQ : Memref sig .tc .vmem S1024x512 .f32 := Memref.whole cc1_scratch1
/-- The views through which what the accumulators and the outputs hold is stated. -/
abbrev viewP : View sig .tc .vmem S1024x512 .f32 := accP.view
abbrev viewQ : View sig .tc .vmem S1024x512 .f32 := accQ.view
abbrev viewO6 : View sig .tc .vmem S1024x512 .f32 := (Memref.whole cc1_stg6_0 : Memref sig .tc .vmem S1024x512 .f32).view
abbrev viewO7 : View sig .tc .vmem S1024x512 .f32 := (Memref.whole cc1_stg7_0 : Memref sig .tc .vmem S1024x512 .f32).view

/-! ## The region's invariant before the first point, with the accumulators named -/

theorem PhiA_eq (c : Dev nD) :
    (Pipeline.ΦA spec1 c : sProp 𝕄)
      = iprop(iprop(iprop((∃ d, owns (c : Thread nD τ) accP fullShare d) ∗ (∃ d, owns (c : Thread nD τ) accQ fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA; rw [scopedRest1_split]; simp only [accP, accQ, owns_whole]; try rfl

/-! ## The windows' blocks, at the contents the region is entered with -/

variable (V : (c : Dev nD) → (b : Ref sig .tc) → Buf (Elt F) ((c : Thread nD τ).loc b))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (a window whose
    index does not move along k is fetched once per n and keeps its block), for any proof data whose array is the
    entry contents and whose body leaves the block in place. -/
theorem before0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's current staging buffer holds its block at every point, fetched there or not (a window whose
    index does not move along k is fetched once per n and keeps its block), for any proof data whose array is the
    entry contents and whose body leaves the block in place. -/
theorem before1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's current staging buffer holds its block at every point, fetched there or not (a window whose
    index does not move along k is fetched once per n and keeps its block), for any proof data whose array is the
    entry contents and whose body leaves the block in place. -/
theorem before2 {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3's current staging buffer holds its block at every point, fetched there or not (a window whose
    index does not move along k is fetched once per n and keeps its block), for any proof data whose array is the
    entry contents and whose body leaves the block in place. -/
theorem before3 {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- Input window 4's current staging buffer holds its block at every point, fetched there or not (a window whose
    index does not move along k is fetched once per n and keeps its block), for any proof data whose array is the
    entry contents and whose body leaves the block in place. -/
theorem before4 {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- Input window 5's current staging buffer holds its block at every point, fetched there or not (a window whose
    index does not move along k is fetched once per n and keeps its block), for any proof data whose array is the
    entry contents and whose body leaves the block in place. -/
theorem before5 {c : Dev nD} (dat : Dat τ (Elt F) Unit ℕ (UR sig nD τ) ℕ cfg1 c) (hA : dat.A 5 = V c (Pipeline.arrRef spec1 5))
    (hafter : ∀ t, dat.after 5 t = blk V c 5 t) (t : Fin cfg1.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

end Cert.Kernel.Stage2

end
-- ==== Proof.K.Stage2RunMid.lean ====
/-
  The body of the second pallas_call run whole at a point with k = 1, 2 (one more block added to each accumulator): on whole staging memrefs —
  the six inputs at their contents, the accumulators at what the point before left — it runs to the continuation holding the inputs as they
  were and each accumulator with the pieces its stores wrote (last first). The body does not touch the two output buffers at such
  a point, so they are no part of the statement: whoever applies it keeps them as they are;
  each piece list records, latest store first, which rectangle of the buffer a store wrote and what it wrote there.
-/
import proofs.«127443_j14396730376920_2_alg».proof.Proof.K.Stage2Shared

set_option maxRecDepth 16384

noncomputable section

namespace Cert.Kernel.Stage2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runMid (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (hk0 : ¬atK0 i) (hk3 : ¬atK3 i)
    (x0 x1 : Vec F S1024x1024 .bf16) (x2 x3 : Vec F S512x1024 .bf16) (x4 x5 : Vec F S1x512 .f32) (sP sQ : Vec F S1024x512 .f32) :
    Σ' (LP : List (View.Piece (Elt F) S1024x512 .f32)), { LQ : List (View.Piece (Elt F) S1024x512 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg10 fullShare sP
            ∗ owns (c : Thread nD τ) arg11 fullShare sQ
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ (∃ f, arg10.view.loc (c : Thread nD τ) ↦[arg10.view.set]{fullShare} arg10.view.writes (Elt F) f LP)
                ∗ (∃ f, arg11.view.loc (c : Thread nD τ) ↦[arg11.view.set]{fullShare} arg11.view.writes (Elt F) f LQ)) -∗ K ⟨⟩))
          ⊢ wp frame (wpE (defs₀ (F := F)) Variants.none c none) E (cc1__stage2_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc1__stage2_kernel_eq_skeleton]; unfold cc1__stage2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fP, %hfP, HP⟩, ⟨%fQ, %hfQ, HQ⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfP; obtain rfl := harg11.eq_unread hfQ
    sl_exec (disch := first | exact hk0 | exact hk3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HP]; · iexists _; iexact HP
    iexists _; iexact HQ

end Cert.Kernel.Stage2

end
-- ==== Proof.K.Stage2RunFirst.lean ====
/-
  The body of the second pallas_call run whole at a point with k = 0 (the accumulators zeroed, then the first block added): on whole staging memrefs —
  the six inputs at their contents, the accumulators at anything — it runs to the continuation holding the inputs as they
  were and each accumulator with the pieces its stores wrote (last first). The body does not touch the two output buffers at such
  a point, so they are no part of the statement: whoever applies it keeps them as they are;
  each piece list records, latest store first, which rectangle of the buffer a store wrote and what it wrote there.
-/
import proofs.«127443_j14396730376920_2_alg».proof.Proof.K.Stage2RunMid

set_option maxRecDepth 16384

noncomputable section

namespace Cert.Kernel.Stage2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runFirst (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (hk0 : atK0 i) (hk3 : ¬atK3 i)
    (x0 x1 : Vec F S1024x1024 .bf16) (x2 x3 : Vec F S512x1024 .bf16) (x4 x5 : Vec F S1x512 .f32) :
    Σ' (LP : List (View.Piece (Elt F) S1024x512 .f32)), { LQ : List (View.Piece (Elt F) S1024x512 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ (∃ d, owns (c : Thread nD τ) arg10 fullShare d)
            ∗ (∃ d, owns (c : Thread nD τ) arg11 fullShare d)
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ (∃ f, arg10.view.loc (c : Thread nD τ) ↦[arg10.view.set]{fullShare} arg10.view.writes (Elt F) f LP)
                ∗ (∃ f, arg11.view.loc (c : Thread nD τ) ↦[arg11.view.set]{fullShare} arg11.view.writes (Elt F) f LQ)) -∗ K ⟨⟩))
          ⊢ wp frame (wpE (defs₀ (F := F)) Variants.none c none) E (cc1__stage2_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc1__stage2_kernel_eq_skeleton]; unfold cc1__stage2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dP, %fP, -, HP⟩, ⟨%dQ, %fQ, -, HQ⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hk0 | exact hk3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HP]; · iexists _; iexact HP
    iexists _; iexact HQ

end Cert.Kernel.Stage2

end
-- ==== Proof.K.Stage2RunLast.lean ====
/-
  The body of the second pallas_call run whole at a point with k = 3 (the last block added, then both outputs stored: accumulator plus bias row): on whole staging memrefs —
  the six inputs at their contents, the two outputs at anything, the accumulators at what the point before left — it runs to the continuation
  holding the inputs as they were and each output and accumulator with the pieces its stores wrote (last first);
  each piece list records, latest store first, which rectangle of the buffer a store wrote and what it wrote there.
-/
import proofs.«127443_j14396730376920_2_alg».proof.Proof.K.Stage2RunFirst

set_option maxRecDepth 16384

noncomputable section

namespace Cert.Kernel.Stage2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runLast (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (hk0 : ¬atK0 i) (hk3 : atK3 i)
    (x0 x1 : Vec F S1024x1024 .bf16) (x2 x3 : Vec F S512x1024 .bf16) (x4 x5 : Vec F S1x512 .f32) (sP sQ : Vec F S1024x512 .f32) :
    Σ' (L6 : List (View.Piece (Elt F) S1024x512 .f32)) (L7 : List (View.Piece (Elt F) S1024x512 .f32)) (LP : List (View.Piece (Elt F) S1024x512 .f32)), { LQ : List (View.Piece (Elt F) S1024x512 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ (∃ d, owns (c : Thread nD τ) arg8 fullShare d)
            ∗ (∃ d, owns (c : Thread nD τ) arg9 fullShare d)
            ∗ owns (c : Thread nD τ) arg10 fullShare sP
            ∗ owns (c : Thread nD τ) arg11 fullShare sQ
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f L7)
                ∗ (∃ f, arg10.view.loc (c : Thread nD τ) ↦[arg10.view.set]{fullShare} arg10.view.writes (Elt F) f LP)
                ∗ (∃ f, arg11.view.loc (c : Thread nD τ) ↦[arg11.view.set]{fullShare} arg11.view.writes (Elt F) f LQ)) -∗ K ⟨⟩))
          ⊢ wp frame (wpE (defs₀ (F := F)) Variants.none c none) E (cc1__stage2_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__stage2_kernel_eq_skeleton]; unfold cc1__stage2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fP, %hfP, HP⟩, ⟨%fQ, %hfQ, HQ⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfP; obtain rfl := harg11.eq_unread hfQ
    sl_exec (disch := first | exact hk0 | exact hk3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HP]; · iexists _; iexact HP
    iexists _; iexact HQ

end Cert.Kernel.Stage2

end
-- ==== Proof.K.Stage2State.lean ====
/-
  The second pallas_call point by point. After point t = 4 n + k each accumulator holds, for output columns
  512 n .. 512 n + 511, the first k + 1 blocks of its contraction added in order (zero, then block 0, then block 1, ...);
  after a point with k = 3 each output buffer holds its accumulator plus the bias row. These contents are read off the
  three whole-body runs; the invariant between points carries the two accumulators at them, and the body at any point
  takes the invariant and the windows' buffers to the invariant and the buffers one point on.
-/
import proofs.«127443_j14396730376920_2_alg».proof.Proof.K.Stage2RunLast

set_option maxRecDepth 16384

noncomputable section

namespace Cert.Kernel.Stage2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three runs at a point's own memrefs and blocks -/

abbrev rFirst (c : Dev nD) (t : Fin cfg1.N) (h0 : atK0 (grid1.coords t)) (h3 : ¬atK3 (grid1.coords t)) :=
  runFirst (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) accP (Memref.isWhole_whole _) accQ (Memref.isWhole_whole _) h0 h3 (blk V c 0 t) (blk V c 1 t) (blk V c 2 t) (blk V c 3 t) (blk V c 4 t) (blk V c 5 t)
abbrev rMid (c : Dev nD) (t : Fin cfg1.N) (h0 : ¬atK0 (grid1.coords t)) (h3 : ¬atK3 (grid1.coords t)) (sP sQ : Vec F S1024x512 .f32) :=
  runMid (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) accP (Memref.isWhole_whole _) accQ (Memref.isWhole_whole _) h0 h3 (blk V c 0 t) (blk V c 1 t) (blk V c 2 t) (blk V c 3 t) (blk V c 4 t) (blk V c 5 t) sP sQ
abbrev rLast (c : Dev nD) (t : Fin cfg1.N) (h0 : ¬atK0 (grid1.coords t)) (h3 : atK3 (grid1.coords t)) (sP sQ : Vec F S1024x512 .f32) :=
  runLast (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) accP (Memref.isWhole_whole _) accQ (Memref.isWhole_whole _) h0 h3 (blk V c 0 t) (blk V c 1 t) (blk V c 2 t) (blk V c 3 t) (blk V c 4 t) (blk V c 5 t) sP sQ

/-- What a list of pieces leaves in a buffer of this shape, read back (over contents that do not matter once the
    pieces cover the buffer). -/
abbrev readP (L : List (View.Piece (Elt F) S1024x512 .f32)) : Vec F S1024x512 .f32 := viewP.read (Elt F) (viewP.writes (Elt F) viewP.junk L)
abbrev readQ (L : List (View.Piece (Elt F) S1024x512 .f32)) : Vec F S1024x512 .f32 := viewQ.read (Elt F) (viewQ.writes (Elt F) viewQ.junk L)
abbrev readO6 (L : List (View.Piece (Elt F) S1024x512 .f32)) : Vec F S1024x512 .f32 := viewO6.read (Elt F) (viewO6.writes (Elt F) viewO6.junk L)
abbrev readO7 (L : List (View.Piece (Elt F) S1024x512 .f32)) : Vec F S1024x512 .f32 := viewO7.read (Elt F) (viewO7.writes (Elt F) viewO7.junk L)
/-- A placeholder for an output buffer at a point that does not store it: nothing reads it, since the block is neither
    written back there nor kept for the next point. -/
abbrev noOut : Vec F S1024x512 .f32 × Vec F S1024x512 .f32 := (viewO6.read (Elt F) viewO6.junk, viewO7.read (Elt F) viewO7.junk)

/-! ## The pieces cover their buffers -/

theorem coverFirstP (c : Dev nD) (t : Fin cfg1.N) (h0) (h3) (y : S1024x512.Idx) : ∃ pc ∈ (rFirst V c t h0 h3).1, y ∈ pc.1.set :=
  View.cover_of_tiledL (rFirst V c t h0 h3).1 S1024x512.size (by sl_kernel_rfl) y
theorem coverFirstQ (c : Dev nD) (t : Fin cfg1.N) (h0) (h3) (y : S1024x512.Idx) : ∃ pc ∈ (rFirst V c t h0 h3).2.1, y ∈ pc.1.set :=
  View.cover_of_tiledL (rFirst V c t h0 h3).2.1 S1024x512.size (by sl_kernel_rfl) y
theorem coverMidP (c : Dev nD) (t : Fin cfg1.N) (h0) (h3) (sP sQ) (y : S1024x512.Idx) : ∃ pc ∈ (rMid V c t h0 h3 sP sQ).1, y ∈ pc.1.set :=
  View.cover_of_tiledL (rMid V c t h0 h3 sP sQ).1 S1024x512.size (by sl_kernel_rfl) y
theorem coverMidQ (c : Dev nD) (t : Fin cfg1.N) (h0) (h3) (sP sQ) (y : S1024x512.Idx) : ∃ pc ∈ (rMid V c t h0 h3 sP sQ).2.1, y ∈ pc.1.set :=
  View.cover_of_tiledL (rMid V c t h0 h3 sP sQ).2.1 S1024x512.size (by sl_kernel_rfl) y
theorem coverLastO6 (c : Dev nD) (t : Fin cfg1.N) (h0) (h3) (sP sQ) (y : S1024x512.Idx) : ∃ pc ∈ (rLast V c t h0 h3 sP sQ).1, y ∈ pc.1.set :=
  View.cover_of_tiledL (rLast V c t h0 h3 sP sQ).1 S1024x512.size (by sl_kernel_rfl) y
theorem coverLastO7 (c : Dev nD) (t : Fin cfg1.N) (h0) (h3) (sP sQ) (y : S1024x512.Idx) : ∃ pc ∈ (rLast V c t h0 h3 sP sQ).2.1, y ∈ pc.1.set :=
  View.cover_of_tiledL (rLast V c t h0 h3 sP sQ).2.1 S1024x512.size (by sl_kernel_rfl) y
theorem coverLastP (c : Dev nD) (t : Fin cfg1.N) (h0) (h3) (sP sQ) (y : S1024x512.Idx) : ∃ pc ∈ (rLast V c t h0 h3 sP sQ).2.2.1, y ∈ pc.1.set :=
  View.cover_of_tiledL (rLast V c t h0 h3 sP sQ).2.2.1 S1024x512.size (by sl_kernel_rfl) y
theorem coverLastQ (c : Dev nD) (t : Fin cfg1.N) (h0) (h3) (sP sQ) (y : S1024x512.Idx) : ∃ pc ∈ (rLast V c t h0 h3 sP sQ).2.2.2.1, y ∈ pc.1.set :=
  View.cover_of_tiledL (rLast V c t h0 h3 sP sQ).2.2.2.1 S1024x512.size (by sl_kernel_rfl) y

/-! ## What the outputs and the accumulators hold after each point -/

/-- After position `n`: (the two output buffers, the two accumulators). The case is the one k = n mod 4 selects; a point
    with k > 0 starts from the accumulators the point before left. -/
def stateAt (c : Dev nD) : (n : ℕ) → n < cfg1.N → (Vec F S1024x512 .f32 × Vec F S1024x512 .f32) × (Vec F S1024x512 .f32 × Vec F S1024x512 .f32)
  | 0, hn =>
    (noOut, (readP (rFirst V c ⟨0, hn⟩ ((atK0_iff ⟨0, hn⟩).mpr (Nat.zero_mod _)) (fun h => absurd ((atK3_iff ⟨0, hn⟩).mp h) (by show ¬ (0 % 4 = 3); decide))).1,
             readQ (rFirst V c ⟨0, hn⟩ ((atK0_iff ⟨0, hn⟩).mpr (Nat.zero_mod _)) (fun h => absurd ((atK3_iff ⟨0, hn⟩).mp h) (by show ¬ (0 % 4 = 3); decide))).2.1))
  | n + 1, hn =>
    if h0 : (n + 1) % 4 = 0 then
      (noOut, (readP (rFirst V c ⟨n + 1, hn⟩ ((atK0_iff ⟨n + 1, hn⟩).mpr h0) (fun h => by have h' := (atK3_iff ⟨n + 1, hn⟩).mp h; (try dsimp only at h'); omega)).1,
               readQ (rFirst V c ⟨n + 1, hn⟩ ((atK0_iff ⟨n + 1, hn⟩).mpr h0) (fun h => by have h' := (atK3_iff ⟨n + 1, hn⟩).mp h; (try dsimp only at h'); omega)).2.1))
    else if h3 : (n + 1) % 4 = 3 then
      ((readO6 (rLast V c ⟨n + 1, hn⟩ (fun h => h0 ((atK0_iff ⟨n + 1, hn⟩).mp h)) ((atK3_iff ⟨n + 1, hn⟩).mpr h3) (stateAt c n (Nat.lt_of_succ_lt hn)).2.1 (stateAt c n (Nat.lt_of_succ_lt hn)).2.2).1,
        readO7 (rLast V c ⟨n + 1, hn⟩ (fun h => h0 ((atK0_iff ⟨n + 1, hn⟩).mp h)) ((atK3_iff ⟨n + 1, hn⟩).mpr h3) (stateAt c n (Nat.lt_of_succ_lt hn)).2.1 (stateAt c n (Nat.lt_of_succ_lt hn)).2.2).2.1),
       (readP (rLast V c ⟨n + 1, hn⟩ (fun h => h0 ((atK0_iff ⟨n + 1, hn⟩).mp h)) ((atK3_iff ⟨n + 1, hn⟩).mpr h3) (stateAt c n (Nat.lt_of_succ_lt hn)).2.1 (stateAt c n (Nat.lt_of_succ_lt hn)).2.2).2.2.1,
        readQ (rLast V c ⟨n + 1, hn⟩ (fun h => h0 ((atK0_iff ⟨n + 1, hn⟩).mp h)) ((atK3_iff ⟨n + 1, hn⟩).mpr h3) (stateAt c n (Nat.lt_of_succ_lt hn)).2.1 (stateAt c n (Nat.lt_of_succ_lt hn)).2.2).2.2.2.1))
    else
      (noOut, (readP (rMid V c ⟨n + 1, hn⟩ (fun h => h0 ((atK0_iff ⟨n + 1, hn⟩).mp h)) (fun h => h3 ((atK3_iff ⟨n + 1, hn⟩).mp h)) (stateAt c n (Nat.lt_of_succ_lt hn)).2.1 (stateAt c n (Nat.lt_of_succ_lt hn)).2.2).1,
               readQ (rMid V c ⟨n + 1, hn⟩ (fun h => h0 ((atK0_iff ⟨n + 1, hn⟩).mp h)) (fun h => h3 ((atK3_iff ⟨n + 1, hn⟩).mp h)) (stateAt c n (Nat.lt_of_succ_lt hn)).2.1 (stateAt c n (Nat.lt_of_succ_lt hn)).2.2).2.1))

/-- The accumulators the point before `t` left. -/
abbrev prevP (c : Dev nD) (t : Fin cfg1.N) : Vec F S1024x512 .f32 := (stateAt V c (t.val - 1) (Nat.lt_of_le_of_lt (Nat.sub_le _ _) t.isLt)).2.1
abbrev prevQ (c : Dev nD) (t : Fin cfg1.N) : Vec F S1024x512 .f32 := (stateAt V c (t.val - 1) (Nat.lt_of_le_of_lt (Nat.sub_le _ _) t.isLt)).2.2

/-- At a point with k = 0. -/
theorem stateAt_first (c : Dev nD) (t : Fin cfg1.N) (h0 : t.val % 4 = 0) (h0' : atK0 (grid1.coords t)) (h3' : ¬atK3 (grid1.coords t)) :
    stateAt V c t.val t.isLt = (noOut, (readP (rFirst V c t h0' h3').1, readQ (rFirst V c t h0' h3').2.1)) := by
  obtain ⟨n, hn⟩ := t
  cases n with
  | zero => rfl
  | succ n => exact (dif_pos h0).trans rfl

/-- At a point with k = 1 or 2. -/
theorem stateAt_mid (c : Dev nD) (t : Fin cfg1.N) (h0 : ¬t.val % 4 = 0) (h3 : ¬t.val % 4 = 3) (h0' : ¬atK0 (grid1.coords t)) (h3' : ¬atK3 (grid1.coords t)) :
    stateAt V c t.val t.isLt = (noOut, (readP (rMid V c t h0' h3' (prevP V c t) (prevQ V c t)).1, readQ (rMid V c t h0' h3' (prevP V c t) (prevQ V c t)).2.1)) := by
  obtain ⟨n, hn⟩ := t
  cases n with
  | zero => exact absurd (Nat.zero_mod _) h0
  | succ n => exact (dif_neg h0).trans ((dif_neg h3).trans rfl)

/-- At a point with k = 3. -/
theorem stateAt_last (c : Dev nD) (t : Fin cfg1.N) (h0 : ¬t.val % 4 = 0) (h3 : t.val % 4 = 3) (h0' : ¬atK0 (grid1.coords t)) (h3' : atK3 (grid1.coords t)) :
    stateAt V c t.val t.isLt = ((readO6 (rLast V c t h0' h3' (prevP V c t) (prevQ V c t)).1, readO7 (rLast V c t h0' h3' (prevP V c t) (prevQ V c t)).2.1),
      (readP (rLast V c t h0' h3' (prevP V c t) (prevQ V c t)).2.2.1, readQ (rLast V c t h0' h3' (prevP V c t) (prevQ V c t)).2.2.2.1)) := by
  obtain ⟨n, hn⟩ := t
  cases n with
  | zero => exact absurd (Nat.zero_mod _) h0
  | succ n => exact (dif_neg h0).trans ((dif_pos h3).trans rfl)

/-! ## The invariant between points -/

/-- Before position `n`: at the region's entry the scoped buffers at anything and the generator register at some state;
    afterwards the same with the two accumulators at what the point before left. -/
def Phi (c : Dev nD) : (n : ℕ) → n ≤ cfg1.N → sProp 𝕄
  | 0, _ => Pipeline.ΦA spec1 c
  | n + 1, hn => iprop(iprop(iprop(owns (c : Thread nD τ) accP fullShare (stateAt V c n hn).2.1 ∗ owns (c : Thread nD τ) accQ fullShare (stateAt V c n hn).2.2)
        ∗ Pipeline.scopedRestBut (Ix := Unit) (Name := ℕ) (U := UR sig nD τ) (Lvl := ℕ) (Val := Elt F) spec1 c [cc1_scratch0, cc1_scratch1])
        ∗ (∃ r, prngReg c r))

theorem Phi_zero (c : Dev nD) (n : ℕ) (h : n ≤ cfg1.N) (hz : n = 0) : Phi V c n h = Pipeline.ΦA spec1 c := by
  subst hz; rfl
theorem Phi_succ (c : Dev nD) (n : ℕ) (hn : n < cfg1.N) :
    Phi V c (n + 1) hn = iprop(iprop(iprop(owns (c : Thread nD τ) accP fullShare (stateAt V c n hn).2.1 ∗ owns (c : Thread nD τ) accQ fullShare (stateAt V c n hn).2.2)
        ∗ Pipeline.scopedRestBut (Ix := Unit) (Name := ℕ) (U := UR sig nD τ) (Lvl := ℕ) (Val := Elt F) spec1 c [cc1_scratch0, cc1_scratch1])
        ∗ (∃ r, prngReg c r)) := rfl
theorem Phi_pos (c : Dev nD) (n : ℕ) (h : n ≤ cfg1.N) (hz : n ≠ 0) :
    Phi V c n h = iprop(iprop(iprop(owns (c : Thread nD τ) accP fullShare (stateAt V c (n - 1) (by omega)).2.1 ∗ owns (c : Thread nD τ) accQ fullShare (stateAt V c (n - 1) (by omega)).2.2)
        ∗ Pipeline.scopedRestBut (Ix := Unit) (Name := ℕ) (U := UR sig nD τ) (Lvl := ℕ) (Val := Elt F) spec1 c [cc1_scratch0, cc1_scratch1])
        ∗ (∃ r, prngReg c r)) := by
  cases n with
  | zero => exact absurd rfl hz
  | succ n => rfl

/-! ## The pipeline's proof data -/

/-- The arrays as the region finds them; after the body at point `t` each input's buffer at its block and the outputs'
    at `stateAt`; the invariant above; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => (stateAt V c t.val t.isLt).1.1
    | ⟨7, _⟩ => (stateAt V c t.val t.isLt).1.2
  Φ t := Phi V c t.val (Nat.le_of_lt_succ t.isLt)
  q _ := fullShare
  owed _ := 0

theorem A_eq (c : Dev nD) (w : Fin cfg1.W) : (dat V c).A w = V c (Pipeline.arrRef spec1 w) := by
  dsimp only [dat]
theorem Phi_castSucc (c : Dev nD) (t : Fin cfg1.N) : (dat V c).Φ t.castSucc = Phi V c t.val (Nat.le_of_lt t.isLt) := by
  dsimp only [dat]; simp only [Fin.coe_castSucc]
theorem after0 (c : Dev nD) (t : Fin cfg1.N) : (dat V c).after 0 t = blk V c 0 t := by dsimp only [dat]
theorem after1 (c : Dev nD) (t : Fin cfg1.N) : (dat V c).after 1 t = blk V c 1 t := by dsimp only [dat]
theorem after2 (c : Dev nD) (t : Fin cfg1.N) : (dat V c).after 2 t = blk V c 2 t := by dsimp only [dat]
theorem after3 (c : Dev nD) (t : Fin cfg1.N) : (dat V c).after 3 t = blk V c 3 t := by dsimp only [dat]
theorem after4 (c : Dev nD) (t : Fin cfg1.N) : (dat V c).after 4 t = blk V c 4 t := by dsimp only [dat]
theorem after5 (c : Dev nD) (t : Fin cfg1.N) : (dat V c).after 5 t = blk V c 5 t := by dsimp only [dat]
theorem after6 (c : Dev nD) (t : Fin cfg1.N) : (dat V c).after 6 t = (stateAt V c t.val t.isLt).1.1 := by dsimp only [dat]
theorem after7 (c : Dev nD) (t : Fin cfg1.N) : (dat V c).after 7 t = (stateAt V c t.val t.isLt).1.2 := by dsimp only [dat]
theorem found0 (c : Dev nD) (t : Fin cfg1.N) (d) : (dat V c).before 0 t d = blk V c 0 t :=
  before0 V (dat V c) (A_eq V c 0) (after0 V c) t d
theorem found1 (c : Dev nD) (t : Fin cfg1.N) (d) : (dat V c).before 1 t d = blk V c 1 t :=
  before1 V (dat V c) (A_eq V c 1) (after1 V c) t d
theorem found2 (c : Dev nD) (t : Fin cfg1.N) (d) : (dat V c).before 2 t d = blk V c 2 t :=
  before2 V (dat V c) (A_eq V c 2) (after2 V c) t d
theorem found3 (c : Dev nD) (t : Fin cfg1.N) (d) : (dat V c).before 3 t d = blk V c 3 t :=
  before3 V (dat V c) (A_eq V c 3) (after3 V c) t d
theorem found4 (c : Dev nD) (t : Fin cfg1.N) (d) : (dat V c).before 4 t d = blk V c 4 t :=
  before4 V (dat V c) (A_eq V c 4) (after4 V c) t d
theorem found5 (c : Dev nD) (t : Fin cfg1.N) (d) : (dat V c).before 5 t d = blk V c 5 t :=
  before5 V (dat V c) (A_eq V c 5) (after5 V c) t d
theorem leaves0 (c : Dev nD) (t : Fin cfg1.N) :
    (dat V c).leavesExact 0 t = owns (c : Thread nD τ) (ms0 t) fullShare (blk V c 0 t) := by
  unfold Dat.leavesExact; rw [live0 t, after0]
theorem leaves1 (c : Dev nD) (t : Fin cfg1.N) :
    (dat V c).leavesExact 1 t = owns (c : Thread nD τ) (ms1 t) fullShare (blk V c 1 t) := by
  unfold Dat.leavesExact; rw [live1 t, after1]
theorem leaves2 (c : Dev nD) (t : Fin cfg1.N) :
    (dat V c).leavesExact 2 t = owns (c : Thread nD τ) (ms2 t) fullShare (blk V c 2 t) := by
  unfold Dat.leavesExact; rw [live2 t, after2]
theorem leaves3 (c : Dev nD) (t : Fin cfg1.N) :
    (dat V c).leavesExact 3 t = owns (c : Thread nD τ) (ms3 t) fullShare (blk V c 3 t) := by
  unfold Dat.leavesExact; rw [live3 t, after3]
theorem leaves4 (c : Dev nD) (t : Fin cfg1.N) :
    (dat V c).leavesExact 4 t = owns (c : Thread nD τ) (ms4 t) fullShare (blk V c 4 t) := by
  unfold Dat.leavesExact; rw [live4 t, after4]
theorem leaves5 (c : Dev nD) (t : Fin cfg1.N) :
    (dat V c).leavesExact 5 t = owns (c : Thread nD τ) (ms5 t) fullShare (blk V c 5 t) := by
  unfold Dat.leavesExact; rw [live5 t, after5]

end Cert.Kernel.Stage2

end
-- ==== Proof.K.Stage2Body.lean ====
/-
  The second pallas_call's body at a generic point: from the invariant before the point and the windows' buffers as the
  pipeline hands them — each input at its block, each output at whatever it holds — to the invariant after the point and
  the buffers as the pipeline takes them back. The point's k = t mod 4 selects the case; the accumulators go into the
  case's run at what the point before left and come back at this point's contents.
-/
import proofs.«127443_j14396730376920_2_alg».proof.Proof.K.Stage2State

set_option maxRecDepth 16384

noncomputable section

namespace Cert.Kernel.Stage2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body at a generic point -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 4800000 in
/-- The inputs' buffers hold their blocks; k = t mod 4 says which case the point is in; the invariant hands the body the
    accumulators at what the point before left (at anything where k = 0, which overwrites them first) and takes them
    back at this point's contents; an output the case does not store is handed back as it was found. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [found0, found1, found2, found3, found4, found5]
  rw [show (dat V c).owesAt () t.succ = (dat V c).owesAt () t.castSucc from rfl]
  rw [show (dat V c).Φ t.succ = Phi V c (t.val + 1) t.isLt from rfl, Phi_succ]
  rw [leaves0, leaves1, leaves2, leaves3, leaves4, leaves5]
  have hN : t.val < 32 := lt_of_lt_of_eq t.isLt (show cfg1.N = 32 from N_1)
  by_cases h0 : t.val % 4 = 0
  · -- k = 0
    have h3 : ¬t.val % 4 = 3 := by omega
    have h0' := (atK0_iff t).mpr h0
    have h3' : ¬atK3 (grid1.coords t) := fun h => h3 ((atK3_iff t).mp h)
    rw [Dat.leavesExact_idle (dat V c) 6 t (idle6 t h3') (noFlush6 t h3'), Dat.leavesExact_idle (dat V c) 7 t (idle7 t h3') (noFlush7 t h3')]
    rw [stateAt_first V c t h0 h0' h3']
    dsimp only
    have hA : (dat V c).Φ t.castSucc ⊢ (iprop(iprop(iprop((∃ d, owns (c : Thread nD τ) accP fullShare d) ∗ (∃ d, owns (c : Thread nD τ) accQ fullShare d))
          ∗ Pipeline.scopedRestBut (Ix := Unit) (Name := ℕ) (U := UR sig nD τ) (Lvl := ℕ) (Val := Elt F) spec1 c [cc1_scratch0, cc1_scratch1])
          ∗ (∃ r, prngReg c r)) : sProp 𝕄) := by
      rw [Phi_castSucc V c t]
      by_cases hz : t.val = 0
      · rw [Phi_zero V c _ _ hz, PhiA_eq]; try exact .rfl
      · rw [Phi_pos V c _ _ hz]
        iintro ⟨⟨⟨HP, HQ⟩, HR⟩, Hg⟩
        isplitl [HP HQ HR]
        · isplitl [HP HQ]
          · isplitl [HP]; · iexists _; iexact HP
            iexists _; iexact HQ
          iexact HR
        iexact Hg
    iintro ⟨HΦ, Hrest⟩
    ihave HΦ' := hA $$ HΦ
    icases HΦ' with ⟨⟨⟨HP, HQ⟩, HR⟩, Hg⟩
    icases Hrest with ⟨Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((rFirst V c t h0' h3').2.2 Set.univ _)
    isplitl [H0]; · iexact H0
    isplitl [H1]; · iexact H1
    isplitl [H2]; · iexact H2
    isplitl [H3]; · iexact H3
    isplitl [H4]; · iexact H4
    isplitl [H5]; · iexact H5
    isplitl [HP]; · iexact HP
    isplitl [HQ]; · iexact HQ
    iintro ⟨H0, H1, H2, H3, H4, H5, ⟨%eP, HP⟩, ⟨%eQ, HQ⟩⟩
    isplitl [HP HQ HR Hg]
    · isplitl [HP HQ HR]
      · isplitl [HP HQ]
        · isplitl [HP]
          · unfold owns; iexists _; isplitr
            swap; · iexact HP
            ipureintro; exact View.read_writes_of_cover _ _ _ _ _ (coverFirstP V c t h0' h3')
          · unfold owns; iexists _; isplitr
            swap; · iexact HQ
            ipureintro; exact View.read_writes_of_cover _ _ _ _ _ (coverFirstQ V c t h0' h3')
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists d6; iexact H6
    iexists d7; iexact H7
  · have hz : t.val ≠ 0 := fun e => h0 (by rw [e])
    have h0' : ¬atK0 (grid1.coords t) := fun h => h0 ((atK0_iff t).mp h)
    by_cases h3 : t.val % 4 = 3
    · -- k = 3
      have h3' := (atK3_iff t).mpr h3
      rw [show (dat V c).leavesExact 6 t = owns (c : Thread nD τ) (ms6 t) fullShare ((dat V c).after 6 t) from by
        unfold Dat.leavesExact; rw [live6 t h3'], after6]
      rw [show (dat V c).leavesExact 7 t = owns (c : Thread nD τ) (ms7 t) fullShare ((dat V c).after 7 t) from by
        unfold Dat.leavesExact; rw [live7 t h3'], after7]
      rw [stateAt_last V c t h0 h3 h0' h3']
      dsimp only
      rw [Phi_castSucc V c t, Phi_pos V c _ _ hz]
      iintro ⟨⟨⟨⟨HP, HQ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((rLast V c t h0' h3' (prevP V c t) (prevQ V c t)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HP]; · iexact HP
      isplitl [HQ]; · iexact HQ
      iintro ⟨H0, H1, H2, H3, H4, H5, ⟨%e6, H6⟩, ⟨%e7, H7⟩, ⟨%eP, HP⟩, ⟨%eQ, HQ⟩⟩
      isplitl [HP HQ HR Hg]
      · isplitl [HP HQ HR]
        · isplitl [HP HQ]
          · isplitl [HP]
            · unfold owns; iexists _; isplitr
              swap; · iexact HP
              ipureintro; exact View.read_writes_of_cover _ _ _ _ _ (coverLastP V c t h0' h3' _ _)
            · unfold owns; iexists _; isplitr
              swap; · iexact HQ
              ipureintro; exact View.read_writes_of_cover _ _ _ _ _ (coverLastQ V c t h0' h3' _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverLastO6 V c t h0' h3' _ _)
      unfold owns; iexists _; isplitr
      swap; · iexact H7
      ipureintro; exact View.read_writes_of_cover _ _ _ _ _ (coverLastO7 V c t h0' h3' _ _)
    · -- k = 1, 2
      have h3' : ¬atK3 (grid1.coords t) := fun h => h3 ((atK3_iff t).mp h)
      rw [Dat.leavesExact_idle (dat V c) 6 t (idle6 t h3') (noFlush6 t h3'), Dat.leavesExact_idle (dat V c) 7 t (idle7 t h3') (noFlush7 t h3')]
      rw [stateAt_mid V c t h0 h3 h0' h3']
      dsimp only
      rw [Phi_castSucc V c t, Phi_pos V c _ _ hz]
      iintro ⟨⟨⟨⟨HP, HQ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((rMid V c t h0' h3' (prevP V c t) (prevQ V c t)).2.2 Set.univ _)
      isplitl [H0]; · iexact H0
      isplitl [H1]; · iexact H1
      isplitl [H2]; · iexact H2
      isplitl [H3]; · iexact H3
      isplitl [H4]; · iexact H4
      isplitl [H5]; · iexact H5
      isplitl [HP]; · iexact HP
      isplitl [HQ]; · iexact HQ
      iintro ⟨H0, H1, H2, H3, H4, H5, ⟨%eP, HP⟩, ⟨%eQ, HQ⟩⟩
      isplitl [HP HQ HR Hg]
      · isplitl [HP HQ HR]
        · isplitl [HP HQ]
          · isplitl [HP]
            · unfold owns; iexists _; isplitr
              swap; · iexact HP
              ipureintro; exact View.read_writes_of_cover _ _ _ _ _ (coverMidP V c t h0' h3' _ _)
            · unfold owns; iexists _; isplitr
              swap; · iexact HQ
              ipureintro; exact View.read_writes_of_cover _ _ _ _ _ (coverMidQ V c t h0' h3' _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists d6; iexact H6
      iexists d7; iexact H7

/-- The library's body obligation, at every point. -/
theorem body_obligation (c : Dev nD) : BodyObligation (dat (F := F) V c) (defs₀ (F := F)) Variants.none () Set.univ := fun t => by
  rw [bigSep_W1, bigSep_W1]
  exact sound_body V c t

/-- What the region's entry hands the body is the invariant before the first point. -/
theorem hin (c : Dev nD) : Pipeline.ΦA spec1 c ⊢ (dat V c).Φ 0 := by
  rw [show (dat V c).Φ 0 = Phi V c 0 (Nat.zero_le _) from rfl, Phi_zero V c 0 _ rfl]
  try exact Idealize.SL.BI.Entails.refl _

/-- After any point but the first the invariant gives the entry's form back: what the accumulators hold is forgotten. -/
theorem Phi_out (c : Dev nD) (t : Fin (cfg1.N + 1)) (ht : t.val ≠ 0) : (dat V c).Φ t ⊢ Pipeline.ΦA spec1 c := by
  rw [show (dat V c).Φ t = Phi V c t.val (Nat.le_of_lt_succ t.isLt) from rfl, Phi_pos V c _ _ ht, PhiA_eq]
  iintro ⟨⟨⟨HP, HQ⟩, HR⟩, Hg⟩
  isplitl [HP HQ HR]
  · isplitl [HP HQ]
    · isplitl [HP]; · iexists _; iexact HP
      iexists _; iexact HQ
    iexact HR
  iexact Hg

/-- The same after the last point. -/
theorem hout (c : Dev nD) : (dat V c).Φ (Fin.last cfg1.N) ⊢ Pipeline.ΦA spec1 c :=
  Phi_out V c _ (by rw [Fin.val_last]; have : cfg1.N = 32 := N_1; omega)

end Cert.Kernel.Stage2

end
-- ==== Proof.K.Whole.lean ====
/-
  The whole program: eight host operations (six changes of float format, two reshapes of a vector into a row), then the
  two pallas_calls. Between its three items each core holds every unscoped buffer whole at known contents: as launched;
  after the host operations; after the first call (its two result arrays at what its write-backs leave, every other
  buffer as before); after the second call likewise. Each call is entered from the contents before it and left at the
  contents after it, its body's obligation being the one proved point by point; so every weakly fair execution ends, no
  step faulting, with every unscoped buffer at the last contents — in particular each argument array as launched, and
  the two results at what the second call's write-backs leave.
-/
import proofs.«127443_j14396730376920_2_alg».proof.Proof.K.Stage1Body
import proofs.«127443_j14396730376920_2_alg».proof.Proof.K.Stage2Body
import Idealize.ShloMosaic.Lib.Pipeline.RegionsLoop
import Idealize.ShloMosaic.Lib.Pipeline.FrameSuffix

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- As launched. -/
abbrev W0 : Dev nD → Valuation τ sig (Elt F) := fun c b => (s₀ m ρ).mem ((c : Dev nD), b)
/-- After the host operations: what the first call is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first call: its arrays at what the pipeline leaves, every other buffer as entered. -/
def W2 (c : Dev nD) : Valuation τ sig (Elt F) :=
  Pipeline.withArrays spec0 c (W1 m ρ c) fun w => (Stage1.dat (V1 m ρ) c).arrAt w cfg0.N
theorem W2_arr (c : Dev nD) (w : Fin cfg0.W) :
    W2 m ρ c (Proc.devRef .tc (Pipeline.arrRef spec0 w)) = (Stage1.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Stage1.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the second call, which is entered with what the first left. -/
def W3 (c : Dev nD) : Valuation τ sig (Elt F) :=
  Pipeline.withArrays spec1 c (W2 m ρ c) fun w => (Stage2.dat (V2 m ρ) c).arrAt w cfg1.N
theorem W3_arr (c : Dev nD) (w : Fin cfg1.W) :
    W3 m ρ c (Proc.devRef .tc (Pipeline.arrRef spec1 w)) = (Stage2.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (Stage2.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched

No host operation and no call writes an argument: a call reads it through an input window or does not touch it. -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 4).trans (((Stage1.dat (V1 m ρ) c).arrAt_in 4 rfl _).trans (Stage1.A_eq (V1 m ρ) c 4))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 5).trans (((Stage1.dat (V1 m ρ) c).arrAt_in 5 rfl _).trans (Stage1.A_eq (V1 m ρ) c 5))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := (W2_arr m ρ c 6).trans (((Stage1.dat (V1 m ρ) c).arrAt_in 6 rfl _).trans (Stage1.A_eq (V1 m ρ) c 6))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := (W2_arr m ρ c 7).trans (((Stage1.dat (V1 m ρ) c).arrAt_in 7 rfl _).trans (Stage1.A_eq (V1 m ρ) c 7))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W3_main_arg9 (c : Dev nD) : W3 m ρ c (Proc.devRef .tc main_arg9) = m ((c : Thread nD τ).loc main_arg9) :=
  calc W3 m ρ c (Proc.devRef .tc main_arg9)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => Stage1.dat (V1 m ρ) c
  | ⟨1, _⟩ => fun c => Stage2.dat (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The calls as segments -/

set_option backward.isDefEq.respectTransparency.types false in
/-- The first pallas_call over the thread state: entered from every unscoped buffer at the contents before it, left at
    the contents after it. Its arrays are split out of the unscoped buffers and put back at what the pipeline leaves; the
    generator register goes into the region's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Stage1.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec0 c ⊢ (pdats m ρ 0 c).Φ 0 := Stage1.hin (V1 m ρ) c
    unfold Pipeline.ΦA at h
    iintro ⟨Hp, -, Hr⟩
    iapply h
    isplitl [Hr]; · iexact Hr
    iexact Hp
  hout c := by
    rw [Pipeline.ownSems0_none]
    have h : (pdats m ρ 0 c).Φ (Fin.last _) ⊢ Pipeline.ΦA spec0 c := Stage1.hout (V1 m ρ) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call over the thread state: entered from every unscoped buffer at the contents before it, left at
    the contents after it. Its arrays are split out of the unscoped buffers and put back at what the pipeline leaves; the
    generator register goes into the region's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Stage2.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec1 c ⊢ (pdats m ρ 1 c).Φ 0 := Stage2.hin (V2 m ρ) c
    unfold Pipeline.ΦA at h
    iintro ⟨Hp, -, Hr⟩
    iapply h
    isplitl [Hr]; · iexact Hr
    iexact Hp
  hout c := by
    rw [Pipeline.ownSems0_none]
    have h : (pdats m ρ 1 c).Φ (Fin.last _) ⊢ Pipeline.ΦA spec1 c := Stage2.hout (V2 m ρ) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (Pipeline.HostSeg.ofOps _ _ _ _ _ (Pipeline.ucRefs τ sig) hostOps0
      (fun op h => Pipeline.sub_ucRefs op ((List.forall_iff_forall_mem.mp hostOps0_sub) op h))
      (fun op h => (List.forall_iff_forall_mem.mp hostOps0_fresh) op h) (W0 m ρ) R),
    .region (reg0 m ρ),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, no step faulting, and in
    every final state each core's unscoped buffers hold the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c),
      (h c _ (mem_uc main_arg5 (by decide))).trans (W3_main_arg5 m ρ c),
      (h c _ (mem_uc main_arg6 (by decide))).trans (W3_main_arg6 m ρ c),
      (h c _ (mem_uc main_arg7 (by decide))).trans (W3_main_arg7 m ρ c),
      (h c _ (mem_uc main_arg8 (by decide))).trans (W3_main_arg8 m ρ c),
      (h c _ (mem_uc main_arg9 (by decide))).trans (W3_main_arg9 m ρ c)⟩) (run_all m ρ)

/-- The same run with the two results read as well: each at what the second call's write-backs leave. -/
theorem run_results : θ_run defs (onTc (τ := τ) (main (F := F))) ⟨m, fun _ => 0, ρ⟩ (fun r => ∀ c : Dev nD,
      r.2.mem ((c.tc : Thread nD τ).loc main_v9_0) = (Stage2.dat (V2 m ρ) c).arrAt 6 cfg1.N
      ∧ r.2.mem ((c.tc : Thread nD τ).loc main_v9_1) = (Stage2.dat (V2 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_v9_0 (by decide))).trans (W3_arr m ρ c 6),
      (h c _ (mem_uc main_v9_1 (by decide))).trans (W3_arr m ρ c 7),
      (h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c),
      (h c _ (mem_uc main_arg5 (by decide))).trans (W3_main_arg5 m ρ c),
      (h c _ (mem_uc main_arg6 (by decide))).trans (W3_main_arg6 m ρ c),
      (h c _ (mem_uc main_arg7 (by decide))).trans (W3_main_arg7 m ρ c),
      (h c _ (mem_uc main_arg8 (by decide))).trans (W3_main_arg8 m ρ c),
      (h c _ (mem_uc main_arg9 (by decide))).trans (W3_main_arg9 m ρ c)⟩) (run_all m ρ)

end Cert.Kernel.Whole

end
-- ==== Proof.KI.Stage1Shared.lean ====
/-
  The first pallas_call (the two bilinear combinations), grid 8 x 4: point t = 4 n + k works on output columns
  512 n .. 512 n + 511 and on the k-th block of 1024 contracted columns. What every case of its body shares: the two
  conditions of the body decided over the grid (k = 0: the four accumulators are zeroed first; k = 3: the combinations
  are formed and both outputs written), where the pipeline leaves the two output windows alone (every point with k < 3),
  the staging memrefs the body is called on, the four accumulators, each window's block read off its array, and the
  region's invariant before the first point with the four accumulators named.
-/
import proofs.«127443_j14396730376920_2_alg».proof.Proof.Gen.KernelIdeal.Launch
import proofs.«127443_j14396730376920_2_alg».proof.Proof.Gen.KernelIdeal.Skeleton
import proofs.«127443_j14396730376920_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Stage1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions -/

/-- The reduction coordinate k is 0: the body zeroes the four accumulators before it adds to them. -/
abbrev atK0 (i : grid0.Coords) : Prop :=
  (Scalar.cmpi .ne (Scalar.extui (Scalar.cmpi .eq (BitVec.ofNat 32 (i 1).val) 0#32)) 0#32) = 1#1
theorem atK0_iff : ∀ t : Fin cfg0.N, atK0 (grid0.coords t) ↔ t.val % 4 = 0 :=
  (by decide +kernel : ∀ t : Fin grid0.N, atK0 (grid0.coords t) ↔ t.val % 4 = 0)
/-- The reduction coordinate k is 3, the last: the body forms both combinations and stores both outputs. -/
abbrev atK3 (i : grid0.Coords) : Prop := k0_cond2 i = 1#1
theorem atK3_iff : ∀ t : Fin cfg0.N, atK3 (grid0.coords t) ↔ t.val % 4 = 3 :=
  (by decide +kernel : ∀ t : Fin grid0.N, atK3 (grid0.coords t) ↔ t.val % 4 = 3)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
/-- Before the last reduction step the body stores nothing into output window 8: it is idle there and its block is not written back; at the last step it is live. -/
theorem idle8 : ∀ t : Fin cfg0.N, ¬atK3 (grid0.coords t) → cfg0.idle 8 (grid0.coords t) = true := by decide +kernel
theorem noFlush8 : ∀ t : Fin cfg0.N, ¬atK3 (grid0.coords t) → (cfg0.win 8).flush t = false := by decide +kernel
theorem live8 : ∀ t : Fin cfg0.N, atK3 (grid0.coords t) → cfg0.idle 8 (grid0.coords t) = false := by decide +kernel
/-- Before the last reduction step the body stores nothing into output window 9: it is idle there and its block is not written back; at the last step it is live. -/
theorem idle9 : ∀ t : Fin cfg0.N, ¬atK3 (grid0.coords t) → cfg0.idle 9 (grid0.coords t) = true := by decide +kernel
theorem noFlush9 : ∀ t : Fin cfg0.N, ¬atK3 (grid0.coords t) → (cfg0.win 9).flush t = false := by decide +kernel
theorem live9 : ∀ t : Fin cfg0.N, atK3 (grid0.coords t) → cfg0.idle 9 (grid0.coords t) = false := by decide +kernel

/-! ## The memrefs the body is called on -/

abbrev ms0 (t : Fin cfg0.N) : Memref sig .tc .vmem S1024x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x512 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1024x512 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S1024x512 .bf16 := win0_9.stage (cfg0.slots t 9)
abbrev hs9 (t : Fin cfg0.N) : (ms9 t).IsWhole := hstage0_9 ((cfg0.slots t 9).cast nbuf0_9)

/-- The four accumulators (of u against G, w against G, u against B, w against B): whole scoped buffers of the kernel's own. -/
abbrev acc0 : Memref sig .tc .vmem S1024x512 .f32 := Memref.whole cc0_scratch0
abbrev vacc0 : View sig .tc .vmem S1024x512 .f32 := acc0.view
abbrev acc1 : Memref sig .tc .vmem S1024x512 .f32 := Memref.whole cc0_scratch1
abbrev vacc1 : View sig .tc .vmem S1024x512 .f32 := acc1.view
abbrev acc2 : Memref sig .tc .vmem S1024x512 .f32 := Memref.whole cc0_scratch2
abbrev vacc2 : View sig .tc .vmem S1024x512 .f32 := acc2.view
abbrev acc3 : Memref sig .tc .vmem S1024x512 .f32 := Memref.whole cc0_scratch3
abbrev vacc3 : View sig .tc .vmem S1024x512 .f32 := acc3.view
/-- The views through which what the two outputs hold is stated. -/
abbrev viewO8 : View sig .tc .vmem S1024x512 .bf16 := (Memref.whole cc0_stg8_0 : Memref sig .tc .vmem S1024x512 .bf16).view
abbrev viewO9 : View sig .tc .vmem S1024x512 .bf16 := (Memref.whole cc0_stg9_0 : Memref sig .tc .vmem S1024x512 .bf16).view

/-! ## The region's invariant before the first point, with the accumulators named -/

/-- The scoped buffers that are no staging buffer of this call, split at its four accumulators. -/
theorem scopedRest_split (c : Dev nD) :
    (Pipeline.scopedRest (Ix := Unit) (Name := ℕ) (U := UR sig nD τ) (Lvl := ℕ) (Val := Elt F) spec0 c : sProp 𝕄)
      = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f))
          ∗ Pipeline.scopedRestBut (Ix := Unit) (Name := ℕ) (U := UR sig nD τ) (Lvl := ℕ) (Val := Elt F) spec0 c [cc0_scratch0, cc0_scratch1, cc0_scratch2, cc0_scratch3]) :=
  Pipeline.scopedRest_split_of_list spec0 c [cc0_scratch0, cc0_scratch1, cc0_scratch2, cc0_scratch3] (by decide) (by decide)

theorem PhiA_eq (c : Dev nD) :
    (Pipeline.ΦA spec0 c : sProp 𝕄)
      = iprop(iprop(iprop((∃ d, owns (c : Thread nD τ) acc0 fullShare d) ∗ (∃ d, owns (c : Thread nD τ) acc1 fullShare d) ∗ (∃ d, owns (c : Thread nD τ) acc2 fullShare d) ∗ (∃ d, owns (c : Thread nD τ) acc3 fullShare d))
          ∗ Pipeline.scopedRestBut (Ix := Unit) (Name := ℕ) (U := UR sig nD τ) (Lvl := ℕ) (Val := Elt F) spec0 c [cc0_scratch0, cc0_scratch1, cc0_scratch2, cc0_scratch3])
          ∗ (∃ r, prngReg c r)) := by
  unfold Pipeline.ΦA; rw [scopedRest_split]; simp only [acc0, acc1, acc2, acc3, owns_whole]; try rfl

/-! ## The windows' blocks, at the contents the region is entered with -/

variable (V : (c : Dev nD) → (b : Ref sig .tc) → Buf (Elt F) ((c : Thread nD τ).loc b))

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0 {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's current staging buffer holds its block at every point, fetched there or not. -/
theorem before1 {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's current staging buffer holds its block at every point, fetched there or not. -/
theorem before2 {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3's current staging buffer holds its block at every point, fetched there or not. -/
theorem before3 {c : Dev nD} (dat : Dat τ (Elt F) Unit ℕ (UR sig nD τ) ℕ cfg0 c) (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- Input window 4's current staging buffer holds its block at every point, fetched there or not. -/
theorem before4 {c : Dev nD} (dat : Dat τ (Elt F) Unit ℕ (UR sig nD τ) ℕ cfg0 c) (hA : dat.A 4 = V c (Pipeline.arrRef spec0 4))
    (hafter : ∀ t, dat.after 4 t = blk V c 4 t) (t : Fin cfg0.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- Input window 5's current staging buffer holds its block at every point, fetched there or not. -/
theorem before5 {c : Dev nD} (dat : Dat τ (Elt F) Unit ℕ (UR sig nD τ) ℕ cfg0 c) (hA : dat.A 5 = V c (Pipeline.arrRef spec0 5))
    (hafter : ∀ t, dat.after 5 t = blk V c 5 t) (t : Fin cfg0.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-- Input window 6's current staging buffer holds its block at every point, fetched there or not. -/
theorem before6 {c : Dev nD} (dat : Dat τ (Elt F) Unit ℕ (UR sig nD τ) ℕ cfg0 c) (hA : dat.A 6 = V c (Pipeline.arrRef spec0 6))
    (hafter : ∀ t, dat.after 6 t = blk V c 6 t) (t : Fin cfg0.N) (d) : dat.before 6 t d = blk V c 6 t :=
  (dat.before_in_eq_fetched 6 rfl (fun _ => rfl) (fun _ _ _ => rfl) (fun t => by rw [hafter]; unfold Dat.blockOf blk; rw [hA]; try rfl) t d).trans
    (by unfold Dat.fetched Dat.blockOf blk; rw [hA]; try rfl)

/-- Input window 7's current staging buffer holds its block at every point, fetched there or not. -/
theorem before7 {c : Dev nD} (dat : Dat τ (Elt F) Unit ℕ (UR sig nD τ) ℕ cfg0 c) (hA : dat.A 7 = V c (Pipeline.arrRef spec0 7))
    (hafter : ∀ t, dat.after 7 t = blk V c 7 t) (t : Fin cfg0.N) (d) : dat.before 7 t d = blk V c 7 t :=
  (dat.before_in_eq_fetched 7 rfl (fun _ => rfl) (fun _ _ _ => rfl) (fun t => by rw [hafter]; unfold Dat.blockOf blk; rw [hA]; try rfl) t d).trans
    (by unfold Dat.fetched Dat.blockOf blk; rw [hA]; try rfl)

end Cert.KernelIdeal.Stage1

end
-- ==== Proof.KI.Stage1RunMid.lean ====
/-
  The body of the first pallas_call run whole at a point with k = 1, 2 (one more block added to each accumulator): on whole staging memrefs —
  the four inputs the case reads at their contents, the accumulators at what the point before left — it runs to the continuation holding those inputs
  as they were and each accumulator with the pieces its stores wrote (last first). The body touches neither the other four inputs nor the
  two outputs at such a point, so they are no part of the statement: whoever applies it keeps them as they are;
  each piece list records, latest store first, which rectangle of the buffer a store wrote and what it wrote there.
-/
import proofs.«127443_j14396730376920_2_alg».proof.Proof.KI.Stage1Shared

set_option maxRecDepth 16384

noncomputable section

namespace Cert.KernelIdeal.Stage1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def runMid (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x512 .f32) (harg14 : arg14.IsWhole) (arg15 : Memref sig .tc .vmem S1024x512 .f32) (harg15 : arg15.IsWhole) (hk0 : ¬atK0 i) (hk3 : ¬atK3 i)
    (x0 : Vec F S1024x1024 .bf16) (x1 : Vec F S1024x1024 .bf16) (x2 : Vec F S512x1024 .bf16) (x3 : Vec F S512x1024 .bf16) (sA0 sA1 sA2 sA3 : Vec F S1024x512 .f32) :
    Σ' (LA0 : List (View.Piece (Elt F) S1024x512 .f32)) (LA1 : List (View.Piece (Elt F) S1024x512 .f32)) (LA2 : List (View.Piece (Elt F) S1024x512 .f32)), { LA3 : List (View.Piece (Elt F) S1024x512 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg12 fullShare sA0
            ∗ owns (c : Thread nD τ) arg13 fullShare sA1
            ∗ owns (c : Thread nD τ) arg14 fullShare sA2
            ∗ owns (c : Thread nD τ) arg15 fullShare sA3
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ (∃ f, arg12.view.loc (c : Thread nD τ) ↦[arg12.view.set]{fullShare} arg12.view.writes (Elt F) f LA0)
                ∗ (∃ f, arg13.view.loc (c : Thread nD τ) ↦[arg13.view.set]{fullShare} arg13.view.writes (Elt F) f LA1)
                ∗ (∃ f, arg14.view.loc (c : Thread nD τ) ↦[arg14.view.set]{fullShare} arg14.view.writes (Elt F) f LA2)
                ∗ (∃ f, arg15.view.loc (c : Thread nD τ) ↦[arg15.view.set]{fullShare} arg15.view.writes (Elt F) f LA3)) -∗ K ⟨⟩))
          ⊢ wp frame (wpE (defs₀ (F := F)) Variants.none c none) E (cc0__stage1_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc0__stage1_kernel_eq_skeleton]; unfold cc0__stage1_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg12.eq_unread hfs0; obtain rfl := harg13.eq_unread hfs1; obtain rfl := harg14.eq_unread hfs2; obtain rfl := harg15.eq_unread hfs3
    sl_exec (disch := first | exact hk0 | exact hk3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    isplitl [HS2]; · iexists _; iexact HS2
    iexists _; iexact HS3

end Cert.KernelIdeal.Stage1

end
-- ==== Proof.KI.Stage1RunFirst.lean ====
/-
  The body of the first pallas_call run whole at a point with k = 0 (the four accumulators zeroed, then the first block added to each): on whole staging memrefs —
  the four inputs the case reads at their contents, the accumulators at anything — it runs to the continuation holding those inputs
  as they were and each accumulator with the pieces its stores wrote (last first). The body touches neither the other four inputs nor the
  two outputs at such a point, so they are no part of the statement: whoever applies it keeps them as they are;
  each piece list records, latest store first, which rectangle of the buffer a store wrote and what it wrote there.
-/
import proofs.«127443_j14396730376920_2_alg».proof.Proof.KI.Stage1RunMid

set_option maxRecDepth 16384

noncomputable section

namespace Cert.KernelIdeal.Stage1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def runFirst (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x512 .f32) (harg14 : arg14.IsWhole) (arg15 : Memref sig .tc .vmem S1024x512 .f32) (harg15 : arg15.IsWhole) (hk0 : atK0 i) (hk3 : ¬atK3 i)
    (x0 : Vec F S1024x1024 .bf16) (x1 : Vec F S1024x1024 .bf16) (x2 : Vec F S512x1024 .bf16) (x3 : Vec F S512x1024 .bf16) :
    Σ' (LA0 : List (View.Piece (Elt F) S1024x512 .f32)) (LA1 : List (View.Piece (Elt F) S1024x512 .f32)) (LA2 : List (View.Piece (Elt F) S1024x512 .f32)), { LA3 : List (View.Piece (Elt F) S1024x512 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ (∃ d, owns (c : Thread nD τ) arg12 fullShare d)
            ∗ (∃ d, owns (c : Thread nD τ) arg13 fullShare d)
            ∗ (∃ d, owns (c : Thread nD τ) arg14 fullShare d)
            ∗ (∃ d, owns (c : Thread nD τ) arg15 fullShare d)
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ (∃ f, arg12.view.loc (c : Thread nD τ) ↦[arg12.view.set]{fullShare} arg12.view.writes (Elt F) f LA0)
                ∗ (∃ f, arg13.view.loc (c : Thread nD τ) ↦[arg13.view.set]{fullShare} arg13.view.writes (Elt F) f LA1)
                ∗ (∃ f, arg14.view.loc (c : Thread nD τ) ↦[arg14.view.set]{fullShare} arg14.view.writes (Elt F) f LA2)
                ∗ (∃ f, arg15.view.loc (c : Thread nD τ) ↦[arg15.view.set]{fullShare} arg15.view.writes (Elt F) f LA3)) -∗ K ⟨⟩))
          ⊢ wp frame (wpE (defs₀ (F := F)) Variants.none c none) E (cc0__stage1_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc0__stage1_kernel_eq_skeleton]; unfold cc0__stage1_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3
    sl_exec (disch := first | exact hk0 | exact hk3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    isplitl [HS2]; · iexists _; iexact HS2
    iexists _; iexact HS3

end Cert.KernelIdeal.Stage1

end
-- ==== Proof.KI.Stage1RunLast.lean ====
/-
  The body of the first pallas_call run whole at a point with k = 3 (the last block added to each accumulator, then both combinations formed and stored): on whole staging memrefs —
  the eight inputs at their contents, the two outputs at anything, the accumulators at what the point before left — it runs to the
  continuation holding the inputs as they were and each output and accumulator with the pieces its stores wrote (last first);
  each piece list records, latest store first, which rectangle of the buffer a store wrote and what it wrote there.
-/
import proofs.«127443_j14396730376920_2_alg».proof.Proof.KI.Stage1RunFirst

set_option maxRecDepth 16384

noncomputable section

namespace Cert.KernelIdeal.Stage1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
noncomputable def runLast (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1024x512 .f32) (harg6 : arg6.IsWhole) (arg7 : Memref sig .tc .vmem S1024x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x512 .f32) (harg14 : arg14.IsWhole) (arg15 : Memref sig .tc .vmem S1024x512 .f32) (harg15 : arg15.IsWhole) (hk0 : ¬atK0 i) (hk3 : atK3 i)
    (x0 : Vec F S1024x1024 .bf16) (x1 : Vec F S1024x1024 .bf16) (x2 : Vec F S512x1024 .bf16) (x3 : Vec F S512x1024 .bf16) (x4 : Vec F S1024x512 .f32) (x5 : Vec F S1024x512 .f32) (x6 : Vec F S1x512 .f32) (x7 : Vec F S1x512 .f32) (sA0 sA1 sA2 sA3 : Vec F S1024x512 .f32) :
    Σ' (L8 : List (View.Piece (Elt F) S1024x512 .bf16)) (L9 : List (View.Piece (Elt F) S1024x512 .bf16)) (LA0 : List (View.Piece (Elt F) S1024x512 .f32)) (LA1 : List (View.Piece (Elt F) S1024x512 .f32)) (LA2 : List (View.Piece (Elt F) S1024x512 .f32)), { LA3 : List (View.Piece (Elt F) S1024x512 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare x6
            ∗ owns (c : Thread nD τ) arg9 fullShare x7
            ∗ (∃ d, owns (c : Thread nD τ) arg10 fullShare d)
            ∗ (∃ d, owns (c : Thread nD τ) arg11 fullShare d)
            ∗ owns (c : Thread nD τ) arg12 fullShare sA0
            ∗ owns (c : Thread nD τ) arg13 fullShare sA1
            ∗ owns (c : Thread nD τ) arg14 fullShare sA2
            ∗ owns (c : Thread nD τ) arg15 fullShare sA3
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare x6
                ∗ owns (c : Thread nD τ) arg9 fullShare x7
                ∗ (∃ f, arg10.view.loc (c : Thread nD τ) ↦[arg10.view.set]{fullShare} arg10.view.writes (Elt F) f L8)
                ∗ (∃ f, arg11.view.loc (c : Thread nD τ) ↦[arg11.view.set]{fullShare} arg11.view.writes (Elt F) f L9)
                ∗ (∃ f, arg12.view.loc (c : Thread nD τ) ↦[arg12.view.set]{fullShare} arg12.view.writes (Elt F) f LA0)
                ∗ (∃ f, arg13.view.loc (c : Thread nD τ) ↦[arg13.view.set]{fullShare} arg13.view.writes (Elt F) f LA1)
                ∗ (∃ f, arg14.view.loc (c : Thread nD τ) ↦[arg14.view.set]{fullShare} arg14.view.writes (Elt F) f LA2)
                ∗ (∃ f, arg15.view.loc (c : Thread nD τ) ↦[arg15.view.set]{fullShare} arg15.view.writes (Elt F) f LA3)) -∗ K ⟨⟩))
          ⊢ wp frame (wpE (defs₀ (F := F)) Variants.none c none) E (cc0__stage1_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, fun E K => ?run⟩
  case run =>
    simp only [cc0__stage1_kernel_eq_skeleton]; unfold cc0__stage1_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hfs0; obtain rfl := harg13.eq_unread hfs1; obtain rfl := harg14.eq_unread hfs2; obtain rfl := harg15.eq_unread hfs3
    sl_exec (disch := first | exact hk0 | exact hk3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [HS0]; · iexists _; iexact HS0
    isplitl [HS1]; · iexists _; iexact HS1
    isplitl [HS2]; · iexists _; iexact HS2
    iexists _; iexact HS3

end Cert.KernelIdeal.Stage1

end
-- ==== Proof.KI.Stage1State.lean ====
/-
  The first pallas_call point by point. After point t = 4 n + k each of the four accumulators holds, for output columns
  512 n .. 512 n + 511, the first k + 1 blocks of its contraction added in order (zero, then block 0, then block 1, ...);
  after a point with k = 3 the two output buffers hold the two combinations of the inputs' entries with the four
  accumulated products, plus the bias rows. These contents are read off the three whole-body runs; the invariant between
  points carries the four accumulators at them.
-/
import proofs.«127443_j14396730376920_2_alg».proof.Proof.KI.Stage1RunLast

set_option maxRecDepth 16384

noncomputable section

namespace Cert.KernelIdeal.Stage1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three runs at a point's own memrefs and blocks -/

abbrev rFirst (c : Dev nD) (t : Fin cfg0.N) (h0 : atK0 (grid0.coords t)) (h3 : ¬atK3 (grid0.coords t)) :=
  runFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) acc0 (Memref.isWhole_whole _) acc1 (Memref.isWhole_whole _) acc2 (Memref.isWhole_whole _) acc3 (Memref.isWhole_whole _) h0 h3 (blk V c 0 t) (blk V c 1 t) (blk V c 2 t) (blk V c 3 t)
abbrev rMid (c : Dev nD) (t : Fin cfg0.N) (h0 : ¬atK0 (grid0.coords t)) (h3 : ¬atK3 (grid0.coords t)) (s0 s1 s2 s3 : Vec F S1024x512 .f32) :=
  runMid (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) acc0 (Memref.isWhole_whole _) acc1 (Memref.isWhole_whole _) acc2 (Memref.isWhole_whole _) acc3 (Memref.isWhole_whole _) h0 h3 (blk V c 0 t) (blk V c 1 t) (blk V c 2 t) (blk V c 3 t) s0 s1 s2 s3
abbrev rLast (c : Dev nD) (t : Fin cfg0.N) (h0 : ¬atK0 (grid0.coords t)) (h3 : atK3 (grid0.coords t)) (s0 s1 s2 s3 : Vec F S1024x512 .f32) :=
  runLast (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) acc0 (Memref.isWhole_whole _) acc1 (Memref.isWhole_whole _) acc2 (Memref.isWhole_whole _) acc3 (Memref.isWhole_whole _) h0 h3 (blk V c 0 t) (blk V c 1 t) (blk V c 2 t) (blk V c 3 t) (blk V c 4 t) (blk V c 5 t) (blk V c 6 t) (blk V c 7 t) s0 s1 s2 s3

/-- What a list of pieces leaves in a buffer of this shape, read back (over contents that do not matter once the
    pieces cover the buffer). -/
abbrev readA0 (L : List (View.Piece (Elt F) S1024x512 .f32)) : Vec F S1024x512 .f32 := vacc0.read (Elt F) (vacc0.writes (Elt F) vacc0.junk L)
abbrev readA1 (L : List (View.Piece (Elt F) S1024x512 .f32)) : Vec F S1024x512 .f32 := vacc1.read (Elt F) (vacc1.writes (Elt F) vacc1.junk L)
abbrev readA2 (L : List (View.Piece (Elt F) S1024x512 .f32)) : Vec F S1024x512 .f32 := vacc2.read (Elt F) (vacc2.writes (Elt F) vacc2.junk L)
abbrev readA3 (L : List (View.Piece (Elt F) S1024x512 .f32)) : Vec F S1024x512 .f32 := vacc3.read (Elt F) (vacc3.writes (Elt F) vacc3.junk L)
abbrev readO8 (L : List (View.Piece (Elt F) S1024x512 .bf16)) : Vec F S1024x512 .bf16 := viewO8.read (Elt F) (viewO8.writes (Elt F) viewO8.junk L)
abbrev readO9 (L : List (View.Piece (Elt F) S1024x512 .bf16)) : Vec F S1024x512 .bf16 := viewO9.read (Elt F) (viewO9.writes (Elt F) viewO9.junk L)
/-- A placeholder for an output buffer at a point that does not store it: nothing reads it, since the block is neither
    written back there nor kept for the next point. -/
abbrev noOut : Vec F S1024x512 .bf16 × Vec F S1024x512 .bf16 := (viewO8.read (Elt F) viewO8.junk, viewO9.read (Elt F) viewO9.junk)

/-! ## The pieces cover their buffers -/

theorem coverFirst0 (c : Dev nD) (t : Fin cfg0.N) (h0) (h3) (y : S1024x512.Idx) : ∃ pc ∈ (rFirst V c t h0 h3).1, y ∈ pc.1.set :=
  View.cover_of_tiledL (rFirst V c t h0 h3).1 S1024x512.size (by sl_kernel_rfl) y
theorem coverFirst1 (c : Dev nD) (t : Fin cfg0.N) (h0) (h3) (y : S1024x512.Idx) : ∃ pc ∈ (rFirst V c t h0 h3).2.1, y ∈ pc.1.set :=
  View.cover_of_tiledL (rFirst V c t h0 h3).2.1 S1024x512.size (by sl_kernel_rfl) y
theorem coverFirst2 (c : Dev nD) (t : Fin cfg0.N) (h0) (h3) (y : S1024x512.Idx) : ∃ pc ∈ (rFirst V c t h0 h3).2.2.1, y ∈ pc.1.set :=
  View.cover_of_tiledL (rFirst V c t h0 h3).2.2.1 S1024x512.size (by sl_kernel_rfl) y
theorem coverFirst3 (c : Dev nD) (t : Fin cfg0.N) (h0) (h3) (y : S1024x512.Idx) : ∃ pc ∈ (rFirst V c t h0 h3).2.2.2.1, y ∈ pc.1.set :=
  View.cover_of_tiledL (rFirst V c t h0 h3).2.2.2.1 S1024x512.size (by sl_kernel_rfl) y
theorem coverMid0 (c : Dev nD) (t : Fin cfg0.N) (h0) (h3) (s0 s1 s2 s3) (y : S1024x512.Idx) : ∃ pc ∈ (rMid V c t h0 h3 s0 s1 s2 s3).1, y ∈ pc.1.set :=
  View.cover_of_tiledL (rMid V c t h0 h3 s0 s1 s2 s3).1 S1024x512.size (by sl_kernel_rfl) y
theorem coverMid1 (c : Dev nD) (t : Fin cfg0.N) (h0) (h3) (s0 s1 s2 s3) (y : S1024x512.Idx) : ∃ pc ∈ (rMid V c t h0 h3 s0 s1 s2 s3).2.1, y ∈ pc.1.set :=
  View.cover_of_tiledL (rMid V c t h0 h3 s0 s1 s2 s3).2.1 S1024x512.size (by sl_kernel_rfl) y
theorem coverMid2 (c : Dev nD) (t : Fin cfg0.N) (h0) (h3) (s0 s1 s2 s3) (y : S1024x512.Idx) : ∃ pc ∈ (rMid V c t h0 h3 s0 s1 s2 s3).2.2.1, y ∈ pc.1.set :=
  View.cover_of_tiledL (rMid V c t h0 h3 s0 s1 s2 s3).2.2.1 S1024x512.size (by sl_kernel_rfl) y
theorem coverMid3 (c : Dev nD) (t : Fin cfg0.N) (h0) (h3) (s0 s1 s2 s3) (y : S1024x512.Idx) : ∃ pc ∈ (rMid V c t h0 h3 s0 s1 s2 s3).2.2.2.1, y ∈ pc.1.set :=
  View.cover_of_tiledL (rMid V c t h0 h3 s0 s1 s2 s3).2.2.2.1 S1024x512.size (by sl_kernel_rfl) y
theorem coverLastO8 (c : Dev nD) (t : Fin cfg0.N) (h0) (h3) (s0 s1 s2 s3) (y : S1024x512.Idx) : ∃ pc ∈ (rLast V c t h0 h3 s0 s1 s2 s3).1, y ∈ pc.1.set :=
  View.cover_of_tiledL (rLast V c t h0 h3 s0 s1 s2 s3).1 S1024x512.size (by sl_kernel_rfl) y
theorem coverLastO9 (c : Dev nD) (t : Fin cfg0.N) (h0) (h3) (s0 s1 s2 s3) (y : S1024x512.Idx) : ∃ pc ∈ (rLast V c t h0 h3 s0 s1 s2 s3).2.1, y ∈ pc.1.set :=
  View.cover_of_tiledL (rLast V c t h0 h3 s0 s1 s2 s3).2.1 S1024x512.size (by sl_kernel_rfl) y
theorem coverLast0 (c : Dev nD) (t : Fin cfg0.N) (h0) (h3) (s0 s1 s2 s3) (y : S1024x512.Idx) : ∃ pc ∈ (rLast V c t h0 h3 s0 s1 s2 s3).2.2.1, y ∈ pc.1.set :=
  View.cover_of_tiledL (rLast V c t h0 h3 s0 s1 s2 s3).2.2.1 S1024x512.size (by sl_kernel_rfl) y
theorem coverLast1 (c : Dev nD) (t : Fin cfg0.N) (h0) (h3) (s0 s1 s2 s3) (y : S1024x512.Idx) : ∃ pc ∈ (rLast V c t h0 h3 s0 s1 s2 s3).2.2.2.1, y ∈ pc.1.set :=
  View.cover_of_tiledL (rLast V c t h0 h3 s0 s1 s2 s3).2.2.2.1 S1024x512.size (by sl_kernel_rfl) y
theorem coverLast2 (c : Dev nD) (t : Fin cfg0.N) (h0) (h3) (s0 s1 s2 s3) (y : S1024x512.Idx) : ∃ pc ∈ (rLast V c t h0 h3 s0 s1 s2 s3).2.2.2.2.1, y ∈ pc.1.set :=
  View.cover_of_tiledL (rLast V c t h0 h3 s0 s1 s2 s3).2.2.2.2.1 S1024x512.size (by sl_kernel_rfl) y
theorem coverLast3 (c : Dev nD) (t : Fin cfg0.N) (h0) (h3) (s0 s1 s2 s3) (y : S1024x512.Idx) : ∃ pc ∈ (rLast V c t h0 h3 s0 s1 s2 s3).2.2.2.2.2.1, y ∈ pc.1.set :=
  View.cover_of_tiledL (rLast V c t h0 h3 s0 s1 s2 s3).2.2.2.2.2.1 S1024x512.size (by sl_kernel_rfl) y

/-! ## What the outputs and the accumulators hold after each point -/

set_option maxHeartbeats 4000000 in
/-- After position `n`: (the two output buffers, the four accumulators). The case is the one k = n mod 4 selects; a point
    with k > 0 starts from the accumulators the point before left. -/
def stateAt (c : Dev nD) : (n : ℕ) → n < cfg0.N → (Vec F S1024x512 .bf16 × Vec F S1024x512 .bf16) × (Vec F S1024x512 .f32 × Vec F S1024x512 .f32 × Vec F S1024x512 .f32 × Vec F S1024x512 .f32)
  | 0, hn =>
    (noOut, (readA0 (rFirst V c ⟨0, hn⟩ ((atK0_iff ⟨0, hn⟩).mpr (Nat.zero_mod _)) (fun h => absurd ((atK3_iff ⟨0, hn⟩).mp h) (by show ¬ (0 % 4 = 3); decide))).1,
         readA1 (rFirst V c ⟨0, hn⟩ ((atK0_iff ⟨0, hn⟩).mpr (Nat.zero_mod _)) (fun h => absurd ((atK3_iff ⟨0, hn⟩).mp h) (by show ¬ (0 % 4 = 3); decide))).2.1,
         readA2 (rFirst V c ⟨0, hn⟩ ((atK0_iff ⟨0, hn⟩).mpr (Nat.zero_mod _)) (fun h => absurd ((atK3_iff ⟨0, hn⟩).mp h) (by show ¬ (0 % 4 = 3); decide))).2.2.1,
         readA3 (rFirst V c ⟨0, hn⟩ ((atK0_iff ⟨0, hn⟩).mpr (Nat.zero_mod _)) (fun h => absurd ((atK3_iff ⟨0, hn⟩).mp h) (by show ¬ (0 % 4 = 3); decide))).2.2.2.1))
  | n + 1, hn =>
    if h0 : (n + 1) % 4 = 0 then
      (noOut, (readA0 (rFirst V c ⟨n + 1, hn⟩ ((atK0_iff ⟨n + 1, hn⟩).mpr h0) (fun h => by have h' := (atK3_iff ⟨n + 1, hn⟩).mp h; (try dsimp only at h'); omega)).1,
         readA1 (rFirst V c ⟨n + 1, hn⟩ ((atK0_iff ⟨n + 1, hn⟩).mpr h0) (fun h => by have h' := (atK3_iff ⟨n + 1, hn⟩).mp h; (try dsimp only at h'); omega)).2.1,
         readA2 (rFirst V c ⟨n + 1, hn⟩ ((atK0_iff ⟨n + 1, hn⟩).mpr h0) (fun h => by have h' := (atK3_iff ⟨n + 1, hn⟩).mp h; (try dsimp only at h'); omega)).2.2.1,
         readA3 (rFirst V c ⟨n + 1, hn⟩ ((atK0_iff ⟨n + 1, hn⟩).mpr h0) (fun h => by have h' := (atK3_iff ⟨n + 1, hn⟩).mp h; (try dsimp only at h'); omega)).2.2.2.1))
    else if h3 : (n + 1) % 4 = 3 then
      ((readO8 (rLast V c ⟨n + 1, hn⟩ (fun h => h0 ((atK0_iff ⟨n + 1, hn⟩).mp h)) ((atK3_iff ⟨n + 1, hn⟩).mpr h3) (stateAt c n (Nat.lt_of_succ_lt hn)).2.1 (stateAt c n (Nat.lt_of_succ_lt hn)).2.2.1 (stateAt c n (Nat.lt_of_succ_lt hn)).2.2.2.1 (stateAt c n (Nat.lt_of_succ_lt hn)).2.2.2.2).1,
        readO9 (rLast V c ⟨n + 1, hn⟩ (fun h => h0 ((atK0_iff ⟨n + 1, hn⟩).mp h)) ((atK3_iff ⟨n + 1, hn⟩).mpr h3) (stateAt c n (Nat.lt_of_succ_lt hn)).2.1 (stateAt c n (Nat.lt_of_succ_lt hn)).2.2.1 (stateAt c n (Nat.lt_of_succ_lt hn)).2.2.2.1 (stateAt c n (Nat.lt_of_succ_lt hn)).2.2.2.2).2.1),
       (readA0 (rLast V c ⟨n + 1, hn⟩ (fun h => h0 ((atK0_iff ⟨n + 1, hn⟩).mp h)) ((atK3_iff ⟨n + 1, hn⟩).mpr h3) (stateAt c n (Nat.lt_of_succ_lt hn)).2.1 (stateAt c n (Nat.lt_of_succ_lt hn)).2.2.1 (stateAt c n (Nat.lt_of_succ_lt hn)).2.2.2.1 (stateAt c n (Nat.lt_of_succ_lt hn)).2.2.2.2).2.2.1,
         readA1 (rLast V c ⟨n + 1, hn⟩ (fun h => h0 ((atK0_iff ⟨n + 1, hn⟩).mp h)) ((atK3_iff ⟨n + 1, hn⟩).mpr h3) (stateAt c n (Nat.lt_of_succ_lt hn)).2.1 (stateAt c n (Nat.lt_of_succ_lt hn)).2.2.1 (stateAt c n (Nat.lt_of_succ_lt hn)).2.2.2.1 (stateAt c n (Nat.lt_of_succ_lt hn)).2.2.2.2).2.2.2.1,
         readA2 (rLast V c ⟨n + 1, hn⟩ (fun h => h0 ((atK0_iff ⟨n + 1, hn⟩).mp h)) ((atK3_iff ⟨n + 1, hn⟩).mpr h3) (stateAt c n (Nat.lt_of_succ_lt hn)).2.1 (stateAt c n (Nat.lt_of_succ_lt hn)).2.2.1 (stateAt c n (Nat.lt_of_succ_lt hn)).2.2.2.1 (stateAt c n (Nat.lt_of_succ_lt hn)).2.2.2.2).2.2.2.2.1,
         readA3 (rLast V c ⟨n + 1, hn⟩ (fun h => h0 ((atK0_iff ⟨n + 1, hn⟩).mp h)) ((atK3_iff ⟨n + 1, hn⟩).mpr h3) (stateAt c n (Nat.lt_of_succ_lt hn)).2.1 (stateAt c n (Nat.lt_of_succ_lt hn)).2.2.1 (stateAt c n (Nat.lt_of_succ_lt hn)).2.2.2.1 (stateAt c n (Nat.lt_of_succ_lt hn)).2.2.2.2).2.2.2.2.2.1))
    else
      (noOut, (readA0 (rMid V c ⟨n + 1, hn⟩ (fun h => h0 ((atK0_iff ⟨n + 1, hn⟩).mp h)) (fun h => h3 ((atK3_iff ⟨n + 1, hn⟩).mp h)) (stateAt c n (Nat.lt_of_succ_lt hn)).2.1 (stateAt c n (Nat.lt_of_succ_lt hn)).2.2.1 (stateAt c n (Nat.lt_of_succ_lt hn)).2.2.2.1 (stateAt c n (Nat.lt_of_succ_lt hn)).2.2.2.2).1,
         readA1 (rMid V c ⟨n + 1, hn⟩ (fun h => h0 ((atK0_iff ⟨n + 1, hn⟩).mp h)) (fun h => h3 ((atK3_iff ⟨n + 1, hn⟩).mp h)) (stateAt c n (Nat.lt_of_succ_lt hn)).2.1 (stateAt c n (Nat.lt_of_succ_lt hn)).2.2.1 (stateAt c n (Nat.lt_of_succ_lt hn)).2.2.2.1 (stateAt c n (Nat.lt_of_succ_lt hn)).2.2.2.2).2.1,
         readA2 (rMid V c ⟨n + 1, hn⟩ (fun h => h0 ((atK0_iff ⟨n + 1, hn⟩).mp h)) (fun h => h3 ((atK3_iff ⟨n + 1, hn⟩).mp h)) (stateAt c n (Nat.lt_of_succ_lt hn)).2.1 (stateAt c n (Nat.lt_of_succ_lt hn)).2.2.1 (stateAt c n (Nat.lt_of_succ_lt hn)).2.2.2.1 (stateAt c n (Nat.lt_of_succ_lt hn)).2.2.2.2).2.2.1,
         readA3 (rMid V c ⟨n + 1, hn⟩ (fun h => h0 ((atK0_iff ⟨n + 1, hn⟩).mp h)) (fun h => h3 ((atK3_iff ⟨n + 1, hn⟩).mp h)) (stateAt c n (Nat.lt_of_succ_lt hn)).2.1 (stateAt c n (Nat.lt_of_succ_lt hn)).2.2.1 (stateAt c n (Nat.lt_of_succ_lt hn)).2.2.2.1 (stateAt c n (Nat.lt_of_succ_lt hn)).2.2.2.2).2.2.2.1))

/-- The accumulators the point before `t` left. -/
abbrev prev0 (c : Dev nD) (t : Fin cfg0.N) : Vec F S1024x512 .f32 := (stateAt V c (t.val - 1) (Nat.lt_of_le_of_lt (Nat.sub_le _ _) t.isLt)).2.1
abbrev prev1 (c : Dev nD) (t : Fin cfg0.N) : Vec F S1024x512 .f32 := (stateAt V c (t.val - 1) (Nat.lt_of_le_of_lt (Nat.sub_le _ _) t.isLt)).2.2.1
abbrev prev2 (c : Dev nD) (t : Fin cfg0.N) : Vec F S1024x512 .f32 := (stateAt V c (t.val - 1) (Nat.lt_of_le_of_lt (Nat.sub_le _ _) t.isLt)).2.2.2.1
abbrev prev3 (c : Dev nD) (t : Fin cfg0.N) : Vec F S1024x512 .f32 := (stateAt V c (t.val - 1) (Nat.lt_of_le_of_lt (Nat.sub_le _ _) t.isLt)).2.2.2.2

set_option maxHeartbeats 4000000 in
theorem stateAt_first (c : Dev nD) (t : Fin cfg0.N) (h0 : t.val % 4 = 0) (h0' : atK0 (grid0.coords t)) (h3' : ¬atK3 (grid0.coords t)) :
    stateAt V c t.val t.isLt = (noOut, (readA0 (rFirst V c t h0' h3').1,
         readA1 (rFirst V c t h0' h3').2.1,
         readA2 (rFirst V c t h0' h3').2.2.1,
         readA3 (rFirst V c t h0' h3').2.2.2.1)) := by
  obtain ⟨n, hn⟩ := t
  cases n with
  | zero => rfl
  | succ n => exact (dif_pos h0).trans rfl

set_option maxHeartbeats 4000000 in
theorem stateAt_mid (c : Dev nD) (t : Fin cfg0.N) (h0 : ¬t.val % 4 = 0) (h3 : ¬t.val % 4 = 3) (h0' : ¬atK0 (grid0.coords t)) (h3' : ¬atK3 (grid0.coords t)) :
    stateAt V c t.val t.isLt = (noOut, (readA0 (rMid V c t h0' h3' (prev0 V c t) (prev1 V c t) (prev2 V c t) (prev3 V c t)).1,
         readA1 (rMid V c t h0' h3' (prev0 V c t) (prev1 V c t) (prev2 V c t) (prev3 V c t)).2.1,
         readA2 (rMid V c t h0' h3' (prev0 V c t) (prev1 V c t) (prev2 V c t) (prev3 V c t)).2.2.1,
         readA3 (rMid V c t h0' h3' (prev0 V c t) (prev1 V c t) (prev2 V c t) (prev3 V c t)).2.2.2.1)) := by
  obtain ⟨n, hn⟩ := t
  cases n with
  | zero => exact absurd (Nat.zero_mod _) h0
  | succ n => exact (dif_neg h0).trans ((dif_neg h3).trans rfl)

set_option maxHeartbeats 4000000 in
theorem stateAt_last (c : Dev nD) (t : Fin cfg0.N) (h0 : ¬t.val % 4 = 0) (h3 : t.val % 4 = 3) (h0' : ¬atK0 (grid0.coords t)) (h3' : atK3 (grid0.coords t)) :
    stateAt V c t.val t.isLt = ((readO8 (rLast V c t h0' h3' (prev0 V c t) (prev1 V c t) (prev2 V c t) (prev3 V c t)).1, readO9 (rLast V c t h0' h3' (prev0 V c t) (prev1 V c t) (prev2 V c t) (prev3 V c t)).2.1),
      (readA0 (rLast V c t h0' h3' (prev0 V c t) (prev1 V c t) (prev2 V c t) (prev3 V c t)).2.2.1,
         readA1 (rLast V c t h0' h3' (prev0 V c t) (prev1 V c t) (prev2 V c t) (prev3 V c t)).2.2.2.1,
         readA2 (rLast V c t h0' h3' (prev0 V c t) (prev1 V c t) (prev2 V c t) (prev3 V c t)).2.2.2.2.1,
         readA3 (rLast V c t h0' h3' (prev0 V c t) (prev1 V c t) (prev2 V c t) (prev3 V c t)).2.2.2.2.2.1)) := by
  obtain ⟨n, hn⟩ := t
  cases n with
  | zero => exact absurd (Nat.zero_mod _) h0
  | succ n => exact (dif_neg h0).trans ((dif_pos h3).trans rfl)

/-! ## The invariant between points -/

/-- Before position `n`: at the region's entry the scoped buffers at anything and the generator register at some state;
    afterwards the same with the four accumulators at what the point before left. -/
def Phi (c : Dev nD) : (n : ℕ) → n ≤ cfg0.N → sProp 𝕄
  | 0, _ => Pipeline.ΦA spec0 c
  | n + 1, hn => iprop(iprop(iprop(owns (c : Thread nD τ) acc0 fullShare (stateAt V c n hn).2.1 ∗ owns (c : Thread nD τ) acc1 fullShare (stateAt V c n hn).2.2.1 ∗ owns (c : Thread nD τ) acc2 fullShare (stateAt V c n hn).2.2.2.1 ∗ owns (c : Thread nD τ) acc3 fullShare (stateAt V c n hn).2.2.2.2)
        ∗ Pipeline.scopedRestBut (Ix := Unit) (Name := ℕ) (U := UR sig nD τ) (Lvl := ℕ) (Val := Elt F) spec0 c [cc0_scratch0, cc0_scratch1, cc0_scratch2, cc0_scratch3])
        ∗ (∃ r, prngReg c r))

theorem Phi_zero (c : Dev nD) (n : ℕ) (h : n ≤ cfg0.N) (hz : n = 0) : Phi V c n h = Pipeline.ΦA spec0 c := by
  subst hz; rfl
theorem Phi_succ (c : Dev nD) (n : ℕ) (hn : n < cfg0.N) :
    Phi V c (n + 1) hn = iprop(iprop(iprop(owns (c : Thread nD τ) acc0 fullShare (stateAt V c n hn).2.1 ∗ owns (c : Thread nD τ) acc1 fullShare (stateAt V c n hn).2.2.1 ∗ owns (c : Thread nD τ) acc2 fullShare (stateAt V c n hn).2.2.2.1 ∗ owns (c : Thread nD τ) acc3 fullShare (stateAt V c n hn).2.2.2.2)
        ∗ Pipeline.scopedRestBut (Ix := Unit) (Name := ℕ) (U := UR sig nD τ) (Lvl := ℕ) (Val := Elt F) spec0 c [cc0_scratch0, cc0_scratch1, cc0_scratch2, cc0_scratch3])
        ∗ (∃ r, prngReg c r)) := rfl
theorem Phi_pos (c : Dev nD) (n : ℕ) (h : n ≤ cfg0.N) (hz : n ≠ 0) :
    Phi V c n h = iprop(iprop(iprop(owns (c : Thread nD τ) acc0 fullShare (stateAt V c (n - 1) (by omega)).2.1 ∗ owns (c : Thread nD τ) acc1 fullShare (stateAt V c (n - 1) (by omega)).2.2.1 ∗ owns (c : Thread nD τ) acc2 fullShare (stateAt V c (n - 1) (by omega)).2.2.2.1 ∗ owns (c : Thread nD τ) acc3 fullShare (stateAt V c (n - 1) (by omega)).2.2.2.2)
        ∗ Pipeline.scopedRestBut (Ix := Unit) (Name := ℕ) (U := UR sig nD τ) (Lvl := ℕ) (Val := Elt F) spec0 c [cc0_scratch0, cc0_scratch1, cc0_scratch2, cc0_scratch3])
        ∗ (∃ r, prngReg c r)) := by
  cases n with
  | zero => exact absurd rfl hz
  | succ n => rfl

/-! ## The pipeline's proof data -/

def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => (stateAt V c t.val t.isLt).1.1
    | ⟨9, _⟩ => (stateAt V c t.val t.isLt).1.2
  Φ t := Phi V c t.val (Nat.le_of_lt_succ t.isLt)
  q _ := fullShare
  owed _ := 0

theorem A_eq (c : Dev nD) (w : Fin cfg0.W) : (dat V c).A w = V c (Pipeline.arrRef spec0 w) := by
  dsimp only [dat]
theorem Phi_castSucc (c : Dev nD) (t : Fin cfg0.N) : (dat V c).Φ t.castSucc = Phi V c t.val (Nat.le_of_lt t.isLt) := by
  dsimp only [dat]; simp only [Fin.coe_castSucc]
theorem after0 (c : Dev nD) (t : Fin cfg0.N) : (dat V c).after 0 t = blk V c 0 t := by dsimp only [dat]
theorem after1 (c : Dev nD) (t : Fin cfg0.N) : (dat V c).after 1 t = blk V c 1 t := by dsimp only [dat]
theorem after2 (c : Dev nD) (t : Fin cfg0.N) : (dat V c).after 2 t = blk V c 2 t := by dsimp only [dat]
theorem after3 (c : Dev nD) (t : Fin cfg0.N) : (dat V c).after 3 t = blk V c 3 t := by dsimp only [dat]
theorem after4 (c : Dev nD) (t : Fin cfg0.N) : (dat V c).after 4 t = blk V c 4 t := by dsimp only [dat]
theorem after5 (c : Dev nD) (t : Fin cfg0.N) : (dat V c).after 5 t = blk V c 5 t := by dsimp only [dat]
theorem after6 (c : Dev nD) (t : Fin cfg0.N) : (dat V c).after 6 t = blk V c 6 t := by dsimp only [dat]
theorem after7 (c : Dev nD) (t : Fin cfg0.N) : (dat V c).after 7 t = blk V c 7 t := by dsimp only [dat]
theorem after8 (c : Dev nD) (t : Fin cfg0.N) : (dat V c).after 8 t = (stateAt V c t.val t.isLt).1.1 := by dsimp only [dat]
theorem after9 (c : Dev nD) (t : Fin cfg0.N) : (dat V c).after 9 t = (stateAt V c t.val t.isLt).1.2 := by dsimp only [dat]
theorem found0 (c : Dev nD) (t : Fin cfg0.N) (d) : (dat V c).before 0 t d = blk V c 0 t :=
  before0 V (dat V c) (A_eq V c 0) (after0 V c) t d
theorem found1 (c : Dev nD) (t : Fin cfg0.N) (d) : (dat V c).before 1 t d = blk V c 1 t :=
  before1 V (dat V c) (A_eq V c 1) (after1 V c) t d
theorem found2 (c : Dev nD) (t : Fin cfg0.N) (d) : (dat V c).before 2 t d = blk V c 2 t :=
  before2 V (dat V c) (A_eq V c 2) (after2 V c) t d
theorem found3 (c : Dev nD) (t : Fin cfg0.N) (d) : (dat V c).before 3 t d = blk V c 3 t :=
  before3 V (dat V c) (A_eq V c 3) (after3 V c) t d
theorem found4 (c : Dev nD) (t : Fin cfg0.N) (d) : (dat V c).before 4 t d = blk V c 4 t :=
  before4 V (dat V c) (A_eq V c 4) (after4 V c) t d
theorem found5 (c : Dev nD) (t : Fin cfg0.N) (d) : (dat V c).before 5 t d = blk V c 5 t :=
  before5 V (dat V c) (A_eq V c 5) (after5 V c) t d
theorem found6 (c : Dev nD) (t : Fin cfg0.N) (d) : (dat V c).before 6 t d = blk V c 6 t :=
  before6 V (dat V c) (A_eq V c 6) (after6 V c) t d
theorem found7 (c : Dev nD) (t : Fin cfg0.N) (d) : (dat V c).before 7 t d = blk V c 7 t :=
  before7 V (dat V c) (A_eq V c 7) (after7 V c) t d
theorem leaves0 (c : Dev nD) (t : Fin cfg0.N) :
    (dat V c).leavesExact 0 t = owns (c : Thread nD τ) (ms0 t) fullShare (blk V c 0 t) := by
  unfold Dat.leavesExact; rw [live0 t, after0]
theorem leaves1 (c : Dev nD) (t : Fin cfg0.N) :
    (dat V c).leavesExact 1 t = owns (c : Thread nD τ) (ms1 t) fullShare (blk V c 1 t) := by
  unfold Dat.leavesExact; rw [live1 t, after1]
theorem leaves2 (c : Dev nD) (t : Fin cfg0.N) :
    (dat V c).leavesExact 2 t = owns (c : Thread nD τ) (ms2 t) fullShare (blk V c 2 t) := by
  unfold Dat.leavesExact; rw [live2 t, after2]
theorem leaves3 (c : Dev nD) (t : Fin cfg0.N) :
    (dat V c).leavesExact 3 t = owns (c : Thread nD τ) (ms3 t) fullShare (blk V c 3 t) := by
  unfold Dat.leavesExact; rw [live3 t, after3]
theorem leaves4 (c : Dev nD) (t : Fin cfg0.N) :
    (dat V c).leavesExact 4 t = owns (c : Thread nD τ) (ms4 t) fullShare (blk V c 4 t) := by
  unfold Dat.leavesExact; rw [live4 t, after4]
theorem leaves5 (c : Dev nD) (t : Fin cfg0.N) :
    (dat V c).leavesExact 5 t = owns (c : Thread nD τ) (ms5 t) fullShare (blk V c 5 t) := by
  unfold Dat.leavesExact; rw [live5 t, after5]
theorem leaves6 (c : Dev nD) (t : Fin cfg0.N) :
    (dat V c).leavesExact 6 t = owns (c : Thread nD τ) (ms6 t) fullShare (blk V c 6 t) := by
  unfold Dat.leavesExact; rw [live6 t, after6]
theorem leaves7 (c : Dev nD) (t : Fin cfg0.N) :
    (dat V c).leavesExact 7 t = owns (c : Thread nD τ) (ms7 t) fullShare (blk V c 7 t) := by
  unfold Dat.leavesExact; rw [live7 t, after7]

end Cert.KernelIdeal.Stage1

end
-- ==== Proof.KI.Stage1Body.lean ====
/-
  The first pallas_call's body at a generic point: from the invariant before the point and the windows' buffers as the
  pipeline hands them — each input at its block, each output at whatever it holds — to the invariant after the point and
  the buffers as the pipeline takes them back. The point's k = t mod 4 selects the case; the accumulators go into the
  case's run at what the point before left and come back at this point's contents; a buffer the case does not touch
  stays as it was found.
-/
import proofs.«127443_j14396730376920_2_alg».proof.Proof.KI.Stage1State

set_option maxRecDepth 16384

noncomputable section

namespace Cert.KernelIdeal.Stage1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t)

set_option maxHeartbeats 8000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [found0, found1, found2, found3, found4, found5, found6, found7]
  rw [show (dat V c).owesAt () t.succ = (dat V c).owesAt () t.castSucc from rfl]
  rw [show (dat V c).Φ t.succ = Phi V c (t.val + 1) t.isLt from rfl, Phi_succ]
  rw [leaves0, leaves1, leaves2, leaves3, leaves4, leaves5, leaves6, leaves7]
  have hN : t.val < 32 := lt_of_lt_of_eq t.isLt (show cfg0.N = 32 from N_0)
  by_cases h0 : t.val % 4 = 0
  · -- k = 0
    have h3 : ¬t.val % 4 = 3 := by omega
    have h0' := (atK0_iff t).mpr h0
    have h3' : ¬atK3 (grid0.coords t) := fun h => h3 ((atK3_iff t).mp h)
    rw [Dat.leavesExact_idle (dat V c) 8 t (idle8 t h3') (noFlush8 t h3'), Dat.leavesExact_idle (dat V c) 9 t (idle9 t h3') (noFlush9 t h3')]
    rw [stateAt_first V c t h0 h0' h3']
    dsimp only
    have hA : (dat V c).Φ t.castSucc ⊢ (iprop(iprop(iprop((∃ d, owns (c : Thread nD τ) acc0 fullShare d) ∗ (∃ d, owns (c : Thread nD τ) acc1 fullShare d) ∗ (∃ d, owns (c : Thread nD τ) acc2 fullShare d) ∗ (∃ d, owns (c : Thread nD τ) acc3 fullShare d))
          ∗ Pipeline.scopedRestBut (Ix := Unit) (Name := ℕ) (U := UR sig nD τ) (Lvl := ℕ) (Val := Elt F) spec0 c [cc0_scratch0, cc0_scratch1, cc0_scratch2, cc0_scratch3])
          ∗ (∃ r, prngReg c r)) : sProp 𝕄) := by
      rw [Phi_castSucc V c t]
      by_cases hz : t.val = 0
      · rw [Phi_zero V c _ _ hz, PhiA_eq]; try exact .rfl
      · rw [Phi_pos V c _ _ hz]
        iintro ⟨⟨⟨HS0, HS1, HS2, HS3⟩, HR⟩, Hg⟩
        isplitl [HS0 HS1 HS2 HS3 HR]
        · isplitl [HS0 HS1 HS2 HS3]
          · isplitl [HS0]; · iexists _; iexact HS0
            isplitl [HS1]; · iexists _; iexact HS1
            isplitl [HS2]; · iexists _; iexact HS2
            iexists _; iexact HS3
          iexact HR
        iexact Hg
    iintro ⟨HΦ, Hrest⟩
    ihave HΦ' := hA $$ HΦ
    icases HΦ' with ⟨⟨⟨HS0, HS1, HS2, HS3⟩, HR⟩, Hg⟩
    icases Hrest with ⟨Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((rFirst V c t h0' h3').2.2.2.2 Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    isplitl [HS3]; · iexact HS3
    iintro ⟨H0, H1, H2, H3, ⟨%e0, HS0⟩, ⟨%e1, HS1⟩, ⟨%e2, HS2⟩, ⟨%e3, HS3⟩⟩
    isplitl [HS0 HS1 HS2 HS3 HR Hg]
    · isplitl [HS0 HS1 HS2 HS3 HR]
      · isplitl [HS0 HS1 HS2 HS3]
        · isplitl [HS0]
          · unfold owns; iexists _; isplitr
            swap; · iexact HS0
            ipureintro; exact View.read_writes_of_cover _ _ _ _ _ (coverFirst0 V c t h0' h3')
          isplitl [HS1]
          · unfold owns; iexists _; isplitr
            swap; · iexact HS1
            ipureintro; exact View.read_writes_of_cover _ _ _ _ _ (coverFirst1 V c t h0' h3')
          isplitl [HS2]
          · unfold owns; iexists _; isplitr
            swap; · iexact HS2
            ipureintro; exact View.read_writes_of_cover _ _ _ _ _ (coverFirst2 V c t h0' h3')
          unfold owns; iexists _; isplitr
          swap; · iexact HS3
          ipureintro; exact View.read_writes_of_cover _ _ _ _ _ (coverFirst3 V c t h0' h3')
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists d8; iexact H8
    iexists d9; iexact H9
  · have hz : t.val ≠ 0 := fun e => h0 (by rw [e])
    have h0' : ¬atK0 (grid0.coords t) := fun h => h0 ((atK0_iff t).mp h)
    by_cases h3 : t.val % 4 = 3
    · -- k = 3
      have h3' := (atK3_iff t).mpr h3
      rw [show (dat V c).leavesExact 8 t = owns (c : Thread nD τ) (ms8 t) fullShare ((dat V c).after 8 t) from by
        unfold Dat.leavesExact; rw [live8 t h3'], after8]
      rw [show (dat V c).leavesExact 9 t = owns (c : Thread nD τ) (ms9 t) fullShare ((dat V c).after 9 t) from by
        unfold Dat.leavesExact; rw [live9 t h3'], after9]
      rw [stateAt_last V c t h0 h3 h0' h3']
      dsimp only
      rw [Phi_castSucc V c t, Phi_pos V c _ _ hz]
      iintro ⟨⟨⟨⟨HS0, HS1, HS2, HS3⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((rLast V c t h0' h3' (prev0 V c t) (prev1 V c t) (prev2 V c t) (prev3 V c t)).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      isplitl [HS1]; · iexact HS1
      isplitl [HS2]; · iexact HS2
      isplitl [HS3]; · iexact HS3
      iintro ⟨H0, H1, H2, H3, H4, H5, H6, H7, ⟨%e8, H8⟩, ⟨%e9, H9⟩, ⟨%e0, HS0⟩, ⟨%e1, HS1⟩, ⟨%e2, HS2⟩, ⟨%e3, HS3⟩⟩
      isplitl [HS0 HS1 HS2 HS3 HR Hg]
      · isplitl [HS0 HS1 HS2 HS3 HR]
        · isplitl [HS0 HS1 HS2 HS3]
          · isplitl [HS0]
            · unfold owns; iexists _; isplitr
              swap; · iexact HS0
              ipureintro; exact View.read_writes_of_cover _ _ _ _ _ (coverLast0 V c t h0' h3' _ _ _ _)
            isplitl [HS1]
            · unfold owns; iexists _; isplitr
              swap; · iexact HS1
              ipureintro; exact View.read_writes_of_cover _ _ _ _ _ (coverLast1 V c t h0' h3' _ _ _ _)
            isplitl [HS2]
            · unfold owns; iexists _; isplitr
              swap; · iexact HS2
              ipureintro; exact View.read_writes_of_cover _ _ _ _ _ (coverLast2 V c t h0' h3' _ _ _ _)
            unfold owns; iexists _; isplitr
            swap; · iexact HS3
            ipureintro; exact View.read_writes_of_cover _ _ _ _ _ (coverLast3 V c t h0' h3' _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (coverLastO8 V c t h0' h3' _ _ _ _)
      unfold owns; iexists _; isplitr
      swap; · iexact H9
      ipureintro; exact View.read_writes_of_cover _ _ _ _ _ (coverLastO9 V c t h0' h3' _ _ _ _)
    · -- k = 1, 2
      have h3' : ¬atK3 (grid0.coords t) := fun h => h3 ((atK3_iff t).mp h)
      rw [Dat.leavesExact_idle (dat V c) 8 t (idle8 t h3') (noFlush8 t h3'), Dat.leavesExact_idle (dat V c) 9 t (idle9 t h3') (noFlush9 t h3')]
      rw [stateAt_mid V c t h0 h3 h0' h3']
      dsimp only
      rw [Phi_castSucc V c t, Phi_pos V c _ _ hz]
      iintro ⟨⟨⟨⟨HS0, HS1, HS2, HS3⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((rMid V c t h0' h3' (prev0 V c t) (prev1 V c t) (prev2 V c t) (prev3 V c t)).2.2.2.2 Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HS3]; · iexact HS3
      iintro ⟨H0, H1, H2, H3, ⟨%e0, HS0⟩, ⟨%e1, HS1⟩, ⟨%e2, HS2⟩, ⟨%e3, HS3⟩⟩
      isplitl [HS0 HS1 HS2 HS3 HR Hg]
      · isplitl [HS0 HS1 HS2 HS3 HR]
        · isplitl [HS0 HS1 HS2 HS3]
          · isplitl [HS0]
            · unfold owns; iexists _; isplitr
              swap; · iexact HS0
              ipureintro; exact View.read_writes_of_cover _ _ _ _ _ (coverMid0 V c t h0' h3' _ _ _ _)
            isplitl [HS1]
            · unfold owns; iexists _; isplitr
              swap; · iexact HS1
              ipureintro; exact View.read_writes_of_cover _ _ _ _ _ (coverMid1 V c t h0' h3' _ _ _ _)
            isplitl [HS2]
            · unfold owns; iexists _; isplitr
              swap; · iexact HS2
              ipureintro; exact View.read_writes_of_cover _ _ _ _ _ (coverMid2 V c t h0' h3' _ _ _ _)
            unfold owns; iexists _; isplitr
            swap; · iexact HS3
            ipureintro; exact View.read_writes_of_cover _ _ _ _ _ (coverMid3 V c t h0' h3' _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists d8; iexact H8
      iexists d9; iexact H9

/-- The library's body obligation, at every point. -/
theorem body_obligation (c : Dev nD) : BodyObligation (dat (F := F) V c) (defs₀ (F := F)) Variants.none () Set.univ := fun t => by
  rw [bigSep_W0, bigSep_W0]
  exact sound_body V c t

theorem hin (c : Dev nD) : Pipeline.ΦA spec0 c ⊢ (dat V c).Φ 0 := by
  rw [show (dat V c).Φ 0 = Phi V c 0 (Nat.zero_le _) from rfl, Phi_zero V c 0 _ rfl]
  try exact Idealize.SL.BI.Entails.refl _

/-- After any point but the first the invariant gives the entry's form back: what the accumulators hold is forgotten. -/
theorem Phi_out (c : Dev nD) (t : Fin (cfg0.N + 1)) (ht : t.val ≠ 0) : (dat V c).Φ t ⊢ Pipeline.ΦA spec0 c := by
  rw [show (dat V c).Φ t = Phi V c t.val (Nat.le_of_lt_succ t.isLt) from rfl, Phi_pos V c _ _ ht, PhiA_eq]
  iintro ⟨⟨⟨HS0, HS1, HS2, HS3⟩, HR⟩, Hg⟩
  isplitl [HS0 HS1 HS2 HS3 HR]
  · isplitl [HS0 HS1 HS2 HS3]
    · isplitl [HS0]; · iexists _; iexact HS0
      isplitl [HS1]; · iexists _; iexact HS1
      isplitl [HS2]; · iexists _; iexact HS2
      iexists _; iexact HS3
    iexact HR
  iexact Hg

theorem hout (c : Dev nD) : (dat V c).Φ (Fin.last cfg0.N) ⊢ Pipeline.ΦA spec0 c :=
  Phi_out V c _ (by rw [Fin.val_last]; have : cfg0.N = 32 := N_0; omega)

end Cert.KernelIdeal.Stage1

end
-- ==== Proof.KI.Stage2Shared.lean ====
/-
  The second pallas_call (the two linear heads), grid 8 x 4: point t = 4 n + k works on output columns
  512 n .. 512 n + 511 and on the k-th block of 1024 contracted columns. What every case of its body shares:
  the two conditions of the body decided over the grid (k = 0: the accumulators are zeroed first; k = 3: the
  outputs are written), where the pipeline leaves the two output windows alone (every point with k < 3), the
  staging memrefs the body is called on, the two accumulators, each window's block read off its array, and
  the region's invariant before the first point with the two accumulators named.
-/
import proofs.«127443_j14396730376920_2_alg».proof.Proof.Gen.KernelIdeal.Launch
import proofs.«127443_j14396730376920_2_alg».proof.Proof.Gen.KernelIdeal.Skeleton
import proofs.«127443_j14396730376920_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Stage2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions -/

/-- The reduction coordinate k is 0: the body zeroes both accumulators before it adds to them. -/
abbrev atK0 (i : grid1.Coords) : Prop :=
  (Scalar.cmpi .ne (Scalar.extui (Scalar.cmpi .eq (BitVec.ofNat 32 (i 1).val) 0#32)) 0#32) = 1#1
/-- It holds at the points 4 n. -/
theorem atK0_iff : ∀ t : Fin cfg1.N, atK0 (grid1.coords t) ↔ t.val % 4 = 0 :=
  (by decide +kernel : ∀ t : Fin grid1.N, atK0 (grid1.coords t) ↔ t.val % 4 = 0)

/-- The reduction coordinate k is 3, the last: the body adds the bias rows and stores both outputs. -/
abbrev atK3 (i : grid1.Coords) : Prop := k1_cond2 i = 1#1
/-- It holds at the points 4 n + 3. -/
theorem atK3_iff : ∀ t : Fin cfg1.N, atK3 (grid1.coords t) ↔ t.val % 4 = 3 :=
  (by decide +kernel : ∀ t : Fin grid1.N, atK3 (grid1.coords t) ↔ t.val % 4 = 3)

/-! ## Where the windows are idle -/

theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
theorem live3 : ∀ t : Fin cfg1.N, cfg1.idle 3 (grid1.coords t) = false := by decide +kernel
theorem live4 : ∀ t : Fin cfg1.N, cfg1.idle 4 (grid1.coords t) = false := by decide +kernel
theorem live5 : ∀ t : Fin cfg1.N, cfg1.idle 5 (grid1.coords t) = false := by decide +kernel
/-- Before the last reduction step the body stores nothing into the first output: its window is idle there, -/
theorem idle6 : ∀ t : Fin cfg1.N, ¬atK3 (grid1.coords t) → cfg1.idle 6 (grid1.coords t) = true := by decide +kernel
/-- and its block is not written back. -/
theorem noFlush6 : ∀ t : Fin cfg1.N, ¬atK3 (grid1.coords t) → (cfg1.win 6).flush t = false := by decide +kernel
/-- At the last reduction step it is live. -/
theorem live6 : ∀ t : Fin cfg1.N, atK3 (grid1.coords t) → cfg1.idle 6 (grid1.coords t) = false := by decide +kernel
/-- The same for the second output. -/
theorem idle7 : ∀ t : Fin cfg1.N, ¬atK3 (grid1.coords t) → cfg1.idle 7 (grid1.coords t) = true := by decide +kernel
theorem noFlush7 : ∀ t : Fin cfg1.N, ¬atK3 (grid1.coords t) → (cfg1.win 7).flush t = false := by decide +kernel
theorem live7 : ∀ t : Fin cfg1.N, atK3 (grid1.coords t) → cfg1.idle 7 (grid1.coords t) = false := by decide +kernel

/-! ## The memrefs the body is called on -/

abbrev ms0 (t : Fin cfg1.N) : Memref sig .tc .vmem S1024x1024 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x1024 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S512x1024 .bf16 := win1_2.stage (cfg1.slots t 2)
abbrev hs2 (t : Fin cfg1.N) : (ms2 t).IsWhole := hstage1_2 ((cfg1.slots t 2).cast nbuf1_2)
abbrev ms3 (t : Fin cfg1.N) : Memref sig .tc .vmem S512x1024 .bf16 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x512 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S1x512 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S1024x512 .f32 := win1_6.stage (cfg1.slots t 6)
abbrev hs6 (t : Fin cfg1.N) : (ms6 t).IsWhole := hstage1_6 ((cfg1.slots t 6).cast nbuf1_6)
abbrev ms7 (t : Fin cfg1.N) : Memref sig .tc .vmem S1024x512 .f32 := win1_7.stage (cfg1.slots t 7)
abbrev hs7 (t : Fin cfg1.N) : (ms7 t).IsWhole := hstage1_7 ((cfg1.slots t 7).cast nbuf1_7)

/-- The accumulator of the first head, a whole scoped buffer of the kernel's own. -/
abbrev accP : Memref sig .tc .vmem S1024x512 .f32 := Memref.whole cc1_scratch0
/-- The accumulator of the second head. -/
abbrev accQ : Memref sig .tc .vmem S1024x512 .f32 := Memref.whole cc1_scratch1
/-- The views through which what the accumulators and the outputs hold is stated. -/
abbrev viewP : View sig .tc .vmem S1024x512 .f32 := accP.view
abbrev viewQ : View sig .tc .vmem S1024x512 .f32 := accQ.view
abbrev viewO6 : View sig .tc .vmem S1024x512 .f32 := (Memref.whole cc1_stg6_0 : Memref sig .tc .vmem S1024x512 .f32).view
abbrev viewO7 : View sig .tc .vmem S1024x512 .f32 := (Memref.whole cc1_stg7_0 : Memref sig .tc .vmem S1024x512 .f32).view

/-! ## The region's invariant before the first point, with the accumulators named -/

theorem PhiA_eq (c : Dev nD) :
    (Pipeline.ΦA spec1 c : sProp 𝕄)
      = iprop(iprop(iprop((∃ d, owns (c : Thread nD τ) accP fullShare d) ∗ (∃ d, owns (c : Thread nD τ) accQ fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA; rw [scopedRest1_split]; simp only [accP, accQ, owns_whole]; try rfl

/-! ## The windows' blocks, at the contents the region is entered with -/

variable (V : (c : Dev nD) → (b : Ref sig .tc) → Buf (Elt F) ((c : Thread nD τ).loc b))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (a window whose
    index does not move along k is fetched once per n and keeps its block), for any proof data whose array is the
    entry contents and whose body leaves the block in place. -/
theorem before0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's current staging buffer holds its block at every point, fetched there or not (a window whose
    index does not move along k is fetched once per n and keeps its block), for any proof data whose array is the
    entry contents and whose body leaves the block in place. -/
theorem before1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's current staging buffer holds its block at every point, fetched there or not (a window whose
    index does not move along k is fetched once per n and keeps its block), for any proof data whose array is the
    entry contents and whose body leaves the block in place. -/
theorem before2 {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3's current staging buffer holds its block at every point, fetched there or not (a window whose
    index does not move along k is fetched once per n and keeps its block), for any proof data whose array is the
    entry contents and whose body leaves the block in place. -/
theorem before3 {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- Input window 4's current staging buffer holds its block at every point, fetched there or not (a window whose
    index does not move along k is fetched once per n and keeps its block), for any proof data whose array is the
    entry contents and whose body leaves the block in place. -/
theorem before4 {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- Input window 5's current staging buffer holds its block at every point, fetched there or not (a window whose
    index does not move along k is fetched once per n and keeps its block), for any proof data whose array is the
    entry contents and whose body leaves the block in place. -/
theorem before5 {c : Dev nD} (dat : Dat τ (Elt F) Unit ℕ (UR sig nD τ) ℕ cfg1 c) (hA : dat.A 5 = V c (Pipeline.arrRef spec1 5))
    (hafter : ∀ t, dat.after 5 t = blk V c 5 t) (t : Fin cfg1.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

end Cert.KernelIdeal.Stage2

end
-- ==== Proof.KI.Stage2RunMid.lean ====
/-
  The body of the second pallas_call run whole at a point with k = 1, 2 (one more block added to each accumulator): on whole staging memrefs —
  the six inputs at their contents, the accumulators at what the point before left — it runs to the continuation holding the inputs as they
  were and each accumulator with the pieces its stores wrote (last first). The body does not touch the two output buffers at such
  a point, so they are no part of the statement: whoever applies it keeps them as they are;
  each piece list records, latest store first, which rectangle of the buffer a store wrote and what it wrote there.
-/
import proofs.«127443_j14396730376920_2_alg».proof.Proof.KI.Stage2Shared

set_option maxRecDepth 16384

noncomputable section

namespace Cert.KernelIdeal.Stage2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runMid (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (hk0 : ¬atK0 i) (hk3 : ¬atK3 i)
    (x0 x1 : Vec F S1024x1024 .bf16) (x2 x3 : Vec F S512x1024 .bf16) (x4 x5 : Vec F S1x512 .f32) (sP sQ : Vec F S1024x512 .f32) :
    Σ' (LP : List (View.Piece (Elt F) S1024x512 .f32)), { LQ : List (View.Piece (Elt F) S1024x512 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg10 fullShare sP
            ∗ owns (c : Thread nD τ) arg11 fullShare sQ
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ (∃ f, arg10.view.loc (c : Thread nD τ) ↦[arg10.view.set]{fullShare} arg10.view.writes (Elt F) f LP)
                ∗ (∃ f, arg11.view.loc (c : Thread nD τ) ↦[arg11.view.set]{fullShare} arg11.view.writes (Elt F) f LQ)) -∗ K ⟨⟩))
          ⊢ wp frame (wpE (defs₀ (F := F)) Variants.none c none) E (cc1__stage2_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc1__stage2_kernel_eq_skeleton]; unfold cc1__stage2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fP, %hfP, HP⟩, ⟨%fQ, %hfQ, HQ⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfP; obtain rfl := harg11.eq_unread hfQ
    sl_exec (disch := first | exact hk0 | exact hk3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HP]; · iexists _; iexact HP
    iexists _; iexact HQ

end Cert.KernelIdeal.Stage2

end
-- ==== Proof.KI.Stage2RunFirst.lean ====
/-
  The body of the second pallas_call run whole at a point with k = 0 (the accumulators zeroed, then the first block added): on whole staging memrefs —
  the six inputs at their contents, the accumulators at anything — it runs to the continuation holding the inputs as they
  were and each accumulator with the pieces its stores wrote (last first). The body does not touch the two output buffers at such
  a point, so they are no part of the statement: whoever applies it keeps them as they are;
  each piece list records, latest store first, which rectangle of the buffer a store wrote and what it wrote there.
-/
import proofs.«127443_j14396730376920_2_alg».proof.Proof.KI.Stage2RunMid

set_option maxRecDepth 16384

noncomputable section

namespace Cert.KernelIdeal.Stage2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runFirst (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (hk0 : atK0 i) (hk3 : ¬atK3 i)
    (x0 x1 : Vec F S1024x1024 .bf16) (x2 x3 : Vec F S512x1024 .bf16) (x4 x5 : Vec F S1x512 .f32) :
    Σ' (LP : List (View.Piece (Elt F) S1024x512 .f32)), { LQ : List (View.Piece (Elt F) S1024x512 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ (∃ d, owns (c : Thread nD τ) arg10 fullShare d)
            ∗ (∃ d, owns (c : Thread nD τ) arg11 fullShare d)
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ (∃ f, arg10.view.loc (c : Thread nD τ) ↦[arg10.view.set]{fullShare} arg10.view.writes (Elt F) f LP)
                ∗ (∃ f, arg11.view.loc (c : Thread nD τ) ↦[arg11.view.set]{fullShare} arg11.view.writes (Elt F) f LQ)) -∗ K ⟨⟩))
          ⊢ wp frame (wpE (defs₀ (F := F)) Variants.none c none) E (cc1__stage2_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc1__stage2_kernel_eq_skeleton]; unfold cc1__stage2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dP, %fP, -, HP⟩, ⟨%dQ, %fQ, -, HQ⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hk0 | exact hk3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HP]; · iexists _; iexact HP
    iexists _; iexact HQ

end Cert.KernelIdeal.Stage2

end
-- ==== Proof.KI.Stage2RunLast.lean ====
/-
  The body of the second pallas_call run whole at a point with k = 3 (the last block added, then both outputs stored: accumulator plus bias row): on whole staging memrefs —
  the six inputs at their contents, the two outputs at anything, the accumulators at what the point before left — it runs to the continuation
  holding the inputs as they were and each output and accumulator with the pieces its stores wrote (last first);
  each piece list records, latest store first, which rectangle of the buffer a store wrote and what it wrote there.
-/
import proofs.«127443_j14396730376920_2_alg».proof.Proof.KI.Stage2RunFirst

set_option maxRecDepth 16384

noncomputable section

namespace Cert.KernelIdeal.Stage2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runLast (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (hk0 : ¬atK0 i) (hk3 : atK3 i)
    (x0 x1 : Vec F S1024x1024 .bf16) (x2 x3 : Vec F S512x1024 .bf16) (x4 x5 : Vec F S1x512 .f32) (sP sQ : Vec F S1024x512 .f32) :
    Σ' (L6 : List (View.Piece (Elt F) S1024x512 .f32)) (L7 : List (View.Piece (Elt F) S1024x512 .f32)) (LP : List (View.Piece (Elt F) S1024x512 .f32)), { LQ : List (View.Piece (Elt F) S1024x512 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ (∃ d, owns (c : Thread nD τ) arg8 fullShare d)
            ∗ (∃ d, owns (c : Thread nD τ) arg9 fullShare d)
            ∗ owns (c : Thread nD τ) arg10 fullShare sP
            ∗ owns (c : Thread nD τ) arg11 fullShare sQ
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f L7)
                ∗ (∃ f, arg10.view.loc (c : Thread nD τ) ↦[arg10.view.set]{fullShare} arg10.view.writes (Elt F) f LP)
                ∗ (∃ f, arg11.view.loc (c : Thread nD τ) ↦[arg11.view.set]{fullShare} arg11.view.writes (Elt F) f LQ)) -∗ K ⟨⟩))
          ⊢ wp frame (wpE (defs₀ (F := F)) Variants.none c none) E (cc1__stage2_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__stage2_kernel_eq_skeleton]; unfold cc1__stage2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fP, %hfP, HP⟩, ⟨%fQ, %hfQ, HQ⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfP; obtain rfl := harg11.eq_unread hfQ
    sl_exec (disch := first | exact hk0 | exact hk3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HP]; · iexists _; iexact HP
    iexists _; iexact HQ

end Cert.KernelIdeal.Stage2

end
-- ==== Proof.KI.Stage2State.lean ====
/-
  The second pallas_call point by point. After point t = 4 n + k each accumulator holds, for output columns
  512 n .. 512 n + 511, the first k + 1 blocks of its contraction added in order (zero, then block 0, then block 1, ...);
  after a point with k = 3 each output buffer holds its accumulator plus the bias row. These contents are read off the
  three whole-body runs; the invariant between points carries the two accumulators at them, and the body at any point
  takes the invariant and the windows' buffers to the invariant and the buffers one point on.
-/
import proofs.«127443_j14396730376920_2_alg».proof.Proof.KI.Stage2RunLast

set_option maxRecDepth 16384

noncomputable section

namespace Cert.KernelIdeal.Stage2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three runs at a point's own memrefs and blocks -/

abbrev rFirst (c : Dev nD) (t : Fin cfg1.N) (h0 : atK0 (grid1.coords t)) (h3 : ¬atK3 (grid1.coords t)) :=
  runFirst (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) accP (Memref.isWhole_whole _) accQ (Memref.isWhole_whole _) h0 h3 (blk V c 0 t) (blk V c 1 t) (blk V c 2 t) (blk V c 3 t) (blk V c 4 t) (blk V c 5 t)
abbrev rMid (c : Dev nD) (t : Fin cfg1.N) (h0 : ¬atK0 (grid1.coords t)) (h3 : ¬atK3 (grid1.coords t)) (sP sQ : Vec F S1024x512 .f32) :=
  runMid (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) accP (Memref.isWhole_whole _) accQ (Memref.isWhole_whole _) h0 h3 (blk V c 0 t) (blk V c 1 t) (blk V c 2 t) (blk V c 3 t) (blk V c 4 t) (blk V c 5 t) sP sQ
abbrev rLast (c : Dev nD) (t : Fin cfg1.N) (h0 : ¬atK0 (grid1.coords t)) (h3 : atK3 (grid1.coords t)) (sP sQ : Vec F S1024x512 .f32) :=
  runLast (F := F) c (grid1.coords t) (ms0 t) (hs0 t) (ms1 t) (hs1 t) (ms2 t) (hs2 t) (ms3 t) (hs3 t) (ms4 t) (hs4 t) (ms5 t) (hs5 t) (ms6 t) (hs6 t) (ms7 t) (hs7 t) accP (Memref.isWhole_whole _) accQ (Memref.isWhole_whole _) h0 h3 (blk V c 0 t) (blk V c 1 t) (blk V c 2 t) (blk V c 3 t) (blk V c 4 t) (blk V c 5 t) sP sQ

/-- What a list of pieces leaves in a buffer of this shape, read back (over contents that do not matter once the
    pieces cover the buffer). -/
abbrev readP (L : List (View.Piece (Elt F) S1024x512 .f32)) : Vec F S1024x512 .f32 := viewP.read (Elt F) (viewP.writes (Elt F) viewP.junk L)
abbrev readQ (L : List (View.Piece (Elt F) S1024x512 .f32)) : Vec F S1024x512 .f32 := viewQ.read (Elt F) (viewQ.writes (Elt F) viewQ.junk L)
abbrev readO6 (L : List (View.Piece (Elt F) S1024x512 .f32)) : Vec F S1024x512 .f32 := viewO6.read (Elt F) (viewO6.writes (Elt F) viewO6.junk L)
abbrev readO7 (L : List (View.Piece (Elt F) S1024x512 .f32)) : Vec F S1024x512 .f32 := viewO7.read (Elt F) (viewO7.writes (Elt F) viewO7.junk L)
/-- A placeholder for an output buffer at a point that does not store it: nothing reads it, since the block is neither
    written back there nor kept for the next point. -/
abbrev noOut : Vec F S1024x512 .f32 × Vec F S1024x512 .f32 := (viewO6.read (Elt F) viewO6.junk, viewO7.read (Elt F) viewO7.junk)

/-! ## The pieces cover their buffers -/

theorem coverFirstP (c : Dev nD) (t : Fin cfg1.N) (h0) (h3) (y : S1024x512.Idx) : ∃ pc ∈ (rFirst V c t h0 h3).1, y ∈ pc.1.set :=
  View.cover_of_tiledL (rFirst V c t h0 h3).1 S1024x512.size (by sl_kernel_rfl) y
theorem coverFirstQ (c : Dev nD) (t : Fin cfg1.N) (h0) (h3) (y : S1024x512.Idx) : ∃ pc ∈ (rFirst V c t h0 h3).2.1, y ∈ pc.1.set :=
  View.cover_of_tiledL (rFirst V c t h0 h3).2.1 S1024x512.size (by sl_kernel_rfl) y
theorem coverMidP (c : Dev nD) (t : Fin cfg1.N) (h0) (h3) (sP sQ) (y : S1024x512.Idx) : ∃ pc ∈ (rMid V c t h0 h3 sP sQ).1, y ∈ pc.1.set :=
  View.cover_of_tiledL (rMid V c t h0 h3 sP sQ).1 S1024x512.size (by sl_kernel_rfl) y
theorem coverMidQ (c : Dev nD) (t : Fin cfg1.N) (h0) (h3) (sP sQ) (y : S1024x512.Idx) : ∃ pc ∈ (rMid V c t h0 h3 sP sQ).2.1, y ∈ pc.1.set :=
  View.cover_of_tiledL (rMid V c t h0 h3 sP sQ).2.1 S1024x512.size (by sl_kernel_rfl) y
theorem coverLastO6 (c : Dev nD) (t : Fin cfg1.N) (h0) (h3) (sP sQ) (y : S1024x512.Idx) : ∃ pc ∈ (rLast V c t h0 h3 sP sQ).1, y ∈ pc.1.set :=
  View.cover_of_tiledL (rLast V c t h0 h3 sP sQ).1 S1024x512.size (by sl_kernel_rfl) y
theorem coverLastO7 (c : Dev nD) (t : Fin cfg1.N) (h0) (h3) (sP sQ) (y : S1024x512.Idx) : ∃ pc ∈ (rLast V c t h0 h3 sP sQ).2.1, y ∈ pc.1.set :=
  View.cover_of_tiledL (rLast V c t h0 h3 sP sQ).2.1 S1024x512.size (by sl_kernel_rfl) y
theorem coverLastP (c : Dev nD) (t : Fin cfg1.N) (h0) (h3) (sP sQ) (y : S1024x512.Idx) : ∃ pc ∈ (rLast V c t h0 h3 sP sQ).2.2.1, y ∈ pc.1.set :=
  View.cover_of_tiledL (rLast V c t h0 h3 sP sQ).2.2.1 S1024x512.size (by sl_kernel_rfl) y
theorem coverLastQ (c : Dev nD) (t : Fin cfg1.N) (h0) (h3) (sP sQ) (y : S1024x512.Idx) : ∃ pc ∈ (rLast V c t h0 h3 sP sQ).2.2.2.1, y ∈ pc.1.set :=
  View.cover_of_tiledL (rLast V c t h0 h3 sP sQ).2.2.2.1 S1024x512.size (by sl_kernel_rfl) y

/-! ## What the outputs and the accumulators hold after each point -/

/-- After position `n`: (the two output buffers, the two accumulators). The case is the one k = n mod 4 selects; a point
    with k > 0 starts from the accumulators the point before left. -/
def stateAt (c : Dev nD) : (n : ℕ) → n < cfg1.N → (Vec F S1024x512 .f32 × Vec F S1024x512 .f32) × (Vec F S1024x512 .f32 × Vec F S1024x512 .f32)
  | 0, hn =>
    (noOut, (readP (rFirst V c ⟨0, hn⟩ ((atK0_iff ⟨0, hn⟩).mpr (Nat.zero_mod _)) (fun h => absurd ((atK3_iff ⟨0, hn⟩).mp h) (by show ¬ (0 % 4 = 3); decide))).1,
             readQ (rFirst V c ⟨0, hn⟩ ((atK0_iff ⟨0, hn⟩).mpr (Nat.zero_mod _)) (fun h => absurd ((atK3_iff ⟨0, hn⟩).mp h) (by show ¬ (0 % 4 = 3); decide))).2.1))
  | n + 1, hn =>
    if h0 : (n + 1) % 4 = 0 then
      (noOut, (readP (rFirst V c ⟨n + 1, hn⟩ ((atK0_iff ⟨n + 1, hn⟩).mpr h0) (fun h => by have h' := (atK3_iff ⟨n + 1, hn⟩).mp h; (try dsimp only at h'); omega)).1,
               readQ (rFirst V c ⟨n + 1, hn⟩ ((atK0_iff ⟨n + 1, hn⟩).mpr h0) (fun h => by have h' := (atK3_iff ⟨n + 1, hn⟩).mp h; (try dsimp only at h'); omega)).2.1))
    else if h3 : (n + 1) % 4 = 3 then
      ((readO6 (rLast V c ⟨n + 1, hn⟩ (fun h => h0 ((atK0_iff ⟨n + 1, hn⟩).mp h)) ((atK3_iff ⟨n + 1, hn⟩).mpr h3) (stateAt c n (Nat.lt_of_succ_lt hn)).2.1 (stateAt c n (Nat.lt_of_succ_lt hn)).2.2).1,
        readO7 (rLast V c ⟨n + 1, hn⟩ (fun h => h0 ((atK0_iff ⟨n + 1, hn⟩).mp h)) ((atK3_iff ⟨n + 1, hn⟩).mpr h3) (stateAt c n (Nat.lt_of_succ_lt hn)).2.1 (stateAt c n (Nat.lt_of_succ_lt hn)).2.2).2.1),
       (readP (rLast V c ⟨n + 1, hn⟩ (fun h => h0 ((atK0_iff ⟨n + 1, hn⟩).mp h)) ((atK3_iff ⟨n + 1, hn⟩).mpr h3) (stateAt c n (Nat.lt_of_succ_lt hn)).2.1 (stateAt c n (Nat.lt_of_succ_lt hn)).2.2).2.2.1,
        readQ (rLast V c ⟨n + 1, hn⟩ (fun h => h0 ((atK0_iff ⟨n + 1, hn⟩).mp h)) ((atK3_iff ⟨n + 1, hn⟩).mpr h3) (stateAt c n (Nat.lt_of_succ_lt hn)).2.1 (stateAt c n (Nat.lt_of_succ_lt hn)).2.2).2.2.2.1))
    else
      (noOut, (readP (rMid V c ⟨n + 1, hn⟩ (fun h => h0 ((atK0_iff ⟨n + 1, hn⟩).mp h)) (fun h => h3 ((atK3_iff ⟨n + 1, hn⟩).mp h)) (stateAt c n (Nat.lt_of_succ_lt hn)).2.1 (stateAt c n (Nat.lt_of_succ_lt hn)).2.2).1,
               readQ (rMid V c ⟨n + 1, hn⟩ (fun h => h0 ((atK0_iff ⟨n + 1, hn⟩).mp h)) (fun h => h3 ((atK3_iff ⟨n + 1, hn⟩).mp h)) (stateAt c n (Nat.lt_of_succ_lt hn)).2.1 (stateAt c n (Nat.lt_of_succ_lt hn)).2.2).2.1))

/-- The accumulators the point before `t` left. -/
abbrev prevP (c : Dev nD) (t : Fin cfg1.N) : Vec F S1024x512 .f32 := (stateAt V c (t.val - 1) (Nat.lt_of_le_of_lt (Nat.sub_le _ _) t.isLt)).2.1
abbrev prevQ (c : Dev nD) (t : Fin cfg1.N) : Vec F S1024x512 .f32 := (stateAt V c (t.val - 1) (Nat.lt_of_le_of_lt (Nat.sub_le _ _) t.isLt)).2.2

/-- At a point with k = 0. -/
theorem stateAt_first (c : Dev nD) (t : Fin cfg1.N) (h0 : t.val % 4 = 0) (h0' : atK0 (grid1.coords t)) (h3' : ¬atK3 (grid1.coords t)) :
    stateAt V c t.val t.isLt = (noOut, (readP (rFirst V c t h0' h3').1, readQ (rFirst V c t h0' h3').2.1)) := by
  obtain ⟨n, hn⟩ := t
  cases n with
  | zero => rfl
  | succ n => exact (dif_pos h0).trans rfl

/-- At a point with k = 1 or 2. -/
theorem stateAt_mid (c : Dev nD) (t : Fin cfg1.N) (h0 : ¬t.val % 4 = 0) (h3 : ¬t.val % 4 = 3) (h0' : ¬atK0 (grid1.coords t)) (h3' : ¬atK3 (grid1.coords t)) :
    stateAt V c t.val t.isLt = (noOut, (readP (rMid V c t h0' h3' (prevP V c t) (prevQ V c t)).1, readQ (rMid V c t h0' h3' (prevP V c t) (prevQ V c t)).2.1)) := by
  obtain ⟨n, hn⟩ := t
  cases n with
  | zero => exact absurd (Nat.zero_mod _) h0
  | succ n => exact (dif_neg h0).trans ((dif_neg h3).trans rfl)

/-- At a point with k = 3. -/
theorem stateAt_last (c : Dev nD) (t : Fin cfg1.N) (h0 : ¬t.val % 4 = 0) (h3 : t.val % 4 = 3) (h0' : ¬atK0 (grid1.coords t)) (h3' : atK3 (grid1.coords t)) :
    stateAt V c t.val t.isLt = ((readO6 (rLast V c t h0' h3' (prevP V c t) (prevQ V c t)).1, readO7 (rLast V c t h0' h3' (prevP V c t) (prevQ V c t)).2.1),
      (readP (rLast V c t h0' h3' (prevP V c t) (prevQ V c t)).2.2.1, readQ (rLast V c t h0' h3' (prevP V c t) (prevQ V c t)).2.2.2.1)) := by
  obtain ⟨n, hn⟩ := t
  cases n with
  | zero => exact absurd (Nat.zero_mod _) h0
  | succ n => exact (dif_neg h0).trans ((dif_pos h3).trans rfl)

/-! ## The invariant between points -/

/-- Before position `n`: at the region's entry the scoped buffers at anything and the generator register at some state;
    afterwards the same with the two accumulators at what the point before left. -/
def Phi (c : Dev nD) : (n : ℕ) → n ≤ cfg1.N → sProp 𝕄
  | 0, _ => Pipeline.ΦA spec1 c
  | n + 1, hn => iprop(iprop(iprop(owns (c : Thread nD τ) accP fullShare (stateAt V c n hn).2.1 ∗ owns (c : Thread nD τ) accQ fullShare (stateAt V c n hn).2.2)
        ∗ Pipeline.scopedRestBut (Ix := Unit) (Name := ℕ) (U := UR sig nD τ) (Lvl := ℕ) (Val := Elt F) spec1 c [cc1_scratch0, cc1_scratch1])
        ∗ (∃ r, prngReg c r))

theorem Phi_zero (c : Dev nD) (n : ℕ) (h : n ≤ cfg1.N) (hz : n = 0) : Phi V c n h = Pipeline.ΦA spec1 c := by
  subst hz; rfl
theorem Phi_succ (c : Dev nD) (n : ℕ) (hn : n < cfg1.N) :
    Phi V c (n + 1) hn = iprop(iprop(iprop(owns (c : Thread nD τ) accP fullShare (stateAt V c n hn).2.1 ∗ owns (c : Thread nD τ) accQ fullShare (stateAt V c n hn).2.2)
        ∗ Pipeline.scopedRestBut (Ix := Unit) (Name := ℕ) (U := UR sig nD τ) (Lvl := ℕ) (Val := Elt F) spec1 c [cc1_scratch0, cc1_scratch1])
        ∗ (∃ r, prngReg c r)) := rfl
theorem Phi_pos (c : Dev nD) (n : ℕ) (h : n ≤ cfg1.N) (hz : n ≠ 0) :
    Phi V c n h = iprop(iprop(iprop(owns (c : Thread nD τ) accP fullShare (stateAt V c (n - 1) (by omega)).2.1 ∗ owns (c : Thread nD τ) accQ fullShare (stateAt V c (n - 1) (by omega)).2.2)
        ∗ Pipeline.scopedRestBut (Ix := Unit) (Name := ℕ) (U := UR sig nD τ) (Lvl := ℕ) (Val := Elt F) spec1 c [cc1_scratch0, cc1_scratch1])
        ∗ (∃ r, prngReg c r)) := by
  cases n with
  | zero => exact absurd rfl hz
  | succ n => rfl

/-! ## The pipeline's proof data -/

/-- The arrays as the region finds them; after the body at point `t` each input's buffer at its block and the outputs'
    at `stateAt`; the invariant above; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => (stateAt V c t.val t.isLt).1.1
    | ⟨7, _⟩ => (stateAt V c t.val t.isLt).1.2
  Φ t := Phi V c t.val (Nat.le_of_lt_succ t.isLt)
  q _ := fullShare
  owed _ := 0

theorem A_eq (c : Dev nD) (w : Fin cfg1.W) : (dat V c).A w = V c (Pipeline.arrRef spec1 w) := by
  dsimp only [dat]
theorem Phi_castSucc (c : Dev nD) (t : Fin cfg1.N) : (dat V c).Φ t.castSucc = Phi V c t.val (Nat.le_of_lt t.isLt) := by
  dsimp only [dat]; simp only [Fin.coe_castSucc]
theorem after0 (c : Dev nD) (t : Fin cfg1.N) : (dat V c).after 0 t = blk V c 0 t := by dsimp only [dat]
theorem after1 (c : Dev nD) (t : Fin cfg1.N) : (dat V c).after 1 t = blk V c 1 t := by dsimp only [dat]
theorem after2 (c : Dev nD) (t : Fin cfg1.N) : (dat V c).after 2 t = blk V c 2 t := by dsimp only [dat]
theorem after3 (c : Dev nD) (t : Fin cfg1.N) : (dat V c).after 3 t = blk V c 3 t := by dsimp only [dat]
theorem after4 (c : Dev nD) (t : Fin cfg1.N) : (dat V c).after 4 t = blk V c 4 t := by dsimp only [dat]
theorem after5 (c : Dev nD) (t : Fin cfg1.N) : (dat V c).after 5 t = blk V c 5 t := by dsimp only [dat]
theorem after6 (c : Dev nD) (t : Fin cfg1.N) : (dat V c).after 6 t = (stateAt V c t.val t.isLt).1.1 := by dsimp only [dat]
theorem after7 (c : Dev nD) (t : Fin cfg1.N) : (dat V c).after 7 t = (stateAt V c t.val t.isLt).1.2 := by dsimp only [dat]
theorem found0 (c : Dev nD) (t : Fin cfg1.N) (d) : (dat V c).before 0 t d = blk V c 0 t :=
  before0 V (dat V c) (A_eq V c 0) (after0 V c) t d
theorem found1 (c : Dev nD) (t : Fin cfg1.N) (d) : (dat V c).before 1 t d = blk V c 1 t :=
  before1 V (dat V c) (A_eq V c 1) (after1 V c) t d
theorem found2 (c : Dev nD) (t : Fin cfg1.N) (d) : (dat V c).before 2 t d = blk V c 2 t :=
  before2 V (dat V c) (A_eq V c 2) (after2 V c) t d
theorem found3 (c : Dev nD) (t : Fin cfg1.N) (d) : (dat V c).before 3 t d = blk V c 3 t :=
  before3 V (dat V c) (A_eq V c 3) (after3 V c) t d
theorem found4 (c : Dev nD) (t : Fin cfg1.N) (d) : (dat V c).before 4 t d = blk V c 4 t :=
  before4 V (dat V c) (A_eq V c 4) (after4 V c) t d
theorem found5 (c : Dev nD) (t : Fin cfg1.N) (d) : (dat V c).before 5 t d = blk V c 5 t :=
  before5 V (dat V c) (A_eq V c 5) (after5 V c) t d
theorem leaves0 (c : Dev nD) (t : Fin cfg1.N) :
    (dat V c).leavesExact 0 t = owns (c : Thread nD τ) (ms0 t) fullShare (blk V c 0 t) := by
  unfold Dat.leavesExact; rw [live0 t, after0]
theorem leaves1 (c : Dev nD) (t : Fin cfg1.N) :
    (dat V c).leavesExact 1 t = owns (c : Thread nD τ) (ms1 t) fullShare (blk V c 1 t) := by
  unfold Dat.leavesExact; rw [live1 t, after1]
theorem leaves2 (c : Dev nD) (t : Fin cfg1.N) :
    (dat V c).leavesExact 2 t = owns (c : Thread nD τ) (ms2 t) fullShare (blk V c 2 t) := by
  unfold Dat.leavesExact; rw [live2 t, after2]
theorem leaves3 (c : Dev nD) (t : Fin cfg1.N) :
    (dat V c).leavesExact 3 t = owns (c : Thread nD τ) (ms3 t) fullShare (blk V c 3 t) := by
  unfold Dat.leavesExact; rw [live3 t, after3]
theorem leaves4 (c : Dev nD) (t : Fin cfg1.N) :
    (dat V c).leavesExact 4 t = owns (c : Thread nD τ) (ms4 t) fullShare (blk V c 4 t) := by
  unfold Dat.leavesExact; rw [live4 t, after4]
theorem leaves5 (c : Dev nD) (t : Fin cfg1.N) :
    (dat V c).leavesExact 5 t = owns (c : Thread nD τ) (ms5 t) fullShare (blk V c 5 t) := by
  unfold Dat.leavesExact; rw [live5 t, after5]

end Cert.KernelIdeal.Stage2

end
-- ==== Proof.KI.Stage2Body.lean ====
/-
  The second pallas_call's body at a generic point: from the invariant before the point and the windows' buffers as the
  pipeline hands them — each input at its block, each output at whatever it holds — to the invariant after the point and
  the buffers as the pipeline takes them back. The point's k = t mod 4 selects the case; the accumulators go into the
  case's run at what the point before left and come back at this point's contents.
-/
import proofs.«127443_j14396730376920_2_alg».proof.Proof.KI.Stage2State

set_option maxRecDepth 16384

noncomputable section

namespace Cert.KernelIdeal.Stage2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body at a generic point -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 4800000 in
/-- The inputs' buffers hold their blocks; k = t mod 4 says which case the point is in; the invariant hands the body the
    accumulators at what the point before left (at anything where k = 0, which overwrites them first) and takes them
    back at this point's contents; an output the case does not store is handed back as it was found. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [found0, found1, found2, found3, found4, found5]
  rw [show (dat V c).owesAt () t.succ = (dat V c).owesAt () t.castSucc from rfl]
  rw [show (dat V c).Φ t.succ = Phi V c (t.val + 1) t.isLt from rfl, Phi_succ]
  rw [leaves0, leaves1, leaves2, leaves3, leaves4, leaves5]
  have hN : t.val < 32 := lt_of_lt_of_eq t.isLt (show cfg1.N = 32 from N_1)
  by_cases h0 : t.val % 4 = 0
  · -- k = 0
    have h3 : ¬t.val % 4 = 3 := by omega
    have h0' := (atK0_iff t).mpr h0
    have h3' : ¬atK3 (grid1.coords t) := fun h => h3 ((atK3_iff t).mp h)
    rw [Dat.leavesExact_idle (dat V c) 6 t (idle6 t h3') (noFlush6 t h3'), Dat.leavesExact_idle (dat V c) 7 t (idle7 t h3') (noFlush7 t h3')]
    rw [stateAt_first V c t h0 h0' h3']
    dsimp only
    have hA : (dat V c).Φ t.castSucc ⊢ (iprop(iprop(iprop((∃ d, owns (c : Thread nD τ) accP fullShare d) ∗ (∃ d, owns (c : Thread nD τ) accQ fullShare d))
          ∗ Pipeline.scopedRestBut (Ix := Unit) (Name := ℕ) (U := UR sig nD τ) (Lvl := ℕ) (Val := Elt F) spec1 c [cc1_scratch0, cc1_scratch1])
          ∗ (∃ r, prngReg c r)) : sProp 𝕄) := by
      rw [Phi_castSucc V c t]
      by_cases hz : t.val = 0
      · rw [Phi_zero V c _ _ hz, PhiA_eq]; try exact .rfl
      · rw [Phi_pos V c _ _ hz]
        iintro ⟨⟨⟨HP, HQ⟩, HR⟩, Hg⟩
        isplitl [HP HQ HR]
        · isplitl [HP HQ]
          · isplitl [HP]; · iexists _; iexact HP
            iexists _; iexact HQ
          iexact HR
        iexact Hg
    iintro ⟨HΦ, Hrest⟩
    ihave HΦ' := hA $$ HΦ
    icases HΦ' with ⟨⟨⟨HP, HQ⟩, HR⟩, Hg⟩
    icases Hrest with ⟨Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((rFirst V c t h0' h3').2.2 Set.univ _)
    isplitl [H0]; · iexact H0
    isplitl [H1]; · iexact H1
    isplitl [H2]; · iexact H2
    isplitl [H3]; · iexact H3
    isplitl [H4]; · iexact H4
    isplitl [H5]; · iexact H5
    isplitl [HP]; · iexact HP
    isplitl [HQ]; · iexact HQ
    iintro ⟨H0, H1, H2, H3, H4, H5, ⟨%eP, HP⟩, ⟨%eQ, HQ⟩⟩
    isplitl [HP HQ HR Hg]
    · isplitl [HP HQ HR]
      · isplitl [HP HQ]
        · isplitl [HP]
          · unfold owns; iexists _; isplitr
            swap; · iexact HP
            ipureintro; exact View.read_writes_of_cover _ _ _ _ _ (coverFirstP V c t h0' h3')
          · unfold owns; iexists _; isplitr
            swap; · iexact HQ
            ipureintro; exact View.read_writes_of_cover _ _ _ _ _ (coverFirstQ V c t h0' h3')
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists d6; iexact H6
    iexists d7; iexact H7
  · have hz : t.val ≠ 0 := fun e => h0 (by rw [e])
    have h0' : ¬atK0 (grid1.coords t) := fun h => h0 ((atK0_iff t).mp h)
    by_cases h3 : t.val % 4 = 3
    · -- k = 3
      have h3' := (atK3_iff t).mpr h3
      rw [show (dat V c).leavesExact 6 t = owns (c : Thread nD τ) (ms6 t) fullShare ((dat V c).after 6 t) from by
        unfold Dat.leavesExact; rw [live6 t h3'], after6]
      rw [show (dat V c).leavesExact 7 t = owns (c : Thread nD τ) (ms7 t) fullShare ((dat V c).after 7 t) from by
        unfold Dat.leavesExact; rw [live7 t h3'], after7]
      rw [stateAt_last V c t h0 h3 h0' h3']
      dsimp only
      rw [Phi_castSucc V c t, Phi_pos V c _ _ hz]
      iintro ⟨⟨⟨⟨HP, HQ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((rLast V c t h0' h3' (prevP V c t) (prevQ V c t)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HP]; · iexact HP
      isplitl [HQ]; · iexact HQ
      iintro ⟨H0, H1, H2, H3, H4, H5, ⟨%e6, H6⟩, ⟨%e7, H7⟩, ⟨%eP, HP⟩, ⟨%eQ, HQ⟩⟩
      isplitl [HP HQ HR Hg]
      · isplitl [HP HQ HR]
        · isplitl [HP HQ]
          · isplitl [HP]
            · unfold owns; iexists _; isplitr
              swap; · iexact HP
              ipureintro; exact View.read_writes_of_cover _ _ _ _ _ (coverLastP V c t h0' h3' _ _)
            · unfold owns; iexists _; isplitr
              swap; · iexact HQ
              ipureintro; exact View.read_writes_of_cover _ _ _ _ _ (coverLastQ V c t h0' h3' _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverLastO6 V c t h0' h3' _ _)
      unfold owns; iexists _; isplitr
      swap; · iexact H7
      ipureintro; exact View.read_writes_of_cover _ _ _ _ _ (coverLastO7 V c t h0' h3' _ _)
    · -- k = 1, 2
      have h3' : ¬atK3 (grid1.coords t) := fun h => h3 ((atK3_iff t).mp h)
      rw [Dat.leavesExact_idle (dat V c) 6 t (idle6 t h3') (noFlush6 t h3'), Dat.leavesExact_idle (dat V c) 7 t (idle7 t h3') (noFlush7 t h3')]
      rw [stateAt_mid V c t h0 h3 h0' h3']
      dsimp only
      rw [Phi_castSucc V c t, Phi_pos V c _ _ hz]
      iintro ⟨⟨⟨⟨HP, HQ⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((rMid V c t h0' h3' (prevP V c t) (prevQ V c t)).2.2 Set.univ _)
      isplitl [H0]; · iexact H0
      isplitl [H1]; · iexact H1
      isplitl [H2]; · iexact H2
      isplitl [H3]; · iexact H3
      isplitl [H4]; · iexact H4
      isplitl [H5]; · iexact H5
      isplitl [HP]; · iexact HP
      isplitl [HQ]; · iexact HQ
      iintro ⟨H0, H1, H2, H3, H4, H5, ⟨%eP, HP⟩, ⟨%eQ, HQ⟩⟩
      isplitl [HP HQ HR Hg]
      · isplitl [HP HQ HR]
        · isplitl [HP HQ]
          · isplitl [HP]
            · unfold owns; iexists _; isplitr
              swap; · iexact HP
              ipureintro; exact View.read_writes_of_cover _ _ _ _ _ (coverMidP V c t h0' h3' _ _)
            · unfold owns; iexists _; isplitr
              swap; · iexact HQ
              ipureintro; exact View.read_writes_of_cover _ _ _ _ _ (coverMidQ V c t h0' h3' _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists d6; iexact H6
      iexists d7; iexact H7

/-- The library's body obligation, at every point. -/
theorem body_obligation (c : Dev nD) : BodyObligation (dat (F := F) V c) (defs₀ (F := F)) Variants.none () Set.univ := fun t => by
  rw [bigSep_W1, bigSep_W1]
  exact sound_body V c t

/-- What the region's entry hands the body is the invariant before the first point. -/
theorem hin (c : Dev nD) : Pipeline.ΦA spec1 c ⊢ (dat V c).Φ 0 := by
  rw [show (dat V c).Φ 0 = Phi V c 0 (Nat.zero_le _) from rfl, Phi_zero V c 0 _ rfl]
  try exact Idealize.SL.BI.Entails.refl _

/-- After any point but the first the invariant gives the entry's form back: what the accumulators hold is forgotten. -/
theorem Phi_out (c : Dev nD) (t : Fin (cfg1.N + 1)) (ht : t.val ≠ 0) : (dat V c).Φ t ⊢ Pipeline.ΦA spec1 c := by
  rw [show (dat V c).Φ t = Phi V c t.val (Nat.le_of_lt_succ t.isLt) from rfl, Phi_pos V c _ _ ht, PhiA_eq]
  iintro ⟨⟨⟨HP, HQ⟩, HR⟩, Hg⟩
  isplitl [HP HQ HR]
  · isplitl [HP HQ]
    · isplitl [HP]; · iexists _; iexact HP
      iexists _; iexact HQ
    iexact HR
  iexact Hg

/-- The same after the last point. -/
theorem hout (c : Dev nD) : (dat V c).Φ (Fin.last cfg1.N) ⊢ Pipeline.ΦA spec1 c :=
  Phi_out V c _ (by rw [Fin.val_last]; have : cfg1.N = 32 := N_1; omega)

end Cert.KernelIdeal.Stage2

end
-- ==== Proof.KI.Whole.lean ====
/-
  The whole program: eight host operations (six changes of float format, two reshapes of a vector into a row), then the
  two pallas_calls. Between its three items each core holds every unscoped buffer whole at known contents: as launched;
  after the host operations; after the first call (its two result arrays at what its write-backs leave, every other
  buffer as before); after the second call likewise. Each call is entered from the contents before it and left at the
  contents after it, its body's obligation being the one proved point by point; so every weakly fair execution ends, no
  step faulting, with every unscoped buffer at the last contents — in particular each argument array as launched, and
  the two results at what the second call's write-backs leave.
-/
import proofs.«127443_j14396730376920_2_alg».proof.Proof.KI.Stage1Body
import proofs.«127443_j14396730376920_2_alg».proof.Proof.KI.Stage2Body
import Idealize.ShloMosaic.Lib.Pipeline.RegionsLoop
import Idealize.ShloMosaic.Lib.Pipeline.FrameSuffix

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- As launched. -/
abbrev W0 : Dev nD → Valuation τ sig (Elt F) := fun c b => (s₀ m ρ).mem ((c : Dev nD), b)
/-- After the host operations: what the first call is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first call: its arrays at what the pipeline leaves, every other buffer as entered. -/
def W2 (c : Dev nD) : Valuation τ sig (Elt F) :=
  Pipeline.withArrays spec0 c (W1 m ρ c) fun w => (Stage1.dat (V1 m ρ) c).arrAt w cfg0.N
theorem W2_arr (c : Dev nD) (w : Fin cfg0.W) :
    W2 m ρ c (Proc.devRef .tc (Pipeline.arrRef spec0 w)) = (Stage1.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Stage1.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the second call, which is entered with what the first left. -/
def W3 (c : Dev nD) : Valuation τ sig (Elt F) :=
  Pipeline.withArrays spec1 c (W2 m ρ c) fun w => (Stage2.dat (V2 m ρ) c).arrAt w cfg1.N
theorem W3_arr (c : Dev nD) (w : Fin cfg1.W) :
    W3 m ρ c (Proc.devRef .tc (Pipeline.arrRef spec1 w)) = (Stage2.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (Stage2.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched

No host operation and no call writes an argument: a call reads it through an input window or does not touch it. -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 4).trans (((Stage1.dat (V1 m ρ) c).arrAt_in 4 rfl _).trans (Stage1.A_eq (V1 m ρ) c 4))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := (W2_arr m ρ c 5).trans (((Stage1.dat (V1 m ρ) c).arrAt_in 5 rfl _).trans (Stage1.A_eq (V1 m ρ) c 5))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := (W2_arr m ρ c 6).trans (((Stage1.dat (V1 m ρ) c).arrAt_in 6 rfl _).trans (Stage1.A_eq (V1 m ρ) c 6))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := (W2_arr m ρ c 7).trans (((Stage1.dat (V1 m ρ) c).arrAt_in 7 rfl _).trans (Stage1.A_eq (V1 m ρ) c 7))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W3_main_arg9 (c : Dev nD) : W3 m ρ c (Proc.devRef .tc main_arg9) = m ((c : Thread nD τ).loc main_arg9) :=
  calc W3 m ρ c (Proc.devRef .tc main_arg9)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => Stage1.dat (V1 m ρ) c
  | ⟨1, _⟩ => fun c => Stage2.dat (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The calls as segments -/

set_option backward.isDefEq.respectTransparency.types false in
/-- The first pallas_call over the thread state: entered from every unscoped buffer at the contents before it, left at
    the contents after it. Its arrays are split out of the unscoped buffers and put back at what the pipeline leaves; the
    generator register goes into the region's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Stage1.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec0 c ⊢ (pdats m ρ 0 c).Φ 0 := Stage1.hin (V1 m ρ) c
    unfold Pipeline.ΦA at h
    iintro ⟨Hp, -, Hr⟩
    iapply h
    isplitl [Hr]; · iexact Hr
    iexact Hp
  hout c := by
    rw [Pipeline.ownSems0_none]
    have h : (pdats m ρ 0 c).Φ (Fin.last _) ⊢ Pipeline.ΦA spec0 c := Stage1.hout (V1 m ρ) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call over the thread state: entered from every unscoped buffer at the contents before it, left at
    the contents after it. Its arrays are split out of the unscoped buffers and put back at what the pipeline leaves; the
    generator register goes into the region's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Stage2.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec1 c ⊢ (pdats m ρ 1 c).Φ 0 := Stage2.hin (V2 m ρ) c
    unfold Pipeline.ΦA at h
    iintro ⟨Hp, -, Hr⟩
    iapply h
    isplitl [Hr]; · iexact Hr
    iexact Hp
  hout c := by
    rw [Pipeline.ownSems0_none]
    have h : (pdats m ρ 1 c).Φ (Fin.last _) ⊢ Pipeline.ΦA spec1 c := Stage2.hout (V2 m ρ) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (Pipeline.HostSeg.ofOps _ _ _ _ _ (Pipeline.ucRefs τ sig) hostOps0
      (fun op h => Pipeline.sub_ucRefs op ((List.forall_iff_forall_mem.mp hostOps0_sub) op h))
      (fun op h => (List.forall_iff_forall_mem.mp hostOps0_fresh) op h) (W0 m ρ) R),
    .region (reg0 m ρ),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, no step faulting, and in
    every final state each core's unscoped buffers hold the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c),
      (h c _ (mem_uc main_arg5 (by decide))).trans (W3_main_arg5 m ρ c),
      (h c _ (mem_uc main_arg6 (by decide))).trans (W3_main_arg6 m ρ c),
      (h c _ (mem_uc main_arg7 (by decide))).trans (W3_main_arg7 m ρ c),
      (h c _ (mem_uc main_arg8 (by decide))).trans (W3_main_arg8 m ρ c),
      (h c _ (mem_uc main_arg9 (by decide))).trans (W3_main_arg9 m ρ c)⟩) (run_all m ρ)

/-- The same run with the two results read as well: each at what the second call's write-backs leave. -/
theorem run_results : θ_run defs (onTc (τ := τ) (main (F := F))) ⟨m, fun _ => 0, ρ⟩ (fun r => ∀ c : Dev nD,
      r.2.mem ((c.tc : Thread nD τ).loc main_v9_0) = (Stage2.dat (V2 m ρ) c).arrAt 6 cfg1.N
      ∧ r.2.mem ((c.tc : Thread nD τ).loc main_v9_1) = (Stage2.dat (V2 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_v9_0 (by decide))).trans (W3_arr m ρ c 6),
      (h c _ (mem_uc main_v9_1 (by decide))).trans (W3_arr m ρ c 7),
      (h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c),
      (h c _ (mem_uc main_arg5 (by decide))).trans (W3_main_arg5 m ρ c),
      (h c _ (mem_uc main_arg6 (by decide))).trans (W3_main_arg6 m ρ c),
      (h c _ (mem_uc main_arg7 (by decide))).trans (W3_main_arg7 m ρ c),
      (h c _ (mem_uc main_arg8 (by decide))).trans (W3_main_arg8 m ρ c),
      (h c _ (mem_uc main_arg9 (by decide))).trans (W3_main_arg9 m ρ c)⟩) (run_all m ρ)

end Cert.KernelIdeal.Whole

end
-- ==== Proof.KI.HostVals.lean ====
/-
  What the two pallas_calls are entered with, at the ideal values.

  Before the first call the host changes the float format of six arrays and lays two vectors out as rows. At the ideal
  values a change of format is the identity, so the copies main_v0 .. main_v5 hold what u, w, G, B, Wp, Wq hold; the row
  main_v6 holds bp at (0, j) = bp(j), and main_v7 likewise bq; the arguments themselves are untouched. The second call is
  entered with what the first left: its two result arrays at what its write-backs leave, everything else as before.
-/
import proofs.«127443_j14396730376920_2_alg».proof.Proof.KI.Whole
import Idealize.ShloMosaic.Lib.StableHlo.Run
import Idealize.ShloMosaic.Lib.ValueIdx
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-! ## After the host operations -/

/-- `main_v0` is `main_arg0` in another float format: the same extended reals. -/
theorem at_main_v0 (c : Dev nD) : (V1 (F := Ideal) m ρ c main_v0 : S1024x4096.Idx → EReal) = (m ((c : Thread nD τ).loc main_arg0) : S1024x4096.Idx → EReal) := by
  show StableHlo.after hostOps0 (W0 m ρ c) (Proc.devRef .tc main_v0) = _
  dsimp only [hostOps0]
  after_results
  rfl

/-- `main_v1` is `main_arg1` in another float format: the same extended reals. -/
theorem at_main_v1 (c : Dev nD) : (V1 (F := Ideal) m ρ c main_v1 : S1024x4096.Idx → EReal) = (m ((c : Thread nD τ).loc main_arg1) : S1024x4096.Idx → EReal) := by
  show StableHlo.after hostOps0 (W0 m ρ c) (Proc.devRef .tc main_v1) = _
  dsimp only [hostOps0]
  after_results
  rfl

/-- `main_v2` is `main_arg2` in another float format: the same extended reals. -/
theorem at_main_v2 (c : Dev nD) : (V1 (F := Ideal) m ρ c main_v2 : S4096x4096.Idx → EReal) = (m ((c : Thread nD τ).loc main_arg2) : S4096x4096.Idx → EReal) := by
  show StableHlo.after hostOps0 (W0 m ρ c) (Proc.devRef .tc main_v2) = _
  dsimp only [hostOps0]
  after_results
  rfl

/-- `main_v3` is `main_arg3` in another float format: the same extended reals. -/
theorem at_main_v3 (c : Dev nD) : (V1 (F := Ideal) m ρ c main_v3 : S4096x4096.Idx → EReal) = (m ((c : Thread nD τ).loc main_arg3) : S4096x4096.Idx → EReal) := by
  show StableHlo.after hostOps0 (W0 m ρ c) (Proc.devRef .tc main_v3) = _
  dsimp only [hostOps0]
  after_results
  rfl

/-- `main_v4` is `main_arg6` in another float format: the same extended reals. -/
theorem at_main_v4 (c : Dev nD) : (V1 (F := Ideal) m ρ c main_v4 : S4096x4096.Idx → EReal) = (m ((c : Thread nD τ).loc main_arg6) : S4096x4096.Idx → EReal) := by
  show StableHlo.after hostOps0 (W0 m ρ c) (Proc.devRef .tc main_v4) = _
  dsimp only [hostOps0]
  after_results
  rfl

/-- `main_v5` is `main_arg8` in another float format: the same extended reals. -/
theorem at_main_v5 (c : Dev nD) : (V1 (F := Ideal) m ρ c main_v5 : S4096x4096.Idx → EReal) = (m ((c : Thread nD τ).loc main_arg8) : S4096x4096.Idx → EReal) := by
  show StableHlo.after hostOps0 (W0 m ρ c) (Proc.devRef .tc main_v5) = _
  dsimp only [hostOps0]
  after_results
  rfl

/-- `main_v6` is the vector `main_arg7` laid out as a row: entry (0, j) is entry j. -/
theorem at_main_v6 (c : Dev nD) (j : Fin 4096) :
    (V1 (F := Ideal) m ρ c main_v6 : S1x4096.Idx → EReal) (ix2 0 j) = (m ((c : Thread nD τ).loc main_arg7) : S4096.Idx → EReal) (ix1 j) := by
  have e : (V1 (F := Ideal) m ρ c main_v6 : S1x4096.Idx → EReal) = shapeCast S1x4096 (m ((c : Thread nD τ).loc main_arg7) : S4096.Idx → EReal) shapeCasts_S4096_S1x4096 := by
    show StableHlo.after hostOps0 (W0 m ρ c) (Proc.devRef .tc main_v6) = _
    dsimp only [hostOps0]
    after_results
    rfl
  rw [e]
  refine shapeCast_apply _ _ (ix2 0 j) (ix1 j) ?_
  rw [Shape.rowMajor_val_one, Shape.rowMajor_val_two]
  show (j : ℕ) = ((0 : Fin 1) : ℕ) * _ + (j : ℕ)
  simp only [Fin.val_zero, Nat.zero_mul, Nat.zero_add]

/-- `main_v7` is the vector `main_arg9` laid out as a row: entry (0, j) is entry j. -/
theorem at_main_v7 (c : Dev nD) (j : Fin 4096) :
    (V1 (F := Ideal) m ρ c main_v7 : S1x4096.Idx → EReal) (ix2 0 j) = (m ((c : Thread nD τ).loc main_arg9) : S4096.Idx → EReal) (ix1 j) := by
  have e : (V1 (F := Ideal) m ρ c main_v7 : S1x4096.Idx → EReal) = shapeCast S1x4096 (m ((c : Thread nD τ).loc main_arg9) : S4096.Idx → EReal) shapeCasts_S4096_S1x4096 := by
    show StableHlo.after hostOps0 (W0 m ρ c) (Proc.devRef .tc main_v7) = _
    dsimp only [hostOps0]
    after_results
    rfl
  rw [e]
  refine shapeCast_apply _ _ (ix2 0 j) (ix1 j) ?_
  rw [Shape.rowMajor_val_one, Shape.rowMajor_val_two]
  show (j : ℕ) = ((0 : Fin 1) : ℕ) * _ + (j : ℕ)
  simp only [Fin.val_zero, Nat.zero_mul, Nat.zero_add]

/-- No host operation writes `main_arg0`. -/
theorem at_main_arg0 (c : Dev nD) : (V1 (F := Ideal) m ρ c main_arg0 : S1024x4096.Idx → EReal) = (m ((c : Thread nD τ).loc main_arg0) : S1024x4096.Idx → EReal) := by
  show StableHlo.after hostOps0 (W0 m ρ c) (Proc.devRef .tc main_arg0) = _
  dsimp only [hostOps0]
  after_results

/-- No host operation writes `main_arg1`. -/
theorem at_main_arg1 (c : Dev nD) : (V1 (F := Ideal) m ρ c main_arg1 : S1024x4096.Idx → EReal) = (m ((c : Thread nD τ).loc main_arg1) : S1024x4096.Idx → EReal) := by
  show StableHlo.after hostOps0 (W0 m ρ c) (Proc.devRef .tc main_arg1) = _
  dsimp only [hostOps0]
  after_results

/-- No host operation writes `main_arg4`. -/
theorem at_main_arg4 (c : Dev nD) : (V1 (F := Ideal) m ρ c main_arg4 : S1x4096.Idx → EReal) = (m ((c : Thread nD τ).loc main_arg4) : S1x4096.Idx → EReal) := by
  show StableHlo.after hostOps0 (W0 m ρ c) (Proc.devRef .tc main_arg4) = _
  dsimp only [hostOps0]
  after_results

/-- No host operation writes `main_arg5`. -/
theorem at_main_arg5 (c : Dev nD) : (V1 (F := Ideal) m ρ c main_arg5 : S1x4096.Idx → EReal) = (m ((c : Thread nD τ).loc main_arg5) : S1x4096.Idx → EReal) := by
  show StableHlo.after hostOps0 (W0 m ρ c) (Proc.devRef .tc main_arg5) = _
  dsimp only [hostOps0]
  after_results

/-! ## What the second call is entered with -/

/-- The first call does not touch `main_v4`. -/
theorem V2_main_v4 (c : Dev nD) : (V2 (F := Ideal) m ρ c main_v4 : S4096x4096.Idx → EReal) = (V1 (F := Ideal) m ρ c main_v4 : S4096x4096.Idx → EReal) :=
  W2_of_ne m ρ c main_v4 (by decide)

/-- The first call does not touch `main_v5`. -/
theorem V2_main_v5 (c : Dev nD) : (V2 (F := Ideal) m ρ c main_v5 : S4096x4096.Idx → EReal) = (V1 (F := Ideal) m ρ c main_v5 : S4096x4096.Idx → EReal) :=
  W2_of_ne m ρ c main_v5 (by decide)

/-- The first call does not touch `main_v6`. -/
theorem V2_main_v6 (c : Dev nD) : (V2 (F := Ideal) m ρ c main_v6 : S1x4096.Idx → EReal) = (V1 (F := Ideal) m ρ c main_v6 : S1x4096.Idx → EReal) :=
  W2_of_ne m ρ c main_v6 (by decide)

/-- The first call does not touch `main_v7`. -/
theorem V2_main_v7 (c : Dev nD) : (V2 (F := Ideal) m ρ c main_v7 : S1x4096.Idx → EReal) = (V1 (F := Ideal) m ρ c main_v7 : S1x4096.Idx → EReal) :=
  W2_of_ne m ρ c main_v7 (by decide)

/-- The first call's first result array, as the second call finds it. -/
theorem V2_main_v8_0 (c : Dev nD) : (V2 (F := Ideal) m ρ c main_v8_0 : S1024x4096.Idx → EReal) = ((Stage1.dat (F := Ideal) (V1 m ρ) c).arrAt 8 cfg0.N : S1024x4096.Idx → EReal) :=
  W2_arr m ρ c 8
/-- The first call's second result array, as the second call finds it. -/
theorem V2_main_v8_1 (c : Dev nD) : (V2 (F := Ideal) m ρ c main_v8_1 : S1024x4096.Idx → EReal) = ((Stage1.dat (F := Ideal) (V1 m ρ) c).arrAt 9 cfg0.N : S1024x4096.Idx → EReal) :=
  W2_arr m ρ c 9

end Cert.KernelIdeal.Whole

end
-- ==== Proof.LibDotLastAxes.lean ====
/-
  A matrix product that contracts the LAST axis of both operands, at the ideal values.

  For `A` of shape [M, K] and `B` of shape [N, K] the product into a zero accumulator has, at row `a` and column `b`,
  the value `∑ c, A (a, c) * B (b, c)`: both operands are read along their rows. With a row vector added to every row
  of the product (a bias of shape [1, N] cast to its own shape and broadcast down the rows) this is one unit of a dense
  layer, `(∑ c, A (a, c) * B (b, c)) + bias (0, b)`.
-/
import Idealize.ShloMosaic.PureOps.Ideal.Laws
import Idealize.ShloMosaic.Lib.ValueIdx
import Idealize.ShloMosaic.Lib.Pipeline.Value

noncomputable section

open scoped BigOperators

namespace Idealize.ShloMosaic.DotLastAxes

open Idealize.ShloMosaic Idealize.ShloMosaic.ValueIdx

variable {M K N : Nat}

/-- The product of an [M, K] by an [N, K] matrix over their last axes, into the zero splat, read at an index: the sum
    over the contracted coordinate of the products of the two rows' entries. -/
theorem matmul_zero_apply {φ₁ φ₂ : FTy}
    (w : DotDims.WF (⟨2, ![M, K]⟩ : Shape) (⟨2, ![N, K]⟩ : Shape) (⟨2, ![M, N]⟩ : Shape) [1] [1] [0] [0] [] [])
    (prec : Option ContractPrecision) (A : FVec Ideal ⟨2, ![M, K]⟩ φ₁) (B : FVec Ideal ⟨2, ![N, K]⟩ φ₂)
    (a : Fin M) (b : Fin N) :
    matmul (⟨[1], [1], [0], [0], [], [], w⟩ : DotDims _ _ _) prec A B (constant (F := Ideal) ⟨2, ![M, N]⟩ .f32 0x00000000#32) (ix2 a b)
      = ∑ c : Fin K, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims (⟨2, ![M, K]⟩ : Shape) (⟨2, ![N, K]⟩ : Shape) (⟨2, ![M, N]⟩ : Shape)) K rfl rfl).symm]
  refine Finset.sum_congr rfl fun c _ => ?_
  have c2 := contrEquiv1_symm_val (⟨[1], [1], [0], [0], [], [], w⟩ : DotDims (⟨2, ![M, K]⟩ : Shape) (⟨2, ![N, K]⟩ : Shape) (⟨2, ![M, N]⟩ : Shape)) K rfl rfl c
  have l2 : (⟨[1], [1], [0], [0], [], [], w⟩ : DotDims (⟨2, ![M, K]⟩ : Shape) (⟨2, ![N, K]⟩ : Shape) (⟨2, ![M, N]⟩ : Shape)).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims (⟨2, ![M, K]⟩ : Shape) (⟨2, ![N, K]⟩ : Shape) (⟨2, ![M, N]⟩ : Shape)).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- A [1, N] row cast to its own shape and broadcast down M rows reads, at row `a` and column `b`, the row's entry `b`. -/
theorem rowBroadcast_apply {α : Type} (hc : (⟨2, ![1, N]⟩ : Shape).ShapeCasts ⟨2, ![1, N]⟩)
    (hb : (⟨2, ![1, N]⟩ : Shape).Broadcasts ⟨2, ![M, N]⟩) (x : (⟨2, ![1, N]⟩ : Shape).Idx → α) (a : Fin M) (b : Fin N) :
    broadcastTo ⟨2, ![M, N]⟩ (shapeCast ⟨2, ![1, N]⟩ x hc) hb (ix2 a b) = x (ix2 0 b) := by
  rw [shapeCast_self]
  refine broadcastTo_apply x hb (ix2 a b) (ix2 0 b) fun ax => ?_
  match ax with
  | ⟨0, _⟩ => exact (if_pos rfl).symm
  | ⟨1, _⟩ =>
    show (b : ℕ) = if N = 1 then 0 else (b : ℕ)
    split
    · have := b.isLt; omega
    · rfl

end Idealize.ShloMosaic.DotLastAxes

end
-- ==== Proof.LibSumBlocks.lean ====
/-
  A finite sum taken block by block.

  A sum of `m * n` terms in a commutative additive monoid is the sum, over `m` consecutive blocks, of
  each block's `n` terms: term `b` of block `a` is term `b + n * a` of the whole. Only commutativity and
  associativity of the addition are used, so the law holds on the extended reals with no finiteness
  assumption: a contraction of length 4096 accumulated as 16 partial contractions of length 256 is the
  one contraction.
-/
import Mathlib.Algebra.BigOperators.Fin
import Mathlib.Logic.Equiv.Fin.Basic

namespace Cert.SumBlocks

open Finset

/-- The whole sum is the sum over blocks of the blocks' sums; `finProdFinEquiv (a, b)` is position
    `b` of block `a`. -/
theorem sum_blocks {M : Type*} [AddCommMonoid M] (m n : ℕ) (f : Fin (m * n) → M) :
    ∑ k : Fin (m * n), f k = ∑ a : Fin m, ∑ b : Fin n, f (finProdFinEquiv (a, b)) :=
  (Equiv.sum_comp finProdFinEquiv f).symm.trans (Fintype.sum_prod_type _)

/-- Position `b` of block `a` is term `b + n * a`. -/
theorem block_pos (m n : ℕ) (a : Fin m) (b : Fin n) :
    (finProdFinEquiv (a, b) : Fin (m * n)).val = b.val + n * a.val := rfl

end Cert.SumBlocks
-- ==== Proof.Payloads.lean ====
/-
  The arithmetic of the two kernels' bodies, read at one entry.

  Both kernels work on blocks: a [1024, 1024] block of a left operand, a [512, 1024] block of a right operand, and
  [1024, 512] accumulators. At every format the ideal value of an entry is an extended real, a cast of an array to its
  own shape and a narrowing of the format are the identity, and the arithmetic is the extended reals' own. At entry
  (a, b) of a [1024, 512] result:

  * a zero splat is 0;
  * an accumulator update is the old entry plus the product of the two blocks over their LAST axes,
    s(a, b) + sum over c < 1024 of A(a, c) * B(b, c): row a of the left block against row b of the right block;
  * the second stage's last step adds a [1, 512] row to every row: s(a, b) + r(0, b);
  * the first stage's last step combines the four accumulated products with the two inputs' entries,
    (((u * gu + w * gw) + w * bu) - u * bw)(a, b) + r(0, b) for the first output and
    (((w * gu - u * gw) - u * bu) - w * bw)(a, b) + r(0, b) for the second, in exactly this association.

  Last, the fold over the contraction axis: a sum over 4096 terms is the sum of its four consecutive blocks of 1024
  terms, term c of block j being term c + 1024 * j. Accumulating the four partial products from 0, in the order of the
  blocks, therefore gives the whole contraction; only associativity and commutativity of the addition are used, so no
  entry need be finite.
-/
import proofs.«127443_j14396730376920_2_alg».proof.Proof.Gen.KernelIdeal.Skeleton
import proofs.«127443_j14396730376920_2_alg».proof.Proof.LibDotLastAxes
import proofs.«127443_j14396730376920_2_alg».proof.Proof.LibSumBlocks
import Idealize.ShloMosaic.PureOps.Ideal.Laws
import Idealize.ShloMosaic.Lib.ValueIdx
import Idealize.ShloMosaic.Lib.Pipeline.Value

noncomputable section

open scoped BigOperators

namespace Cert.Payloads

open Cert.KernelIdeal Cert.KernelIdeal.Gen Idealize.ShloMosaic Idealize.ShloMosaic.ValueIdx
  Idealize.ShloMosaic.DotLastAxes

/-! ## Zero splats -/

/-- Second stage, first accumulator's initial value: the zero scalar repeated over [1024, 512], cast to its own shape. -/
theorem k1_pay1_at (a : Fin 1024) (b : Fin 512) : k1_pay1 (F := Ideal) (ix2 a b) = 0 := by
  unfold k1_pay1
  rw [shapeCast_self]
  exact Ideal.ofBits_zero_f32

/-- Second stage, second accumulator's initial value: the zero scalar repeated over [1024, 512], cast to its own shape. -/
theorem k1_pay2_at (a : Fin 1024) (b : Fin 512) : k1_pay2 (F := Ideal) (ix2 a b) = 0 := by
  unfold k1_pay2
  rw [shapeCast_self]
  exact Ideal.ofBits_zero_f32

/-- First stage, first accumulator's initial value: the zero scalar repeated over [1024, 512], cast to its own shape. -/
theorem k0_pay4_at (a : Fin 1024) (b : Fin 512) : k0_pay4 (F := Ideal) (ix2 a b) = 0 := by
  unfold k0_pay4
  rw [shapeCast_self]
  exact Ideal.ofBits_zero_f32

/-- First stage, second accumulator's initial value: the zero scalar repeated over [1024, 512], cast to its own shape. -/
theorem k0_pay5_at (a : Fin 1024) (b : Fin 512) : k0_pay5 (F := Ideal) (ix2 a b) = 0 := by
  unfold k0_pay5
  rw [shapeCast_self]
  exact Ideal.ofBits_zero_f32

/-- First stage, third accumulator's initial value: the zero scalar repeated over [1024, 512], cast to its own shape. -/
theorem k0_pay6_at (a : Fin 1024) (b : Fin 512) : k0_pay6 (F := Ideal) (ix2 a b) = 0 := by
  unfold k0_pay6
  rw [shapeCast_self]
  exact Ideal.ofBits_zero_f32

/-- First stage, fourth accumulator's initial value: the zero scalar repeated over [1024, 512], cast to its own shape. -/
theorem k0_pay7_at (a : Fin 1024) (b : Fin 512) : k0_pay7 (F := Ideal) (ix2 a b) = 0 := by
  unfold k0_pay7
  rw [shapeCast_self]
  exact Ideal.ofBits_zero_f32

/-! ## Accumulator updates

  Each is: cast both blocks to their own shapes, multiply them over their last axes into the zero splat, add the old
  accumulator, cast to the own shape. -/

/-- Second stage, first accumulator: the old entry plus row a of the left block against row b of the right block. -/
theorem k1_pay3_at (A : Vec Ideal S1024x1024 .bf16) (Bm : Vec Ideal S512x1024 .bf16) (s : Vec Ideal S1024x512 .f32)
    (a : Fin 1024) (b : Fin 512) :
    k1_pay3 A Bm s (ix2 a b) = s (ix2 a b) + ∑ c : Fin 1024, A (ix2 a c) * Bm (ix2 b c) := by
  unfold k1_pay3
  rw [shapeCast_self, shapeCast_self, shapeCast_self, addf_apply]
  congr 1
  exact matmul_zero_apply _ none A Bm a b

/-- Second stage, second accumulator: the old entry plus row a of the left block against row b of the right block. -/
theorem k1_pay4_at (A : Vec Ideal S1024x1024 .bf16) (Bm : Vec Ideal S512x1024 .bf16) (s : Vec Ideal S1024x512 .f32)
    (a : Fin 1024) (b : Fin 512) :
    k1_pay4 A Bm s (ix2 a b) = s (ix2 a b) + ∑ c : Fin 1024, A (ix2 a c) * Bm (ix2 b c) := by
  unfold k1_pay4
  rw [shapeCast_self, shapeCast_self, shapeCast_self, addf_apply]
  congr 1
  exact matmul_zero_apply _ none A Bm a b

/-- First stage, first accumulator (first left block, first right block). -/
theorem k0_pay12_at (A : Vec Ideal S1024x1024 .bf16) (Bm : Vec Ideal S512x1024 .bf16) (s : Vec Ideal S1024x512 .f32)
    (a : Fin 1024) (b : Fin 512) :
    k0_pay12 A Bm s (ix2 a b) = s (ix2 a b) + ∑ c : Fin 1024, A (ix2 a c) * Bm (ix2 b c) := by
  unfold k0_pay12 k0_pay8 k0_pay10
  rw [shapeCast_self, shapeCast_self, shapeCast_self, addf_apply]
  congr 1
  exact matmul_zero_apply _ none A Bm a b

/-- First stage, second accumulator (second left block, first right block). -/
theorem k0_pay13_at (A : Vec Ideal S1024x1024 .bf16) (Bm : Vec Ideal S512x1024 .bf16) (s : Vec Ideal S1024x512 .f32)
    (a : Fin 1024) (b : Fin 512) :
    k0_pay13 A Bm s (ix2 a b) = s (ix2 a b) + ∑ c : Fin 1024, A (ix2 a c) * Bm (ix2 b c) := by
  unfold k0_pay13 k0_pay9 k0_pay10
  rw [shapeCast_self, shapeCast_self, shapeCast_self, addf_apply]
  congr 1
  exact matmul_zero_apply _ none A Bm a b

/-- First stage, third accumulator (first left block, second right block). -/
theorem k0_pay14_at (A : Vec Ideal S1024x1024 .bf16) (Bm : Vec Ideal S512x1024 .bf16) (s : Vec Ideal S1024x512 .f32)
    (a : Fin 1024) (b : Fin 512) :
    k0_pay14 A Bm s (ix2 a b) = s (ix2 a b) + ∑ c : Fin 1024, A (ix2 a c) * Bm (ix2 b c) := by
  unfold k0_pay14 k0_pay8 k0_pay11
  rw [shapeCast_self, shapeCast_self, shapeCast_self, addf_apply]
  congr 1
  exact matmul_zero_apply _ none A Bm a b

/-- First stage, fourth accumulator (second left block, second right block): here the two blocks arrive already cast
    to their own shapes. -/
theorem k0_pay1_at (A : Vec Ideal S1024x1024 .bf16) (Bm : Vec Ideal S512x1024 .bf16) (s : Vec Ideal S1024x512 .f32)
    (a : Fin 1024) (b : Fin 512) :
    k0_pay1 (k0_pay9 A) (k0_pay11 Bm) s (ix2 a b) = s (ix2 a b) + ∑ c : Fin 1024, A (ix2 a c) * Bm (ix2 b c) := by
  unfold k0_pay1 k0_pay9 k0_pay11
  rw [shapeCast_self, shapeCast_self, shapeCast_self, addf_apply]
  congr 1
  exact matmul_zero_apply _ none A Bm a b

/-! ## The second stage's last step: add the bias row -/

/-- First output: the accumulator plus the [1, 512] row, cast to its own shape and repeated down the 1024 rows. -/
theorem k1_pay5_at (s : Vec Ideal S1024x512 .f32) (r : Vec Ideal S1x512 .f32) (a : Fin 1024) (b : Fin 512) :
    k1_pay5 s r (ix2 a b) = s (ix2 a b) + r (ix2 0 b) := by
  unfold k1_pay5
  rw [addf_apply, rowBroadcast_apply]

/-- Second output: the accumulator plus the [1, 512] row, cast to its own shape and repeated down the 1024 rows. -/
theorem k1_pay6_at (s : Vec Ideal S1024x512 .f32) (r : Vec Ideal S1x512 .f32) (a : Fin 1024) (b : Fin 512) :
    k1_pay6 s r (ix2 a b) = s (ix2 a b) + r (ix2 0 b) := by
  unfold k1_pay6
  rw [addf_apply, rowBroadcast_apply]

/-! ## The first stage's last step: the two bilinear combinations -/

/-- A [1, 512] row repeated down 1024 rows reads, at (a, b), the row's entry b. -/
theorem rowRepeat_at (r : Vec Ideal S1x512 .f32) (a : Fin 1024) (b : Fin 512) :
    broadcastTo S1024x512 r broadcasts_S1x512_S1024x512 (ix2 a b) = r (ix2 0 b) := by
  have h := rowBroadcast_apply (M := 1024) shapeCasts_S1x512_S1x512 broadcasts_S1x512_S1024x512 r a b
  rwa [shapeCast_self] at h

/-- First combination: ((u * gu + w * gw) + w * bu) - u * bw, plus the row; the narrowing to the 16-bit format is the
    identity on ideal values. -/
theorem k0_pay2_at (uu ww gu gw bu bw : Vec Ideal S1024x512 .f32) (r : Vec Ideal S1x512 .f32) (a : Fin 1024) (b : Fin 512) :
    k0_pay2 uu ww gu gw bu bw r (ix2 a b)
      = (((uu (ix2 a b) * gu (ix2 a b) + ww (ix2 a b) * gw (ix2 a b)) + ww (ix2 a b) * bu (ix2 a b))
          - uu (ix2 a b) * bw (ix2 a b)) + r (ix2 0 b) := by
  unfold k0_pay2
  rw [truncf_apply, addf_apply, subf_apply, addf_apply, addf_apply, mulf_apply, mulf_apply, mulf_apply, mulf_apply,
    rowRepeat_at]

/-- Second combination: ((w * gu - u * gw) - u * bu) - w * bw, plus the row; the narrowing to the 16-bit format is
    the identity on ideal values. -/
theorem k0_pay3_at (uu ww gu gw bu bw : Vec Ideal S1024x512 .f32) (r : Vec Ideal S1x512 .f32) (a : Fin 1024) (b : Fin 512) :
    k0_pay3 uu ww gu gw bu bw r (ix2 a b)
      = (((ww (ix2 a b) * gu (ix2 a b) - uu (ix2 a b) * gw (ix2 a b)) - uu (ix2 a b) * bu (ix2 a b))
          - ww (ix2 a b) * bw (ix2 a b)) + r (ix2 0 b) := by
  unfold k0_pay3
  rw [truncf_apply, addf_apply, subf_apply, subf_apply, subf_apply, mulf_apply, mulf_apply, mulf_apply, mulf_apply,
    rowRepeat_at]

/-! ## The fold over four blocks of the contraction axis -/

/-- Term c of block j of 4 blocks of 1024 is term c + 1024 * j of the 4096. -/
theorem block_index (j : Fin 4) (c : Fin 1024) :
    (finProdFinEquiv (j, c) : Fin (4 * 1024)) = (⟨c.val + 1024 * j.val, by omega⟩ : Fin 4096) := rfl

/-- The four partial sums, accumulated from 0 in the order of the blocks, are the whole sum. The columns are given by
    any function col with col j c = c + 1024 * j as numbers. -/
theorem sum_four_blocks_of (f : Fin 4096 → EReal) (col : Fin 4 → Fin 1024 → Fin 4096)
    (hcol : ∀ j c, (col j c).val = c.val + 1024 * j.val) :
    (((0 + ∑ c : Fin 1024, f (col 0 c)) + ∑ c : Fin 1024, f (col 1 c)) + ∑ c : Fin 1024, f (col 2 c))
        + ∑ c : Fin 1024, f (col 3 c) = ∑ k : Fin 4096, f k := by
  have e : ∀ j c, col j c = (finProdFinEquiv (j, c) : Fin (4 * 1024)) := fun j c => Fin.ext (hcol j c)
  have h := Cert.SumBlocks.sum_blocks 4 1024 f
  rw [Fin.sum_univ_four] at h
  simp only [e]
  rw [zero_add]
  exact h.symm

/-- The same with the columns written out: block j's term c is entry c + 1024 * j. -/
theorem sum_four_blocks (f : Fin 4096 → EReal) :
    (((0 + ∑ c : Fin 1024, f ⟨c.val + 1024 * 0, by omega⟩) + ∑ c : Fin 1024, f ⟨c.val + 1024 * 1, by omega⟩)
        + ∑ c : Fin 1024, f ⟨c.val + 1024 * 2, by omega⟩) + ∑ c : Fin 1024, f ⟨c.val + 1024 * 3, by omega⟩
      = ∑ k : Fin 4096, f k :=
  sum_four_blocks_of f (fun j c => ⟨c.val + 1024 * j.val, by omega⟩) (fun _ _ => rfl)

end Cert.Payloads

end
-- ==== Proof.KI.Stage1Value.lean ====
/-
  The first pallas_call (the two bilinear combinations), grid 8 x 4, read as values.

  Point t = 4 n + k multiplies the k-th block of 1024 contracted columns of each of the two left operands (arrays
  [1024, 4096]) with rows 512 n .. 512 n + 511 of each of the two right operands (arrays [4096, 4096]) over those
  columns, and adds each of the four [1024, 512] products to its own accumulator, which the point with k = 0 first
  sets to zero. The point with k = 3 then combines, entry by entry, columns 512 n .. 512 n + 511 of the two
  entrywise factors u, w with the four accumulators gu, gw, bu, bw (as just updated) and a bias row:
  ((u * gu + w * gw) + w * bu) - u * bw, plus the row, for the first output, and
  ((w * gu - u * gw) - u * bu) - w * bw, plus the row, for the second, stored as columns 512 n .. 512 n + 511.

  1. What each run of the body leaves in the accumulators and the output buffers, as the body's arithmetic applied to
     the point's blocks (for any float instance).
  2. Each block as entries of its array: the block's coordinate is the block index times the block's extent plus the
     coordinate inside the block, the block indices being (0, k), (n, k) and (0, n).
  3. The four updates of each accumulator over one output block unrolled; at the ideal values each update adds the
     sum over the 1024 columns of its block, and the four partial sums added in order from 0 are the sum over all
     4096 columns (a sum over 4 * 1024 terms taken block by block), so gu(a, b) is the contraction of row a of the
     first left operand with row 512 n + b of the first right operand, and likewise gw, bu, bw.
  4. The eight write-backs (points with k = 3) cover each output array, which therefore ends holding the combination
     above at every (a, j), the contractions being of each row of a left operand against each ROW of a right operand.
  No entry is assumed finite: only associativity and commutativity of the extended reals' addition are used, and the
  sums, differences and products of the combination stay as the body associates them.
-/
import proofs.«127443_j14396730376920_2_alg».proof.Proof.KI.Stage1State
import proofs.«127443_j14396730376920_2_alg».proof.Proof.Payloads
import Idealize.ShloMosaic.Lib.Pipeline.Value
import Idealize.ShloMosaic.Lib.Pipeline.FrameBody
import Idealize.ShloMosaic.Lib.ValueIdx
import Idealize.ShloMosaic.Lib.Tactic

set_option maxRecDepth 16384

noncomputable section

open scoped BigOperators

namespace Cert.KernelIdeal.Stage1.Value

open Cert.KernelIdeal Cert.KernelIdeal.Gen Cert.KernelIdeal.Stage1
open Idealize.ShloMosaic Idealize.ShloMosaic.TcCoe Idealize.ShloMosaic.Tactic Idealize.ShloMosaic.ValueIdx
open Idealize.SL.Sem
open Idealize.ShloMosaic.Pipeline (Dat)

theorem hz : (![0, 0] : Fin 2 → Nat) = fun _ => 0 := funext fun a => by fin_cases a <;> rfl

section AnyInstance

variable {F : FTy → Type} [FloatOps F]
variable (V : (c : Dev nD) → (b : Ref sig .tc) → Buf (Elt F) ((c : Thread nD τ).loc b))

/-! ## Step 1: what each run leaves -/

theorem readBack0 (X : Vec F S1024x512 .f32) :
    View.read (Elt F) (View.whole cc0_scratch0) ((Memref.isWhole_whole (cc0_scratch0 : Ref sig .tc)).unread X) = X :=
  (Memref.isWhole_whole (cc0_scratch0 : Ref sig .tc)).read_unread X
theorem readBack1 (X : Vec F S1024x512 .f32) :
    View.read (Elt F) (View.whole cc0_scratch1) ((Memref.isWhole_whole (cc0_scratch1 : Ref sig .tc)).unread X) = X :=
  (Memref.isWhole_whole (cc0_scratch1 : Ref sig .tc)).read_unread X
theorem readBack2 (X : Vec F S1024x512 .f32) :
    View.read (Elt F) (View.whole cc0_scratch2) ((Memref.isWhole_whole (cc0_scratch2 : Ref sig .tc)).unread X) = X :=
  (Memref.isWhole_whole (cc0_scratch2 : Ref sig .tc)).read_unread X
theorem readBack3 (X : Vec F S1024x512 .f32) :
    View.read (Elt F) (View.whole cc0_scratch3) ((Memref.isWhole_whole (cc0_scratch3 : Ref sig .tc)).unread X) = X :=
  (Memref.isWhole_whole (cc0_scratch3 : Ref sig .tc)).read_unread X

theorem mid0 (c : Dev nD) (t : Fin cfg0.N) (h0 : ¬atK0 (grid0.coords t)) (h3 : ¬atK3 (grid0.coords t)) (s0 s1 s2 s3 : Vec F S1024x512 .f32) :
    readA0 (rMid V c t h0 h3 s0 s1 s2 s3).1 = k0_pay12 (blk V c 0 t) (blk V c 2 t) s0 := by
  unfold readA0
  rw [View.read_writes_eq_canon _ _ _ (coverMid0 V c t h0 h3 s0 s1 s2 s3)]
  unfold rMid runMid
  dsimp only
  try sl_unfold_words
  rw [View.canon_unit_zero hz]
  simp only [View.readAt_eq_ld, (hs0 t).read_unread, (hs1 t).read_unread, (hs2 t).read_unread, (hs3 t).read_unread,
    (hs4 t).read_unread, (hs5 t).read_unread, (hs6 t).read_unread, (hs7 t).read_unread, readBack0, readBack1, readBack2, readBack3,
    View.ld_unit_zero (S := S1024x512) hz, View.ld_unit_zero (S := S1024x1024) hz, View.ld_unit_zero (S := S512x1024) hz,
    View.ld_unit_zero (S := S1x512) hz, View.readCov_unit_zero (S := S1024x512) _ hz]

theorem first0 (c : Dev nD) (t : Fin cfg0.N) (h0 : atK0 (grid0.coords t)) (h3 : ¬atK3 (grid0.coords t)) :
    readA0 (rFirst V c t h0 h3).1 = k0_pay12 (blk V c 0 t) (blk V c 2 t) k0_pay4 := by
  unfold readA0
  rw [View.read_writes_eq_canon _ _ _ (coverFirst0 V c t h0 h3)]
  unfold rFirst runFirst
  dsimp only
  try sl_unfold_words
  rw [View.canon_cons_unit_zero hz]
  simp only [View.readAt_eq_ld, (hs0 t).read_unread, (hs1 t).read_unread, (hs2 t).read_unread, (hs3 t).read_unread,
    (hs4 t).read_unread, (hs5 t).read_unread, (hs6 t).read_unread, (hs7 t).read_unread, readBack0, readBack1, readBack2, readBack3,
    View.ld_unit_zero (S := S1024x512) hz, View.ld_unit_zero (S := S1024x1024) hz, View.ld_unit_zero (S := S512x1024) hz,
    View.ld_unit_zero (S := S1x512) hz, View.readCov_unit_zero (S := S1024x512) _ hz]

theorem last0 (c : Dev nD) (t : Fin cfg0.N) (h0 : ¬atK0 (grid0.coords t)) (h3 : atK3 (grid0.coords t)) (s0 s1 s2 s3 : Vec F S1024x512 .f32) :
    readA0 (rLast V c t h0 h3 s0 s1 s2 s3).2.2.1 = k0_pay12 (blk V c 0 t) (blk V c 2 t) s0 := by
  unfold readA0
  rw [View.read_writes_eq_canon _ _ _ (coverLast0 V c t h0 h3 s0 s1 s2 s3)]
  unfold rLast runLast
  dsimp only
  try sl_unfold_words
  rw [View.canon_unit_zero hz]
  simp only [View.readAt_eq_ld, (hs0 t).read_unread, (hs1 t).read_unread, (hs2 t).read_unread, (hs3 t).read_unread,
    (hs4 t).read_unread, (hs5 t).read_unread, (hs6 t).read_unread, (hs7 t).read_unread, readBack0, readBack1, readBack2, readBack3,
    View.ld_unit_zero (S := S1024x512) hz, View.ld_unit_zero (S := S1024x1024) hz, View.ld_unit_zero (S := S512x1024) hz,
    View.ld_unit_zero (S := S1x512) hz, View.readCov_unit_zero (S := S1024x512) _ hz]

theorem mid1 (c : Dev nD) (t : Fin cfg0.N) (h0 : ¬atK0 (grid0.coords t)) (h3 : ¬atK3 (grid0.coords t)) (s0 s1 s2 s3 : Vec F S1024x512 .f32) :
    readA1 (rMid V c t h0 h3 s0 s1 s2 s3).2.1 = k0_pay13 (blk V c 1 t) (blk V c 2 t) s1 := by
  unfold readA1
  rw [View.read_writes_eq_canon _ _ _ (coverMid1 V c t h0 h3 s0 s1 s2 s3)]
  unfold rMid runMid
  dsimp only
  try sl_unfold_words
  rw [View.canon_unit_zero hz]
  simp only [View.readAt_eq_ld, (hs0 t).read_unread, (hs1 t).read_unread, (hs2 t).read_unread, (hs3 t).read_unread,
    (hs4 t).read_unread, (hs5 t).read_unread, (hs6 t).read_unread, (hs7 t).read_unread, readBack0, readBack1, readBack2, readBack3,
    View.ld_unit_zero (S := S1024x512) hz, View.ld_unit_zero (S := S1024x1024) hz, View.ld_unit_zero (S := S512x1024) hz,
    View.ld_unit_zero (S := S1x512) hz, View.readCov_unit_zero (S := S1024x512) _ hz]

theorem first1 (c : Dev nD) (t : Fin cfg0.N) (h0 : atK0 (grid0.coords t)) (h3 : ¬atK3 (grid0.coords t)) :
    readA1 (rFirst V c t h0 h3).2.1 = k0_pay13 (blk V c 1 t) (blk V c 2 t) k0_pay5 := by
  unfold readA1
  rw [View.read_writes_eq_canon _ _ _ (coverFirst1 V c t h0 h3)]
  unfold rFirst runFirst
  dsimp only
  try sl_unfold_words
  rw [View.canon_cons_unit_zero hz]
  simp only [View.readAt_eq_ld, (hs0 t).read_unread, (hs1 t).read_unread, (hs2 t).read_unread, (hs3 t).read_unread,
    (hs4 t).read_unread, (hs5 t).read_unread, (hs6 t).read_unread, (hs7 t).read_unread, readBack0, readBack1, readBack2, readBack3,
    View.ld_unit_zero (S := S1024x512) hz, View.ld_unit_zero (S := S1024x1024) hz, View.ld_unit_zero (S := S512x1024) hz,
    View.ld_unit_zero (S := S1x512) hz, View.readCov_unit_zero (S := S1024x512) _ hz]

theorem last1 (c : Dev nD) (t : Fin cfg0.N) (h0 : ¬atK0 (grid0.coords t)) (h3 : atK3 (grid0.coords t)) (s0 s1 s2 s3 : Vec F S1024x512 .f32) :
    readA1 (rLast V c t h0 h3 s0 s1 s2 s3).2.2.2.1 = k0_pay13 (blk V c 1 t) (blk V c 2 t) s1 := by
  unfold readA1
  rw [View.read_writes_eq_canon _ _ _ (coverLast1 V c t h0 h3 s0 s1 s2 s3)]
  unfold rLast runLast
  dsimp only
  try sl_unfold_words
  rw [View.canon_unit_zero hz]
  simp only [View.readAt_eq_ld, (hs0 t).read_unread, (hs1 t).read_unread, (hs2 t).read_unread, (hs3 t).read_unread,
    (hs4 t).read_unread, (hs5 t).read_unread, (hs6 t).read_unread, (hs7 t).read_unread, readBack0, readBack1, readBack2, readBack3,
    View.ld_unit_zero (S := S1024x512) hz, View.ld_unit_zero (S := S1024x1024) hz, View.ld_unit_zero (S := S512x1024) hz,
    View.ld_unit_zero (S := S1x512) hz, View.readCov_unit_zero (S := S1024x512) _ hz]

theorem mid2 (c : Dev nD) (t : Fin cfg0.N) (h0 : ¬atK0 (grid0.coords t)) (h3 : ¬atK3 (grid0.coords t)) (s0 s1 s2 s3 : Vec F S1024x512 .f32) :
    readA2 (rMid V c t h0 h3 s0 s1 s2 s3).2.2.1 = k0_pay14 (blk V c 0 t) (blk V c 3 t) s2 := by
  unfold readA2
  rw [View.read_writes_eq_canon _ _ _ (coverMid2 V c t h0 h3 s0 s1 s2 s3)]
  unfold rMid runMid
  dsimp only
  try sl_unfold_words
  rw [View.canon_unit_zero hz]
  simp only [View.readAt_eq_ld, (hs0 t).read_unread, (hs1 t).read_unread, (hs2 t).read_unread, (hs3 t).read_unread,
    (hs4 t).read_unread, (hs5 t).read_unread, (hs6 t).read_unread, (hs7 t).read_unread, readBack0, readBack1, readBack2, readBack3,
    View.ld_unit_zero (S := S1024x512) hz, View.ld_unit_zero (S := S1024x1024) hz, View.ld_unit_zero (S := S512x1024) hz,
    View.ld_unit_zero (S := S1x512) hz, View.readCov_unit_zero (S := S1024x512) _ hz]

theorem first2 (c : Dev nD) (t : Fin cfg0.N) (h0 : atK0 (grid0.coords t)) (h3 : ¬atK3 (grid0.coords t)) :
    readA2 (rFirst V c t h0 h3).2.2.1 = k0_pay14 (blk V c 0 t) (blk V c 3 t) k0_pay6 := by
  unfold readA2
  rw [View.read_writes_eq_canon _ _ _ (coverFirst2 V c t h0 h3)]
  unfold rFirst runFirst
  dsimp only
  try sl_unfold_words
  rw [View.canon_cons_unit_zero hz]
  simp only [View.readAt_eq_ld, (hs0 t).read_unread, (hs1 t).read_unread, (hs2 t).read_unread, (hs3 t).read_unread,
    (hs4 t).read_unread, (hs5 t).read_unread, (hs6 t).read_unread, (hs7 t).read_unread, readBack0, readBack1, readBack2, readBack3,
    View.ld_unit_zero (S := S1024x512) hz, View.ld_unit_zero (S := S1024x1024) hz, View.ld_unit_zero (S := S512x1024) hz,
    View.ld_unit_zero (S := S1x512) hz, View.readCov_unit_zero (S := S1024x512) _ hz]

theorem last2 (c : Dev nD) (t : Fin cfg0.N) (h0 : ¬atK0 (grid0.coords t)) (h3 : atK3 (grid0.coords t)) (s0 s1 s2 s3 : Vec F S1024x512 .f32) :
    readA2 (rLast V c t h0 h3 s0 s1 s2 s3).2.2.2.2.1 = k0_pay14 (blk V c 0 t) (blk V c 3 t) s2 := by
  unfold readA2
  rw [View.read_writes_eq_canon _ _ _ (coverLast2 V c t h0 h3 s0 s1 s2 s3)]
  unfold rLast runLast
  dsimp only
  try sl_unfold_words
  rw [View.canon_unit_zero hz]
  simp only [View.readAt_eq_ld, (hs0 t).read_unread, (hs1 t).read_unread, (hs2 t).read_unread, (hs3 t).read_unread,
    (hs4 t).read_unread, (hs5 t).read_unread, (hs6 t).read_unread, (hs7 t).read_unread, readBack0, readBack1, readBack2, readBack3,
    View.ld_unit_zero (S := S1024x512) hz, View.ld_unit_zero (S := S1024x1024) hz, View.ld_unit_zero (S := S512x1024) hz,
    View.ld_unit_zero (S := S1x512) hz, View.readCov_unit_zero (S := S1024x512) _ hz]

theorem mid3 (c : Dev nD) (t : Fin cfg0.N) (h0 : ¬atK0 (grid0.coords t)) (h3 : ¬atK3 (grid0.coords t)) (s0 s1 s2 s3 : Vec F S1024x512 .f32) :
    readA3 (rMid V c t h0 h3 s0 s1 s2 s3).2.2.2.1 = k0_pay1 (k0_pay9 (blk V c 1 t)) (k0_pay11 (blk V c 3 t)) s3 := by
  unfold readA3
  rw [View.read_writes_eq_canon _ _ _ (coverMid3 V c t h0 h3 s0 s1 s2 s3)]
  unfold rMid runMid
  dsimp only
  try sl_unfold_words
  rw [View.canon_unit_zero hz]
  simp only [View.readAt_eq_ld, (hs0 t).read_unread, (hs1 t).read_unread, (hs2 t).read_unread, (hs3 t).read_unread,
    (hs4 t).read_unread, (hs5 t).read_unread, (hs6 t).read_unread, (hs7 t).read_unread, readBack0, readBack1, readBack2, readBack3,
    View.ld_unit_zero (S := S1024x512) hz, View.ld_unit_zero (S := S1024x1024) hz, View.ld_unit_zero (S := S512x1024) hz,
    View.ld_unit_zero (S := S1x512) hz, View.readCov_unit_zero (S := S1024x512) _ hz]

theorem first3 (c : Dev nD) (t : Fin cfg0.N) (h0 : atK0 (grid0.coords t)) (h3 : ¬atK3 (grid0.coords t)) :
    readA3 (rFirst V c t h0 h3).2.2.2.1 = k0_pay1 (k0_pay9 (blk V c 1 t)) (k0_pay11 (blk V c 3 t)) k0_pay7 := by
  unfold readA3
  rw [View.read_writes_eq_canon _ _ _ (coverFirst3 V c t h0 h3)]
  unfold rFirst runFirst
  dsimp only
  try sl_unfold_words
  rw [View.canon_cons_unit_zero hz]
  simp only [View.readAt_eq_ld, (hs0 t).read_unread, (hs1 t).read_unread, (hs2 t).read_unread, (hs3 t).read_unread,
    (hs4 t).read_unread, (hs5 t).read_unread, (hs6 t).read_unread, (hs7 t).read_unread, readBack0, readBack1, readBack2, readBack3,
    View.ld_unit_zero (S := S1024x512) hz, View.ld_unit_zero (S := S1024x1024) hz, View.ld_unit_zero (S := S512x1024) hz,
    View.ld_unit_zero (S := S1x512) hz, View.readCov_unit_zero (S := S1024x512) _ hz]

theorem last3 (c : Dev nD) (t : Fin cfg0.N) (h0 : ¬atK0 (grid0.coords t)) (h3 : atK3 (grid0.coords t)) (s0 s1 s2 s3 : Vec F S1024x512 .f32) :
    readA3 (rLast V c t h0 h3 s0 s1 s2 s3).2.2.2.2.2.1 = k0_pay1 (k0_pay9 (blk V c 1 t)) (k0_pay11 (blk V c 3 t)) s3 := by
  unfold readA3
  rw [View.read_writes_eq_canon _ _ _ (coverLast3 V c t h0 h3 s0 s1 s2 s3)]
  unfold rLast runLast
  dsimp only
  try sl_unfold_words
  rw [View.canon_unit_zero hz]
  simp only [View.readAt_eq_ld, (hs0 t).read_unread, (hs1 t).read_unread, (hs2 t).read_unread, (hs3 t).read_unread,
    (hs4 t).read_unread, (hs5 t).read_unread, (hs6 t).read_unread, (hs7 t).read_unread, readBack0, readBack1, readBack2, readBack3,
    View.ld_unit_zero (S := S1024x512) hz, View.ld_unit_zero (S := S1024x1024) hz, View.ld_unit_zero (S := S512x1024) hz,
    View.ld_unit_zero (S := S1x512) hz, View.readCov_unit_zero (S := S1024x512) _ hz]

theorem lastO8 (c : Dev nD) (t : Fin cfg0.N) (h0 : ¬atK0 (grid0.coords t)) (h3 : atK3 (grid0.coords t)) (s0 s1 s2 s3 : Vec F S1024x512 .f32) :
    readO8 (rLast V c t h0 h3 s0 s1 s2 s3).1
      = k0_pay2 (blk V c 4 t) (blk V c 5 t)
        (k0_pay12 (blk V c 0 t) (blk V c 2 t) s0)
        (k0_pay13 (blk V c 1 t) (blk V c 2 t) s1)
        (k0_pay14 (blk V c 0 t) (blk V c 3 t) s2)
        (k0_pay1 (k0_pay9 (blk V c 1 t)) (k0_pay11 (blk V c 3 t)) s3)
        (blk V c 6 t) := by
  unfold readO8
  rw [View.read_writes_eq_canon _ _ _ (coverLastO8 V c t h0 h3 s0 s1 s2 s3)]
  unfold rLast runLast
  dsimp only
  try sl_unfold_words
  rw [View.canon_unit_zero hz]
  simp only [View.readAt_eq_ld, (hs0 t).read_unread, (hs1 t).read_unread, (hs2 t).read_unread, (hs3 t).read_unread,
    (hs4 t).read_unread, (hs5 t).read_unread, (hs6 t).read_unread, (hs7 t).read_unread, readBack0, readBack1, readBack2, readBack3,
    View.ld_unit_zero (S := S1024x512) hz, View.ld_unit_zero (S := S1024x1024) hz, View.ld_unit_zero (S := S512x1024) hz,
    View.ld_unit_zero (S := S1x512) hz, View.readCov_unit_zero (S := S1024x512) _ hz]

theorem lastO9 (c : Dev nD) (t : Fin cfg0.N) (h0 : ¬atK0 (grid0.coords t)) (h3 : atK3 (grid0.coords t)) (s0 s1 s2 s3 : Vec F S1024x512 .f32) :
    readO9 (rLast V c t h0 h3 s0 s1 s2 s3).2.1
      = k0_pay3 (blk V c 4 t) (blk V c 5 t)
        (k0_pay12 (blk V c 0 t) (blk V c 2 t) s0)
        (k0_pay13 (blk V c 1 t) (blk V c 2 t) s1)
        (k0_pay14 (blk V c 0 t) (blk V c 3 t) s2)
        (k0_pay1 (k0_pay9 (blk V c 1 t)) (k0_pay11 (blk V c 3 t)) s3)
        (blk V c 7 t) := by
  unfold readO9
  rw [View.read_writes_eq_canon _ _ _ (coverLastO9 V c t h0 h3 s0 s1 s2 s3)]
  unfold rLast runLast
  dsimp only
  try sl_unfold_words
  rw [View.canon_unit_zero hz]
  simp only [View.readAt_eq_ld, (hs0 t).read_unread, (hs1 t).read_unread, (hs2 t).read_unread, (hs3 t).read_unread,
    (hs4 t).read_unread, (hs5 t).read_unread, (hs6 t).read_unread, (hs7 t).read_unread, readBack0, readBack1, readBack2, readBack3,
    View.ld_unit_zero (S := S1024x512) hz, View.ld_unit_zero (S := S1024x1024) hz, View.ld_unit_zero (S := S512x1024) hz,
    View.ld_unit_zero (S := S1x512) hz, View.readCov_unit_zero (S := S1024x512) _ hz]

/-! ## Step 2: the blocks as entries of the arrays

  At point t = 4 n + k the left operands' blocks are columns 1024 k .. 1024 k + 1023 of their arrays, the right
  operands' blocks rows 512 n .. 512 n + 511 and columns 1024 k .. 1024 k + 1023, the entrywise factors' and the bias
  rows' blocks columns 512 n .. 512 n + 511. A block's coordinate is the block index times the block's extent plus
  the coordinate inside the block; the block indices are decided once over the grid. -/

theorem idx0_0 : ∀ t : Fin cfg0.N, win0_0.index t 0 = 0 ∧ win0_0.index t 1 = t.val % 4 :=
  (by decide +kernel : ∀ t : Fin grid0.N, win0_0.index t 0 = 0 ∧ win0_0.index t 1 = t.val % 4)
theorem idx0_1 : ∀ t : Fin cfg0.N, win0_1.index t 0 = 0 ∧ win0_1.index t 1 = t.val % 4 :=
  (by decide +kernel : ∀ t : Fin grid0.N, win0_1.index t 0 = 0 ∧ win0_1.index t 1 = t.val % 4)
theorem idx0_2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)
theorem idx0_3 : ∀ t : Fin cfg0.N, win0_3.index t 0 = t.val / 4 ∧ win0_3.index t 1 = t.val % 4 :=
  (by decide +kernel : ∀ t : Fin grid0.N, win0_3.index t 0 = t.val / 4 ∧ win0_3.index t 1 = t.val % 4)
theorem idx0_4 : ∀ t : Fin cfg0.N, win0_4.index t 0 = 0 ∧ win0_4.index t 1 = t.val / 4 :=
  (by decide +kernel : ∀ t : Fin grid0.N, win0_4.index t 0 = 0 ∧ win0_4.index t 1 = t.val / 4)
theorem idx0_5 : ∀ t : Fin cfg0.N, win0_5.index t 0 = 0 ∧ win0_5.index t 1 = t.val / 4 :=
  (by decide +kernel : ∀ t : Fin grid0.N, win0_5.index t 0 = 0 ∧ win0_5.index t 1 = t.val / 4)
theorem idx0_6 : ∀ t : Fin cfg0.N, win0_6.index t 0 = 0 ∧ win0_6.index t 1 = t.val / 4 :=
  (by decide +kernel : ∀ t : Fin grid0.N, win0_6.index t 0 = 0 ∧ win0_6.index t 1 = t.val / 4)
theorem idx0_7 : ∀ t : Fin cfg0.N, win0_7.index t 0 = 0 ∧ win0_7.index t 1 = t.val / 4 :=
  (by decide +kernel : ∀ t : Fin grid0.N, win0_7.index t 0 = 0 ∧ win0_7.index t 1 = t.val / 4)
theorem idx0_8 : ∀ t : Fin cfg0.N, win0_8.index t 0 = 0 ∧ win0_8.index t 1 = t.val / 4 :=
  (by decide +kernel : ∀ t : Fin grid0.N, win0_8.index t 0 = 0 ∧ win0_8.index t 1 = t.val / 4)
theorem idx0_9 : ∀ t : Fin cfg0.N, win0_9.index t 0 = 0 ∧ win0_9.index t 1 = t.val / 4 :=
  (by decide +kernel : ∀ t : Fin grid0.N, win0_9.index t 0 = 0 ∧ win0_9.index t 1 = t.val / 4)

/-- The first left operand's block at point t, entry (p, q), is the array's entry (p, 1024 * (t mod 4) + q). -/
theorem blk0_apply (c : Dev nD) (t : Fin cfg0.N) (p : Fin 1024) (q : Fin 1024) (k : S1024x4096.Idx)
    (hk0 : (k 0).val = p.val) (hk1 : (k 1).val = 1024 * (t.val % 4) + q.val) :
    (blk V c 0 t : Vec F S1024x1024 .bf16) (ix2 p q) = (V c main_v0 : S1024x4096.Idx → Elt F .bf16) k := by
  unfold blk
  rw [View.read_apply]
  show V c main_v0 _ = V c main_v0 _
  congr 1
  funext ax
  apply Fin.ext
  match ax with
  | ⟨0, _⟩ => show win0_0.index t 0 * 1024 + 1 * p.val = (k 0).val; rw [(idx0_0 t).1, hk0]; omega
  | ⟨1, _⟩ => show win0_0.index t 1 * 1024 + 1 * q.val = (k 1).val; rw [(idx0_0 t).2, hk1]; omega

/-- The second left operand's block at point t, entry (p, q), is the array's entry (p, 1024 * (t mod 4) + q). -/
theorem blk1_apply (c : Dev nD) (t : Fin cfg0.N) (p : Fin 1024) (q : Fin 1024) (k : S1024x4096.Idx)
    (hk0 : (k 0).val = p.val) (hk1 : (k 1).val = 1024 * (t.val % 4) + q.val) :
    (blk V c 1 t : Vec F S1024x1024 .bf16) (ix2 p q) = (V c main_v1 : S1024x4096.Idx → Elt F .bf16) k := by
  unfold blk
  rw [View.read_apply]
  show V c main_v1 _ = V c main_v1 _
  congr 1
  funext ax
  apply Fin.ext
  match ax with
  | ⟨0, _⟩ => show win0_1.index t 0 * 1024 + 1 * p.val = (k 0).val; rw [(idx0_1 t).1, hk0]; omega
  | ⟨1, _⟩ => show win0_1.index t 1 * 1024 + 1 * q.val = (k 1).val; rw [(idx0_1 t).2, hk1]; omega

/-- The first right operand's block at point t, entry (p, q), is the array's entry (512 * (t / 4) + p, 1024 * (t mod 4) + q). -/
theorem blk2_apply (c : Dev nD) (t : Fin cfg0.N) (p : Fin 512) (q : Fin 1024) (k : S4096x4096.Idx)
    (hk0 : (k 0).val = 512 * (t.val / 4) + p.val) (hk1 : (k 1).val = 1024 * (t.val % 4) + q.val) :
    (blk V c 2 t : Vec F S512x1024 .bf16) (ix2 p q) = (V c main_v2 : S4096x4096.Idx → Elt F .bf16) k := by
  unfold blk
  rw [View.read_apply]
  show V c main_v2 _ = V c main_v2 _
  congr 1
  funext ax
  apply Fin.ext
  match ax with
  | ⟨0, _⟩ => show win0_2.index t 0 * 512 + 1 * p.val = (k 0).val; rw [(idx0_2 t).1, hk0]; omega
  | ⟨1, _⟩ => show win0_2.index t 1 * 1024 + 1 * q.val = (k 1).val; rw [(idx0_2 t).2, hk1]; omega

/-- The second right operand's block at point t, entry (p, q), is the array's entry (512 * (t / 4) + p, 1024 * (t mod 4) + q). -/
theorem blk3_apply (c : Dev nD) (t : Fin cfg0.N) (p : Fin 512) (q : Fin 1024) (k : S4096x4096.Idx)
    (hk0 : (k 0).val = 512 * (t.val / 4) + p.val) (hk1 : (k 1).val = 1024 * (t.val % 4) + q.val) :
    (blk V c 3 t : Vec F S512x1024 .bf16) (ix2 p q) = (V c main_v3 : S4096x4096.Idx → Elt F .bf16) k := by
  unfold blk
  rw [View.read_apply]
  show V c main_v3 _ = V c main_v3 _
  congr 1
  funext ax
  apply Fin.ext
  match ax with
  | ⟨0, _⟩ => show win0_3.index t 0 * 512 + 1 * p.val = (k 0).val; rw [(idx0_3 t).1, hk0]; omega
  | ⟨1, _⟩ => show win0_3.index t 1 * 1024 + 1 * q.val = (k 1).val; rw [(idx0_3 t).2, hk1]; omega

/-- The first entrywise factor's block at point t, entry (p, q), is the array's entry (p, 512 * (t / 4) + q). -/
theorem blk4_apply (c : Dev nD) (t : Fin cfg0.N) (p : Fin 1024) (q : Fin 512) (k : S1024x4096.Idx)
    (hk0 : (k 0).val = p.val) (hk1 : (k 1).val = 512 * (t.val / 4) + q.val) :
    (blk V c 4 t : Vec F S1024x512 .f32) (ix2 p q) = (V c main_arg0 : S1024x4096.Idx → Elt F .f32) k := by
  unfold blk
  rw [View.read_apply]
  show V c main_arg0 _ = V c main_arg0 _
  congr 1
  funext ax
  apply Fin.ext
  match ax with
  | ⟨0, _⟩ => show win0_4.index t 0 * 1024 + 1 * p.val = (k 0).val; rw [(idx0_4 t).1, hk0]; omega
  | ⟨1, _⟩ => show win0_4.index t 1 * 512 + 1 * q.val = (k 1).val; rw [(idx0_4 t).2, hk1]; omega

/-- The second entrywise factor's block at point t, entry (p, q), is the array's entry (p, 512 * (t / 4) + q). -/
theorem blk5_apply (c : Dev nD) (t : Fin cfg0.N) (p : Fin 1024) (q : Fin 512) (k : S1024x4096.Idx)
    (hk0 : (k 0).val = p.val) (hk1 : (k 1).val = 512 * (t.val / 4) + q.val) :
    (blk V c 5 t : Vec F S1024x512 .f32) (ix2 p q) = (V c main_arg1 : S1024x4096.Idx → Elt F .f32) k := by
  unfold blk
  rw [View.read_apply]
  show V c main_arg1 _ = V c main_arg1 _
  congr 1
  funext ax
  apply Fin.ext
  match ax with
  | ⟨0, _⟩ => show win0_5.index t 0 * 1024 + 1 * p.val = (k 0).val; rw [(idx0_5 t).1, hk0]; omega
  | ⟨1, _⟩ => show win0_5.index t 1 * 512 + 1 * q.val = (k 1).val; rw [(idx0_5 t).2, hk1]; omega

/-- The first bias row's block at point t, entry (p, q) with p = 0, is the row's entry (0, 512 * (t / 4) + q). -/
theorem blk6_apply (c : Dev nD) (t : Fin cfg0.N) (p : Fin 1) (q : Fin 512) (k : S1x4096.Idx)
    (hk0 : (k 0).val = p.val) (hk1 : (k 1).val = 512 * (t.val / 4) + q.val) :
    (blk V c 6 t : Vec F S1x512 .f32) (ix2 p q) = (V c main_arg4 : S1x4096.Idx → Elt F .f32) k := by
  unfold blk
  rw [View.read_apply]
  show V c main_arg4 _ = V c main_arg4 _
  congr 1
  funext ax
  apply Fin.ext
  match ax with
  | ⟨0, _⟩ => show win0_6.index t 0 * 1 + 1 * p.val = (k 0).val; rw [(idx0_6 t).1, hk0]; omega
  | ⟨1, _⟩ => show win0_6.index t 1 * 512 + 1 * q.val = (k 1).val; rw [(idx0_6 t).2, hk1]; omega

/-- The second bias row's block at point t, entry (p, q) with p = 0, is the row's entry (0, 512 * (t / 4) + q). -/
theorem blk7_apply (c : Dev nD) (t : Fin cfg0.N) (p : Fin 1) (q : Fin 512) (k : S1x4096.Idx)
    (hk0 : (k 0).val = p.val) (hk1 : (k 1).val = 512 * (t.val / 4) + q.val) :
    (blk V c 7 t : Vec F S1x512 .f32) (ix2 p q) = (V c main_arg5 : S1x4096.Idx → Elt F .f32) k := by
  unfold blk
  rw [View.read_apply]
  show V c main_arg5 _ = V c main_arg5 _
  congr 1
  funext ax
  apply Fin.ext
  match ax with
  | ⟨0, _⟩ => show win0_7.index t 0 * 1 + 1 * p.val = (k 0).val; rw [(idx0_7 t).1, hk0]; omega
  | ⟨1, _⟩ => show win0_7.index t 1 * 512 + 1 * q.val = (k 1).val; rw [(idx0_7 t).2, hk1]; omega

/-! ## Step 3: the accumulation

  First in payload form, for any float instance: what the four accumulators hold after a point, by the case of its k.
  One point's update: the products of the two left blocks with the two right blocks over their last axes, added to
  what the accumulators held. -/

theorem stateAt_congr (c : Dev nD) {n m : ℕ} (hn : n < cfg0.N) (hm : m < cfg0.N) (e : n = m) :
    stateAt V c n hn = stateAt V c m hm := by
  subst e; rfl

/-- After a point with k = 0: each accumulator is its first product added to the zero splat. -/
theorem acc_first (c : Dev nD) (t : Fin cfg0.N) (h : t.val % 4 = 0) :
    (stateAt V c t.val t.isLt).2
      = (k0_pay12 (blk V c 0 t) (blk V c 2 t) k0_pay4, k0_pay13 (blk V c 1 t) (blk V c 2 t) k0_pay5,
         k0_pay14 (blk V c 0 t) (blk V c 3 t) k0_pay6, k0_pay1 (k0_pay9 (blk V c 1 t)) (k0_pay11 (blk V c 3 t)) k0_pay7) := by
  have h0' : atK0 (grid0.coords t) := (atK0_iff t).mpr h
  have h3' : ¬atK3 (grid0.coords t) := fun hh => by have := (atK3_iff t).mp hh; omega
  rw [stateAt_first V c t h h0' h3', first0, first1, first2, first3]

/-- After a point with k = 1, 2: each accumulator is what the point before left plus the point's product. -/
theorem acc_mid (c : Dev nD) (t : Fin cfg0.N) (h0 : ¬t.val % 4 = 0) (h3 : ¬t.val % 4 = 3) :
    (stateAt V c t.val t.isLt).2
      = (k0_pay12 (blk V c 0 t) (blk V c 2 t) (prev0 V c t), k0_pay13 (blk V c 1 t) (blk V c 2 t) (prev1 V c t),
         k0_pay14 (blk V c 0 t) (blk V c 3 t) (prev2 V c t), k0_pay1 (k0_pay9 (blk V c 1 t)) (k0_pay11 (blk V c 3 t)) (prev3 V c t)) := by
  have h0' : ¬atK0 (grid0.coords t) := fun hh => h0 ((atK0_iff t).mp hh)
  have h3' : ¬atK3 (grid0.coords t) := fun hh => h3 ((atK3_iff t).mp hh)
  rw [stateAt_mid V c t h0 h3 h0' h3', mid0, mid1, mid2, mid3]

/-- After a point with k = 3: the accumulators updated as at k = 1, 2, and the two outputs the two combinations of the
    entrywise factors' blocks with the four UPDATED accumulators, plus the bias rows' blocks. -/
theorem state_last (c : Dev nD) (t : Fin cfg0.N) (h3 : t.val % 4 = 3) :
    stateAt V c t.val t.isLt
      = ((k0_pay2 (blk V c 4 t) (blk V c 5 t)
            (k0_pay12 (blk V c 0 t) (blk V c 2 t) (prev0 V c t))
            (k0_pay13 (blk V c 1 t) (blk V c 2 t) (prev1 V c t))
            (k0_pay14 (blk V c 0 t) (blk V c 3 t) (prev2 V c t))
            (k0_pay1 (k0_pay9 (blk V c 1 t)) (k0_pay11 (blk V c 3 t)) (prev3 V c t))
            (blk V c 6 t),
          k0_pay3 (blk V c 4 t) (blk V c 5 t)
            (k0_pay12 (blk V c 0 t) (blk V c 2 t) (prev0 V c t))
            (k0_pay13 (blk V c 1 t) (blk V c 2 t) (prev1 V c t))
            (k0_pay14 (blk V c 0 t) (blk V c 3 t) (prev2 V c t))
            (k0_pay1 (k0_pay9 (blk V c 1 t)) (k0_pay11 (blk V c 3 t)) (prev3 V c t))
            (blk V c 7 t)),
         (k0_pay12 (blk V c 0 t) (blk V c 2 t) (prev0 V c t),
          k0_pay13 (blk V c 1 t) (blk V c 2 t) (prev1 V c t),
          k0_pay14 (blk V c 0 t) (blk V c 3 t) (prev2 V c t),
          k0_pay1 (k0_pay9 (blk V c 1 t)) (k0_pay11 (blk V c 3 t)) (prev3 V c t))) := by
  have h0 : ¬t.val % 4 = 0 := by omega
  have h0' : ¬atK0 (grid0.coords t) := fun hh => h0 ((atK0_iff t).mp hh)
  have h3' : atK3 (grid0.coords t) := (atK3_iff t).mpr h3
  refine (stateAt_last V c t h0 h3 h0' h3').trans ?_
  exact congrArg₂ Prod.mk
    (congrArg₂ Prod.mk (lastO8 V c t h0' h3' _ _ _ _) (lastO9 V c t h0' h3' _ _ _ _))
    (congrArg₂ Prod.mk (last0 V c t h0' h3' _ _ _ _) (congrArg₂ Prod.mk (last1 V c t h0' h3' _ _ _ _)
      (congrArg₂ Prod.mk (last2 V c t h0' h3' _ _ _ _) (last3 V c t h0' h3' _ _ _ _))))

/-- The four steps of one output block unrolled: t0, t1, t2, t are the points 4 n, 4 n + 1, 4 n + 2, 4 n + 3. -/
theorem out_unrolled (c : Dev nD) (t : Fin cfg0.N) (h3 : t.val % 4 = 3) (t0 t1 t2 : Fin cfg0.N)
    (e2 : t2.val = t.val - 1) (e1 : t1.val = t.val - 2) (e0 : t0.val = t.val - 3) :
    (stateAt V c t.val t.isLt).1
      = (k0_pay2 (blk V c 4 t) (blk V c 5 t)
            (k0_pay12 (blk V c 0 t) (blk V c 2 t) (k0_pay12 (blk V c 0 t2) (blk V c 2 t2) (k0_pay12 (blk V c 0 t1) (blk V c 2 t1) (k0_pay12 (blk V c 0 t0) (blk V c 2 t0) k0_pay4))))
            (k0_pay13 (blk V c 1 t) (blk V c 2 t) (k0_pay13 (blk V c 1 t2) (blk V c 2 t2) (k0_pay13 (blk V c 1 t1) (blk V c 2 t1) (k0_pay13 (blk V c 1 t0) (blk V c 2 t0) k0_pay5))))
            (k0_pay14 (blk V c 0 t) (blk V c 3 t) (k0_pay14 (blk V c 0 t2) (blk V c 3 t2) (k0_pay14 (blk V c 0 t1) (blk V c 3 t1) (k0_pay14 (blk V c 0 t0) (blk V c 3 t0) k0_pay6))))
            (k0_pay1 (k0_pay9 (blk V c 1 t)) (k0_pay11 (blk V c 3 t)) (k0_pay1 (k0_pay9 (blk V c 1 t2)) (k0_pay11 (blk V c 3 t2)) (k0_pay1 (k0_pay9 (blk V c 1 t1)) (k0_pay11 (blk V c 3 t1)) (k0_pay1 (k0_pay9 (blk V c 1 t0)) (k0_pay11 (blk V c 3 t0)) k0_pay7))))
            (blk V c 6 t),
         k0_pay3 (blk V c 4 t) (blk V c 5 t)
            (k0_pay12 (blk V c 0 t) (blk V c 2 t) (k0_pay12 (blk V c 0 t2) (blk V c 2 t2) (k0_pay12 (blk V c 0 t1) (blk V c 2 t1) (k0_pay12 (blk V c 0 t0) (blk V c 2 t0) k0_pay4))))
            (k0_pay13 (blk V c 1 t) (blk V c 2 t) (k0_pay13 (blk V c 1 t2) (blk V c 2 t2) (k0_pay13 (blk V c 1 t1) (blk V c 2 t1) (k0_pay13 (blk V c 1 t0) (blk V c 2 t0) k0_pay5))))
            (k0_pay14 (blk V c 0 t) (blk V c 3 t) (k0_pay14 (blk V c 0 t2) (blk V c 3 t2) (k0_pay14 (blk V c 0 t1) (blk V c 3 t1) (k0_pay14 (blk V c 0 t0) (blk V c 3 t0) k0_pay6))))
            (k0_pay1 (k0_pay9 (blk V c 1 t)) (k0_pay11 (blk V c 3 t)) (k0_pay1 (k0_pay9 (blk V c 1 t2)) (k0_pay11 (blk V c 3 t2)) (k0_pay1 (k0_pay9 (blk V c 1 t1)) (k0_pay11 (blk V c 3 t1)) (k0_pay1 (k0_pay9 (blk V c 1 t0)) (k0_pay11 (blk V c 3 t0)) k0_pay7))))
            (blk V c 7 t)) := by
  have hN : cfg0.N = 32 := N_0
  have ht : t.val < 32 := hN ▸ t.isLt
  have p3 : (stateAt V c (t.val - 1) (Nat.lt_of_le_of_lt (Nat.sub_le _ _) t.isLt)).2 = (stateAt V c t2.val t2.isLt).2 :=
    congrArg Prod.snd (stateAt_congr V c _ _ e2.symm)
  have p2 : (stateAt V c (t2.val - 1) (Nat.lt_of_le_of_lt (Nat.sub_le _ _) t2.isLt)).2 = (stateAt V c t1.val t1.isLt).2 :=
    congrArg Prod.snd (stateAt_congr V c _ _ (by omega))
  have p1 : (stateAt V c (t1.val - 1) (Nat.lt_of_le_of_lt (Nat.sub_le _ _) t1.isLt)).2 = (stateAt V c t0.val t0.isLt).2 :=
    congrArg Prod.snd (stateAt_congr V c _ _ (by omega))
  rw [state_last V c t h3]
  unfold prev0 prev1 prev2 prev3
  rw [p3, acc_mid V c t2 (by omega) (by omega)]
  unfold prev0 prev1 prev2 prev3
  rw [p2, acc_mid V c t1 (by omega) (by omega)]
  unfold prev0 prev1 prev2 prev3
  rw [p1, acc_first V c t0 (by omega)]

end AnyInstance

/-! At the ideal values: each accumulator's four products are one whole contraction. -/

section AtIdeal

variable (V : (c : Dev nD) → (b : Ref sig .tc) → Buf (Elt Ideal) ((c : Thread nD τ).loc b))

/-- Four updates of the first accumulator from the zero splat, over any four pairs of blocks: the four partial products
    added in order, from 0. -/
theorem fold_12 (A0 A1 A2 A3 : Vec Ideal S1024x1024 .bf16) (B0 B1 B2 B3 : Vec Ideal S512x1024 .bf16) (a : Fin 1024) (b : Fin 512) :
    (k0_pay12 A3 B3 (k0_pay12 A2 B2 (k0_pay12 A1 B1 (k0_pay12 A0 B0 (k0_pay4 (F := Ideal)))))) (ix2 a b)
      = (((0 + ∑ cc : Fin 1024, A0 (ix2 a cc) * B0 (ix2 b cc)) + ∑ cc : Fin 1024, A1 (ix2 a cc) * B1 (ix2 b cc))
          + ∑ cc : Fin 1024, A2 (ix2 a cc) * B2 (ix2 b cc)) + ∑ cc : Fin 1024, A3 (ix2 a cc) * B3 (ix2 b cc) := by
  rw [Cert.Payloads.k0_pay12_at, Cert.Payloads.k0_pay12_at, Cert.Payloads.k0_pay12_at, Cert.Payloads.k0_pay12_at,
    Cert.Payloads.k0_pay4_at]

/-- The same for the second accumulator, -/
theorem fold_13 (A0 A1 A2 A3 : Vec Ideal S1024x1024 .bf16) (B0 B1 B2 B3 : Vec Ideal S512x1024 .bf16) (a : Fin 1024) (b : Fin 512) :
    (k0_pay13 A3 B3 (k0_pay13 A2 B2 (k0_pay13 A1 B1 (k0_pay13 A0 B0 (k0_pay5 (F := Ideal)))))) (ix2 a b)
      = (((0 + ∑ cc : Fin 1024, A0 (ix2 a cc) * B0 (ix2 b cc)) + ∑ cc : Fin 1024, A1 (ix2 a cc) * B1 (ix2 b cc))
          + ∑ cc : Fin 1024, A2 (ix2 a cc) * B2 (ix2 b cc)) + ∑ cc : Fin 1024, A3 (ix2 a cc) * B3 (ix2 b cc) := by
  rw [Cert.Payloads.k0_pay13_at, Cert.Payloads.k0_pay13_at, Cert.Payloads.k0_pay13_at, Cert.Payloads.k0_pay13_at,
    Cert.Payloads.k0_pay5_at]

/-- the third, -/
theorem fold_14 (A0 A1 A2 A3 : Vec Ideal S1024x1024 .bf16) (B0 B1 B2 B3 : Vec Ideal S512x1024 .bf16) (a : Fin 1024) (b : Fin 512) :
    (k0_pay14 A3 B3 (k0_pay14 A2 B2 (k0_pay14 A1 B1 (k0_pay14 A0 B0 (k0_pay6 (F := Ideal)))))) (ix2 a b)
      = (((0 + ∑ cc : Fin 1024, A0 (ix2 a cc) * B0 (ix2 b cc)) + ∑ cc : Fin 1024, A1 (ix2 a cc) * B1 (ix2 b cc))
          + ∑ cc : Fin 1024, A2 (ix2 a cc) * B2 (ix2 b cc)) + ∑ cc : Fin 1024, A3 (ix2 a cc) * B3 (ix2 b cc) := by
  rw [Cert.Payloads.k0_pay14_at, Cert.Payloads.k0_pay14_at, Cert.Payloads.k0_pay14_at, Cert.Payloads.k0_pay14_at,
    Cert.Payloads.k0_pay6_at]

/-- and the fourth, whose blocks arrive cast to their own shapes. -/
theorem fold_1 (A0 A1 A2 A3 : Vec Ideal S1024x1024 .bf16) (B0 B1 B2 B3 : Vec Ideal S512x1024 .bf16) (a : Fin 1024) (b : Fin 512) :
    (k0_pay1 (k0_pay9 A3) (k0_pay11 B3) (k0_pay1 (k0_pay9 A2) (k0_pay11 B2) (k0_pay1 (k0_pay9 A1) (k0_pay11 B1) (k0_pay1 (k0_pay9 A0) (k0_pay11 B0) (k0_pay7 (F := Ideal)))))) (ix2 a b)
      = (((0 + ∑ cc : Fin 1024, A0 (ix2 a cc) * B0 (ix2 b cc)) + ∑ cc : Fin 1024, A1 (ix2 a cc) * B1 (ix2 b cc))
          + ∑ cc : Fin 1024, A2 (ix2 a cc) * B2 (ix2 b cc)) + ∑ cc : Fin 1024, A3 (ix2 a cc) * B3 (ix2 b cc) := by
  rw [Cert.Payloads.k0_pay1_at, Cert.Payloads.k0_pay1_at, Cert.Payloads.k0_pay1_at, Cert.Payloads.k0_pay1_at,
    Cert.Payloads.k0_pay7_at]

/-- Column cc of the jj-th block of 1024 contracted columns. -/
def col (jj : Fin 4) (cc : Fin 1024) : Fin 4096 := ⟨cc.val + 1024 * jj.val, by omega⟩

/-- After the four points of output block n = t / 4 the four accumulators hold, at (a, b), the whole contractions of
    row a of each left operand with row 512 n + b of each right operand. -/
theorem accs_at (c : Dev nD) (ub wb : S1024x4096.Idx → EReal) (G B : S4096x4096.Idx → EReal)
    (hub : ub = V c main_v0) (hwb : wb = V c main_v1) (hG : G = V c main_v2) (hB : B = V c main_v3)
    (t : Fin cfg0.N) (h3 : t.val % 4 = 3) (t0 t1 t2 : Fin cfg0.N)
    (e2 : t2.val = t.val - 1) (e1 : t1.val = t.val - 2) (e0 : t0.val = t.val - 3)
    (a : Fin 1024) (b : Fin 512) (j : Fin 4096) (hj : j.val = 512 * (t.val / 4) + b.val) :
    (k0_pay12 (blk V c 0 t) (blk V c 2 t) (k0_pay12 (blk V c 0 t2) (blk V c 2 t2) (k0_pay12 (blk V c 0 t1) (blk V c 2 t1) (k0_pay12 (blk V c 0 t0) (blk V c 2 t0) (k0_pay4 (F := Ideal)))))) (ix2 a b) = ∑ kk : Fin 4096, ub (ix2 a kk) * G (ix2 j kk)
    ∧ (k0_pay13 (blk V c 1 t) (blk V c 2 t) (k0_pay13 (blk V c 1 t2) (blk V c 2 t2) (k0_pay13 (blk V c 1 t1) (blk V c 2 t1) (k0_pay13 (blk V c 1 t0) (blk V c 2 t0) (k0_pay5 (F := Ideal)))))) (ix2 a b) = ∑ kk : Fin 4096, wb (ix2 a kk) * G (ix2 j kk)
    ∧ (k0_pay14 (blk V c 0 t) (blk V c 3 t) (k0_pay14 (blk V c 0 t2) (blk V c 3 t2) (k0_pay14 (blk V c 0 t1) (blk V c 3 t1) (k0_pay14 (blk V c 0 t0) (blk V c 3 t0) (k0_pay6 (F := Ideal)))))) (ix2 a b) = ∑ kk : Fin 4096, ub (ix2 a kk) * B (ix2 j kk)
    ∧ (k0_pay1 (k0_pay9 (blk V c 1 t)) (k0_pay11 (blk V c 3 t)) (k0_pay1 (k0_pay9 (blk V c 1 t2)) (k0_pay11 (blk V c 3 t2)) (k0_pay1 (k0_pay9 (blk V c 1 t1)) (k0_pay11 (blk V c 3 t1)) (k0_pay1 (k0_pay9 (blk V c 1 t0)) (k0_pay11 (blk V c 3 t0)) (k0_pay7 (F := Ideal)))))) (ix2 a b) = ∑ kk : Fin 4096, wb (ix2 a kk) * B (ix2 j kk) := by
  have hN : cfg0.N = 32 := N_0
  have ht : t.val < 32 := hN ▸ t.isLt
  have hL0 : ∀ (s : Fin cfg0.N) (jj : Fin 4), s.val % 4 = jj.val → ∀ cc : Fin 1024,
      (blk V c 0 s : Vec Ideal S1024x1024 .bf16) (ix2 a cc) = ub (ix2 a (col jj cc)) := by
    intro s jj hk cc
    rw [hub]
    refine blk0_apply V c s a cc (ix2 a (col jj cc)) rfl ?_
    show cc.val + 1024 * jj.val = 1024 * (s.val % 4) + cc.val; omega
  have hL1 : ∀ (s : Fin cfg0.N) (jj : Fin 4), s.val % 4 = jj.val → ∀ cc : Fin 1024,
      (blk V c 1 s : Vec Ideal S1024x1024 .bf16) (ix2 a cc) = wb (ix2 a (col jj cc)) := by
    intro s jj hk cc
    rw [hwb]
    refine blk1_apply V c s a cc (ix2 a (col jj cc)) rfl ?_
    show cc.val + 1024 * jj.val = 1024 * (s.val % 4) + cc.val; omega
  have hR2 : ∀ (s : Fin cfg0.N) (jj : Fin 4), s.val % 4 = jj.val → s.val / 4 = t.val / 4 → ∀ cc : Fin 1024,
      (blk V c 2 s : Vec Ideal S512x1024 .bf16) (ix2 b cc) = G (ix2 j (col jj cc)) := by
    intro s jj hk hn cc
    rw [hG]
    refine blk2_apply V c s b cc (ix2 j (col jj cc)) ?_ ?_
    · show j.val = 512 * (s.val / 4) + b.val; omega
    · show cc.val + 1024 * jj.val = 1024 * (s.val % 4) + cc.val; omega
  have hR3 : ∀ (s : Fin cfg0.N) (jj : Fin 4), s.val % 4 = jj.val → s.val / 4 = t.val / 4 → ∀ cc : Fin 1024,
      (blk V c 3 s : Vec Ideal S512x1024 .bf16) (ix2 b cc) = B (ix2 j (col jj cc)) := by
    intro s jj hk hn cc
    rw [hB]
    refine blk3_apply V c s b cc (ix2 j (col jj cc)) ?_ ?_
    · show j.val = 512 * (s.val / 4) + b.val; omega
    · show cc.val + 1024 * jj.val = 1024 * (s.val % 4) + cc.val; omega
  refine ⟨?_, ?_, ?_, ?_⟩
  · refine (fold_12 _ _ _ _ _ _ _ _ a b).trans ?_
    refine Eq.trans ?_ (Cert.Payloads.sum_four_blocks_of (fun kk => ub (ix2 a kk) * G (ix2 j kk)) col (fun _ _ => rfl))
    refine congrArg₂ (· + ·) (congrArg₂ (· + ·) (congrArg₂ (· + ·) (congrArg (0 + ·) ?_) ?_) ?_) ?_
    · exact Finset.sum_congr rfl fun cc _ =>
        congrArg₂ (· * ·) (hL0 t0 0 (by show t0.val % 4 = 0; omega) cc) (hR2 t0 0 (by show t0.val % 4 = 0; omega) (by omega) cc)
    · exact Finset.sum_congr rfl fun cc _ =>
        congrArg₂ (· * ·) (hL0 t1 1 (by show t1.val % 4 = 1; omega) cc) (hR2 t1 1 (by show t1.val % 4 = 1; omega) (by omega) cc)
    · exact Finset.sum_congr rfl fun cc _ =>
        congrArg₂ (· * ·) (hL0 t2 2 (by show t2.val % 4 = 2; omega) cc) (hR2 t2 2 (by show t2.val % 4 = 2; omega) (by omega) cc)
    · exact Finset.sum_congr rfl fun cc _ =>
        congrArg₂ (· * ·) (hL0 t 3 (by show t.val % 4 = 3; omega) cc) (hR2 t 3 (by show t.val % 4 = 3; omega) rfl cc)
  · refine (fold_13 _ _ _ _ _ _ _ _ a b).trans ?_
    refine Eq.trans ?_ (Cert.Payloads.sum_four_blocks_of (fun kk => wb (ix2 a kk) * G (ix2 j kk)) col (fun _ _ => rfl))
    refine congrArg₂ (· + ·) (congrArg₂ (· + ·) (congrArg₂ (· + ·) (congrArg (0 + ·) ?_) ?_) ?_) ?_
    · exact Finset.sum_congr rfl fun cc _ =>
        congrArg₂ (· * ·) (hL1 t0 0 (by show t0.val % 4 = 0; omega) cc) (hR2 t0 0 (by show t0.val % 4 = 0; omega) (by omega) cc)
    · exact Finset.sum_congr rfl fun cc _ =>
        congrArg₂ (· * ·) (hL1 t1 1 (by show t1.val % 4 = 1; omega) cc) (hR2 t1 1 (by show t1.val % 4 = 1; omega) (by omega) cc)
    · exact Finset.sum_congr rfl fun cc _ =>
        congrArg₂ (· * ·) (hL1 t2 2 (by show t2.val % 4 = 2; omega) cc) (hR2 t2 2 (by show t2.val % 4 = 2; omega) (by omega) cc)
    · exact Finset.sum_congr rfl fun cc _ =>
        congrArg₂ (· * ·) (hL1 t 3 (by show t.val % 4 = 3; omega) cc) (hR2 t 3 (by show t.val % 4 = 3; omega) rfl cc)
  · refine (fold_14 _ _ _ _ _ _ _ _ a b).trans ?_
    refine Eq.trans ?_ (Cert.Payloads.sum_four_blocks_of (fun kk => ub (ix2 a kk) * B (ix2 j kk)) col (fun _ _ => rfl))
    refine congrArg₂ (· + ·) (congrArg₂ (· + ·) (congrArg₂ (· + ·) (congrArg (0 + ·) ?_) ?_) ?_) ?_
    · exact Finset.sum_congr rfl fun cc _ =>
        congrArg₂ (· * ·) (hL0 t0 0 (by show t0.val % 4 = 0; omega) cc) (hR3 t0 0 (by show t0.val % 4 = 0; omega) (by omega) cc)
    · exact Finset.sum_congr rfl fun cc _ =>
        congrArg₂ (· * ·) (hL0 t1 1 (by show t1.val % 4 = 1; omega) cc) (hR3 t1 1 (by show t1.val % 4 = 1; omega) (by omega) cc)
    · exact Finset.sum_congr rfl fun cc _ =>
        congrArg₂ (· * ·) (hL0 t2 2 (by show t2.val % 4 = 2; omega) cc) (hR3 t2 2 (by show t2.val % 4 = 2; omega) (by omega) cc)
    · exact Finset.sum_congr rfl fun cc _ =>
        congrArg₂ (· * ·) (hL0 t 3 (by show t.val % 4 = 3; omega) cc) (hR3 t 3 (by show t.val % 4 = 3; omega) rfl cc)
  · refine (fold_1 _ _ _ _ _ _ _ _ a b).trans ?_
    refine Eq.trans ?_ (Cert.Payloads.sum_four_blocks_of (fun kk => wb (ix2 a kk) * B (ix2 j kk)) col (fun _ _ => rfl))
    refine congrArg₂ (· + ·) (congrArg₂ (· + ·) (congrArg₂ (· + ·) (congrArg (0 + ·) ?_) ?_) ?_) ?_
    · exact Finset.sum_congr rfl fun cc _ =>
        congrArg₂ (· * ·) (hL1 t0 0 (by show t0.val % 4 = 0; omega) cc) (hR3 t0 0 (by show t0.val % 4 = 0; omega) (by omega) cc)
    · exact Finset.sum_congr rfl fun cc _ =>
        congrArg₂ (· * ·) (hL1 t1 1 (by show t1.val % 4 = 1; omega) cc) (hR3 t1 1 (by show t1.val % 4 = 1; omega) (by omega) cc)
    · exact Finset.sum_congr rfl fun cc _ =>
        congrArg₂ (· * ·) (hL1 t2 2 (by show t2.val % 4 = 2; omega) cc) (hR3 t2 2 (by show t2.val % 4 = 2; omega) (by omega) cc)
    · exact Finset.sum_congr rfl fun cc _ =>
        congrArg₂ (· * ·) (hL1 t 3 (by show t.val % 4 = 3; omega) cc) (hR3 t 3 (by show t.val % 4 = 3; omega) rfl cc)

/-- After the last point of output block n = t / 4, the first output's buffer holds, at (a, b) with j = 512 n + b: ((u * (ub . G) + w * (wb . G)) + w * (ub . B)) - u * (wb . B), all at (a, j), plus the first bias row's entry j; x . M at (a, j) is the contraction of row a of x with row j of M. -/
theorem out8_at (c : Dev nD) (uu ww ub wb : S1024x4096.Idx → EReal) (G B : S4096x4096.Idx → EReal) (rp : S1x4096.Idx → EReal)
    (huu : uu = V c main_arg0) (hww : ww = V c main_arg1) (hub : ub = V c main_v0) (hwb : wb = V c main_v1)
    (hG : G = V c main_v2) (hB : B = V c main_v3) (hrp : rp = V c main_arg4)
    (t : Fin cfg0.N) (h3 : t.val % 4 = 3) (a : Fin 1024) (b : Fin 512) (j : Fin 4096)
    (hj : j.val = 512 * (t.val / 4) + b.val) :
    (stateAt (F := Ideal) V c t.val t.isLt).1.1 (ix2 a b)
      = (((uu (ix2 a j) * (∑ kk : Fin 4096, ub (ix2 a kk) * G (ix2 j kk)) + ww (ix2 a j) * (∑ kk : Fin 4096, wb (ix2 a kk) * G (ix2 j kk))) + ww (ix2 a j) * (∑ kk : Fin 4096, ub (ix2 a kk) * B (ix2 j kk)))
          - uu (ix2 a j) * (∑ kk : Fin 4096, wb (ix2 a kk) * B (ix2 j kk))) + rp (ix2 0 j) := by
  have hN : cfg0.N = 32 := N_0
  have ht : t.val < 32 := hN ▸ t.isLt
  obtain ⟨t2, e2⟩ : ∃ t2 : Fin cfg0.N, t2.val = t.val - 1 := ⟨⟨t.val - 1, Nat.lt_of_lt_of_eq (by omega : t.val - 1 < 32) hN.symm⟩, rfl⟩
  obtain ⟨t1, e1⟩ : ∃ t1 : Fin cfg0.N, t1.val = t.val - 2 := ⟨⟨t.val - 2, Nat.lt_of_lt_of_eq (by omega : t.val - 2 < 32) hN.symm⟩, rfl⟩
  obtain ⟨t0, e0⟩ : ∃ t0 : Fin cfg0.N, t0.val = t.val - 3 := ⟨⟨t.val - 3, Nat.lt_of_lt_of_eq (by omega : t.val - 3 < 32) hN.symm⟩, rfl⟩
  obtain ⟨hA0, hA1, hA2, hA3⟩ := accs_at V c ub wb G B hub hwb hG hB t h3 t0 t1 t2 e2 e1 e0 a b j hj
  have h4 : (blk V c 4 t : Vec Ideal S1024x512 .f32) (ix2 a b) = uu (ix2 a j) := by
    rw [huu]; exact blk4_apply V c t a b (ix2 a j) rfl hj
  have h5 : (blk V c 5 t : Vec Ideal S1024x512 .f32) (ix2 a b) = ww (ix2 a j) := by
    rw [hww]; exact blk5_apply V c t a b (ix2 a j) rfl hj
  have hr : (blk V c 6 t : Vec Ideal S1x512 .f32) (ix2 0 b) = rp (ix2 0 j) := by
    rw [hrp]; exact blk6_apply V c t 0 b (ix2 0 j) rfl hj
  rw [out_unrolled V c t h3 t0 t1 t2 e2 e1 e0]
  refine (Cert.Payloads.k0_pay2_at _ _ _ _ _ _ _ a b).trans ?_
  exact congrArg₂ (· + ·) (congrArg₂ (· - ·) (congrArg₂ (· + ·) (congrArg₂ (· + ·) (congrArg₂ (· * ·) h4 hA0) (congrArg₂ (· * ·) h5 hA1))
      (congrArg₂ (· * ·) h5 hA2)) (congrArg₂ (· * ·) h4 hA3)) hr

/-- The second output's buffer holds ((w * (ub . G) - u * (wb . G)) - u * (ub . B)) - w * (wb . B) at (a, j), plus the second bias row's entry j. -/
theorem out9_at (c : Dev nD) (uu ww ub wb : S1024x4096.Idx → EReal) (G B : S4096x4096.Idx → EReal) (rq : S1x4096.Idx → EReal)
    (huu : uu = V c main_arg0) (hww : ww = V c main_arg1) (hub : ub = V c main_v0) (hwb : wb = V c main_v1)
    (hG : G = V c main_v2) (hB : B = V c main_v3) (hrq : rq = V c main_arg5)
    (t : Fin cfg0.N) (h3 : t.val % 4 = 3) (a : Fin 1024) (b : Fin 512) (j : Fin 4096)
    (hj : j.val = 512 * (t.val / 4) + b.val) :
    (stateAt (F := Ideal) V c t.val t.isLt).1.2 (ix2 a b)
      = (((ww (ix2 a j) * (∑ kk : Fin 4096, ub (ix2 a kk) * G (ix2 j kk)) - uu (ix2 a j) * (∑ kk : Fin 4096, wb (ix2 a kk) * G (ix2 j kk))) - uu (ix2 a j) * (∑ kk : Fin 4096, ub (ix2 a kk) * B (ix2 j kk)))
          - ww (ix2 a j) * (∑ kk : Fin 4096, wb (ix2 a kk) * B (ix2 j kk))) + rq (ix2 0 j) := by
  have hN : cfg0.N = 32 := N_0
  have ht : t.val < 32 := hN ▸ t.isLt
  obtain ⟨t2, e2⟩ : ∃ t2 : Fin cfg0.N, t2.val = t.val - 1 := ⟨⟨t.val - 1, Nat.lt_of_lt_of_eq (by omega : t.val - 1 < 32) hN.symm⟩, rfl⟩
  obtain ⟨t1, e1⟩ : ∃ t1 : Fin cfg0.N, t1.val = t.val - 2 := ⟨⟨t.val - 2, Nat.lt_of_lt_of_eq (by omega : t.val - 2 < 32) hN.symm⟩, rfl⟩
  obtain ⟨t0, e0⟩ : ∃ t0 : Fin cfg0.N, t0.val = t.val - 3 := ⟨⟨t.val - 3, Nat.lt_of_lt_of_eq (by omega : t.val - 3 < 32) hN.symm⟩, rfl⟩
  obtain ⟨hA0, hA1, hA2, hA3⟩ := accs_at V c ub wb G B hub hwb hG hB t h3 t0 t1 t2 e2 e1 e0 a b j hj
  have h4 : (blk V c 4 t : Vec Ideal S1024x512 .f32) (ix2 a b) = uu (ix2 a j) := by
    rw [huu]; exact blk4_apply V c t a b (ix2 a j) rfl hj
  have h5 : (blk V c 5 t : Vec Ideal S1024x512 .f32) (ix2 a b) = ww (ix2 a j) := by
    rw [hww]; exact blk5_apply V c t a b (ix2 a j) rfl hj
  have hr : (blk V c 7 t : Vec Ideal S1x512 .f32) (ix2 0 b) = rq (ix2 0 j) := by
    rw [hrq]; exact blk7_apply V c t 0 b (ix2 0 j) rfl hj
  rw [out_unrolled V c t h3 t0 t1 t2 e2 e1 e0]
  refine (Cert.Payloads.k0_pay3_at _ _ _ _ _ _ _ a b).trans ?_
  exact congrArg₂ (· + ·) (congrArg₂ (· - ·) (congrArg₂ (· - ·) (congrArg₂ (· - ·) (congrArg₂ (· * ·) h5 hA0) (congrArg₂ (· * ·) h4 hA1))
      (congrArg₂ (· * ·) h4 hA2)) (congrArg₂ (· * ·) h5 hA3)) hr

/-! ## Step 4: the final arrays

  The two outputs are written back at the points with k = 3 only; the block written at point 4 n + 3 is columns
  512 n .. 512 n + 511, and entry (a, j) is in the block of the point 4 * (j / 512) + 3, so the eight write-backs
  cover each output array. -/

/-- An index of the array is in point t's block of output 8 iff each coordinate is in the block's range on its axis. -/
theorem mem_blk8 (t : Fin cfg0.N) (i : S1024x4096.Idx) :
    i ∈ ((cfg0.win 8).blk t).view.set ↔ ∀ a : Fin 2, win0_8.index t a * S1024x512.size a ≤ (i a).val
      ∧ (i a).val < win0_8.index t a * S1024x512.size a + S1024x512.size a := by
  show i ∈ ((View.whole main_v8_0).slice (win0_8.rect t)).set ↔ _
  rw [View.set_slice_whole, Rect.mem_set_unit]
  exact Iff.rfl

/-- What a point with k = 3 writes back to output 8 is its block of the closed form. -/
theorem flushed8_eq (c : Dev nD) (uu ww ub wb : S1024x4096.Idx → EReal) (G B : S4096x4096.Idx → EReal) (rp : S1x4096.Idx → EReal)
    (huu : uu = V c main_arg0) (hww : ww = V c main_arg1) (hub : ub = V c main_v0) (hwb : wb = V c main_v1)
    (hG : G = V c main_v2) (hB : B = V c main_v3) (hrp : rp = V c main_arg4)
    (t : Fin cfg0.N) (hf : (cfg0.win 8).flush t = true) :
    (dat (F := Ideal) V c).flushed 8 t = ((cfg0.win 8).blk t).view.read (Elt Ideal)
      (fun i : S1024x4096.Idx =>
        (((uu (ix2 (i 0) (i 1)) * (∑ kk : Fin 4096, ub (ix2 (i 0) kk) * G (ix2 (i 1) kk)) + ww (ix2 (i 0) (i 1)) * (∑ kk : Fin 4096, wb (ix2 (i 0) kk) * G (ix2 (i 1) kk))) + ww (ix2 (i 0) (i 1)) * (∑ kk : Fin 4096, ub (ix2 (i 0) kk) * B (ix2 (i 1) kk)))
          - uu (ix2 (i 0) (i 1)) * (∑ kk : Fin 4096, wb (ix2 (i 0) kk) * B (ix2 (i 1) kk))) + rp (ix2 0 (i 1))) := by
  have h3 : t.val % 4 = 3 := (flush0_8 t).mp hf
  have hN : cfg0.N = 32 := N_0
  have ht : t.val < 32 := hN ▸ t.isLt
  show (cfg0.win 8).cut (grid0.coords t) ((dat V c).after 8 t) = _
  rw [after8]
  funext y
  obtain ⟨a, b, rfl⟩ : ∃ (a : Fin 1024) (b : Fin 512), y = ix2 a b := ⟨y 0, y 1, eq_ix2 y⟩
  rw [View.read_apply]
  have hemb : ((cfg0.win 8).blk t).view.emb (ix2 a b) = (ix2 a ⟨512 * (t.val / 4) + b.val, by omega⟩ : S1024x4096.Idx) := by
    funext ax
    apply Fin.ext
    match ax with
    | ⟨0, _⟩ => show win0_8.index t 0 * 1024 + 1 * a.val = a.val; rw [(idx0_8 t).1]; omega
    | ⟨1, _⟩ => show win0_8.index t 1 * 512 + 1 * b.val = 512 * (t.val / 4) + b.val; rw [(idx0_8 t).2]; omega
  rw [hemb]
  exact out8_at V c uu ww ub wb G B rp huu hww hub hwb hG hB hrp t h3 a b _ rfl

/-- THE FIRST OUTPUT ARRAY after the region: at (a, j), ((u * (ub . G) + w * (wb . G)) + w * (ub . B)) - u * (wb . B), plus the first bias row's entry j, where x . M at (a, j) is the contraction over all 4096 columns of row a of x with row j of M. -/
theorem final8 (c : Dev nD) (uu ww ub wb : S1024x4096.Idx → EReal) (G B : S4096x4096.Idx → EReal) (rp : S1x4096.Idx → EReal)
    (huu : uu = V c main_arg0) (hww : ww = V c main_arg1) (hub : ub = V c main_v0) (hwb : wb = V c main_v1)
    (hG : G = V c main_v2) (hB : B = V c main_v3) (hrp : rp = V c main_arg4) :
    ((dat (F := Ideal) V c).arrAt 8 cfg0.N : S1024x4096.Idx → EReal)
      = fun i =>
        (((uu (ix2 (i 0) (i 1)) * (∑ kk : Fin 4096, ub (ix2 (i 0) kk) * G (ix2 (i 1) kk)) + ww (ix2 (i 0) (i 1)) * (∑ kk : Fin 4096, wb (ix2 (i 0) kk) * G (ix2 (i 1) kk))) + ww (ix2 (i 0) (i 1)) * (∑ kk : Fin 4096, ub (ix2 (i 0) kk) * B (ix2 (i 1) kk)))
          - uu (ix2 (i 0) (i 1)) * (∑ kk : Fin 4096, wb (ix2 (i 0) kk) * B (ix2 (i 1) kk))) + rp (ix2 0 (i 1)) := by
  have hN : cfg0.N = 32 := N_0
  refine (dat V c).arrAt_eq_of_cover 8 _ (flushed8_eq V c uu ww ub wb G B rp huu hww hub hwb hG hB hrp) fun i => ?_
  have hi0 : (i 0).val < 1024 := (i 0).isLt
  have hi1 : (i 1).val < 4096 := (i 1).isLt
  obtain ⟨t, et⟩ : ∃ t : Fin cfg0.N, t.val = 4 * ((i 1).val / 512) + 3 :=
    ⟨⟨4 * ((i 1).val / 512) + 3, Nat.lt_of_lt_of_eq (by omega : 4 * ((i 1).val / 512) + 3 < 32) hN.symm⟩, rfl⟩
  refine ⟨t, (flush0_8 t).mpr (by omega), ?_⟩
  rw [mem_blk8]
  intro ax
  match ax with
  | ⟨0, _⟩ => show win0_8.index t 0 * 1024 ≤ (i 0).val ∧ (i 0).val < win0_8.index t 0 * 1024 + 1024
              rw [(idx0_8 t).1]; omega
  | ⟨1, _⟩ => show win0_8.index t 1 * 512 ≤ (i 1).val ∧ (i 1).val < win0_8.index t 1 * 512 + 512
              rw [(idx0_8 t).2]; omega

/-- An index of the array is in point t's block of output 9 iff each coordinate is in the block's range on its axis. -/
theorem mem_blk9 (t : Fin cfg0.N) (i : S1024x4096.Idx) :
    i ∈ ((cfg0.win 9).blk t).view.set ↔ ∀ a : Fin 2, win0_9.index t a * S1024x512.size a ≤ (i a).val
      ∧ (i a).val < win0_9.index t a * S1024x512.size a + S1024x512.size a := by
  show i ∈ ((View.whole main_v8_1).slice (win0_9.rect t)).set ↔ _
  rw [View.set_slice_whole, Rect.mem_set_unit]
  exact Iff.rfl

/-- What a point with k = 3 writes back to output 9 is its block of the closed form. -/
theorem flushed9_eq (c : Dev nD) (uu ww ub wb : S1024x4096.Idx → EReal) (G B : S4096x4096.Idx → EReal) (rq : S1x4096.Idx → EReal)
    (huu : uu = V c main_arg0) (hww : ww = V c main_arg1) (hub : ub = V c main_v0) (hwb : wb = V c main_v1)
    (hG : G = V c main_v2) (hB : B = V c main_v3) (hrq : rq = V c main_arg5)
    (t : Fin cfg0.N) (hf : (cfg0.win 9).flush t = true) :
    (dat (F := Ideal) V c).flushed 9 t = ((cfg0.win 9).blk t).view.read (Elt Ideal)
      (fun i : S1024x4096.Idx =>
        (((ww (ix2 (i 0) (i 1)) * (∑ kk : Fin 4096, ub (ix2 (i 0) kk) * G (ix2 (i 1) kk)) - uu (ix2 (i 0) (i 1)) * (∑ kk : Fin 4096, wb (ix2 (i 0) kk) * G (ix2 (i 1) kk))) - uu (ix2 (i 0) (i 1)) * (∑ kk : Fin 4096, ub (ix2 (i 0) kk) * B (ix2 (i 1) kk)))
          - ww (ix2 (i 0) (i 1)) * (∑ kk : Fin 4096, wb (ix2 (i 0) kk) * B (ix2 (i 1) kk))) + rq (ix2 0 (i 1))) := by
  have h3 : t.val % 4 = 3 := (flush0_9 t).mp hf
  have hN : cfg0.N = 32 := N_0
  have ht : t.val < 32 := hN ▸ t.isLt
  show (cfg0.win 9).cut (grid0.coords t) ((dat V c).after 9 t) = _
  rw [after9]
  funext y
  obtain ⟨a, b, rfl⟩ : ∃ (a : Fin 1024) (b : Fin 512), y = ix2 a b := ⟨y 0, y 1, eq_ix2 y⟩
  rw [View.read_apply]
  have hemb : ((cfg0.win 9).blk t).view.emb (ix2 a b) = (ix2 a ⟨512 * (t.val / 4) + b.val, by omega⟩ : S1024x4096.Idx) := by
    funext ax
    apply Fin.ext
    match ax with
    | ⟨0, _⟩ => show win0_9.index t 0 * 1024 + 1 * a.val = a.val; rw [(idx0_9 t).1]; omega
    | ⟨1, _⟩ => show win0_9.index t 1 * 512 + 1 * b.val = 512 * (t.val / 4) + b.val; rw [(idx0_9 t).2]; omega
  rw [hemb]
  exact out9_at V c uu ww ub wb G B rq huu hww hub hwb hG hB hrq t h3 a b _ rfl

/-- THE SECOND OUTPUT ARRAY after the region: at (a, j), ((w * (ub . G) - u * (wb . G)) - u * (ub . B)) - w * (wb . B), plus the second bias row's entry j. -/
theorem final9 (c : Dev nD) (uu ww ub wb : S1024x4096.Idx → EReal) (G B : S4096x4096.Idx → EReal) (rq : S1x4096.Idx → EReal)
    (huu : uu = V c main_arg0) (hww : ww = V c main_arg1) (hub : ub = V c main_v0) (hwb : wb = V c main_v1)
    (hG : G = V c main_v2) (hB : B = V c main_v3) (hrq : rq = V c main_arg5) :
    ((dat (F := Ideal) V c).arrAt 9 cfg0.N : S1024x4096.Idx → EReal)
      = fun i =>
        (((ww (ix2 (i 0) (i 1)) * (∑ kk : Fin 4096, ub (ix2 (i 0) kk) * G (ix2 (i 1) kk)) - uu (ix2 (i 0) (i 1)) * (∑ kk : Fin 4096, wb (ix2 (i 0) kk) * G (ix2 (i 1) kk))) - uu (ix2 (i 0) (i 1)) * (∑ kk : Fin 4096, ub (ix2 (i 0) kk) * B (ix2 (i 1) kk)))
          - ww (ix2 (i 0) (i 1)) * (∑ kk : Fin 4096, wb (ix2 (i 0) kk) * B (ix2 (i 1) kk))) + rq (ix2 0 (i 1)) := by
  have hN : cfg0.N = 32 := N_0
  refine (dat V c).arrAt_eq_of_cover 9 _ (flushed9_eq V c uu ww ub wb G B rq huu hww hub hwb hG hB hrq) fun i => ?_
  have hi0 : (i 0).val < 1024 := (i 0).isLt
  have hi1 : (i 1).val < 4096 := (i 1).isLt
  obtain ⟨t, et⟩ : ∃ t : Fin cfg0.N, t.val = 4 * ((i 1).val / 512) + 3 :=
    ⟨⟨4 * ((i 1).val / 512) + 3, Nat.lt_of_lt_of_eq (by omega : 4 * ((i 1).val / 512) + 3 < 32) hN.symm⟩, rfl⟩
  refine ⟨t, (flush0_9 t).mpr (by omega), ?_⟩
  rw [mem_blk9]
  intro ax
  match ax with
  | ⟨0, _⟩ => show win0_9.index t 0 * 1024 ≤ (i 0).val ∧ (i 0).val < win0_9.index t 0 * 1024 + 1024
              rw [(idx0_9 t).1]; omega
  | ⟨1, _⟩ => show win0_9.index t 1 * 512 ≤ (i 1).val ∧ (i 1).val < win0_9.index t 1 * 512 + 512
              rw [(idx0_9 t).2]; omega

end AtIdeal

end Cert.KernelIdeal.Stage1.Value

end
-- ==== Proof.KI.Stage2Value.lean ====
/-
  The second pallas_call (the two linear heads), grid 8 x 4, read as values.

  Point t = 4 n + k multiplies the k-th block of 1024 contracted columns of each left operand (a [1024, 4096] array)
  with rows 512 n .. 512 n + 511 of its right operand (a [4096, 4096] array) over those columns, and adds the
  [1024, 512] product to an accumulator that the point with k = 0 first sets to zero; the point with k = 3 then adds
  columns 512 n .. 512 n + 511 of a bias row and stores the result as columns 512 n .. 512 n + 511 of the output.

  1. What each run of the body leaves in the accumulators and the output buffers, as the body's arithmetic applied to
     the point's blocks (for any float instance).
  2. Each block as entries of its array: the block's coordinate is the block index times the block's extent plus the
     coordinate inside the block, the block indices being (0, k), (n, k) and (0, n).
  3. The four accumulator updates of one output block unrolled; at the ideal values, where each update adds
     the sum over the 1024 columns of its block, the four partial sums added in order from 0 are the sum over all
     4096 columns (a sum over 4 * 1024 terms taken block by block), so the output block holds
     sum over kk < 4096 of X(a, kk) * W(512 n + b, kk), plus r(0, 512 n + b).
  4. The eight write-backs (points with k = 3) cover each output array, which therefore ends holding, at (a, j),
     sum over kk < 4096 of X(a, kk) * W(j, kk), plus r(0, j): each row of X against each ROW of W, plus the bias.
  No entry is assumed finite: only associativity and commutativity of the extended reals' addition are used.
-/
import proofs.«127443_j14396730376920_2_alg».proof.Proof.KI.Stage2State
import proofs.«127443_j14396730376920_2_alg».proof.Proof.Payloads
import Idealize.ShloMosaic.Lib.Pipeline.Value
import Idealize.ShloMosaic.Lib.Pipeline.FrameBody
import Idealize.ShloMosaic.Lib.ValueIdx
import Idealize.ShloMosaic.Lib.Tactic

set_option maxRecDepth 16384

noncomputable section

open scoped BigOperators

namespace Cert.KernelIdeal.Stage2.Value

open Cert.KernelIdeal Cert.KernelIdeal.Gen Cert.KernelIdeal.Stage2
open Idealize.ShloMosaic Idealize.ShloMosaic.TcCoe Idealize.ShloMosaic.Tactic Idealize.ShloMosaic.ValueIdx
open Idealize.SL.Sem
open Idealize.ShloMosaic.Pipeline (Dat)

theorem hz : (![0, 0] : Fin 2 → Nat) = fun _ => 0 := funext fun a => by fin_cases a <;> rfl

section AnyInstance

variable {F : FTy → Type} [FloatOps F]
variable (V : (c : Dev nD) → (b : Ref sig .tc) → Buf (Elt F) ((c : Thread nD τ).loc b))

/-! ## Step 1: what each run leaves -/

theorem readBackP (X : Vec F S1024x512 .f32) :
    View.read (Elt F) (View.whole cc1_scratch0) ((Memref.isWhole_whole (cc1_scratch0 : Ref sig .tc)).unread X) = X :=
  (Memref.isWhole_whole (cc1_scratch0 : Ref sig .tc)).read_unread X
theorem readBackQ (X : Vec F S1024x512 .f32) :
    View.read (Elt F) (View.whole cc1_scratch1) ((Memref.isWhole_whole (cc1_scratch1 : Ref sig .tc)).unread X) = X :=
  (Memref.isWhole_whole (cc1_scratch1 : Ref sig .tc)).read_unread X

theorem midP (c : Dev nD) (t : Fin cfg1.N) (h0 : ¬atK0 (grid1.coords t)) (h3 : ¬atK3 (grid1.coords t)) (sP sQ : Vec F S1024x512 .f32) :
    readP (rMid V c t h0 h3 sP sQ).1 = k1_pay3 (blk V c 0 t) (blk V c 2 t) sP := by
  unfold readP
  rw [View.read_writes_eq_canon _ _ _ (coverMidP V c t h0 h3 sP sQ)]
  unfold rMid runMid
  dsimp only
  try sl_unfold_words
  rw [View.canon_unit_zero hz]
  simp only [View.readAt_eq_ld, (hs0 t).read_unread, (hs2 t).read_unread, readBackP, View.ld_unit_zero (S := S1024x512) hz,
    View.ld_unit_zero (S := S1024x1024) hz, View.ld_unit_zero (S := S512x1024) hz]

theorem midQ (c : Dev nD) (t : Fin cfg1.N) (h0 : ¬atK0 (grid1.coords t)) (h3 : ¬atK3 (grid1.coords t)) (sP sQ : Vec F S1024x512 .f32) :
    readQ (rMid V c t h0 h3 sP sQ).2.1 = k1_pay4 (blk V c 1 t) (blk V c 3 t) sQ := by
  unfold readQ
  rw [View.read_writes_eq_canon _ _ _ (coverMidQ V c t h0 h3 sP sQ)]
  unfold rMid runMid
  dsimp only
  try sl_unfold_words
  rw [View.canon_unit_zero hz]
  simp only [View.readAt_eq_ld, (hs1 t).read_unread, (hs3 t).read_unread, readBackQ, View.ld_unit_zero (S := S1024x512) hz,
    View.ld_unit_zero (S := S1024x1024) hz, View.ld_unit_zero (S := S512x1024) hz]

theorem firstP (c : Dev nD) (t : Fin cfg1.N) (h0 : atK0 (grid1.coords t)) (h3 : ¬atK3 (grid1.coords t)) :
    readP (rFirst V c t h0 h3).1 = k1_pay3 (blk V c 0 t) (blk V c 2 t) k1_pay1 := by
  unfold readP
  rw [View.read_writes_eq_canon _ _ _ (coverFirstP V c t h0 h3)]
  unfold rFirst runFirst
  dsimp only
  try sl_unfold_words
  rw [View.canon_cons_unit_zero hz]
  simp only [View.readAt_eq_ld, (hs0 t).read_unread, (hs2 t).read_unread, View.ld_unit_zero (S := S1024x512) hz,
    View.ld_unit_zero (S := S1024x1024) hz, View.ld_unit_zero (S := S512x1024) hz, View.readCov_unit_zero (S := S1024x512) _ hz]

theorem firstQ (c : Dev nD) (t : Fin cfg1.N) (h0 : atK0 (grid1.coords t)) (h3 : ¬atK3 (grid1.coords t)) :
    readQ (rFirst V c t h0 h3).2.1 = k1_pay4 (blk V c 1 t) (blk V c 3 t) k1_pay2 := by
  unfold readQ
  rw [View.read_writes_eq_canon _ _ _ (coverFirstQ V c t h0 h3)]
  unfold rFirst runFirst
  dsimp only
  try sl_unfold_words
  rw [View.canon_cons_unit_zero hz]
  simp only [View.readAt_eq_ld, (hs1 t).read_unread, (hs3 t).read_unread, View.ld_unit_zero (S := S1024x512) hz,
    View.ld_unit_zero (S := S1024x1024) hz, View.ld_unit_zero (S := S512x1024) hz, View.readCov_unit_zero (S := S1024x512) _ hz]

theorem lastP (c : Dev nD) (t : Fin cfg1.N) (h0 : ¬atK0 (grid1.coords t)) (h3 : atK3 (grid1.coords t)) (sP sQ : Vec F S1024x512 .f32) :
    readP (rLast V c t h0 h3 sP sQ).2.2.1 = k1_pay3 (blk V c 0 t) (blk V c 2 t) sP := by
  unfold readP
  rw [View.read_writes_eq_canon _ _ _ (coverLastP V c t h0 h3 sP sQ)]
  unfold rLast runLast
  dsimp only
  try sl_unfold_words
  rw [View.canon_unit_zero hz]
  simp only [View.readAt_eq_ld, (hs0 t).read_unread, (hs2 t).read_unread, readBackP, View.ld_unit_zero (S := S1024x512) hz,
    View.ld_unit_zero (S := S1024x1024) hz, View.ld_unit_zero (S := S512x1024) hz]

theorem lastQ (c : Dev nD) (t : Fin cfg1.N) (h0 : ¬atK0 (grid1.coords t)) (h3 : atK3 (grid1.coords t)) (sP sQ : Vec F S1024x512 .f32) :
    readQ (rLast V c t h0 h3 sP sQ).2.2.2.1 = k1_pay4 (blk V c 1 t) (blk V c 3 t) sQ := by
  unfold readQ
  rw [View.read_writes_eq_canon _ _ _ (coverLastQ V c t h0 h3 sP sQ)]
  unfold rLast runLast
  dsimp only
  try sl_unfold_words
  rw [View.canon_unit_zero hz]
  simp only [View.readAt_eq_ld, (hs1 t).read_unread, (hs3 t).read_unread, readBackQ, View.ld_unit_zero (S := S1024x512) hz,
    View.ld_unit_zero (S := S1024x1024) hz, View.ld_unit_zero (S := S512x1024) hz]

theorem lastO6 (c : Dev nD) (t : Fin cfg1.N) (h0 : ¬atK0 (grid1.coords t)) (h3 : atK3 (grid1.coords t)) (sP sQ : Vec F S1024x512 .f32) :
    readO6 (rLast V c t h0 h3 sP sQ).1 = k1_pay5 (k1_pay3 (blk V c 0 t) (blk V c 2 t) sP) (blk V c 4 t) := by
  unfold readO6
  rw [View.read_writes_eq_canon _ _ _ (coverLastO6 V c t h0 h3 sP sQ)]
  unfold rLast runLast
  dsimp only
  try sl_unfold_words
  rw [View.canon_unit_zero hz]
  simp only [View.readAt_eq_ld, (hs0 t).read_unread, (hs2 t).read_unread, (hs4 t).read_unread, readBackP, View.ld_unit_zero (S := S1024x512) hz,
    View.ld_unit_zero (S := S1024x1024) hz, View.ld_unit_zero (S := S512x1024) hz, View.ld_unit_zero (S := S1x512) hz,
    View.readCov_unit_zero (S := S1024x512) _ hz]

theorem lastO7 (c : Dev nD) (t : Fin cfg1.N) (h0 : ¬atK0 (grid1.coords t)) (h3 : atK3 (grid1.coords t)) (sP sQ : Vec F S1024x512 .f32) :
    readO7 (rLast V c t h0 h3 sP sQ).2.1 = k1_pay6 (k1_pay4 (blk V c 1 t) (blk V c 3 t) sQ) (blk V c 5 t) := by
  unfold readO7
  rw [View.read_writes_eq_canon _ _ _ (coverLastO7 V c t h0 h3 sP sQ)]
  unfold rLast runLast
  dsimp only
  try sl_unfold_words
  rw [View.canon_unit_zero hz]
  simp only [View.readAt_eq_ld, (hs1 t).read_unread, (hs3 t).read_unread, (hs5 t).read_unread, readBackQ, View.ld_unit_zero (S := S1024x512) hz,
    View.ld_unit_zero (S := S1024x1024) hz, View.ld_unit_zero (S := S512x1024) hz, View.ld_unit_zero (S := S1x512) hz,
    View.readCov_unit_zero (S := S1024x512) _ hz]

/-! ## Step 2: the blocks as entries of the arrays

  At point t = 4 n + k the left operands' blocks are columns 1024 k .. 1024 k + 1023 of their arrays, the right
  operands' blocks rows 512 n .. 512 n + 511 and columns 1024 k .. 1024 k + 1023, the bias rows' blocks columns
  512 n .. 512 n + 511. A block's coordinate is the block index times the block's extent plus the coordinate inside
  the block; the block indices are decided once over the grid. -/

theorem idx1_0 : ∀ t : Fin cfg1.N, win1_0.index t 0 = 0 ∧ win1_0.index t 1 = t.val % 4 :=
  (by decide +kernel : ∀ t : Fin grid1.N, win1_0.index t 0 = 0 ∧ win1_0.index t 1 = t.val % 4)
theorem idx1_1 : ∀ t : Fin cfg1.N, win1_1.index t 0 = 0 ∧ win1_1.index t 1 = t.val % 4 :=
  (by decide +kernel : ∀ t : Fin grid1.N, win1_1.index t 0 = 0 ∧ win1_1.index t 1 = t.val % 4)
theorem idx1_2 : ∀ t : Fin cfg1.N, win1_2.index t 0 = t.val / 4 ∧ win1_2.index t 1 = t.val % 4 :=
  (by decide +kernel : ∀ t : Fin grid1.N, win1_2.index t 0 = t.val / 4 ∧ win1_2.index t 1 = t.val % 4)
theorem idx1_3 : ∀ t : Fin cfg1.N, win1_3.index t 0 = t.val / 4 ∧ win1_3.index t 1 = t.val % 4 :=
  (by decide +kernel : ∀ t : Fin grid1.N, win1_3.index t 0 = t.val / 4 ∧ win1_3.index t 1 = t.val % 4)
theorem idx1_4 : ∀ t : Fin cfg1.N, win1_4.index t 0 = 0 ∧ win1_4.index t 1 = t.val / 4 :=
  (by decide +kernel : ∀ t : Fin grid1.N, win1_4.index t 0 = 0 ∧ win1_4.index t 1 = t.val / 4)
theorem idx1_5 : ∀ t : Fin cfg1.N, win1_5.index t 0 = 0 ∧ win1_5.index t 1 = t.val / 4 :=
  (by decide +kernel : ∀ t : Fin grid1.N, win1_5.index t 0 = 0 ∧ win1_5.index t 1 = t.val / 4)
theorem idx1_6 : ∀ t : Fin cfg1.N, win1_6.index t 0 = 0 ∧ win1_6.index t 1 = t.val / 4 :=
  (by decide +kernel : ∀ t : Fin grid1.N, win1_6.index t 0 = 0 ∧ win1_6.index t 1 = t.val / 4)
theorem idx1_7 : ∀ t : Fin cfg1.N, win1_7.index t 0 = 0 ∧ win1_7.index t 1 = t.val / 4 :=
  (by decide +kernel : ∀ t : Fin grid1.N, win1_7.index t 0 = 0 ∧ win1_7.index t 1 = t.val / 4)

/-- The first left operand's block at point t, entry (p, q), is the array's entry (p, 1024 * (t mod 4) + q). -/
theorem blk0_apply (c : Dev nD) (t : Fin cfg1.N) (p : Fin 1024) (q : Fin 1024) (k : S1024x4096.Idx)
    (hk0 : (k 0).val = p.val) (hk1 : (k 1).val = 1024 * (t.val % 4) + q.val) :
    (blk V c 0 t : Vec F S1024x1024 .bf16) (ix2 p q) = (V c main_v8_0 : S1024x4096.Idx → Elt F .bf16) k := by
  unfold blk
  rw [View.read_apply]
  show V c main_v8_0 _ = V c main_v8_0 _
  congr 1
  funext ax
  apply Fin.ext
  match ax with
  | ⟨0, _⟩ => show win1_0.index t 0 * 1024 + 1 * p.val = (k 0).val; rw [(idx1_0 t).1, hk0]; omega
  | ⟨1, _⟩ => show win1_0.index t 1 * 1024 + 1 * q.val = (k 1).val; rw [(idx1_0 t).2, hk1]; omega

/-- The second left operand's block at point t, entry (p, q), is the array's entry (p, 1024 * (t mod 4) + q). -/
theorem blk1_apply (c : Dev nD) (t : Fin cfg1.N) (p : Fin 1024) (q : Fin 1024) (k : S1024x4096.Idx)
    (hk0 : (k 0).val = p.val) (hk1 : (k 1).val = 1024 * (t.val % 4) + q.val) :
    (blk V c 1 t : Vec F S1024x1024 .bf16) (ix2 p q) = (V c main_v8_1 : S1024x4096.Idx → Elt F .bf16) k := by
  unfold blk
  rw [View.read_apply]
  show V c main_v8_1 _ = V c main_v8_1 _
  congr 1
  funext ax
  apply Fin.ext
  match ax with
  | ⟨0, _⟩ => show win1_1.index t 0 * 1024 + 1 * p.val = (k 0).val; rw [(idx1_1 t).1, hk0]; omega
  | ⟨1, _⟩ => show win1_1.index t 1 * 1024 + 1 * q.val = (k 1).val; rw [(idx1_1 t).2, hk1]; omega

/-- The first right operand's block at point t, entry (p, q), is the array's entry (512 * (t / 4) + p, 1024 * (t mod 4) + q). -/
theorem blk2_apply (c : Dev nD) (t : Fin cfg1.N) (p : Fin 512) (q : Fin 1024) (k : S4096x4096.Idx)
    (hk0 : (k 0).val = 512 * (t.val / 4) + p.val) (hk1 : (k 1).val = 1024 * (t.val % 4) + q.val) :
    (blk V c 2 t : Vec F S512x1024 .bf16) (ix2 p q) = (V c main_v4 : S4096x4096.Idx → Elt F .bf16) k := by
  unfold blk
  rw [View.read_apply]
  show V c main_v4 _ = V c main_v4 _
  congr 1
  funext ax
  apply Fin.ext
  match ax with
  | ⟨0, _⟩ => show win1_2.index t 0 * 512 + 1 * p.val = (k 0).val; rw [(idx1_2 t).1, hk0]; omega
  | ⟨1, _⟩ => show win1_2.index t 1 * 1024 + 1 * q.val = (k 1).val; rw [(idx1_2 t).2, hk1]; omega

/-- The second right operand's block at point t, entry (p, q), is the array's entry (512 * (t / 4) + p, 1024 * (t mod 4) + q). -/
theorem blk3_apply (c : Dev nD) (t : Fin cfg1.N) (p : Fin 512) (q : Fin 1024) (k : S4096x4096.Idx)
    (hk0 : (k 0).val = 512 * (t.val / 4) + p.val) (hk1 : (k 1).val = 1024 * (t.val % 4) + q.val) :
    (blk V c 3 t : Vec F S512x1024 .bf16) (ix2 p q) = (V c main_v5 : S4096x4096.Idx → Elt F .bf16) k := by
  unfold blk
  rw [View.read_apply]
  show V c main_v5 _ = V c main_v5 _
  congr 1
  funext ax
  apply Fin.ext
  match ax with
  | ⟨0, _⟩ => show win1_3.index t 0 * 512 + 1 * p.val = (k 0).val; rw [(idx1_3 t).1, hk0]; omega
  | ⟨1, _⟩ => show win1_3.index t 1 * 1024 + 1 * q.val = (k 1).val; rw [(idx1_3 t).2, hk1]; omega

/-- The first bias row's block at point t, entry (p, q) with p = 0, is the row's entry (0, 512 * (t / 4) + q). -/
theorem blk4_apply (c : Dev nD) (t : Fin cfg1.N) (p : Fin 1) (q : Fin 512) (k : S1x4096.Idx)
    (hk0 : (k 0).val = p.val) (hk1 : (k 1).val = 512 * (t.val / 4) + q.val) :
    (blk V c 4 t : Vec F S1x512 .f32) (ix2 p q) = (V c main_v6 : S1x4096.Idx → Elt F .f32) k := by
  unfold blk
  rw [View.read_apply]
  show V c main_v6 _ = V c main_v6 _
  congr 1
  funext ax
  apply Fin.ext
  match ax with
  | ⟨0, _⟩ => show win1_4.index t 0 * 1 + 1 * p.val = (k 0).val; rw [(idx1_4 t).1, hk0]; omega
  | ⟨1, _⟩ => show win1_4.index t 1 * 512 + 1 * q.val = (k 1).val; rw [(idx1_4 t).2, hk1]; omega

/-- The second bias row's block at point t, entry (p, q) with p = 0, is the row's entry (0, 512 * (t / 4) + q). -/
theorem blk5_apply (c : Dev nD) (t : Fin cfg1.N) (p : Fin 1) (q : Fin 512) (k : S1x4096.Idx)
    (hk0 : (k 0).val = p.val) (hk1 : (k 1).val = 512 * (t.val / 4) + q.val) :
    (blk V c 5 t : Vec F S1x512 .f32) (ix2 p q) = (V c main_v7 : S1x4096.Idx → Elt F .f32) k := by
  unfold blk
  rw [View.read_apply]
  show V c main_v7 _ = V c main_v7 _
  congr 1
  funext ax
  apply Fin.ext
  match ax with
  | ⟨0, _⟩ => show win1_5.index t 0 * 1 + 1 * p.val = (k 0).val; rw [(idx1_5 t).1, hk0]; omega
  | ⟨1, _⟩ => show win1_5.index t 1 * 512 + 1 * q.val = (k 1).val; rw [(idx1_5 t).2, hk1]; omega

/-! ## Step 3: the accumulation

  First in payload form, for any float instance: what the accumulators hold after a point, by the case of its k. -/

theorem stateAt_congr (c : Dev nD) {n m : ℕ} (hn : n < cfg1.N) (hm : m < cfg1.N) (e : n = m) :
    stateAt V c n hn = stateAt V c m hm := by
  subst e; rfl

/-- After a point with k = 0: each accumulator is its first product added to the zero splat. -/
theorem acc_first (c : Dev nD) (t : Fin cfg1.N) (h : t.val % 4 = 0) :
    (stateAt V c t.val t.isLt).2
      = (k1_pay3 (blk V c 0 t) (blk V c 2 t) k1_pay1, k1_pay4 (blk V c 1 t) (blk V c 3 t) k1_pay2) := by
  have h0' : atK0 (grid1.coords t) := (atK0_iff t).mpr h
  have h3' : ¬atK3 (grid1.coords t) := fun hh => by have := (atK3_iff t).mp hh; omega
  rw [stateAt_first V c t h h0' h3', firstP, firstQ]

/-- After a point with k = 1, 2: each accumulator is what the point before left plus the point's product. -/
theorem acc_mid (c : Dev nD) (t : Fin cfg1.N) (h0 : ¬t.val % 4 = 0) (h3 : ¬t.val % 4 = 3) :
    (stateAt V c t.val t.isLt).2
      = (k1_pay3 (blk V c 0 t) (blk V c 2 t) (prevP V c t), k1_pay4 (blk V c 1 t) (blk V c 3 t) (prevQ V c t)) := by
  have h0' : ¬atK0 (grid1.coords t) := fun hh => h0 ((atK0_iff t).mp hh)
  have h3' : ¬atK3 (grid1.coords t) := fun hh => h3 ((atK3_iff t).mp hh)
  rw [stateAt_mid V c t h0 h3 h0' h3', midP, midQ]

/-- After a point with k = 3: the accumulators as at k = 1, 2, and each output is its accumulator plus the bias row. -/
theorem state_last (c : Dev nD) (t : Fin cfg1.N) (h3 : t.val % 4 = 3) :
    stateAt V c t.val t.isLt
      = ((k1_pay5 (k1_pay3 (blk V c 0 t) (blk V c 2 t) (prevP V c t)) (blk V c 4 t),
          k1_pay6 (k1_pay4 (blk V c 1 t) (blk V c 3 t) (prevQ V c t)) (blk V c 5 t)),
         (k1_pay3 (blk V c 0 t) (blk V c 2 t) (prevP V c t), k1_pay4 (blk V c 1 t) (blk V c 3 t) (prevQ V c t))) := by
  have h0 : ¬t.val % 4 = 0 := by omega
  have h0' : ¬atK0 (grid1.coords t) := fun hh => h0 ((atK0_iff t).mp hh)
  have h3' : atK3 (grid1.coords t) := (atK3_iff t).mpr h3
  rw [stateAt_last V c t h0 h3 h0' h3', lastO6, lastO7, lastP, lastQ]

/-- The four steps of one output block unrolled: t0, t1, t2, t are the points 4 n, 4 n + 1, 4 n + 2, 4 n + 3. -/
theorem out_unrolled (c : Dev nD) (t : Fin cfg1.N) (h3 : t.val % 4 = 3) (t0 t1 t2 : Fin cfg1.N)
    (e2 : t2.val = t.val - 1) (e1 : t1.val = t.val - 2) (e0 : t0.val = t.val - 3) :
    (stateAt V c t.val t.isLt).1
      = (k1_pay5 (k1_pay3 (blk V c 0 t) (blk V c 2 t) (k1_pay3 (blk V c 0 t2) (blk V c 2 t2)
            (k1_pay3 (blk V c 0 t1) (blk V c 2 t1) (k1_pay3 (blk V c 0 t0) (blk V c 2 t0) k1_pay1)))) (blk V c 4 t),
         k1_pay6 (k1_pay4 (blk V c 1 t) (blk V c 3 t) (k1_pay4 (blk V c 1 t2) (blk V c 3 t2)
            (k1_pay4 (blk V c 1 t1) (blk V c 3 t1) (k1_pay4 (blk V c 1 t0) (blk V c 3 t0) k1_pay2)))) (blk V c 5 t)) := by
  have hN : cfg1.N = 32 := N_1
  have ht : t.val < 32 := hN ▸ t.isLt
  have p3 : (stateAt V c (t.val - 1) (Nat.lt_of_le_of_lt (Nat.sub_le _ _) t.isLt)).2 = (stateAt V c t2.val t2.isLt).2 :=
    congrArg Prod.snd (stateAt_congr V c _ _ e2.symm)
  have p2 : (stateAt V c (t2.val - 1) (Nat.lt_of_le_of_lt (Nat.sub_le _ _) t2.isLt)).2 = (stateAt V c t1.val t1.isLt).2 :=
    congrArg Prod.snd (stateAt_congr V c _ _ (by omega))
  have p1 : (stateAt V c (t1.val - 1) (Nat.lt_of_le_of_lt (Nat.sub_le _ _) t1.isLt)).2 = (stateAt V c t0.val t0.isLt).2 :=
    congrArg Prod.snd (stateAt_congr V c _ _ (by omega))
  rw [state_last V c t h3]
  unfold prevP prevQ
  rw [p3, acc_mid V c t2 (by omega) (by omega)]
  unfold prevP prevQ
  rw [p2, acc_mid V c t1 (by omega) (by omega)]
  unfold prevP prevQ
  rw [p1, acc_first V c t0 (by omega)]

end AnyInstance

/-! At the ideal values: the accumulated products are the whole contraction. -/

section AtIdeal

variable (V : (c : Dev nD) → (b : Ref sig .tc) → Buf (Elt Ideal) ((c : Thread nD τ).loc b))

/-- Four accumulator updates from the zero splat, over any four pairs of blocks: the four partial products added in
    order, from 0. -/
theorem fold4P (A0 A1 A2 A3 : Vec Ideal S1024x1024 .bf16) (B0 B1 B2 B3 : Vec Ideal S512x1024 .bf16) (a : Fin 1024) (b : Fin 512) :
    k1_pay3 A3 B3 (k1_pay3 A2 B2 (k1_pay3 A1 B1 (k1_pay3 A0 B0 (k1_pay1 (F := Ideal))))) (ix2 a b)
      = (((0 + ∑ cc : Fin 1024, A0 (ix2 a cc) * B0 (ix2 b cc)) + ∑ cc : Fin 1024, A1 (ix2 a cc) * B1 (ix2 b cc))
          + ∑ cc : Fin 1024, A2 (ix2 a cc) * B2 (ix2 b cc)) + ∑ cc : Fin 1024, A3 (ix2 a cc) * B3 (ix2 b cc) := by
  rw [Cert.Payloads.k1_pay3_at, Cert.Payloads.k1_pay3_at, Cert.Payloads.k1_pay3_at, Cert.Payloads.k1_pay3_at,
    Cert.Payloads.k1_pay1_at]

/-- The same for the second accumulator. -/
theorem fold4Q (A0 A1 A2 A3 : Vec Ideal S1024x1024 .bf16) (B0 B1 B2 B3 : Vec Ideal S512x1024 .bf16) (a : Fin 1024) (b : Fin 512) :
    k1_pay4 A3 B3 (k1_pay4 A2 B2 (k1_pay4 A1 B1 (k1_pay4 A0 B0 (k1_pay2 (F := Ideal))))) (ix2 a b)
      = (((0 + ∑ cc : Fin 1024, A0 (ix2 a cc) * B0 (ix2 b cc)) + ∑ cc : Fin 1024, A1 (ix2 a cc) * B1 (ix2 b cc))
          + ∑ cc : Fin 1024, A2 (ix2 a cc) * B2 (ix2 b cc)) + ∑ cc : Fin 1024, A3 (ix2 a cc) * B3 (ix2 b cc) := by
  rw [Cert.Payloads.k1_pay4_at, Cert.Payloads.k1_pay4_at, Cert.Payloads.k1_pay4_at, Cert.Payloads.k1_pay4_at,
    Cert.Payloads.k1_pay2_at]

/-- Column cc of the jj-th block of 1024 contracted columns. -/
def col (jj : Fin 4) (cc : Fin 1024) : Fin 4096 := ⟨cc.val + 1024 * jj.val, by omega⟩

/-- After the last point of output block n = t / 4, the first output's buffer holds, at (a, b), the whole contraction of row a of the first left operand X with row 512 n + b of the first right operand W, plus entry 512 n + b of the first bias row r. -/
theorem out6_at (c : Dev nD) (X : S1024x4096.Idx → EReal) (W : S4096x4096.Idx → EReal) (r : S1x4096.Idx → EReal)
    (hX : X = V c main_v8_0) (hW : W = V c main_v4) (hr : r = V c main_v6)
    (t : Fin cfg1.N) (h3 : t.val % 4 = 3) (a : Fin 1024) (b : Fin 512) (j : Fin 4096)
    (hj : j.val = 512 * (t.val / 4) + b.val) :
    (stateAt (F := Ideal) V c t.val t.isLt).1.1 (ix2 a b)
      = (∑ kk : Fin 4096, X (ix2 a kk) * W (ix2 j kk)) + r (ix2 0 j) := by
  have hN : cfg1.N = 32 := N_1
  have ht : t.val < 32 := hN ▸ t.isLt
  obtain ⟨t2, e2⟩ : ∃ t2 : Fin cfg1.N, t2.val = t.val - 1 := ⟨⟨t.val - 1, Nat.lt_of_lt_of_eq (by omega : t.val - 1 < 32) hN.symm⟩, rfl⟩
  obtain ⟨t1, e1⟩ : ∃ t1 : Fin cfg1.N, t1.val = t.val - 2 := ⟨⟨t.val - 2, Nat.lt_of_lt_of_eq (by omega : t.val - 2 < 32) hN.symm⟩, rfl⟩
  obtain ⟨t0, e0⟩ : ∃ t0 : Fin cfg1.N, t0.val = t.val - 3 := ⟨⟨t.val - 3, Nat.lt_of_lt_of_eq (by omega : t.val - 3 < 32) hN.symm⟩, rfl⟩
  have hL : ∀ (s : Fin cfg1.N) (jj : Fin 4), s.val % 4 = jj.val → ∀ cc : Fin 1024,
      (blk V c 0 s : Vec Ideal S1024x1024 .bf16) (ix2 a cc) = X (ix2 a (col jj cc)) := by
    intro s jj hk cc
    rw [hX]
    refine blk0_apply V c s a cc (ix2 a (col jj cc)) rfl ?_
    show cc.val + 1024 * jj.val = 1024 * (s.val % 4) + cc.val; omega
  have hR : ∀ (s : Fin cfg1.N) (jj : Fin 4), s.val % 4 = jj.val → s.val / 4 = t.val / 4 → ∀ cc : Fin 1024,
      (blk V c 2 s : Vec Ideal S512x1024 .bf16) (ix2 b cc) = W (ix2 j (col jj cc)) := by
    intro s jj hk hn cc
    rw [hW]
    refine blk2_apply V c s b cc (ix2 j (col jj cc)) ?_ ?_
    · show j.val = 512 * (s.val / 4) + b.val; omega
    · show cc.val + 1024 * jj.val = 1024 * (s.val % 4) + cc.val; omega
  have hB : (blk V c 4 t : Vec Ideal S1x512 .f32) (ix2 0 b) = r (ix2 0 j) := by
    rw [hr]; exact blk4_apply V c t 0 b (ix2 0 j) rfl hj
  rw [out_unrolled V c t h3 t0 t1 t2 e2 e1 e0]
  refine (Cert.Payloads.k1_pay5_at _ _ a b).trans ?_
  refine congrArg₂ (· + ·) ?_ hB
  refine (fold4P _ _ _ _ _ _ _ _ a b).trans ?_
  refine Eq.trans ?_ (Cert.Payloads.sum_four_blocks_of (fun kk => X (ix2 a kk) * W (ix2 j kk)) col (fun _ _ => rfl))
  refine congrArg₂ (· + ·) (congrArg₂ (· + ·) (congrArg₂ (· + ·) (congrArg (0 + ·) ?_) ?_) ?_) ?_
  · exact Finset.sum_congr rfl fun cc _ =>
      congrArg₂ (· * ·) (hL t0 0 (by show t0.val % 4 = 0; omega) cc) (hR t0 0 (by show t0.val % 4 = 0; omega) (by omega) cc)
  · exact Finset.sum_congr rfl fun cc _ =>
      congrArg₂ (· * ·) (hL t1 1 (by show t1.val % 4 = 1; omega) cc) (hR t1 1 (by show t1.val % 4 = 1; omega) (by omega) cc)
  · exact Finset.sum_congr rfl fun cc _ =>
      congrArg₂ (· * ·) (hL t2 2 (by show t2.val % 4 = 2; omega) cc) (hR t2 2 (by show t2.val % 4 = 2; omega) (by omega) cc)
  · exact Finset.sum_congr rfl fun cc _ =>
      congrArg₂ (· * ·) (hL t 3 (by show t.val % 4 = 3; omega) cc) (hR t 3 (by show t.val % 4 = 3; omega) rfl cc)

/-- The same for the second output, over the second left operand, right operand and bias row. -/
theorem out7_at (c : Dev nD) (X : S1024x4096.Idx → EReal) (W : S4096x4096.Idx → EReal) (r : S1x4096.Idx → EReal)
    (hX : X = V c main_v8_1) (hW : W = V c main_v5) (hr : r = V c main_v7)
    (t : Fin cfg1.N) (h3 : t.val % 4 = 3) (a : Fin 1024) (b : Fin 512) (j : Fin 4096)
    (hj : j.val = 512 * (t.val / 4) + b.val) :
    (stateAt (F := Ideal) V c t.val t.isLt).1.2 (ix2 a b)
      = (∑ kk : Fin 4096, X (ix2 a kk) * W (ix2 j kk)) + r (ix2 0 j) := by
  have hN : cfg1.N = 32 := N_1
  have ht : t.val < 32 := hN ▸ t.isLt
  obtain ⟨t2, e2⟩ : ∃ t2 : Fin cfg1.N, t2.val = t.val - 1 := ⟨⟨t.val - 1, Nat.lt_of_lt_of_eq (by omega : t.val - 1 < 32) hN.symm⟩, rfl⟩
  obtain ⟨t1, e1⟩ : ∃ t1 : Fin cfg1.N, t1.val = t.val - 2 := ⟨⟨t.val - 2, Nat.lt_of_lt_of_eq (by omega : t.val - 2 < 32) hN.symm⟩, rfl⟩
  obtain ⟨t0, e0⟩ : ∃ t0 : Fin cfg1.N, t0.val = t.val - 3 := ⟨⟨t.val - 3, Nat.lt_of_lt_of_eq (by omega : t.val - 3 < 32) hN.symm⟩, rfl⟩
  have hL : ∀ (s : Fin cfg1.N) (jj : Fin 4), s.val % 4 = jj.val → ∀ cc : Fin 1024,
      (blk V c 1 s : Vec Ideal S1024x1024 .bf16) (ix2 a cc) = X (ix2 a (col jj cc)) := by
    intro s jj hk cc
    rw [hX]
    refine blk1_apply V c s a cc (ix2 a (col jj cc)) rfl ?_
    show cc.val + 1024 * jj.val = 1024 * (s.val % 4) + cc.val; omega
  have hR : ∀ (s : Fin cfg1.N) (jj : Fin 4), s.val % 4 = jj.val → s.val / 4 = t.val / 4 → ∀ cc : Fin 1024,
      (blk V c 3 s : Vec Ideal S512x1024 .bf16) (ix2 b cc) = W (ix2 j (col jj cc)) := by
    intro s jj hk hn cc
    rw [hW]
    refine blk3_apply V c s b cc (ix2 j (col jj cc)) ?_ ?_
    · show j.val = 512 * (s.val / 4) + b.val; omega
    · show cc.val + 1024 * jj.val = 1024 * (s.val % 4) + cc.val; omega
  have hB : (blk V c 5 t : Vec Ideal S1x512 .f32) (ix2 0 b) = r (ix2 0 j) := by
    rw [hr]; exact blk5_apply V c t 0 b (ix2 0 j) rfl hj
  rw [out_unrolled V c t h3 t0 t1 t2 e2 e1 e0]
  refine (Cert.Payloads.k1_pay6_at _ _ a b).trans ?_
  refine congrArg₂ (· + ·) ?_ hB
  refine (fold4Q _ _ _ _ _ _ _ _ a b).trans ?_
  refine Eq.trans ?_ (Cert.Payloads.sum_four_blocks_of (fun kk => X (ix2 a kk) * W (ix2 j kk)) col (fun _ _ => rfl))
  refine congrArg₂ (· + ·) (congrArg₂ (· + ·) (congrArg₂ (· + ·) (congrArg (0 + ·) ?_) ?_) ?_) ?_
  · exact Finset.sum_congr rfl fun cc _ =>
      congrArg₂ (· * ·) (hL t0 0 (by show t0.val % 4 = 0; omega) cc) (hR t0 0 (by show t0.val % 4 = 0; omega) (by omega) cc)
  · exact Finset.sum_congr rfl fun cc _ =>
      congrArg₂ (· * ·) (hL t1 1 (by show t1.val % 4 = 1; omega) cc) (hR t1 1 (by show t1.val % 4 = 1; omega) (by omega) cc)
  · exact Finset.sum_congr rfl fun cc _ =>
      congrArg₂ (· * ·) (hL t2 2 (by show t2.val % 4 = 2; omega) cc) (hR t2 2 (by show t2.val % 4 = 2; omega) (by omega) cc)
  · exact Finset.sum_congr rfl fun cc _ =>
      congrArg₂ (· * ·) (hL t 3 (by show t.val % 4 = 3; omega) cc) (hR t 3 (by show t.val % 4 = 3; omega) rfl cc)

/-! ## Step 4: the final arrays

  The two outputs are written back at the points with k = 3 only; the block written at point 4 n + 3 is columns
  512 n .. 512 n + 511, and entry (a, j) is in the block of the point 4 * (j / 512) + 3, so the eight write-backs
  cover each output array. -/

/-- An index of the array is in point t's block of output 6 iff each coordinate is in the block's range on its axis. -/
theorem mem_blk6 (t : Fin cfg1.N) (i : S1024x4096.Idx) :
    i ∈ ((cfg1.win 6).blk t).view.set ↔ ∀ a : Fin 2, win1_6.index t a * S1024x512.size a ≤ (i a).val
      ∧ (i a).val < win1_6.index t a * S1024x512.size a + S1024x512.size a := by
  show i ∈ ((View.whole main_v9_0).slice (win1_6.rect t)).set ↔ _
  rw [View.set_slice_whole, Rect.mem_set_unit]
  exact Iff.rfl

/-- What a point with k = 3 writes back to output 6 is its block of the closed form. -/
theorem flushed6_eq (c : Dev nD) (X : S1024x4096.Idx → EReal) (W : S4096x4096.Idx → EReal) (r : S1x4096.Idx → EReal)
    (hX : X = V c main_v8_0) (hW : W = V c main_v4) (hr : r = V c main_v6)
    (t : Fin cfg1.N) (hf : (cfg1.win 6).flush t = true) :
    (dat (F := Ideal) V c).flushed 6 t = ((cfg1.win 6).blk t).view.read (Elt Ideal)
      (fun i : S1024x4096.Idx => (∑ kk : Fin 4096, X (ix2 (i 0) kk) * W (ix2 (i 1) kk)) + r (ix2 0 (i 1))) := by
  have h3 : t.val % 4 = 3 := (flush1_6 t).mp hf
  have hN : cfg1.N = 32 := N_1
  have ht : t.val < 32 := hN ▸ t.isLt
  show (cfg1.win 6).cut (grid1.coords t) ((dat V c).after 6 t) = _
  rw [after6]
  funext y
  obtain ⟨a, b, rfl⟩ : ∃ (a : Fin 1024) (b : Fin 512), y = ix2 a b := ⟨y 0, y 1, eq_ix2 y⟩
  rw [View.read_apply]
  have hemb : ((cfg1.win 6).blk t).view.emb (ix2 a b) = (ix2 a ⟨512 * (t.val / 4) + b.val, by omega⟩ : S1024x4096.Idx) := by
    funext ax
    apply Fin.ext
    match ax with
    | ⟨0, _⟩ => show win1_6.index t 0 * 1024 + 1 * a.val = a.val; rw [(idx1_6 t).1]; omega
    | ⟨1, _⟩ => show win1_6.index t 1 * 512 + 1 * b.val = 512 * (t.val / 4) + b.val; rw [(idx1_6 t).2]; omega
  rw [hemb]
  exact out6_at V c X W r hX hW hr t h3 a b _ rfl

/-- THE FIRST OUTPUT ARRAY after the region: at (a, j) the whole contraction of row a of the first left operand with row j of the first right operand, plus the first bias row's entry j. -/
theorem final6 (c : Dev nD) (X : S1024x4096.Idx → EReal) (W : S4096x4096.Idx → EReal) (r : S1x4096.Idx → EReal)
    (hX : X = V c main_v8_0) (hW : W = V c main_v4) (hr : r = V c main_v6) :
    ((dat (F := Ideal) V c).arrAt 6 cfg1.N : S1024x4096.Idx → EReal)
      = fun i => (∑ kk : Fin 4096, X (ix2 (i 0) kk) * W (ix2 (i 1) kk)) + r (ix2 0 (i 1)) := by
  have hN : cfg1.N = 32 := N_1
  refine (dat V c).arrAt_eq_of_cover 6 _ (flushed6_eq V c X W r hX hW hr) fun i => ?_
  have hi0 : (i 0).val < 1024 := (i 0).isLt
  have hi1 : (i 1).val < 4096 := (i 1).isLt
  obtain ⟨t, et⟩ : ∃ t : Fin cfg1.N, t.val = 4 * ((i 1).val / 512) + 3 :=
    ⟨⟨4 * ((i 1).val / 512) + 3, Nat.lt_of_lt_of_eq (by omega : 4 * ((i 1).val / 512) + 3 < 32) hN.symm⟩, rfl⟩
  refine ⟨t, (flush1_6 t).mpr (by omega), ?_⟩
  rw [mem_blk6]
  intro ax
  match ax with
  | ⟨0, _⟩ => show win1_6.index t 0 * 1024 ≤ (i 0).val ∧ (i 0).val < win1_6.index t 0 * 1024 + 1024
              rw [(idx1_6 t).1]; omega
  | ⟨1, _⟩ => show win1_6.index t 1 * 512 ≤ (i 1).val ∧ (i 1).val < win1_6.index t 1 * 512 + 512
              rw [(idx1_6 t).2]; omega

/-- An index of the array is in point t's block of output 7 iff each coordinate is in the block's range on its axis. -/
theorem mem_blk7 (t : Fin cfg1.N) (i : S1024x4096.Idx) :
    i ∈ ((cfg1.win 7).blk t).view.set ↔ ∀ a : Fin 2, win1_7.index t a * S1024x512.size a ≤ (i a).val
      ∧ (i a).val < win1_7.index t a * S1024x512.size a + S1024x512.size a := by
  show i ∈ ((View.whole main_v9_1).slice (win1_7.rect t)).set ↔ _
  rw [View.set_slice_whole, Rect.mem_set_unit]
  exact Iff.rfl

/-- What a point with k = 3 writes back to output 7 is its block of the closed form. -/
theorem flushed7_eq (c : Dev nD) (X : S1024x4096.Idx → EReal) (W : S4096x4096.Idx → EReal) (r : S1x4096.Idx → EReal)
    (hX : X = V c main_v8_1) (hW : W = V c main_v5) (hr : r = V c main_v7)
    (t : Fin cfg1.N) (hf : (cfg1.win 7).flush t = true) :
    (dat (F := Ideal) V c).flushed 7 t = ((cfg1.win 7).blk t).view.read (Elt Ideal)
      (fun i : S1024x4096.Idx => (∑ kk : Fin 4096, X (ix2 (i 0) kk) * W (ix2 (i 1) kk)) + r (ix2 0 (i 1))) := by
  have h3 : t.val % 4 = 3 := (flush1_7 t).mp hf
  have hN : cfg1.N = 32 := N_1
  have ht : t.val < 32 := hN ▸ t.isLt
  show (cfg1.win 7).cut (grid1.coords t) ((dat V c).after 7 t) = _
  rw [after7]
  funext y
  obtain ⟨a, b, rfl⟩ : ∃ (a : Fin 1024) (b : Fin 512), y = ix2 a b := ⟨y 0, y 1, eq_ix2 y⟩
  rw [View.read_apply]
  have hemb : ((cfg1.win 7).blk t).view.emb (ix2 a b) = (ix2 a ⟨512 * (t.val / 4) + b.val, by omega⟩ : S1024x4096.Idx) := by
    funext ax
    apply Fin.ext
    match ax with
    | ⟨0, _⟩ => show win1_7.index t 0 * 1024 + 1 * a.val = a.val; rw [(idx1_7 t).1]; omega
    | ⟨1, _⟩ => show win1_7.index t 1 * 512 + 1 * b.val = 512 * (t.val / 4) + b.val; rw [(idx1_7 t).2]; omega
  rw [hemb]
  exact out7_at V c X W r hX hW hr t h3 a b _ rfl

/-- THE SECOND OUTPUT ARRAY after the region: at (a, j) the whole contraction of row a of the second left operand with row j of the second right operand, plus the second bias row's entry j. -/
theorem final7 (c : Dev nD) (X : S1024x4096.Idx → EReal) (W : S4096x4096.Idx → EReal) (r : S1x4096.Idx → EReal)
    (hX : X = V c main_v8_1) (hW : W = V c main_v5) (hr : r = V c main_v7) :
    ((dat (F := Ideal) V c).arrAt 7 cfg1.N : S1024x4096.Idx → EReal)
      = fun i => (∑ kk : Fin 4096, X (ix2 (i 0) kk) * W (ix2 (i 1) kk)) + r (ix2 0 (i 1)) := by
  have hN : cfg1.N = 32 := N_1
  refine (dat V c).arrAt_eq_of_cover 7 _ (flushed7_eq V c X W r hX hW hr) fun i => ?_
  have hi0 : (i 0).val < 1024 := (i 0).isLt
  have hi1 : (i 1).val < 4096 := (i 1).isLt
  obtain ⟨t, et⟩ : ∃ t : Fin cfg1.N, t.val = 4 * ((i 1).val / 512) + 3 :=
    ⟨⟨4 * ((i 1).val / 512) + 3, Nat.lt_of_lt_of_eq (by omega : 4 * ((i 1).val / 512) + 3 < 32) hN.symm⟩, rfl⟩
  refine ⟨t, (flush1_7 t).mpr (by omega), ?_⟩
  rw [mem_blk7]
  intro ax
  match ax with
  | ⟨0, _⟩ => show win1_7.index t 0 * 1024 ≤ (i 0).val ∧ (i 0).val < win1_7.index t 0 * 1024 + 1024
              rw [(idx1_7 t).1]; omega
  | ⟨1, _⟩ => show win1_7.index t 1 * 512 ≤ (i 1).val ∧ (i 1).val < win1_7.index t 1 * 512 + 512
              rw [(idx1_7 t).2]; omega

end AtIdeal

end Cert.KernelIdeal.Stage2.Value

end
-- ==== Proof.Spec.lean ====
/-
  The function both programs compute, over the extended reals.

  For u, w of shape [1024, 4096], G, B, Wp, Wq of shape [4096, 4096], bias rows of shape [1, 4096] and bias vectors
  of shape [4096]: with (M x)(a, j) = sum over k of x(a, k) * M(j, k) (each row of x against each ROW of M),

    pPre(a, j) = (((u * Gu + w * Gw) + w * Bu) - u * Bw)(a, j) + biasP(0, j)
    qPre(a, j) = (((w * Gu - u * Gw) - u * Bu) - w * Bw)(a, j) + biasQ(0, j)
    outP(a, j) = (sum over k of pPre(a, k) * Wp(j, k)) + bp(j)
    outQ(a, j) = (sum over k of qPre(a, k) * Wq(j, k)) + bq(j)

  in exactly this association of the sums and differences. Every operation is the extended reals' own; nothing here
  assumes an entry finite.
-/
import Idealize.ShloMosaic.PureOps.Ideal
import Idealize.ShloMosaic.Lib.ValueIdx

noncomputable section

open scoped BigOperators

namespace Cert.Spec

open Idealize.ShloMosaic Idealize.ShloMosaic.ValueIdx

/-- The index sets of the shapes involved. -/
abbrev IdxBN := (⟨2, ![1024, 4096]⟩ : Shape).Idx
abbrev IdxNN := (⟨2, ![4096, 4096]⟩ : Shape).Idx
abbrev IdxRow := (⟨2, ![1, 4096]⟩ : Shape).Idx
abbrev IdxVec := (⟨1, ![4096]⟩ : Shape).Idx

/-- Row `a` of `x` against row `j` of `M`. -/
def rowDot (x : IdxBN → EReal) (M : IdxNN → EReal) (a : Fin 1024) (j : Fin 4096) : EReal :=
  ∑ k : Fin 4096, x (ix2 a k) * M (ix2 j k)

/-- The first bilinear combination, before the linear head. -/
def pPre (u w : IdxBN → EReal) (G B : IdxNN → EReal) (biasP : IdxRow → EReal) (a : Fin 1024) (j : Fin 4096) : EReal :=
  (((u (ix2 a j) * rowDot u G a j + w (ix2 a j) * rowDot w G a j) + w (ix2 a j) * rowDot u B a j)
      - u (ix2 a j) * rowDot w B a j) + biasP (ix2 0 j)

/-- The second bilinear combination, before the linear head. -/
def qPre (u w : IdxBN → EReal) (G B : IdxNN → EReal) (biasQ : IdxRow → EReal) (a : Fin 1024) (j : Fin 4096) : EReal :=
  (((w (ix2 a j) * rowDot u G a j - u (ix2 a j) * rowDot w G a j) - u (ix2 a j) * rowDot u B a j)
      - w (ix2 a j) * rowDot w B a j) + biasQ (ix2 0 j)

/-- A linear head: each row of `x` against each row of `W`, plus the bias entry of the column. -/
def head (x : Fin 1024 → Fin 4096 → EReal) (W : IdxNN → EReal) (b : IdxVec → EReal) (a : Fin 1024) (j : Fin 4096) : EReal :=
  (∑ k : Fin 4096, x a k * W (ix2 j k)) + b (ix1 j)

/-- The first result, as an array. -/
def outP (u w : IdxBN → EReal) (G B : IdxNN → EReal) (biasP : IdxRow → EReal) (Wp : IdxNN → EReal) (bp : IdxVec → EReal) :
    IdxBN → EReal := fun i => head (pPre u w G B biasP) Wp bp (i 0) (i 1)

/-- The second result, as an array. -/
def outQ (u w : IdxBN → EReal) (G B : IdxNN → EReal) (biasQ : IdxRow → EReal) (Wq : IdxNN → EReal) (bq : IdxVec → EReal) :
    IdxBN → EReal := fun i => head (qPre u w G B biasQ) Wq bq (i 0) (i 1)

end Cert.Spec

end
-- ==== Proof.KI.Result.lean ====
/-
  The kernel's two results, at the ideal values, as the specification's closed form of the arguments.

  The second call leaves, at (a, j), the whole contraction of row a of its left operand with row j of its right operand
  plus a bias row's entry j. Its left operand is what the first call left: the bilinear combination, whose four
  contractions are whole contractions too and whose left operands and entrywise factors are all u or w (the copies in
  another float format hold the same extended reals). Its right operand is the head's matrix and its bias row the head's
  vector laid out as a row. Put together this is the specification's array, entry by entry, with nothing to rearrange.
-/
import proofs.«127443_j14396730376920_2_alg».proof.Proof.KI.HostVals
import proofs.«127443_j14396730376920_2_alg».proof.Proof.KI.Stage1Value
import proofs.«127443_j14396730376920_2_alg».proof.Proof.KI.Stage2Value
import proofs.«127443_j14396730376920_2_alg».proof.Proof.Spec

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-- The first result array after the second call is the specification's first array of the arguments: the first call leaves the
    bilinear combination (its contractions' left operands are copies of u and w in another float format, the same
    extended reals), the second call contracts it against the head's matrix and adds the bias vector laid out as a row. -/
theorem kernelP (c : Dev nD) :
    ((Stage2.dat (F := Ideal) (V2 m ρ) c).arrAt 6 cfg1.N : S1024x4096.Idx → EReal)
      = Cert.Spec.outP (m ((c : Thread nD τ).loc main_arg0) : S1024x4096.Idx → EReal) (m ((c : Thread nD τ).loc main_arg1) : S1024x4096.Idx → EReal) (m ((c : Thread nD τ).loc main_arg2) : S4096x4096.Idx → EReal) (m ((c : Thread nD τ).loc main_arg3) : S4096x4096.Idx → EReal) (m ((c : Thread nD τ).loc main_arg4) : S1x4096.Idx → EReal) (m ((c : Thread nD τ).loc main_arg6) : S4096x4096.Idx → EReal) (m ((c : Thread nD τ).loc main_arg7) : S4096.Idx → EReal) := by
  have hX : (fun i : S1024x4096.Idx => Cert.Spec.pPre (m ((c : Thread nD τ).loc main_arg0) : S1024x4096.Idx → EReal) (m ((c : Thread nD τ).loc main_arg1) : S1024x4096.Idx → EReal) (m ((c : Thread nD τ).loc main_arg2) : S4096x4096.Idx → EReal) (m ((c : Thread nD τ).loc main_arg3) : S4096x4096.Idx → EReal) (m ((c : Thread nD τ).loc main_arg4) : S1x4096.Idx → EReal) (i 0) (i 1))
      = (V2 (F := Ideal) m ρ c main_v8_0 : S1024x4096.Idx → EReal) := by
    rw [V2_main_v8_0]
    exact (Stage1.Value.final8 (V1 m ρ) c (m ((c : Thread nD τ).loc main_arg0) : S1024x4096.Idx → EReal) (m ((c : Thread nD τ).loc main_arg1) : S1024x4096.Idx → EReal) (m ((c : Thread nD τ).loc main_arg0) : S1024x4096.Idx → EReal) (m ((c : Thread nD τ).loc main_arg1) : S1024x4096.Idx → EReal) (m ((c : Thread nD τ).loc main_arg2) : S4096x4096.Idx → EReal) (m ((c : Thread nD τ).loc main_arg3) : S4096x4096.Idx → EReal) (m ((c : Thread nD τ).loc main_arg4) : S1x4096.Idx → EReal)
      (at_main_arg0 m ρ c).symm (at_main_arg1 m ρ c).symm (at_main_v0 m ρ c).symm (at_main_v1 m ρ c).symm
      (at_main_v2 m ρ c).symm (at_main_v3 m ρ c).symm (at_main_arg4 m ρ c).symm).symm
  have hW : (m ((c : Thread nD τ).loc main_arg6) : S4096x4096.Idx → EReal) = (V2 (F := Ideal) m ρ c main_v4 : S4096x4096.Idx → EReal) :=
    ((V2_main_v4 m ρ c).trans (at_main_v4 m ρ c)).symm
  have hr : (fun i : S1x4096.Idx => (m ((c : Thread nD τ).loc main_arg7) : S4096.Idx → EReal) (ix1 (i 1))) = (V2 (F := Ideal) m ρ c main_v6 : S1x4096.Idx → EReal) := by
    rw [V2_main_v6]
    funext i
    obtain ⟨p, q, rfl⟩ : ∃ (p : Fin 1) (q : Fin 4096), i = ix2 p q := ⟨i 0, i 1, eq_ix2 i⟩
    obtain rfl : p = 0 := Subsingleton.elim _ _
    exact (at_main_v6 m ρ c q).symm
  refine (Stage2.Value.final6 (V2 m ρ) c _ _ _ hX hW hr).trans ?_
  funext i
  rfl

/-- The second result array after the second call is the specification's second array of the arguments: the first call leaves the
    bilinear combination (its contractions' left operands are copies of u and w in another float format, the same
    extended reals), the second call contracts it against the head's matrix and adds the bias vector laid out as a row. -/
theorem kernelQ (c : Dev nD) :
    ((Stage2.dat (F := Ideal) (V2 m ρ) c).arrAt 7 cfg1.N : S1024x4096.Idx → EReal)
      = Cert.Spec.outQ (m ((c : Thread nD τ).loc main_arg0) : S1024x4096.Idx → EReal) (m ((c : Thread nD τ).loc main_arg1) : S1024x4096.Idx → EReal) (m ((c : Thread nD τ).loc main_arg2) : S4096x4096.Idx → EReal) (m ((c : Thread nD τ).loc main_arg3) : S4096x4096.Idx → EReal) (m ((c : Thread nD τ).loc main_arg5) : S1x4096.Idx → EReal) (m ((c : Thread nD τ).loc main_arg8) : S4096x4096.Idx → EReal) (m ((c : Thread nD τ).loc main_arg9) : S4096.Idx → EReal) := by
  have hX : (fun i : S1024x4096.Idx => Cert.Spec.qPre (m ((c : Thread nD τ).loc main_arg0) : S1024x4096.Idx → EReal) (m ((c : Thread nD τ).loc main_arg1) : S1024x4096.Idx → EReal) (m ((c : Thread nD τ).loc main_arg2) : S4096x4096.Idx → EReal) (m ((c : Thread nD τ).loc main_arg3) : S4096x4096.Idx → EReal) (m ((c : Thread nD τ).loc main_arg5) : S1x4096.Idx → EReal) (i 0) (i 1))
      = (V2 (F := Ideal) m ρ c main_v8_1 : S1024x4096.Idx → EReal) := by
    rw [V2_main_v8_1]
    exact (Stage1.Value.final9 (V1 m ρ) c (m ((c : Thread nD τ).loc main_arg0) : S1024x4096.Idx → EReal) (m ((c : Thread nD τ).loc main_arg1) : S1024x4096.Idx → EReal) (m ((c : Thread nD τ).loc main_arg0) : S1024x4096.Idx → EReal) (m ((c : Thread nD τ).loc main_arg1) : S1024x4096.Idx → EReal) (m ((c : Thread nD τ).loc main_arg2) : S4096x4096.Idx → EReal) (m ((c : Thread nD τ).loc main_arg3) : S4096x4096.Idx → EReal) (m ((c : Thread nD τ).loc main_arg5) : S1x4096.Idx → EReal)
      (at_main_arg0 m ρ c).symm (at_main_arg1 m ρ c).symm (at_main_v0 m ρ c).symm (at_main_v1 m ρ c).symm
      (at_main_v2 m ρ c).symm (at_main_v3 m ρ c).symm (at_main_arg5 m ρ c).symm).symm
  have hW : (m ((c : Thread nD τ).loc main_arg8) : S4096x4096.Idx → EReal) = (V2 (F := Ideal) m ρ c main_v5 : S4096x4096.Idx → EReal) :=
    ((V2_main_v5 m ρ c).trans (at_main_v5 m ρ c)).symm
  have hr : (fun i : S1x4096.Idx => (m ((c : Thread nD τ).loc main_arg9) : S4096.Idx → EReal) (ix1 (i 1))) = (V2 (F := Ideal) m ρ c main_v7 : S1x4096.Idx → EReal) := by
    rw [V2_main_v7]
    funext i
    obtain ⟨p, q, rfl⟩ : ∃ (p : Fin 1) (q : Fin 4096), i = ix2 p q := ⟨i 0, i 1, eq_ix2 i⟩
    obtain rfl : p = 0 := Subsingleton.elim _ _
    exact (at_main_v7 m ρ c q).symm
  refine (Stage2.Value.final7 (V2 m ρ) c _ _ _ hX hW hr).trans ?_
  funext i
  rfl

end Cert.KernelIdeal.Whole

end
-- ==== Proof.RefSpec.lean ====
/-
  The reference program computes the closed form of Spec.lean.

  The reference is 36 array operations. Read at one entry (a, j) they are:

  * Four products "rows against rows". Each is a transpose of a square matrix M followed by a contraction of the
    second axis of a [1024, 4096] array x with the FIRST axis of the transposed matrix; entry (a, j) of the result is
    the sum over k of x(a, k) * Mᵀ(k, j) = x(a, k) * M(j, k), which is rowDot x M a j. The four are
    u against G, w against G, u against B and w against B.

  * Eight entrywise products of u or w with one of the four, combined entrywise by sums and differences in the order
    the program lists them, and one row [1, 4096] repeated along the first axis and added last. For the first result
    this is (((u * Gu + w * Gw) + w * Bu) - u * Bw) + biasP(0, j); for the second
    (((w * Gu - u * Gw) - u * Bu) - w * Bw) + biasQ(0, j). These are pPre and qPre, in the same association.

  * A linear head for each result: again a transpose of a square matrix W and a contraction of the second axis of the
    combination with the first axis of Wᵀ, so entry (a, j) is the sum over k of pre(a, k) * W(j, k); then a vector
    [4096] laid out as a row [1, 4096], repeated along the first axis, and added: + b(j).

  Every step is a reading of one operation at an index, followed by an identification of the composed index with the
  index built from the coordinates. No law of arithmetic is used: sums, differences and products stay as the program
  associates them, so the statement holds over the extended reals with no finiteness assumption.
-/
import proofs.«127443_j14396730376920_2_alg».proof.Proof.Gen.ReferenceIdeal.Read
import proofs.«127443_j14396730376920_2_alg».proof.Proof.Spec
import Idealize.ShloMosaic.Lib.ValueIdx
import Idealize.ShloMosaic.PureOps.Ideal

noncomputable section

open scoped BigOperators

namespace Cert.RefSpec

open Cert.ReferenceIdeal Cert.ReferenceIdeal.Read Cert.Spec Idealize.ShloMosaic Idealize.ShloMosaic.ValueIdx

/-! ## The four products of rows against rows

  A transpose read at (k, j) is the matrix at (j, k); the contraction reads its left operand at (a, k) and its right
  operand, the transposed matrix, at (k, j). -/

/-- Operations 0 and 1: u against the transpose of G, at (a, j), is row a of u against row j of G. -/
theorem dot_uG (x0 : (⟨S1024x4096, .f32⟩ : BufTy).Contents (Elt Ideal)) (x2 : (⟨S4096x4096, .f32⟩ : BufTy).Contents (Elt Ideal)) (a : Fin 1024) (j : Fin 4096) :
    val_main_v1 (F := Ideal) x0 x2 (ix2 a j) = rowDot x0 x2 a j := by
  rw [val_main_v1_apply]
  unfold rowDot
  refine Finset.sum_congr rfl fun k _ => ?_
  rw [val_main_v0_apply]
  have el : lidx_main_v1 (ix2 a j) k = ix2 a k :=
    funext fun d => Fin.ext (by match d with | ⟨0, _⟩ => rfl | ⟨1, _⟩ => rfl)
  have er : idx_main_v0 (ridx_main_v1 (ix2 a j) k) = ix2 j k :=
    funext fun d => Fin.ext (by match d with | ⟨0, _⟩ => rfl | ⟨1, _⟩ => rfl)
  rw [el, er]

/-- Operations 2 and 3: w against the transpose of G, at (a, j), is row a of w against row j of G. -/
theorem dot_wG (x1 : (⟨S1024x4096, .f32⟩ : BufTy).Contents (Elt Ideal)) (x2 : (⟨S4096x4096, .f32⟩ : BufTy).Contents (Elt Ideal)) (a : Fin 1024) (j : Fin 4096) :
    val_main_v3 (F := Ideal) x1 x2 (ix2 a j) = rowDot x1 x2 a j := by
  rw [val_main_v3_apply]
  unfold rowDot
  refine Finset.sum_congr rfl fun k _ => ?_
  rw [val_main_v2_apply]
  have el : lidx_main_v3 (ix2 a j) k = ix2 a k :=
    funext fun d => Fin.ext (by match d with | ⟨0, _⟩ => rfl | ⟨1, _⟩ => rfl)
  have er : idx_main_v2 (ridx_main_v3 (ix2 a j) k) = ix2 j k :=
    funext fun d => Fin.ext (by match d with | ⟨0, _⟩ => rfl | ⟨1, _⟩ => rfl)
  rw [el, er]

/-- Operations 4 and 5: u against the transpose of B, at (a, j), is row a of u against row j of B. -/
theorem dot_uB (x0 : (⟨S1024x4096, .f32⟩ : BufTy).Contents (Elt Ideal)) (x3 : (⟨S4096x4096, .f32⟩ : BufTy).Contents (Elt Ideal)) (a : Fin 1024) (j : Fin 4096) :
    val_main_v5 (F := Ideal) x0 x3 (ix2 a j) = rowDot x0 x3 a j := by
  rw [val_main_v5_apply]
  unfold rowDot
  refine Finset.sum_congr rfl fun k _ => ?_
  rw [val_main_v4_apply]
  have el : lidx_main_v5 (ix2 a j) k = ix2 a k :=
    funext fun d => Fin.ext (by match d with | ⟨0, _⟩ => rfl | ⟨1, _⟩ => rfl)
  have er : idx_main_v4 (ridx_main_v5 (ix2 a j) k) = ix2 j k :=
    funext fun d => Fin.ext (by match d with | ⟨0, _⟩ => rfl | ⟨1, _⟩ => rfl)
  rw [el, er]

/-- Operations 6 and 7: w against the transpose of B, at (a, j), is row a of w against row j of B. -/
theorem dot_wB (x1 : (⟨S1024x4096, .f32⟩ : BufTy).Contents (Elt Ideal)) (x3 : (⟨S4096x4096, .f32⟩ : BufTy).Contents (Elt Ideal)) (a : Fin 1024) (j : Fin 4096) :
    val_main_v7 (F := Ideal) x1 x3 (ix2 a j) = rowDot x1 x3 a j := by
  rw [val_main_v7_apply]
  unfold rowDot
  refine Finset.sum_congr rfl fun k _ => ?_
  rw [val_main_v6_apply]
  have el : lidx_main_v7 (ix2 a j) k = ix2 a k :=
    funext fun d => Fin.ext (by match d with | ⟨0, _⟩ => rfl | ⟨1, _⟩ => rfl)
  have er : idx_main_v6 (ridx_main_v7 (ix2 a j) k) = ix2 j k :=
    funext fun d => Fin.ext (by match d with | ⟨0, _⟩ => rfl | ⟨1, _⟩ => rfl)
  rw [el, er]

/-! ## The two bilinear combinations -/

/-- Operations 8 to 16: the entrywise products u * Gu, w * Gw, w * Bu, u * Bw, combined as
    ((u * Gu + w * Gw) + w * Bu) - u * Bw, plus the row biasP repeated along the first axis. -/
theorem pre_p (x0 x1 : (⟨S1024x4096, .f32⟩ : BufTy).Contents (Elt Ideal)) (x2 x3 : (⟨S4096x4096, .f32⟩ : BufTy).Contents (Elt Ideal)) (x4 : (⟨S1x4096, .f32⟩ : BufTy).Contents (Elt Ideal)) (a : Fin 1024) (j : Fin 4096) :
    val_main_v16 (F := Ideal) x0 x1 x2 x3 x4 (ix2 a j) = pPre x0 x1 x2 x3 x4 a j := by
  rw [val_main_v16_apply, val_main_v14_apply, val_main_v12_apply, val_main_v10_apply, val_main_v8_apply,
    val_main_v9_apply, val_main_v11_apply, val_main_v13_apply, val_main_v15_apply,
    dot_uG, dot_wG, dot_uB, dot_wB]
  have eb : idx_main_v15 (ix2 a j) = ix2 0 j :=
    funext fun d => Fin.ext (by match d with | ⟨0, _⟩ => rfl | ⟨1, _⟩ => rfl)
  rw [eb]
  simp only [Ideal.addf_def, Ideal.subf_def, Ideal.mulf_def]
  rfl

/-- Operations 17 to 25: the entrywise products w * Gu, u * Gw, u * Bu, w * Bw, combined as
    ((w * Gu - u * Gw) - u * Bu) - w * Bw, plus the row biasQ repeated along the first axis. -/
theorem pre_q (x0 x1 : (⟨S1024x4096, .f32⟩ : BufTy).Contents (Elt Ideal)) (x2 x3 : (⟨S4096x4096, .f32⟩ : BufTy).Contents (Elt Ideal)) (x5 : (⟨S1x4096, .f32⟩ : BufTy).Contents (Elt Ideal)) (a : Fin 1024) (j : Fin 4096) :
    val_main_v25 (F := Ideal) x0 x1 x2 x3 x5 (ix2 a j) = qPre x0 x1 x2 x3 x5 a j := by
  rw [val_main_v25_apply, val_main_v23_apply, val_main_v21_apply, val_main_v19_apply, val_main_v17_apply,
    val_main_v18_apply, val_main_v20_apply, val_main_v22_apply, val_main_v24_apply,
    dot_uG, dot_wG, dot_uB, dot_wB]
  have eb : idx_main_v24 (ix2 a j) = ix2 0 j :=
    funext fun d => Fin.ext (by match d with | ⟨0, _⟩ => rfl | ⟨1, _⟩ => rfl)
  rw [eb]
  simp only [Ideal.addf_def, Ideal.subf_def, Ideal.mulf_def]
  rfl

/-! ## The two results -/

/-- Operations 26 to 30: the first combination against the transpose of Wp, plus the vector bp laid out as a row
    and repeated along the first axis. -/
theorem refP (x0 x1 : (⟨S1024x4096, .f32⟩ : BufTy).Contents (Elt Ideal)) (x2 x3 : (⟨S4096x4096, .f32⟩ : BufTy).Contents (Elt Ideal)) (x4 : (⟨S1x4096, .f32⟩ : BufTy).Contents (Elt Ideal)) (x6 : (⟨S4096x4096, .f32⟩ : BufTy).Contents (Elt Ideal)) (x7 : (⟨S4096, .f32⟩ : BufTy).Contents (Elt Ideal)) :
    Cert.ReferenceIdeal.Read.val_main_v30 (F := Ideal) x0 x1 x2 x3 x4 x6 x7 = Cert.Spec.outP x0 x1 x2 x3 x4 x6 x7 := by
  funext i
  obtain ⟨a, j, rfl⟩ : ∃ (a : Fin 1024) (j : Fin 4096), i = ix2 a j := ⟨i 0, i 1, eq_ix2 i⟩
  rw [val_main_v30_apply, val_main_v27_apply, val_main_v29_apply, val_main_v28_apply]
  show _ = head (pPre x0 x1 x2 x3 x4) x6 x7 a j
  unfold head
  have eb : idx_main_v28 (idx_main_v29 (ix2 a j)) = ix1 j :=
    funext fun d => Fin.ext (by match d with | ⟨0, _⟩ => rfl)
  rw [eb, Ideal.addf_def]
  congr 1
  refine Finset.sum_congr rfl fun k _ => ?_
  have el : lidx_main_v27 (ix2 a j) k = ix2 a k :=
    funext fun d => Fin.ext (by match d with | ⟨0, _⟩ => rfl | ⟨1, _⟩ => rfl)
  have er : idx_main_v26 (ridx_main_v27 (ix2 a j) k) = ix2 j k :=
    funext fun d => Fin.ext (by match d with | ⟨0, _⟩ => rfl | ⟨1, _⟩ => rfl)
  rw [val_main_v26_apply, el, er, pre_p]

/-- Operations 31 to 35: the second combination against the transpose of Wq, plus the vector bq laid out as a row
    and repeated along the first axis. -/
theorem refQ (x0 x1 : (⟨S1024x4096, .f32⟩ : BufTy).Contents (Elt Ideal)) (x2 x3 : (⟨S4096x4096, .f32⟩ : BufTy).Contents (Elt Ideal)) (x5 : (⟨S1x4096, .f32⟩ : BufTy).Contents (Elt Ideal)) (x8 : (⟨S4096x4096, .f32⟩ : BufTy).Contents (Elt Ideal)) (x9 : (⟨S4096, .f32⟩ : BufTy).Contents (Elt Ideal)) :
    Cert.ReferenceIdeal.Read.val_main_v35 (F := Ideal) x0 x1 x2 x3 x5 x8 x9 = Cert.Spec.outQ x0 x1 x2 x3 x5 x8 x9 := by
  funext i
  obtain ⟨a, j, rfl⟩ : ∃ (a : Fin 1024) (j : Fin 4096), i = ix2 a j := ⟨i 0, i 1, eq_ix2 i⟩
  rw [val_main_v35_apply, val_main_v32_apply, val_main_v34_apply, val_main_v33_apply]
  show _ = head (qPre x0 x1 x2 x3 x5) x8 x9 a j
  unfold head
  have eb : idx_main_v33 (idx_main_v34 (ix2 a j)) = ix1 j :=
    funext fun d => Fin.ext (by match d with | ⟨0, _⟩ => rfl)
  rw [eb, Ideal.addf_def]
  congr 1
  refine Finset.sum_congr rfl fun k _ => ?_
  have el : lidx_main_v32 (ix2 a j) k = ix2 a k :=
    funext fun d => Fin.ext (by match d with | ⟨0, _⟩ => rfl | ⟨1, _⟩ => rfl)
  have er : idx_main_v31 (ridx_main_v32 (ix2 a j) k) = ix2 j k :=
    funext fun d => Fin.ext (by match d with | ⟨0, _⟩ => rfl | ⟨1, _⟩ => rfl)
  rw [val_main_v31_apply, el, er, pre_q]

end Cert.RefSpec

end
-- ==== Proof.lean ====
/-
  The certificate of one kernel against its reference.

  The kernel computes, for u, w of shape [1024, 4096], square matrices G, B, Wp, Wq of side 4096, bias rows and bias
  vectors, the two bilinear combinations
      pPre = u * (G u) + w * (G w) + w * (B u) - u * (B w) + biasP,    qPre = w * (G u) - u * (G w) - u * (B u) - w * (B w) + biasQ
  (each product M x taken row against row, the combination entry by entry, in this association), and then the two linear
  heads pPre Wp^T + bp and qPre Wq^T + bq. It does so in two pallas_calls on a grid of 8 column tiles by 4 reduction
  steps: every contraction of length 4096 is accumulated as four partial contractions of length 1024, from zero, in order,
  and a tile's result is formed and written at the fourth step. The reference computes the same expressions with whole
  matrix products.

  * Frames. Each program, run from any memory, terminates without a fault and leaves its argument arrays as they were:
    for the kernel (at the machine's words and at the ideal values alike) by running each call's body at every grid point
    — an invariant carries the accumulators from point to point — and composing the host operations and the two calls;
    for the reference by its run.
  * The idealized kernel is the kernel's own text read at the ideal values: no operation was rewritten.
  * At the ideal values both programs end with the same two arrays. A change of float format is the identity there, and a
    sum of 4096 terms is the sum of its four consecutive blocks of 1024 added to zero in order; only associativity and
    commutativity of addition on the extended reals are used, so no entry needs to be finite. Both sides are the one
    closed form of the specification module.
-/
import proofs.«127443_j14396730376920_2_alg».proof.Defs
import proofs.«127443_j14396730376920_2_alg».proof.Proof.Gen.Kernel
import proofs.«127443_j14396730376920_2_alg».proof.Proof.Gen.KernelIdeal
import proofs.«127443_j14396730376920_2_alg».proof.Proof.Gen.ReferenceIdeal
import proofs.«127443_j14396730376920_2_alg».proof.Proof.Gen.ReferenceIdeal.Run
import proofs.«127443_j14396730376920_2_alg».proof.Proof.Gen.ReferenceIdeal.Read
import proofs.«127443_j14396730376920_2_alg».proof.Proof.Gen.Pre_finite_inputs
import proofs.«127443_j14396730376920_2_alg».proof.Proof.K.Whole
import proofs.«127443_j14396730376920_2_alg».proof.Proof.KI.Whole
import proofs.«127443_j14396730376920_2_alg».proof.Proof.KI.Result
import proofs.«127443_j14396730376920_2_alg».proof.Proof.RefSpec
import Idealize.ShloMosaic.Adequacy
import Idealize.ShloMosaic.Init

noncomputable section

namespace Cert.Proof

open Idealize.ShloMosaic Idealize.ShloMosaic.TcCoe Idealize.SL.Sem

/-- The kernel at the machine's words: the two calls composed. -/
theorem frame_kernel : Cert.frame_Kernel := fun m ρ _ => Cert.Kernel.Whole.frame m ρ

/-- The kernel at the ideal values: the same composition. -/
theorem frame_kernelIdeal : Cert.frame_KernelIdeal := fun m ρ _ => Cert.KernelIdeal.Whole.frame m ρ

/-- The reference: its run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- No operation of the kernel was rewritten for the ideal reading. -/
theorem preserves : Cert.preserves_Kernel_KernelIdeal := trivial

/-- Both programs end at the specification's two arrays of the arguments: the kernel by the composed run with its result
    arrays read (each block accumulated over the four reduction steps is the whole contraction), the reference by its run
    read one operation at a time; the arguments agree by hypothesis. -/
theorem algebraic : Cert.algebraic_KernelIdeal_ReferenceIdeal := by
  intro m ρ m' ρ' _ hagree
  refine ⟨fun c => Cert.Spec.outP (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
          fun c => Cert.Spec.outQ (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ?_) (Cert.KernelIdeal.Whole.run_results (F := Ideal) m ρ)
    obtain ⟨h6, h7, hargs⟩ := h c
    exact ⟨h6.trans (Cert.KernelIdeal.Whole.kernelP m ρ c), h7.trans (Cert.KernelIdeal.Whole.kernelQ m ρ c), hargs⟩
  · refine (θ_run Cert.ReferenceIdeal.defs _ _).mono (fun r h c => ?_) (Cert.ReferenceIdeal.Value.run (F := Ideal) m' ρ')
    obtain ⟨h30, h35, hargs⟩ := h c
    obtain ⟨e0, e1, e2, e3, e4, e5, e6, e7, e8, e9⟩ := hagree c
    refine ⟨h30.trans ?_, h35.trans ?_, hargs⟩
    · rw [Cert.ReferenceIdeal.Read.val_main_v30_eq, Cert.RefSpec.refP, e0, e1, e2, e3, e4, e6, e7]
    · rw [Cert.ReferenceIdeal.Read.val_main_v35_eq, Cert.RefSpec.refQ, e0, e1, e2, e3, e5, e8, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
